-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S32x4x128x128 : Shape := ⟨4, ![32, 4, 128, 128]⟩
abbrev S32x128 : Shape := ⟨2, ![32, 128]⟩
abbrev S32x128x4 : Shape := ⟨3, ![32, 128, 4]⟩
abbrev S_ : Shape := ⟨0, ![]⟩

class Facts : Prop where
  bcast_S_S32x4x128x128 : S_.BroadcastsInDim S32x4x128x128 (![] : Fin 0 → Fin S32x4x128x128.rank)
  reducesTo_S32x4x128x128_S_d0_1_2_3 : S32x4x128x128.ReducesTo [0, 1, 2, 3] S_
  h_S_ : 0 < S_.numel
  bcast_S_S32x128x4 : S_.BroadcastsInDim S32x128x4 (![] : Fin 0 → Fin S32x128x4.rank)
  reducesTo_S32x128x4_S_d0_1_2 : S32x128x4.ReducesTo [0, 1, 2] S_
  bcast_S_S32x128 : S_.BroadcastsInDim S32x128 (![] : Fin 0 → Fin S32x128.rank)
  reducesTo_S32x128_S_d0_1 : S32x128.ReducesTo [0, 1] S_

variable [Facts]

def fn_part1 {F : FTy → Type} [FloatOps F] (main_arg2 : IVec S32x128 32) (main_v15 : IVec S_ 1) (main_c_5 : IVec S_ 32) : IVec S_ 1 :=
  let main_v16 : IVec S32x128 32 := broadcastInDim S32x128 ![] bcast_S_S32x128 main_c_5
  let main_v17 : IVec S32x128 1 := cmpi .sge main_arg2 main_v16
  let main_c_6 : IVec S_ 32 := constantI S_ 32 16383#32
  let main_v18 : IVec S32x128 32 := broadcastInDim S32x128 ![] bcast_S_S32x128 main_c_6
  let main_v19 : IVec S32x128 1 := cmpi .sle main_arg2 main_v18
  let main_v20 : IVec S32x128 1 := andi main_v17 main_v19
  let main_c_7 : IVec S_ 1 := constantI S_ 1 1#1
  let main_v21 : IVec S_ 1 := (fun x v => Host.reduce IntOp.andi x v reducesTo_S32x128_S_d0_1 h_S_) main_v20 main_c_7
  let main_v22 : IVec S_ 1 := andi main_v15 main_v21
  main_v22

def fn {F : FTy → Type} [FloatOps F] (main_arg0 : FVec F S32x4x128x128 .f32) (main_arg1 : IVec S32x128 32) (main_arg2 : IVec S32x128 32) (main_arg3 : FVec F S32x128x4 .f32) : IVec S_ 1 :=
  let main_v0 : FVec F S32x4x128x128 .f32 := Host.absf main_arg0
  let main_cst : FVec F S_ .f32 := constant S_ .f32 0x7F800000#32
  let main_v1 : FVec F S32x4x128x128 .f32 := broadcastInDim S32x4x128x128 ![] bcast_S_S32x4x128x128 main_cst
  let main_v2 : IVec S32x4x128x128 1 := cmpf .olt main_v0 main_v1
  let main_c : IVec S_ 1 := constantI S_ 1 1#1
  let main_v3 : IVec S_ 1 := (fun x v => Host.reduce IntOp.andi x v reducesTo_S32x4x128x128_S_d0_1_2_3 h_S_) main_v2 main_c
  let main_v4 : FVec F S32x128x4 .f32 := Host.absf main_arg3
  let main_cst_0 : FVec F S_ .f32 := constant S_ .f32 0x7F800000#32
  let main_v5 : FVec F S32x128x4 .f32 := broadcastInDim S32x128x4 ![] bcast_S_S32x128x4 main_cst_0
  let main_v6 : IVec S32x128x4 1 := cmpf .olt main_v4 main_v5
  let main_c_1 : IVec S_ 1 := constantI S_ 1 1#1
  let main_v7 : IVec S_ 1 := (fun x v => Host.reduce IntOp.andi x v reducesTo_S32x128x4_S_d0_1_2 h_S_) main_v6 main_c_1
  let main_v8 : IVec S_ 1 := andi main_v3 main_v7
  let main_c_2 : IVec S_ 32 := constantI S_ 32 0#32
  let main_v9 : IVec S32x128 32 := broadcastInDim S32x128 ![] bcast_S_S32x128 main_c_2
  let main_v10 : IVec S32x128 1 := cmpi .sge main_arg1 main_v9
  let main_c_3 : IVec S_ 32 := constantI S_ 32 1#32
  let main_v11 : IVec S32x128 32 := broadcastInDim S32x128 ![] bcast_S_S32x128 main_c_3
  let main_v12 : IVec S32x128 1 := cmpi .sle main_arg1 main_v11
  let main_v13 : IVec S32x128 1 := andi main_v10 main_v12
  let main_c_4 : IVec S_ 1 := constantI S_ 1 1#1
  let main_v14 : IVec S_ 1 := (fun x v => Host.reduce IntOp.andi x v reducesTo_S32x128_S_d0_1 h_S_) main_v13 main_c_4
  let main_v15 : IVec S_ 1 := andi main_v8 main_v14
  let main_c_5 : IVec S_ 32 := constantI S_ 32 0#32
  fn_part1 (F := F) main_arg2 main_v15 main_c_5
-- ==== Kernel.lean ====
abbrev S32x4x128x128 : Shape := ⟨4, ![32, 4, 128, 128]⟩
abbrev S32x128 : Shape := ⟨2, ![32, 128]⟩
abbrev S32x128x4 : Shape := ⟨3, ![32, 128, 4]⟩
abbrev S2097152 : Shape := ⟨1, ![2097152]⟩
abbrev S32 : Shape := ⟨1, ![32]⟩
abbrev S_ : Shape := ⟨0, ![]⟩
abbrev S32x1x1 : Shape := ⟨3, ![32, 1, 1]⟩
abbrev S4 : Shape := ⟨1, ![4]⟩
abbrev S1x4x1 : Shape := ⟨3, ![1, 4, 1]⟩
abbrev S32x4x1 : Shape := ⟨3, ![32, 4, 1]⟩
abbrev S32x1x128 : Shape := ⟨3, ![32, 1, 128]⟩
abbrev S32x4x128 : Shape := ⟨3, ![32, 4, 128]⟩
abbrev S32x5x128 : Shape := ⟨3, ![32, 5, 128]⟩
abbrev S16x2x16 : Shape := ⟨3, ![16, 2, 16]⟩
abbrev S2x5x128 : Shape := ⟨3, ![2, 5, 128]⟩
abbrev S2x4x128 : Shape := ⟨3, ![2, 4, 128]⟩
abbrev S2x16 : Shape := ⟨2, ![2, 16]⟩
abbrev S1x1x128 : Shape := ⟨3, ![1, 1, 128]⟩
abbrev S128 : Shape := ⟨1, ![128]⟩
abbrev S16 : Shape := ⟨1, ![16]⟩
abbrev S1x1x16 : Shape := ⟨3, ![1, 1, 16]⟩
abbrev S1x16 : Shape := ⟨2, ![1, 16]⟩
abbrev S1x2x16 : Shape := ⟨3, ![1, 2, 16]⟩
abbrev S16x1x16 : Shape := ⟨3, ![16, 1, 16]⟩
abbrev S16x16 : Shape := ⟨2, ![16, 16]⟩

abbrev nBuf : Table → Nat
  | .hbm => 37
  | .local .scVector .vmem => 4
  | _ => 0

abbrev bufTy : (tb : Table) → Fin (nBuf tb) → BufTy
  | .hbm, ⟨0, _⟩ => ⟨S32x4x128x128, .f32⟩
  | .hbm, ⟨1, _⟩ => ⟨S32x128, .i32⟩
  | .hbm, ⟨2, _⟩ => ⟨S32x128, .i32⟩
  | .hbm, ⟨3, _⟩ => ⟨S32x128x4, .f32⟩
  | .hbm, ⟨4, _⟩ => ⟨S2097152, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S32x1x1, .i32⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S1x4x1, .i32⟩
  | .hbm, ⟨15, _⟩ => ⟨S32x4x1, .i32⟩
  | .hbm, ⟨16, _⟩ => ⟨S32x4x1, .i32⟩
  | .hbm, ⟨17, _⟩ => ⟨S32x4x1, .i32⟩
  | .hbm, ⟨18, _⟩ => ⟨S32x1x128, .i32⟩
  | .hbm, ⟨19, _⟩ => ⟨S32x4x128, .i32⟩
  | .hbm, ⟨20, _⟩ => ⟨S32x4x128, .i32⟩
  | .hbm, ⟨21, _⟩ => ⟨S32x4x128, .i32⟩
  | .hbm, ⟨22, _⟩ => ⟨S32x1x128, .i32⟩
  | .hbm, ⟨23, _⟩ => ⟨S32x5x128, .i32⟩
  | .hbm, ⟨24, _⟩ => ⟨S32x4x128, .f32⟩
  | .hbm, ⟨25, _⟩ => ⟨S16x2x16, .f32⟩
  | .hbm, ⟨26, _⟩ => ⟨S16x1x16, .f32⟩
  | .hbm, ⟨27, _⟩ => ⟨S16x16, .f32⟩
  | .hbm, ⟨28, _⟩ => ⟨S_, .f32⟩
  | .hbm, ⟨29, _⟩ => ⟨S_, .f32⟩
  | .hbm, ⟨30, _⟩ => ⟨S16x1x16, .f32⟩
  | .hbm, ⟨31, _⟩ => ⟨S16x16, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local .scVector .vmem, ⟨0, _⟩ => ⟨S2x5x128, .i32⟩
  | .local .scVector .vmem, ⟨1, _⟩ => ⟨S2x4x128, .f32⟩
  | .local .scVector .vmem, ⟨2, _⟩ => ⟨S2x16, .f32⟩
  | .local .scVector .vmem, ⟨3, _⟩ => ⟨S2x4x128, .f32⟩
  | _, _ => ⟨S32x4x128x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v0_scv : Ref sig .scVector := ⟨.hbm, 4, rfl⟩
abbrev main_v17_scv : Ref sig .scVector := ⟨.hbm, 23, rfl⟩
abbrev main_v18_scv : Ref sig .scVector := ⟨.hbm, 24, rfl⟩
abbrev main_v19_scv : Ref sig .scVector := ⟨.hbm, 25, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let c0_i32 : BitVec 32 := 0#32
  let c0_i32_0 : BitVec 32 := 0#32
  ![v0.toNat, 0, 0]
def k0_off2 (i : grid0.Coords) : Fin 3 → Nat :=
  let arg1 : BitVec 32 := BitVec.ofNat 32 (i 1).val
  let c2_i32_3 : BitVec 32 := 2#32
  let v3 : BitVec 32 := Scalar.muli arg1 c2_i32_3
  let c0_i32_4 : BitVec 32 := 0#32
  let c0_i32_5 : BitVec 32 := 0#32
  ![v3.toNat, 0, 0]
def k0_off3 (i : grid0.Coords) : Fin 3 → Nat :=
  let arg1 : BitVec 32 := BitVec.ofNat 32 (i 1).val
  let c0_i32_746_r0 : BitVec 32 := 0#32
  let c0_i32_747_r0 : BitVec 32 := 0#32
  ![arg1.toNat, 0, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S32x4x128x128_S2097152 : S32x4x128x128.ShapeCasts S2097152
  bcast_S_S32 : S_.BroadcastsInDim S32 (![] : Fin 0 → Fin S32.rank)
  bcast_S32_S32x1x1_0 : S32.BroadcastsInDim S32x1x1 (![0] : Fin 1 → Fin S32x1x1.rank)
  bcast_S_S4 : S_.BroadcastsInDim S4 (![] : Fin 0 → Fin S4.rank)
  bcast_S4_S1x4x1_1 : S4.BroadcastsInDim S1x4x1 (![1] : Fin 1 → Fin S1x4x1.rank)
  bcast_S32x1x1_S32x4x1_0_1_2 : S32x1x1.BroadcastsInDim S32x4x1 (![0, 1, 2] : Fin 3 → Fin S32x4x1.rank)
  bcast_S1x4x1_S32x4x1_0_1_2 : S1x4x1.BroadcastsInDim S32x4x1 (![0, 1, 2] : Fin 3 → Fin S32x4x1.rank)
  bcast_S32x128_S32x1x128_0_2 : S32x128.BroadcastsInDim S32x1x128 (![0, 2] : Fin 2 → Fin S32x1x128.rank)
  bcast_S32x1x128_S32x4x128_0_1_2 : S32x1x128.BroadcastsInDim S32x4x128 (![0, 1, 2] : Fin 3 → Fin S32x4x128.rank)
  bcast_S32x4x1_S32x4x128_0_1_2 : S32x4x1.BroadcastsInDim S32x4x128 (![0, 1, 2] : Fin 3 → Fin S32x4x128.rank)
  concatenates_S32x4x128_S32x1x128_S32x5x128_d1 : Shape.Concatenates [S32x4x128, S32x1x128] S32x5x128 1
  transposes_S32x128x4_S32x4x128_0_2_1 : S32x128x4.Transposes [0, 2, 1] S32x4x128
  inb_S2x4x128_S1x1x128_0_0_0 : ∀ a, (![0, 0, 0] : Fin 3 → Nat) a + S1x1x128.size a ≤ S2x4x128.size a
  squeezes_S1x1x128_S128 : S1x1x128.Squeezes S128
  inb_S2x5x128_S1x1x128_0_0_0 : ∀ a, (![0, 0, 0] : Fin 3 → Nat) a + S1x1x128.size a ≤ S2x5x128.size a
  inb_S2097152_S2097152_0 : ∀ a, (![0] : Fin 1 → Nat) a + S2097152.size a ≤ S2097152.size a
  gathers_S2097152_S128 : S2097152.Gathers 0 S128
  inb_S2x4x128_S1x1x128_0_1_0 : ∀ a, (![0, 1, 0] : Fin 3 → Nat) a + S1x1x128.size a ≤ S2x4x128.size a
  inb_S2x5x128_S1x1x128_0_1_0 : ∀ a, (![0, 1, 0] : Fin 3 → Nat) a + S1x1x128.size a ≤ S2x5x128.size a
  inb_S2x4x128_S1x1x128_0_2_0 : ∀ a, (![0, 2, 0] : Fin 3 → Nat) a + S1x1x128.size a ≤ S2x4x128.size a
  inb_S2x5x128_S1x1x128_0_2_0 : ∀ a, (![0, 2, 0] : Fin 3 → Nat) a + S1x1x128.size a ≤ S2x5x128.size a
  inb_S2x4x128_S1x1x128_0_3_0 : ∀ a, (![0, 3, 0] : Fin 3 → Nat) a + S1x1x128.size a ≤ S2x4x128.size a
  inb_S2x5x128_S1x1x128_0_3_0 : ∀ a, (![0, 3, 0] : Fin 3 → Nat) a + S1x1x128.size a ≤ S2x5x128.size a
  inb_S2x4x128_S1x1x128_1_0_0 : ∀ a, (![1, 0, 0] : Fin 3 → Nat) a + S1x1x128.size a ≤ S2x4x128.size a
  inb_S2x5x128_S1x1x128_1_0_0 : ∀ a, (![1, 0, 0] : Fin 3 → Nat) a + S1x1x128.size a ≤ S2x5x128.size a
  inb_S2x4x128_S1x1x128_1_1_0 : ∀ a, (![1, 1, 0] : Fin 3 → Nat) a + S1x1x128.size a ≤ S2x4x128.size a
  inb_S2x5x128_S1x1x128_1_1_0 : ∀ a, (![1, 1, 0] : Fin 3 → Nat) a + S1x1x128.size a ≤ S2x5x128.size a
  inb_S2x4x128_S1x1x128_1_2_0 : ∀ a, (![1, 2, 0] : Fin 3 → Nat) a + S1x1x128.size a ≤ S2x4x128.size a
  inb_S2x5x128_S1x1x128_1_2_0 : ∀ a, (![1, 2, 0] : Fin 3 → Nat) a + S1x1x128.size a ≤ S2x5x128.size a
  inb_S2x4x128_S1x1x128_1_3_0 : ∀ a, (![1, 3, 0] : Fin 3 → Nat) a + S1x1x128.size a ≤ S2x4x128.size a
  inb_S2x5x128_S1x1x128_1_3_0 : ∀ a, (![1, 3, 0] : Fin 3 → Nat) a + S1x1x128.size a ≤ S2x5x128.size a
  inb_S2x5x128_S1x1x16_0_4_0 : ∀ a, (![0, 4, 0] : Fin 3 → Nat) a + S1x1x16.size a ≤ S2x5x128.size a
  h_S1x1x16 : 0 < S1x1x16.numel
  shapeCasts_S1x1x16_S16 : S1x1x16.ShapeCasts S16
  inb_S2x5x128_S1x1x16_0_4_16 : ∀ a, (![0, 4, 16] : Fin 3 → Nat) a + S1x1x16.size a ≤ S2x5x128.size a
  inb_S2x5x128_S1x1x16_0_4_32 : ∀ a, (![0, 4, 32] : Fin 3 → Nat) a + S1x1x16.size a ≤ S2x5x128.size a
  inb_S2x5x128_S1x1x16_0_4_48 : ∀ a, (![0, 4, 48] : Fin 3 → Nat) a + S1x1x16.size a ≤ S2x5x128.size a
  inb_S2x5x128_S1x1x16_0_4_64 : ∀ a, (![0, 4, 64] : Fin 3 → Nat) a + S1x1x16.size a ≤ S2x5x128.size a
  inb_S2x5x128_S1x1x16_0_4_80 : ∀ a, (![0, 4, 80] : Fin 3 → Nat) a + S1x1x16.size a ≤ S2x5x128.size a
  inb_S2x5x128_S1x1x16_0_4_96 : ∀ a, (![0, 4, 96] : Fin 3 → Nat) a + S1x1x16.size a ≤ S2x5x128.size a
  inb_S2x5x128_S1x1x16_0_4_112 : ∀ a, (![0, 4, 112] : Fin 3 → Nat) a + S1x1x16.size a ≤ S2x5x128.size a
  inb_S2x5x128_S1x1x16_1_4_0 : ∀ a, (![1, 4, 0] : Fin 3 → Nat) a + S1x1x16.size a ≤ S2x5x128.size a
  inb_S2x5x128_S1x1x16_1_4_16 : ∀ a, (![1, 4, 16] : Fin 3 → Nat) a + S1x1x16.size a ≤ S2x5x128.size a
  inb_S2x5x128_S1x1x16_1_4_32 : ∀ a, (![1, 4, 32] : Fin 3 → Nat) a + S1x1x16.size a ≤ S2x5x128.size a
  inb_S2x5x128_S1x1x16_1_4_48 : ∀ a, (![1, 4, 48] : Fin 3 → Nat) a + S1x1x16.size a ≤ S2x5x128.size a
  inb_S2x5x128_S1x1x16_1_4_64 : ∀ a, (![1, 4, 64] : Fin 3 → Nat) a + S1x1x16.size a ≤ S2x5x128.size a
  inb_S2x5x128_S1x1x16_1_4_80 : ∀ a, (![1, 4, 80] : Fin 3 → Nat) a + S1x1x16.size a ≤ S2x5x128.size a
  inb_S2x5x128_S1x1x16_1_4_96 : ∀ a, (![1, 4, 96] : Fin 3 → Nat) a + S1x1x16.size a ≤ S2x5x128.size a
  inb_S2x5x128_S1x1x16_1_4_112 : ∀ a, (![1, 4, 112] : Fin 3 → Nat) a + S1x1x16.size a ≤ S2x5x128.size a
  inb_S2x4x128_S1x1x16_0_0_0 : ∀ a, (![0, 0, 0] : Fin 3 → Nat) a + S1x1x16.size a ≤ S2x4x128.size a
  inb_S2x4x128_S1x1x16_0_0_16 : ∀ a, (![0, 0, 16] : Fin 3 → Nat) a + S1x1x16.size a ≤ S2x4x128.size a
  inb_S2x4x128_S1x1x16_0_0_32 : ∀ a, (![0, 0, 32] : Fin 3 → Nat) a + S1x1x16.size a ≤ S2x4x128.size a
  inb_S2x4x128_S1x1x16_0_0_48 : ∀ a, (![0, 0, 48] : Fin 3 → Nat) a + S1x1x16.size a ≤ S2x4x128.size a
  inb_S2x4x128_S1x1x16_0_0_64 : ∀ a, (![0, 0, 64] : Fin 3 → Nat) a + S1x1x16.size a ≤ S2x4x128.size a
  inb_S2x4x128_S1x1x16_0_0_80 : ∀ a, (![0, 0, 80] : Fin 3 → Nat) a + S1x1x16.size a ≤ S2x4x128.size a
  inb_S2x4x128_S1x1x16_0_0_96 : ∀ a, (![0, 0, 96] : Fin 3 → Nat) a + S1x1x16.size a ≤ S2x4x128.size a
  inb_S2x4x128_S1x1x16_0_0_112 : ∀ a, (![0, 0, 112] : Fin 3 → Nat) a + S1x1x16.size a ≤ S2x4x128.size a
  inb_S2x4x128_S1x1x16_0_1_0 : ∀ a, (![0, 1, 0] : Fin 3 → Nat) a + S1x1x16.size a ≤ S2x4x128.size a
  inb_S2x4x128_S1x1x16_0_1_16 : ∀ a, (![0, 1, 16] : Fin 3 → Nat) a + S1x1x16.size a ≤ S2x4x128.size a
  inb_S2x4x128_S1x1x16_0_1_32 : ∀ a, (![0, 1, 32] : Fin 3 → Nat) a + S1x1x16.size a ≤ S2x4x128.size a
  inb_S2x4x128_S1x1x16_0_1_48 : ∀ a, (![0, 1, 48] : Fin 3 → Nat) a + S1x1x16.size a ≤ S2x4x128.size a
  inb_S2x4x128_S1x1x16_0_1_64 : ∀ a, (![0, 1, 64] : Fin 3 → Nat) a + S1x1x16.size a ≤ S2x4x128.size a
  inb_S2x4x128_S1x1x16_0_1_80 : ∀ a, (![0, 1, 80] : Fin 3 → Nat) a + S1x1x16.size a ≤ S2x4x128.size a
  inb_S2x4x128_S1x1x16_0_1_96 : ∀ a, (![0, 1, 96] : Fin 3 → Nat) a + S1x1x16.size a ≤ S2x4x128.size a
  inb_S2x4x128_S1x1x16_0_1_112 : ∀ a, (![0, 1, 112] : Fin 3 → Nat) a + S1x1x16.size a ≤ S2x4x128.size a
  inb_S2x4x128_S1x1x16_0_2_0 : ∀ a, (![0, 2, 0] : Fin 3 → Nat) a + S1x1x16.size a ≤ S2x4x128.size a
  inb_S2x4x128_S1x1x16_0_2_16 : ∀ a, (![0, 2, 16] : Fin 3 → Nat) a + S1x1x16.size a ≤ S2x4x128.size a
  inb_S2x4x128_S1x1x16_0_2_32 : ∀ a, (![0, 2, 32] : Fin 3 → Nat) a + S1x1x16.size a ≤ S2x4x128.size a
  inb_S2x4x128_S1x1x16_0_2_48 : ∀ a, (![0, 2, 48] : Fin 3 → Nat) a + S1x1x16.size a ≤ S2x4x128.size a
  inb_S2x4x128_S1x1x16_0_2_64 : ∀ a, (![0, 2, 64] : Fin 3 → Nat) a + S1x1x16.size a ≤ S2x4x128.size a
  inb_S2x4x128_S1x1x16_0_2_80 : ∀ a, (![0, 2, 80] : Fin 3 → Nat) a + S1x1x16.size a ≤ S2x4x128.size a
  inb_S2x4x128_S1x1x16_0_2_96 : ∀ a, (![0, 2, 96] : Fin 3 → Nat) a + S1x1x16.size a ≤ S2x4x128.size a
  inb_S2x4x128_S1x1x16_0_2_112 : ∀ a, (![0, 2, 112] : Fin 3 → Nat) a + S1x1x16.size a ≤ S2x4x128.size a
  inb_S2x4x128_S1x1x16_0_3_0 : ∀ a, (![0, 3, 0] : Fin 3 → Nat) a + S1x1x16.size a ≤ S2x4x128.size a
  inb_S2x4x128_S1x1x16_0_3_16 : ∀ a, (![0, 3, 16] : Fin 3 → Nat) a + S1x1x16.size a ≤ S2x4x128.size a
  inb_S2x4x128_S1x1x16_0_3_32 : ∀ a, (![0, 3, 32] : Fin 3 → Nat) a + S1x1x16.size a ≤ S2x4x128.size a
  inb_S2x4x128_S1x1x16_0_3_48 : ∀ a, (![0, 3, 48] : Fin 3 → Nat) a + S1x1x16.size a ≤ S2x4x128.size a
  inb_S2x4x128_S1x1x16_0_3_64 : ∀ a, (![0, 3, 64] : Fin 3 → Nat) a + S1x1x16.size a ≤ S2x4x128.size a
  inb_S2x4x128_S1x1x16_0_3_80 : ∀ a, (![0, 3, 80] : Fin 3 → Nat) a + S1x1x16.size a ≤ S2x4x128.size a
  inb_S2x4x128_S1x1x16_0_3_96 : ∀ a, (![0, 3, 96] : Fin 3 → Nat) a + S1x1x16.size a ≤ S2x4x128.size a
  inb_S2x4x128_S1x1x16_0_3_112 : ∀ a, (![0, 3, 112] : Fin 3 → Nat) a + S1x1x16.size a ≤ S2x4x128.size a
  inb_S2x4x128_S1x1x16_1_0_0 : ∀ a, (![1, 0, 0] : Fin 3 → Nat) a + S1x1x16.size a ≤ S2x4x128.size a
  inb_S2x4x128_S1x1x16_1_0_16 : ∀ a, (![1, 0, 16] : Fin 3 → Nat) a + S1x1x16.size a ≤ S2x4x128.size a
  inb_S2x4x128_S1x1x16_1_0_32 : ∀ a, (![1, 0, 32] : Fin 3 → Nat) a + S1x1x16.size a ≤ S2x4x128.size a
  inb_S2x4x128_S1x1x16_1_0_48 : ∀ a, (![1, 0, 48] : Fin 3 → Nat) a + S1x1x16.size a ≤ S2x4x128.size a
  inb_S2x4x128_S1x1x16_1_0_64 : ∀ a, (![1, 0, 64] : Fin 3 → Nat) a + S1x1x16.size a ≤ S2x4x128.size a
  inb_S2x4x128_S1x1x16_1_0_80 : ∀ a, (![1, 0, 80] : Fin 3 → Nat) a + S1x1x16.size a ≤ S2x4x128.size a
  inb_S2x4x128_S1x1x16_1_0_96 : ∀ a, (![1, 0, 96] : Fin 3 → Nat) a + S1x1x16.size a ≤ S2x4x128.size a
  inb_S2x4x128_S1x1x16_1_0_112 : ∀ a, (![1, 0, 112] : Fin 3 → Nat) a + S1x1x16.size a ≤ S2x4x128.size a
  inb_S2x4x128_S1x1x16_1_1_0 : ∀ a, (![1, 1, 0] : Fin 3 → Nat) a + S1x1x16.size a ≤ S2x4x128.size a
  inb_S2x4x128_S1x1x16_1_1_16 : ∀ a, (![1, 1, 16] : Fin 3 → Nat) a + S1x1x16.size a ≤ S2x4x128.size a
  inb_S2x4x128_S1x1x16_1_1_32 : ∀ a, (![1, 1, 32] : Fin 3 → Nat) a + S1x1x16.size a ≤ S2x4x128.size a
  inb_S2x4x128_S1x1x16_1_1_48 : ∀ a, (![1, 1, 48] : Fin 3 → Nat) a + S1x1x16.size a ≤ S2x4x128.size a
  inb_S2x4x128_S1x1x16_1_1_64 : ∀ a, (![1, 1, 64] : Fin 3 → Nat) a + S1x1x16.size a ≤ S2x4x128.size a
  inb_S2x4x128_S1x1x16_1_1_80 : ∀ a, (![1, 1, 80] : Fin 3 → Nat) a + S1x1x16.size a ≤ S2x4x128.size a
  inb_S2x4x128_S1x1x16_1_1_96 : ∀ a, (![1, 1, 96] : Fin 3 → Nat) a + S1x1x16.size a ≤ S2x4x128.size a
  inb_S2x4x128_S1x1x16_1_1_112 : ∀ a, (![1, 1, 112] : Fin 3 → Nat) a + S1x1x16.size a ≤ S2x4x128.size a
  inb_S2x4x128_S1x1x16_1_2_0 : ∀ a, (![1, 2, 0] : Fin 3 → Nat) a + S1x1x16.size a ≤ S2x4x128.size a
  inb_S2x4x128_S1x1x16_1_2_16 : ∀ a, (![1, 2, 16] : Fin 3 → Nat) a + S1x1x16.size a ≤ S2x4x128.size a
  inb_S2x4x128_S1x1x16_1_2_32 : ∀ a, (![1, 2, 32] : Fin 3 → Nat) a + S1x1x16.size a ≤ S2x4x128.size a
  inb_S2x4x128_S1x1x16_1_2_48 : ∀ a, (![1, 2, 48] : Fin 3 → Nat) a + S1x1x16.size a ≤ S2x4x128.size a
  inb_S2x4x128_S1x1x16_1_2_64 : ∀ a, (![1, 2, 64] : Fin 3 → Nat) a + S1x1x16.size a ≤ S2x4x128.size a
  inb_S2x4x128_S1x1x16_1_2_80 : ∀ a, (![1, 2, 80] : Fin 3 → Nat) a + S1x1x16.size a ≤ S2x4x128.size a
  inb_S2x4x128_S1x1x16_1_2_96 : ∀ a, (![1, 2, 96] : Fin 3 → Nat) a + S1x1x16.size a ≤ S2x4x128.size a
  inb_S2x4x128_S1x1x16_1_2_112 : ∀ a, (![1, 2, 112] : Fin 3 → Nat) a + S1x1x16.size a ≤ S2x4x128.size a
  inb_S2x4x128_S1x1x16_1_3_0 : ∀ a, (![1, 3, 0] : Fin 3 → Nat) a + S1x1x16.size a ≤ S2x4x128.size a
  inb_S2x4x128_S1x1x16_1_3_16 : ∀ a, (![1, 3, 16] : Fin 3 → Nat) a + S1x1x16.size a ≤ S2x4x128.size a
  inb_S2x4x128_S1x1x16_1_3_32 : ∀ a, (![1, 3, 32] : Fin 3 → Nat) a + S1x1x16.size a ≤ S2x4x128.size a
  inb_S2x4x128_S1x1x16_1_3_48 : ∀ a, (![1, 3, 48] : Fin 3 → Nat) a + S1x1x16.size a ≤ S2x4x128.size a
  inb_S2x4x128_S1x1x16_1_3_64 : ∀ a, (![1, 3, 64] : Fin 3 → Nat) a + S1x1x16.size a ≤ S2x4x128.size a
  inb_S2x4x128_S1x1x16_1_3_80 : ∀ a, (![1, 3, 80] : Fin 3 → Nat) a + S1x1x16.size a ≤ S2x4x128.size a
  inb_S2x4x128_S1x1x16_1_3_96 : ∀ a, (![1, 3, 96] : Fin 3 → Nat) a + S1x1x16.size a ≤ S2x4x128.size a
  inb_S2x4x128_S1x1x16_1_3_112 : ∀ a, (![1, 3, 112] : Fin 3 → Nat) a + S1x1x16.size a ≤ S2x4x128.size a
  inb_S2x16_S1x16_0_0 : ∀ a, (![0, 0] : Fin 2 → Nat) a + S1x16.size a ≤ S2x16.size a
  h_S1x16 : 0 < S1x16.numel
  shapeCasts_S1x16_S16 : S1x16.ShapeCasts S16
  shapeCasts_S16_S1x16 : S16.ShapeCasts S1x16
  inb_S2x16_S1x16_1_0 : ∀ a, (![1, 0] : Fin 2 → Nat) a + S1x16.size a ≤ S2x16.size a
  squeezes_S1x2x16_S2x16 : S1x2x16.Squeezes S2x16
  slices_S16x2x16_S16x1x16_0_0_0 : S16x2x16.Slices ![0, 0, 0] S16x1x16
  shapeCasts_S16x1x16_S16x16 : S16x1x16.ShapeCasts S16x16
  reducesTo_S16x16_S_d0_1 : S16x16.ReducesTo [0, 1] S_
  h_S_ : 0 < S_.numel
  slices_S16x2x16_S16x1x16_0_1_0 : S16x2x16.Slices ![0, 1, 0] S16x1x16
  hcc0_scratch4 : 0 + S_.numel ≤ 11
  hcc0_scratch5 : 1 + S_.numel ≤ 11
  hcc0_scratch6 : 2 + S_.numel ≤ 11
  hcc0_scratch7 : 3 + S_.numel ≤ 11
  hcc0_scratch8 : 4 + S_.numel ≤ 11
  hcc0_scratch9 : 5 + S_.numel ≤ 11
  hcc0_scratch10 : 6 + S_.numel ≤ 11
  hcc0_scratch11 : 7 + S_.numel ≤ 11
  hcc0_scratch12 : 8 + S_.numel ≤ 11
  hcc0_scratch13 : 9 + S_.numel ≤ 11
  hcc0_scoped0 : 10 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S2x5x128.size a ≤ S32x5x128.size a
  k0_off2_inb : ∀ i : grid0.Coords, ∀ a, (k0_off2 i) a + S2x4x128.size a ≤ S32x4x128.size a
  k0_off3_inb : ∀ i : grid0.Coords, ∀ a, (k0_off3 i) a + S1x2x16.size a ≤ S16x2x16.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scratch9 : DmaSems sig S_ := SemArray.consecutive 5 S_ hcc0_scratch9
abbrev cc0_scratch10 : DmaSems sig S_ := SemArray.consecutive 6 S_ hcc0_scratch10
abbrev cc0_scratch11 : DmaSems sig S_ := SemArray.consecutive 7 S_ hcc0_scratch11
abbrev cc0_scratch12 : DmaSems sig S_ := SemArray.consecutive 8 S_ hcc0_scratch12
abbrev cc0_scratch13 : DmaSems sig S_ := SemArray.consecutive 9 S_ hcc0_scratch13
abbrev cc0_scoped0 : DmaSems sig S_ := SemArray.consecutive 10 S_ hcc0_scoped0

class Facts : Prop extends Facts₀ where

variable [Facts]
-- ==== ReferenceIdeal.lean ====
abbrev S32x4x128x128 : Shape := ⟨4, ![32, 4, 128, 128]⟩
abbrev S32x128 : Shape := ⟨2, ![32, 128]⟩
abbrev S32x128x4 : Shape := ⟨3, ![32, 128, 4]⟩
abbrev S32x128x128x4 : Shape := ⟨4, ![32, 128, 128, 4]⟩
abbrev S32x16384x4 : Shape := ⟨3, ![32, 16384, 4]⟩
abbrev S32x128x1 : Shape := ⟨3, ![32, 128, 1]⟩
abbrev S_ : Shape := ⟨0, ![]⟩
abbrev S1 : Shape := ⟨1, ![1]⟩
abbrev S1x1x1 : Shape := ⟨3, ![1, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S32x4x128x128, .f32⟩
  | .hbm, ⟨1, _⟩ => ⟨S32x128, .i32⟩
  | .hbm, ⟨2, _⟩ => ⟨S32x128, .i32⟩
  | .hbm, ⟨3, _⟩ => ⟨S32x128x4, .f32⟩
  | .hbm, ⟨4, _⟩ => ⟨S32x128x128x4, .f32⟩
  | .hbm, ⟨5, _⟩ => ⟨S32x16384x4, .f32⟩
  | .hbm, ⟨6, _⟩ => ⟨S32x128x1, .i32⟩
  | .hbm, ⟨7, _⟩ => ⟨S_, .i32⟩
  | .hbm, ⟨8, _⟩ => ⟨S32x128x1, .i32⟩
  | .hbm, ⟨9, _⟩ => ⟨S32x128x1, .i1⟩
  | .hbm, ⟨10, _⟩ => ⟨S_, .i32⟩
  | .hbm, ⟨11, _⟩ => ⟨S32x128x1, .i32⟩
  | .hbm, ⟨12, _⟩ => ⟨S32x128x1, .i32⟩
  | .hbm, ⟨13, _⟩ => ⟨S32x128x1, .i32⟩
  | .hbm, ⟨14, _⟩ => ⟨S1, .i32⟩
  | .hbm, ⟨15, _⟩ => ⟨S_, .i32⟩
  | .hbm, ⟨16, _⟩ => ⟨S32x128x1, .i32⟩
  | .hbm, ⟨17, _⟩ => ⟨S32x128x1, .i1⟩
  | .hbm, ⟨18, _⟩ => ⟨S1x1x1, .i32⟩
  | .hbm, ⟨19, _⟩ => ⟨S32x128x1, .i32⟩
  | .hbm, ⟨20, _⟩ => ⟨S32x128x1, .i1⟩
  | .hbm, ⟨21, _⟩ => ⟨S32x128x1, .i1⟩
  | .hbm, ⟨22, _⟩ => ⟨S_, .i1⟩
  | .hbm, ⟨23, _⟩ => ⟨S32x128, .i1⟩
  | .hbm, ⟨24, _⟩ => ⟨S32x128x4, .f32⟩
  | .hbm, ⟨25, _⟩ => ⟨S32x128x4, .i1⟩
  | .hbm, ⟨26, _⟩ => ⟨S_, .f32⟩
  | .hbm, ⟨27, _⟩ => ⟨S32x128x4, .f32⟩
  | .hbm, ⟨28, _⟩ => ⟨S32x128x4, .f32⟩
  | .hbm, ⟨29, _⟩ => ⟨S32x128, .f32⟩
  | .hbm, ⟨30, _⟩ => ⟨S_, .f32⟩
  | .hbm, ⟨31, _⟩ => ⟨S_, .f32⟩
  | .hbm, ⟨32, _⟩ => ⟨S32x128x1, .i32⟩
  | .hbm, ⟨33, _⟩ => ⟨S32x128x1, .f32⟩
  | .hbm, ⟨34, _⟩ => ⟨S32x128x4, .f32⟩
  | .hbm, ⟨35, _⟩ => ⟨S32x128x4, .f32⟩
  | .hbm, ⟨36, _⟩ => ⟨S32x128x4, .f32⟩
  | .hbm, ⟨37, _⟩ => ⟨S32x128x4, .f32⟩
  | .hbm, ⟨38, _⟩ => ⟨S32x128x4, .f32⟩
  | .hbm, ⟨39, _⟩ => ⟨S32x128x4, .f32⟩
  | .hbm, ⟨40, _⟩ => ⟨S_, .f32⟩
  | .hbm, ⟨41, _⟩ => ⟨S32x128x4, .f32⟩
  | .hbm, ⟨42, _⟩ => ⟨S32x128x4, .i1⟩
  | .hbm, ⟨43, _⟩ => ⟨S_, .f32⟩
  | .hbm, ⟨44, _⟩ => ⟨S32x128x4, .f32⟩
  | .hbm, ⟨45, _⟩ => ⟨S32x128x4, .f32⟩
  | .hbm, ⟨46, _⟩ => ⟨S32x128x4, .f32⟩
  | .hbm, ⟨47, _⟩ => ⟨S_, .f32⟩
  | .hbm, ⟨48, _⟩ => ⟨S32x128x4, .f32⟩
  | .hbm, ⟨49, _⟩ => ⟨S32x128x4, .f32⟩
  | .hbm, ⟨50, _⟩ => ⟨S32x128x4, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S32x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_0 : Ref sig .tc := ⟨.hbm, 40, rfl⟩
abbrev main_v14 : Ref sig .tc := ⟨.hbm, 41, rfl⟩
abbrev main_v15 : Ref sig .tc := ⟨.hbm, 42, rfl⟩
abbrev main_cst_1 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_2 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_3 : Ref sig .tc := ⟨.hbm, 51, rfl⟩
abbrev main_v22 : Ref sig .tc := ⟨.hbm, 52, rfl⟩
abbrev main_cst_4 : Ref sig .tc := ⟨.hbm, 53, rfl⟩
abbrev main_v23 : Ref sig .tc := ⟨.hbm, 54, rfl⟩
abbrev main_v24 : Ref sig .tc := ⟨.hbm, 55, rfl⟩

abbrev nD : Nat := 1
abbrev τ : Topo := Topo.v7x

variable {F : FTy → Type} [FloatOps F]

class Facts₀ : Prop where
  transposes_S32x4x128x128_S32x128x128x4_0_2_3_1 : S32x4x128x128.Transposes [0, 2, 3, 1] S32x128x128x4
  shapeCasts_S32x128x128x4_S32x16384x4 : S32x128x128x4.ShapeCasts S32x16384x4
  bcast_S32x128_S32x128x1_0_1 : S32x128.BroadcastsInDim S32x128x1 (![0, 1] : Fin 2 → Fin S32x128x1.rank)
  bcast_S_S32x128x1 : S_.BroadcastsInDim S32x128x1 (![] : Fin 0 → Fin S32x128x1.rank)
  bcast_S1_S1x1x1_2 : S1.BroadcastsInDim S1x1x1 (![2] : Fin 1 → Fin S1x1x1.rank)
  bcast_S1x1x1_S32x128x1_0_1_2 : S1x1x1.BroadcastsInDim S32x128x1 (![0, 1, 2] : Fin 3 → Fin S32x128x1.rank)
  reducesTo_S32x128x1_S32x128_d2 : S32x128x1.ReducesTo [2] S32x128
  h_S_ : 0 < S_.numel
  bcast_S32x128_S32x128x4_0_1 : S32x128.BroadcastsInDim S32x128x4 (![0, 1] : Fin 2 → Fin S32x128x4.rank)
  bcast_S_S32x128x4 : S_.BroadcastsInDim S32x128x4 (![] : Fin 0 → Fin S32x128x4.rank)
  reducesTo_S32x128_S_d0_1 : S32x128.ReducesTo [0, 1] S_
  bcast_S32x128x1_S32x128x4_0_1_2 : S32x128x1.BroadcastsInDim S32x128x4 (![0, 1, 2] : Fin 3 → Fin S32x128x4.rank)
  reducesTo_S32x128x4_S_d0_1_2 : S32x128x4.ReducesTo [0, 1, 2] S_
  gather_S32x16384x4_S32x128x1_S32x128x4_2_1_0_0_1_2_114_wf : GatherDims.WF S32x16384x4 S32x128x1 S32x128x4 [2] [1] [0] [1] [0] 2 ![1, 1, 4]

variable [Facts₀]

def gather_S32x16384x4_S32x128x1_S32x128x4_2_1_0_0_1_2_114 : GatherDims S32x16384x4 S32x128x1 S32x128x4 where
  offsetDims := [2]
  collapsedSliceDims := [1]
  operandBatchingDims := [0]
  startIndicesBatchingDims := [0]
  startIndexMap := [1]
  indexVectorDim := 2
  sliceSizes := ![1, 1, 4]
  wf := gather_S32x16384x4_S32x128x1_S32x128x4_2_1_0_0_1_2_114_wf

class Facts : Prop extends Facts₀ where

variable [Facts]
-- ==== Proof.SetupIdeal.lean ====
/-
  The sixteen vector subcores of one SparseCore each take two consecutive batches: a subcore copies its two
  rows of the packed index/mask table and of the transposed targets into its own memory, gathers through the
  eight index rows the predictions out of the flattened feature map, accumulates per lane the masked smooth-L1
  terms and the mask itself, and writes the two 16-lane partial sums to its row of the result. This module
  names the program's pieces as the launch theorem reads them and the arrays each subcore holds.
-/
import proofs.«219714_g10557029613686_week1_w2_465_59_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«219714_g10557029613686_week1_w2_465_59_alg».proof.Proof.Gen.KernelIdeal
import proofs.«219714_g10557029613686_week1_w2_465_59_alg».proof.Proof.Gen.KernelIdeal.Skeleton

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev flatLoc (d : Dev nD) : Loc nD τ sig := (SparseCore.T d).loc main_v0
abbrev packLoc (d : Dev nD) : Loc nD τ sig := (SparseCore.T d).loc main_v17
abbrev tgtLoc (d : Dev nD) : Loc nD τ sig := (SparseCore.T d).loc main_v18
abbrev outLoc (d : Dev nD) : Loc nD τ sig := (SparseCore.T d).loc main_v19

abbrev flatV : Memref sig .scVector .hbm S2097152 .f32 := Memref.whole main_v0_scv
abbrev packV : Memref sig .scVector .hbm S32x5x128 .i32 := Memref.whole main_v17_scv
abbrev tgtV : Memref sig .scVector .hbm S32x4x128 .f32 := Memref.whole main_v18_scv
abbrev outV : Memref sig .scVector .hbm S16x2x16 .f32 := Memref.whole main_v19_scv
abbrev idxS : Memref sig .scVector .vmem S2x5x128 .i32 := Memref.whole cc0_scratch0
abbrev predS : Memref sig .scVector .vmem S2x4x128 .f32 := Memref.whole cc0_scratch1
abbrev partS : Memref sig .scVector .vmem S2x16 .f32 := Memref.whole cc0_scratch2
abbrev tgtS : Memref sig .scVector .vmem S2x4x128 .f32 := Memref.whole cc0_scratch3

/-- Row `L 1` of the result, as a subcore addresses it: a [2,16] block. -/
abbrev outRowK (L : grid0.Coords) : Memref sig .scVector .hbm S2x16 .f32 :=
  ((outV).slice (Rect.unit (s := S16x2x16) (k0_off3 L) S1x2x16.size (k0_off3_inb L)) (fun _ => rfl)).squeeze S2x16 squeezes_S1x2x16_S2x16

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

/-- The body as a subcore at coordinates `L` runs it: on the whole arrays and its own scratch. -/
abbrev tileProg [FloatOps F] (L : grid0.Coords) :=
  cc0__tile_body (F := F) L flatV (Memref.isWhole_whole _) packV (Memref.isWhole_whole _) tgtV (Memref.isWhole_whole _) outV (Memref.isWhole_whole _)
    idxS (Memref.isWhole_whole _) predS (Memref.isWhole_whole _) partS (Memref.isWhole_whole _) tgtS (Memref.isWhole_whole _)
    cc0_scratch4 cc0_scratch5 cc0_scratch6 cc0_scratch7 cc0_scratch8 cc0_scratch9 cc0_scratch10 cc0_scratch11 cc0_scratch12 cc0_scratch13 cc0_scoped0

end Cert.Proof.TileI

end
-- ==== Proof.TileIdeal.lean ====
/-
  One vector subcore's task, run once at symbolic coordinates: what it holds going in (a read share of each of
  the three arrays it reads, its row of the result, its own scratch and semaphores) and what it hands back.
-/
import proofs.«219714_g10557029613686_week1_w2_465_59_alg».proof.Proof.SetupIdeal

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid0.Coords)

/-- The semaphore cells a vector subcore owns: the ten DMA semaphores of the call and the region's one. -/
abbrev semSet : Finset (SemLoc sig) :=
  {.dma cc0_scratch4.sem, .dma cc0_scratch5.sem, .dma cc0_scratch6.sem, .dma cc0_scratch7.sem, .dma cc0_scratch8.sem, .dma cc0_scratch9.sem,
   .dma cc0_scratch10.sem, .dma cc0_scratch11.sem, .dma cc0_scratch12.sem, .dma cc0_scratch13.sem, .dma cc0_scoped0.sem}

omit [FloatOps F] in
theorem scoped_iff : ∀ sl : SemLoc sig, sl.isScoped .scVector = true ↔ sl ∈ semSet := by decide

abbrev cellOf (d : Dev nD) (c : Fin τ.nSC) (i : Fin τ.nSub) : SemLoc sig ↪ GSem nD τ sig :=
  ⟨fun sl => (V d c i, sl), fun _ _ h => (Prod.ext_iff.mp h).2⟩

omit [FloatOps F] in
theorem ownCells_V (c : Fin τ.nSC) (i : Fin τ.nSub) : ownCells (V d c i) = semSet.map (cellOf d c i) := by
  ext g
  rw [mem_ownCells, Finset.mem_map]
  constructor
  · rintro ⟨h1, h2⟩
    refine ⟨g.2, (scoped_iff g.2).mp ?_, Prod.ext h1.symm rfl⟩
    rw [← h2]; show g.2.isScoped .scVector = g.2.isScoped g.1.2.kind; rw [h1]
  · rintro ⟨sl, hs, rfl⟩
    exact ⟨rfl, (scoped_iff sl).mpr hs⟩

abbrev sc (d : Dev nD) (c : Fin τ.nSC) (i : Fin τ.nSub) (s : DmaSems sig S_) : GSem nD τ sig := (V d c i, .dma s.sem)

omit [FloatOps F] in
theorem ownSems0_V (c : Fin τ.nSC) (i : Fin τ.nSub) :
    (ownSems0 (V d c i) : sProp 𝕄)
      = iprop(semVal (sc d c i cc0_scratch4) 0 ∗ semVal (sc d c i cc0_scratch5) 0 ∗ semVal (sc d c i cc0_scratch6) 0 ∗ semVal (sc d c i cc0_scratch7) 0
          ∗ semVal (sc d c i cc0_scratch8) 0 ∗ semVal (sc d c i cc0_scratch9) 0 ∗ semVal (sc d c i cc0_scratch10) 0 ∗ semVal (sc d c i cc0_scratch11) 0
          ∗ semVal (sc d c i cc0_scratch12) 0 ∗ semVal (sc d c i cc0_scratch13) 0 ∗ semVal (sc d c i cc0_scoped0) 0) := by
  unfold SparseCore.Cfg.ownSems0
  rw [ownCells_V, bigSep_map]
  unfold semSet
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

abbrev pV (L : grid0.Coords) : Proc τ := Proc.scVector (cV L) (jV L)

/-- The subcore's own buffers other than the four scratch buffers the body uses. -/
abbrev restBufs : sProp 𝕄 :=
  bigSep (((((ownRefs (τ := τ) (pV L)).erase ((pV L).devRef cc0_scratch0)).erase ((pV L).devRef cc0_scratch1)).erase ((pV L).devRef cc0_scratch2)).erase
      ((pV L).devRef cc0_scratch3))
    fun b => iprop(∃ f, ((d, b) : Loc nD τ sig) ↦{fullShare} f)

omit [FloatOps F] in
/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (pV L)).erase ((pV L).devRef cc0_scratch0)).erase ((pV L).devRef cc0_scratch1)).erase ((pV L).devRef cc0_scratch2)).erase
              ((pV L).devRef cc0_scratch3))
              fun b => iprop(∃ f, ((d, b) : Loc nD τ sig) ↦{fullShare} f)) := by
  unfold SparseCore.Cfg.ownBufs
  have ne : ∀ {a b : Ref sig .scVector}, a ≠ b → (pV L).devRef a ≠ (pV L).devRef b := fun h e => h (Proc.devRef_injective _ e)
  have own0 : (pV L).devRef cc0_scratch0 ∈ ownRefs (τ := τ) (pV L) := SparseCore.Cfg.mem_ownRefs_of_owner (p := pV L) (b := (pV L).devRef cc0_scratch0) rfl
  have own1 : (pV L).devRef cc0_scratch1 ∈ ownRefs (τ := τ) (pV L) := SparseCore.Cfg.mem_ownRefs_of_owner (p := pV L) (b := (pV L).devRef cc0_scratch1) rfl
  have own2 : (pV L).devRef cc0_scratch2 ∈ ownRefs (τ := τ) (pV L) := SparseCore.Cfg.mem_ownRefs_of_owner (p := pV L) (b := (pV L).devRef cc0_scratch2) rfl
  have own3 : (pV L).devRef cc0_scratch3 ∈ ownRefs (τ := τ) (pV L) := SparseCore.Cfg.mem_ownRefs_of_owner (p := pV L) (b := (pV L).devRef cc0_scratch3) rfl
  refine (SparseCore.bigSep_erase' own0).trans ?_
  rw [SparseCore.bigSep_erase' (Finset.mem_erase.mpr ⟨ne (by decide), own1⟩),
    SparseCore.bigSep_erase' (Finset.mem_erase.mpr ⟨ne (by decide), Finset.mem_erase.mpr ⟨ne (by decide), own2⟩⟩),
    SparseCore.bigSep_erase' (Finset.mem_erase.mpr ⟨ne (by decide), Finset.mem_erase.mpr ⟨ne (by decide), Finset.mem_erase.mpr ⟨ne (by decide), own3⟩⟩⟩)]

variable (fF : Buf (Elt F) (flatLoc d)) (fP : Buf (Elt F) (packLoc d)) (fT : Buf (Elt F) (tgtLoc d)) (fO : Buf (Elt F) (outLoc d))
variable (q0 q1 q2 : PosShare TreeShare)

abbrev flatPts : sProp 𝕄 := flatLoc d ↦{q0} fF
abbrev packPts : sProp 𝕄 := packLoc d ↦{q1} fP
abbrev tgtPts : sProp 𝕄 := tgtLoc d ↦{q2} fT
abbrev outRowSetK (L : grid0.Coords) : Finset S16x2x16.Idx := (outRowK L).view.set
abbrev outRowPts (g : Buf (Elt F) (outLoc d)) : sProp 𝕄 := outLoc d ↦[outRowSetK L]{fullShare} g

omit [FloatOps F] in
/-- A star over the first ten numbers, written out. -/
theorem bigSep_range10 (Φ : ℕ → sProp 𝕄) :
    bigSep (Finset.range 10) Φ = iprop(Φ 0 ∗ Φ 1 ∗ Φ 2 ∗ Φ 3 ∗ Φ 4 ∗ Φ 5 ∗ Φ 6 ∗ Φ 7 ∗ Φ 8 ∗ Φ 9) := by
  rw [show Finset.range 10 = {0, 1, 2, 3, 4, 5, 6, 7, 8, 9} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The subcore's two batches of the packed table, as its fetch addresses them. -/
abbrev packRowsK (L : grid0.Coords) : Memref sig .scVector .hbm S2x5x128 .i32 :=
  (packV).slice (Rect.unit (s := S32x5x128) (k0_off1 L) S2x5x128.size (k0_off1_inb L)) (fun _ => rfl)

/-- What that fetch lands in the index scratch. -/
abbrev payPack : S2x5x128.Idx → Elt F .i32 := ReadAs.same.apply ((packRowsK L).view.read (Elt F) fP)

omit [FloatOps F] in
theorem payPack_apply (x : S2x5x128.Idx) : payPack d L fP x = fP ((packRowsK L).view.emb x) :=
  (View.read_apply _ _).trans (cast_eq _ _)

omit [FloatOps F] in
/-- Every word a gather reads its rows through is a row of the flattened map: each 128-word window of the index
    scratch, once the fetch has landed over whatever the scratch held, holds words of the packed table. -/
theorem idx_inb (hP : ∀ j, (fP j).toNat < 2097152) (g0 : Buf (Elt F) ((idxS).view.loc (V d (cV L) (jV L))))
    (pay : S2x5x128.Idx → Elt F .i32) (hpay : pay = payPack d L fP) (row : Fin 3 → Nat)
    (hk : ∀ a, row a + S1x1x128.size a ≤ S2x5x128.size a) (hq : (Rect.unit (s := S2x5x128) row S1x1x128.size hk).shape.Squeezes S128) :
    ∀ x, (View.read (Elt F) (((idxS).slice (Rect.unit (s := S2x5x128) row S1x1x128.size hk) (fun _ => rfl)).squeeze S128 hq).view
        ((idxS).view.writes (Elt F) g0 [⟨Rect.whole cc0_scratch0.ty.shape, pay⟩]) x).toNat < 2097152 := by
  subst hpay; intro x
  have e : View.read (Elt F) (((idxS).slice (Rect.unit (s := S2x5x128) row S1x1x128.size hk) (fun _ => rfl)).squeeze S128 hq).view
        ((idxS).view.writes (Elt F) g0 [⟨Rect.whole cc0_scratch0.ty.shape, payPack d L fP⟩]) x
      = View.read (Elt F) (idxS).view ((idxS).view.writes (Elt F) g0 [⟨Rect.whole cc0_scratch0.ty.shape, payPack d L fP⟩])
          ((Rect.unit (s := S2x5x128) row S1x1x128.size hk).emb ((Shape.reshapeEquiv hq.numel_eq) x)) := by
    rw [View.read_apply, View.read_apply]; rfl
  rw [e]
  have h := congrFun (View.read_writes_whole (Val := Elt F) (idxS).view g0 (payPack d L fP))
    ((Rect.unit (s := S2x5x128) row S1x1x128.size hk).emb ((Shape.reshapeEquiv hq.numel_eq) x))
  exact lt_of_eq_of_lt (congrArg BitVec.toNat (h.trans (payPack_apply d L fP _))) (hP _)

omit [FloatOps F] in
/-- The same over the scratch written whole in one piece. -/
theorem idx_inb' (hP : ∀ j, (fP j).toNat < 2097152) (g0 : Buf (Elt F) ((idxS).view.loc (V d (cV L) (jV L))))
    (pay : S2x5x128.Idx → Elt F .i32) (hpay : pay = payPack d L fP) (row : Fin 3 → Nat)
    (hk : ∀ a, row a + S1x1x128.size a ≤ S2x5x128.size a) (hq : (Rect.unit (s := S2x5x128) row S1x1x128.size hk).shape.Squeezes S128) :
    ∀ x, (View.read (Elt F) (((idxS).slice (Rect.unit (s := S2x5x128) row S1x1x128.size hk) (fun _ => rfl)).squeeze S128 hq).view
        (View.write (Elt F) (idxS).view g0 pay Finset.univ) x).toNat < 2097152 := by
  subst hpay; intro x
  have e : View.read (Elt F) (((idxS).slice (Rect.unit (s := S2x5x128) row S1x1x128.size hk) (fun _ => rfl)).squeeze S128 hq).view
        (View.write (Elt F) (idxS).view g0 (payPack d L fP) Finset.univ) x
      = View.read (Elt F) (idxS).view (View.write (Elt F) (idxS).view g0 (payPack d L fP) Finset.univ)
          ((Rect.unit (s := S2x5x128) row S1x1x128.size hk).emb ((Shape.reshapeEquiv hq.numel_eq) x)) := by
    rw [View.read_apply, View.read_apply]; rfl
  rw [e, View.write_whole_univ]
  simp only [Memref.view_whole, View.read_whole]
  rw [payPack_apply]
  exact hP _

abbrev IdxFactL : Prop :=
  ∀ (g : Buf (Elt F) ((idxS).view.loc (V d (cV L) (jV L)))) (row : Fin 3 → Nat) (hk : ∀ a, row a + S1x1x128.size a ≤ S2x5x128.size a)
    (hq : (Rect.unit (s := S2x5x128) row S1x1x128.size hk).shape.Squeezes S128),
    ∀ x, (View.read (Elt F) (((idxS).slice (Rect.unit (s := S2x5x128) row S1x1x128.size hk) (fun _ => rfl)).squeeze S128 hq).view
        ((idxS).view.writes (Elt F) g [⟨Rect.whole cc0_scratch0.ty.shape, payPack d L fP⟩]) x).toNat < 2097152
abbrev IdxFactW : Prop :=
  ∀ (g : Buf (Elt F) ((idxS).view.loc (V d (cV L) (jV L)))) (row : Fin 3 → Nat) (hk : ∀ a, row a + S1x1x128.size a ≤ S2x5x128.size a)
    (hq : (Rect.unit (s := S2x5x128) row S1x1x128.size hk).shape.Squeezes S128),
    ∀ x, (View.read (Elt F) (((idxS).slice (Rect.unit (s := S2x5x128) row S1x1x128.size hk) (fun _ => rfl)).squeeze S128 hq).view
        (View.write (Elt F) (idxS).view g (payPack d L fP) Finset.univ) x).toNat < 2097152

/-- The subcore's row of the result with a [2,16] block `g` written over it. -/
abbrev rowWith (g : S2x16.Idx → Elt F .f32) : Buf (Elt F) (outLoc d) :=
  (outRowK L).view.writes (Elt F) fO [⟨Rect.whole S2x16, g⟩]

set_option maxHeartbeats 8000000 in
set_option maxRecDepth 16384 in
/-- What the task writes to its row of the result — the two 16-lane sums, as the run of the body finds them —
    with the proof that the task, from a read share of each array it reads, its row of the result, its own scratch
    and semaphores, runs to its end and hands all of it back, the row written so. -/
noncomputable def tileRun (hF : (K (F := F)).Facts) (hidx : (∀ (g : Buf (Elt F) ((idxS).view.loc (V d (cV L) (jV L)))) (row : Fin 3 → Nat) (hk : ∀ a, row a + S1x1x128.size a ≤ S2x5x128.size a)
      (hq : (Rect.unit (s := S2x5x128) row S1x1x128.size hk).shape.Squeezes S128),
      ∀ x, (View.read (Elt F) (((idxS).slice (Rect.unit (s := S2x5x128) row S1x1x128.size hk) (fun _ => rfl)).squeeze S128 hq).view
          ((idxS).view.writes (Elt F) g [⟨Rect.whole cc0_scratch0.ty.shape, payPack d L fP⟩]) x).toNat < 2097152))
    (hidx' : (∀ (g : Buf (Elt F) ((idxS).view.loc (V d (cV L) (jV L)))) (row : Fin 3 → Nat) (hk : ∀ a, row a + S1x1x128.size a ≤ S2x5x128.size a)
      (hq : (Rect.unit (s := S2x5x128) row S1x1x128.size hk).shape.Squeezes S128),
      ∀ x, (View.read (Elt F) (((idxS).slice (Rect.unit (s := S2x5x128) row S1x1x128.size hk) (fun _ => rfl)).squeeze S128 hq).view
          (View.write (Elt F) (idxS).view g (payPack d L fP) Finset.univ) x).toNat < 2097152)) :
    { g : Buf (Elt F) ((V d (cV L) (jV L)).loc cc0_scratch0) → Buf (Elt F) ((V d (cV L) (jV L)).loc cc0_scratch1)
          → Buf (Elt F) ((V d (cV L) (jV L)).loc cc0_scratch2) → Buf (Elt F) ((V d (cV L) (jV L)).loc cc0_scratch3) → S2x16.Idx → Elt F .f32 //
      ∀ (fO : Buf (Elt F) (outLoc d)) (f0 : Buf (Elt F) ((V d (cV L) (jV L)).loc cc0_scratch0)) (f1 : Buf (Elt F) ((V d (cV L) (jV L)).loc cc0_scratch1))
        (f2 : Buf (Elt F) ((V d (cV L) (jV L)).loc cc0_scratch2)) (f3 : Buf (Elt F) ((V d (cV L) (jV L)).loc cc0_scratch3))
        (O : CellTallies nD τ sig (HIx 1)) (W : Waits sig (HIx 1)) (hO : ∀ g, O g none = 0),
        iprop(levAts (K (F := F)).L (K (F := F)).lev ∗ emp
            ∗ (flatPts d fF q0 ∗ packPts d fP q1 ∗ tgtPts d fT q2 ∗ outRowPts d L fO)
            ∗ (((V d (cV L) (jV L)).loc cc0_scratch0 ↦{fullShare} f0) ∗ ((V d (cV L) (jV L)).loc cc0_scratch1 ↦{fullShare} f1)
              ∗ ((V d (cV L) (jV L)).loc cc0_scratch2 ↦{fullShare} f2) ∗ ((V d (cV L) (jV L)).loc cc0_scratch3 ↦{fullShare} f3) ∗ restBufs d L)
            ∗ scopedSems0 (V d (cV L) (jV L)) ∗ owes (V d (cV L) (jV L)) O W)
          ⊢ wp frame (wpE (defs₀ (F := F)) 𝒱₀ (V d (cV L) (jV L)) none) Set.univ (tileProg (F := F) L)
              fun _ => iprop((flatPts d fF q0 ∗ packPts d fP q1 ∗ tgtPts d fT q2 ∗ outRowPts d L (rowWith d L fO (g f0 f1 f2 f3)))
                ∗ scopedBufs (V d (cV L) (jV L)) ∗ scopedSems0 (V d (cV L) (jV L))
                ∗ ∃ W', ⌜∀ p ∈ W', p ∈ W ∨ p.2 = none⌝ ∗ owes (V d (cV L) (jV L)) O W') } := by
  refine ⟨?_, fun fO f0 f1 f2 f3 O W hO => ?run⟩
  case run =>
    rw [(K (F := F)).scopedBufs_V hF d (cV L) (jV L), SparseCore.Cfg.scopedSems0_V (Val := Elt F) d (cV L) (jV L), ownSems0_V, ownBufs_V]
    iintro ⟨#Hlv, -, ⟨Hf, Hp, Ht, Ho⟩, ⟨H0, H1, H2, H3, Hbufs⟩, ⟨Hs4, Hs5, Hs6, Hs7, Hs8, Hs9, Hs10, Hs11, Hs12, Hs13, Hs14⟩, HO⟩
    ihave Hmw := (show levAts (K (F := F)).L (K (F := F)).lev ⊢ Transfers.MayWaits (V d (cV L) (jV L)) (default : HIx 1) O from
      (K (F := F)).mayWaits_none (thr := V d (cV L) (jV L)) hO) $$ Hlv
    ihave Hf' := (Entails.of_eq (show (flatLoc d ↦{q0} fF : sProp 𝕄) = (flatV).view.loc (V d (cV L) (jV L)) ↦{q0} fF from rfl)) $$ Hf
    ihave Hp' := (Entails.of_eq (show (packLoc d ↦{q1} fP : sProp 𝕄) = (packV).view.loc (V d (cV L) (jV L)) ↦{q1} fP from rfl)) $$ Hp
    ihave Ht' := (Entails.of_eq (show (tgtLoc d ↦{q2} fT : sProp 𝕄) = (tgtV).view.loc (V d (cV L) (jV L)) ↦{q2} fT from rfl)) $$ Ht
    ihave Ho' := (Entails.of_eq (show (outLoc d ↦[outRowSetK L]{fullShare} fO : sProp 𝕄) = (outRowK L).view.loc (V d (cV L) (jV L)) ↦[(outRowK L).view.set]{fullShare} fO from rfl)) $$ Ho
    ihave H0' := (Entails.of_eq (show ((V d (cV L) (jV L)).loc cc0_scratch0 ↦{fullShare} f0 : sProp 𝕄) = (idxS).view.loc (V d (cV L) (jV L)) ↦{fullShare} f0 from rfl)) $$ H0
    ihave H1' := (Entails.of_eq (show ((V d (cV L) (jV L)).loc cc0_scratch1 ↦{fullShare} f1 : sProp 𝕄) = (predS).view.loc (V d (cV L) (jV L)) ↦{fullShare} f1 from rfl)) $$ H1
    ihave H2' := (Entails.of_eq (show ((V d (cV L) (jV L)).loc cc0_scratch2 ↦{fullShare} f2 : sProp 𝕄) = (partS).view.loc (V d (cV L) (jV L)) ↦{fullShare} f2 from rfl)) $$ H2
    ihave H3' := (Entails.of_eq (show ((V d (cV L) (jV L)).loc cc0_scratch3 ↦{fullShare} f3 : sProp 𝕄) = (tgtS).view.loc (V d (cV L) (jV L)) ↦{fullShare} f3 from rfl)) $$ H3
    -- the flattened map is read by eight gathers at once: one read share per semaphore they complete on
    ihave Hft := (Transfers.pointsTo_toks_range (ℓ := (flatV).view.loc (V d (cV L) (jV L))) (S := Finset.univ) (f := fF) q0 10).1 $$ Hf'
    icases Hft with ⟨Hfd, Hft⟩
    ihave Hft' := (Entails.of_eq (bigSep_range10 (F := F) fun i => ((flatV).view.loc (V d (cV L) (jV L)) ↦{Transfers.shareTokN q0 i} fF : sProp 𝕄))) $$ Hft
    icases Hft' with ⟨Hk0, Hk1, Hk2, Hk3, Hk4, Hk5, Hk6, Hk7, Hk8, Hk9⟩
    sl_exec_parts
    sl_step
    -- the ten read shares of the flattened map and what was kept aside are its share again
    ihave Hft := (Entails.of_eq (bigSep_range10 (F := F) fun i => ((flatV).view.loc (V d (cV L) (jV L)) ↦{Transfers.shareTokN q0 i} fF : sProp 𝕄)).symm) $$ [Hk0 Hk1 Hk2 Hk3 Hk4 Hk5 Hk6 Hk7 Hk8 Hk9]
    · isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      isplitl [Hk7]; · iexact Hk7
      isplitl [Hk8]; · iexact Hk8
      iexact Hk9
    ihave Hf'' := (Transfers.pointsTo_toks_range (ℓ := (flatV).view.loc (V d (cV L) (jV L))) (S := Finset.univ) (f := fF) q0 10).2 $$ [Hfd Hft]
    · isplitl [Hfd]; · iexact Hfd
      iexact Hft
    isplitl [Hf'' Hp' Ht' Ho']
    · isplitl [Hf'']; · iexact Hf''
      isplitl [Hp']; · iexact Hp'
      isplitl [Ht']; · iexact Ht'
      iexact Ho'
    isplitl [H0' H1' H2' H3' Hbufs]
    · isplitl [H0']; · iexists _; iexact H0'
      isplitl [H1']; · iexists _; iexact H1'
      isplitl [H2']; · iexists _; iexact H2'
      isplitl [H3']; · iexists _; iexact H3'
      iexact Hbufs
    isplitl [Hs4 Hs5 Hs6 Hs7 Hs8 Hs9 Hs10 Hs11 Hs12 Hs13 Hs14]
    · isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      iexact Hs14
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp

end Tile

end Cert.Proof.TileI

end
-- ==== Proof.SpecIdeal.lean ====
/-
  The kernel's result as a pure function of its four arguments, in the program's own operations. Before the
  call the host flattens the feature map, builds the packed table (rows 0..3 of batch b: the object's position
  plus the offset b * 65536 + d * 16384 of channel d in the flattened map; row 4: the mask) and transposes the
  targets to [batch, channel, object]. Subcore s owns batches 2s and 2s+1: per lane j it adds up, over both
  batches, the four channels and the eight 16-object chunks, the smooth-L1 term of (prediction - target) * mask
  and, separately, the mask. After the call the host sums the 16 x 16 partial sums of each kind and divides.
-/
import proofs.«219714_g10557029613686_week1_w2_465_59_alg».proof.KernelIdeal
import proofs.«219714_g10557029613686_week1_w2_465_59_alg».proof.Proof.Gen.KernelIdeal
import Idealize.ShloMosaic.Lib.ValueIdx

noncomputable section

namespace Cert.Proof.SpecI

open Cert.KernelIdeal Cert.KernelIdeal.Gen
open Idealize.ShloMosaic Idealize.ShloMosaic.ValueIdx

variable {F : FTy → Type} [FloatOps F]

/-! ## Before the call -/

/-- The feature map flattened: entry (b, d, h, w) at b * 65536 + d * 16384 + h * 128 + w. -/
def flatOf (a0 : FVec F S32x4x128x128 .f32) : FVec F S2097152 .f32 := shapeCast S2097152 a0 shapeCasts_S32x4x128x128_S2097152

/-- The offsets b * 65536 + d * 16384, as [32, 4, 1]. -/
def offsOf : IVec S32x4x1 32 :=
  let v1 : IVec S32 32 := iotaInDim S32 32 0
  let v2 : IVec S32 32 := broadcastInDim S32 ![] bcast_S_S32 (constantI S_ 32 65536#32)
  let v3 : IVec S32 32 := muli v1 v2
  let v4 : IVec S32x1x1 32 := broadcastInDim S32x1x1 ![0] bcast_S32_S32x1x1_0 v3
  let v5 : IVec S4 32 := iotaInDim S4 32 0
  let v6 : IVec S4 32 := broadcastInDim S4 ![] bcast_S_S4 (constantI S_ 32 16384#32)
  let v7 : IVec S4 32 := muli v5 v6
  let v8 : IVec S1x4x1 32 := broadcastInDim S1x4x1 ![1] bcast_S4_S1x4x1_1 v7
  let v9 : IVec S32x4x1 32 := broadcastInDim S32x4x1 ![0, 1, 2] bcast_S32x1x1_S32x4x1_0_1_2 v4
  let v10 : IVec S32x4x1 32 := broadcastInDim S32x4x1 ![0, 1, 2] bcast_S1x4x1_S32x4x1_0_1_2 v8
  addi v9 v10

/-- The packed table [32, 5, 128]: rows 0..3 the flat positions, row 4 the mask. -/
def packOf (a1 a2 : IVec S32x128 32) : IVec S32x5x128 32 :=
  let v12 : IVec S32x1x128 32 := broadcastInDim S32x1x128 ![0, 2] bcast_S32x128_S32x1x128_0_2 a2
  let v13 : IVec S32x4x128 32 := broadcastInDim S32x4x128 ![0, 1, 2] bcast_S32x1x128_S32x4x128_0_1_2 v12
  let v14 : IVec S32x4x128 32 := broadcastInDim S32x4x128 ![0, 1, 2] bcast_S32x4x1_S32x4x128_0_1_2 offsOf
  let v15 : IVec S32x4x128 32 := addi v13 v14
  let v16 : IVec S32x1x128 32 := broadcastInDim S32x1x128 ![0, 2] bcast_S32x128_S32x1x128_0_2 a1
  concatenate S32x5x128 1 [⟨S32x4x128, v15⟩, ⟨S32x1x128, v16⟩] concatenates_S32x4x128_S32x1x128_S32x5x128_d1

/-- The targets as [batch, channel, object]. -/
def tgtOf (a3 : FVec F S32x128x4 .f32) : FVec F S32x4x128 .f32 := transpose S32x4x128 [0, 2, 1] a3 transposes_S32x128x4_S32x4x128_0_2_1

/-! ## One subcore's partial sums -/

/-- A table word as a row number of the flattened map (every word the subcores gather through is below 2097152:
    `pack_rows_lt`'s statement; the remainder only makes this total). -/
def rowOf (w : BitVec 32) : S2097152.Idx := ix1 (⟨w.toNat % 2097152, Nat.mod_lt _ (by decide)⟩ : Fin 2097152)

/-- Object 16 * ch + j of batch 2 * s + bi, as the table's and the targets' last two coordinates need it. -/
def batchOf (s : Fin 16) (bi : Fin 2) : Fin 32 := ⟨2 * s.val + bi.val, by omega⟩
def objOf (ch : Fin 8) (j : Fin 16) : Fin 128 := ⟨16 * ch.val + j.val, by omega⟩

/-- The smooth-L1 term of one difference. -/
def huber (x : F .f32) : F .f32 :=
  Scalar.select (FloatOps.cmpf .olt (FloatOps.absf x) (Scalar.ofBits .f32 0x3F800000#32))
    (FloatOps.mulf (FloatOps.mulf (Scalar.ofBits .f32 0x3F000000#32) x) x)
    (FloatOps.subf (FloatOps.absf x) (Scalar.ofBits .f32 0x3F000000#32))

/-- The mask of object 16 ch + j of batch 2 s + bi, as a float. -/
def maskAt (pack : IVec S32x5x128 32) (s : Fin 16) (bi : Fin 2) (ch : Fin 8) (j : Fin 16) : F .f32 :=
  FloatOps.sitofp .f32 (pack (ix3 (batchOf s bi) (4 : Fin 5) (objOf ch j)))

/-- One term: channel d of that object. -/
def termAt (flat : FVec F S2097152 .f32) (pack : IVec S32x5x128 32) (tgt : FVec F S32x4x128 .f32)
    (s : Fin 16) (bi : Fin 2) (d : Fin 4) (ch : Fin 8) (j : Fin 16) : F .f32 :=
  huber (FloatOps.mulf (FloatOps.subf (flat (rowOf (pack (ix3 (batchOf s bi) (Fin.castLE (by decide) d : Fin 5) (objOf ch j)))))
    (tgt (ix3 (batchOf s bi) d (objOf ch j)))) (maskAt pack s bi ch j))

/-- Lane j of subcore s's sum of terms, added up from zero in the order batch, channel, chunk. -/
def accAt (flat : FVec F S2097152 .f32) (pack : IVec S32x5x128 32) (tgt : FVec F S32x4x128 .f32) (s : Fin 16) (j : Fin 16) : F .f32 :=
  (List.finRange 64).foldl (fun a (k : Fin 64) =>
    FloatOps.addf a (termAt flat pack tgt s ⟨k.val / 32, by omega⟩ ⟨k.val / 8 % 4, by omega⟩ ⟨k.val % 8, by omega⟩ j)) (Scalar.ofBits .f32 0x00000000#32)

/-- Lane j of subcore s's sum of masks, in the order batch, chunk. -/
def maccAt (pack : IVec S32x5x128 32) (s : Fin 16) (j : Fin 16) : F .f32 :=
  (List.finRange 16).foldl (fun a (k : Fin 16) =>
    FloatOps.addf a (maskAt (F := F) pack s ⟨k.val / 8, by omega⟩ ⟨k.val % 8, by omega⟩ j)) (Scalar.ofBits .f32 0x00000000#32)

/-- What the call leaves in its result: row s holds subcore s's two 16-lane sums. -/
def partsOf (flat : FVec F S2097152 .f32) (pack : IVec S32x5x128 32) (tgt : FVec F S32x4x128 .f32) : FVec F S16x2x16 .f32 :=
  fun i => if (i 1).val = 0 then accAt flat pack tgt (i 0) (i 2) else maccAt pack (i 0) (i 2)

/-! ## After the call -/

/-- The host's tail: both kinds of partial sums added up, the quotient of the loss by the count plus 1e-4. -/
def tailOf (parts : FVec F S16x2x16 .f32) : FVec F S_ .f32 :=
  let v20 : FVec F S16x1x16 .f32 := extractStridedSlice S16x1x16 ![0, 0, 0] parts slices_S16x2x16_S16x1x16_0_0_0
  let v21 : FVec F S16x16 .f32 := shapeCast S16x16 v20 shapeCasts_S16x1x16_S16x16
  let v22 : FVec F S_ .f32 := Host.reduceAdd v21 (constant S_ .f32 0x00000000#32) reducesTo_S16x16_S_d0_1 h_S_
  let v23 : FVec F S16x1x16 .f32 := extractStridedSlice S16x1x16 ![0, 1, 0] parts slices_S16x2x16_S16x1x16_0_1_0
  let v24 : FVec F S16x16 .f32 := shapeCast S16x16 v23 shapeCasts_S16x1x16_S16x16
  let v25 : FVec F S_ .f32 := Host.reduceAdd v24 (constant S_ .f32 0x00000000#32) reducesTo_S16x16_S_d0_1 h_S_
  let v26 : FVec F S_ .f32 := addf v25 (constant S_ .f32 0x38D1B717#32)
  Host.divf v22 v26

/-- The kernel's result as a function of its arguments. -/
def resultOf (a0 : FVec F S32x4x128x128 .f32) (a1 a2 : IVec S32x128 32) (a3 : FVec F S32x128x4 .f32) : FVec F S_ .f32 :=
  tailOf (partsOf (flatOf a0) (packOf a1 a2) (tgtOf a3))

end Cert.Proof.SpecI

end
-- ==== Proof.TileScratchIdeal.lean ====
/-
  What a subcore's two fetches leave in its scratch. The subcore at position s of the grid copies rows 2 s and
  2 s + 1 of the packed table into its index scratch and the same two rows of the transposed targets into its target
  scratch: entry (bi, r, m) of the index scratch is entry (2 s + bi, r, m) of the table, and entry (bi, c, m) of the
  target scratch is entry (2 s + bi, c, m) of the targets, whatever the scratch held before. A 16-lane load at
  (bi, r, 16 ch) reads, at lane j, entry (bi, r, 16 ch + j). Two casts between a 16-lane vector and its [1, 1, 16] and
  [1, 16] forms, read at a lane, close the module.
-/
import proofs.«219714_g10557029613686_week1_w2_465_59_alg».proof.Proof.TileIdeal
import proofs.«219714_g10557029613686_week1_w2_465_59_alg».proof.Proof.SpecIdeal
import Idealize.ShloMosaic.Lib.Pipeline.Value
import Idealize.ShloMosaic.Lib.ValueLayout

noncomputable section

namespace Cert.Proof.TileI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Cert.Proof.SpecI

section Scratch

variable (d : Dev nD) (L : grid0.Coords)
variable (fF : Buf (Elt F) (flatLoc d)) (fP : Buf (Elt F) (packLoc d)) (fT : Buf (Elt F) (tgtLoc d))

/-- Where the fetch's slice of the packed table puts entry (bi, r, m): row 2 s + bi of the table. -/
theorem packRows_emb (bi : Fin 2) (r : Fin 5) (m : Fin 128) :
    (packRowsK L).view.emb (ix3 bi r m) = (ix3 (batchOf (jL L) bi) r m : S32x5x128.Idx) := by
  funext (a : Fin 3)
  apply Fin.ext
  show (k0_off1 L) a + 1 * ((ix3 bi r m : S2x5x128.Idx) a).val = ((ix3 (batchOf (jL L) bi) r m : S32x5x128.Idx) a).val
  rw [k0_off1_eq]
  fin_cases a
  · show 2 * (L 1).val + 1 * bi.val = 2 * (L 1).val + bi.val
    omega
  · show 0 + 1 * r.val = r.val
    omega
  · show 0 + 1 * m.val = m.val
    omega

/-- THE INDEX SCRATCH: after the fetch has landed over whatever it held, entry (bi, r, m) is entry (2 s + bi, r, m)
    of the packed table. -/
theorem idx_entry (f0 : Buf (Elt F) ((V d (cV L) (jV L)).loc cc0_scratch0)) (bi : Fin 2) (r : Fin 5) (m : Fin 128) :
    View.read (Elt F) (idxS).view (View.write (Elt F) (idxS).view f0 (tileRun.sl.dma0 d L fP) Finset.univ) (ix3 bi r m)
      = fP (ix3 (batchOf (jL L) bi) r m) := by
  rw [View.write_whole_univ]
  simp only [Memref.view_whole, View.read_whole]
  show payPack d L fP (ix3 bi r m) = _
  rw [payPack_apply, packRows_emb]

/-- A 16-lane load of the index scratch at (bi, r, 16 ch), at lane j: entry (2 s + bi, r, 16 ch + j) of the table. -/
theorem idx_load (f0 : Buf (Elt F) ((V d (cV L) (jV L)).loc cc0_scratch0)) (off : Fin 3 → Nat)
    (inb : ∀ a, off a + S1x1x16.size a ≤ S2x5x128.size a) (bi : Fin 2) (r : Fin 5) (ch : Fin 8)
    (hoff : off = ![bi.val, r.val, 16 * ch.val]) (j : Fin 16) :
    View.readAt (Elt F) (idxS).view (Rect.unit (s := S2x5x128) off S1x1x16.size inb).toLoadRect
        (View.write (Elt F) (idxS).view f0 (tileRun.sl.dma0 d L fP) Finset.univ) (ix3 (0 : Fin 1) (0 : Fin 1) j)
      = fP (ix3 (batchOf (jL L) bi) r (objOf ch j)) := by
  subst hoff
  rw [View.readAt_apply, ← idx_entry d L fP f0 bi r (objOf ch j)]
  refine congrArg _ (funext fun (a : Fin 3) => Fin.ext ?_)
  fin_cases a
  · show bi.val + 1 * 0 = bi.val
    omega
  · show r.val + 1 * 0 = r.val
    omega
  · show 16 * ch.val + 1 * j.val = 16 * ch.val + j.val
    omega

/-- The subcore's two batches of the transposed targets, as its fetch addresses them. -/
abbrev tgtRowsK (L : grid0.Coords) : Memref sig .scVector .hbm S2x4x128 .f32 :=
  (tgtV).slice (Rect.unit (s := S32x4x128) (k0_off2 L) S2x4x128.size (k0_off2_inb L)) (fun _ => rfl)

/-- What that fetch lands in the target scratch, at an index. -/
theorem payTgt_apply (x : S2x4x128.Idx) : tileRun.sl.dma0_1 d L fT x = fT ((tgtRowsK L).view.emb x) :=
  (View.read_apply _ _).trans (cast_eq _ _)

/-- Where the fetch's slice of the targets puts entry (bi, c, m): row 2 s + bi. -/
theorem tgtRows_emb (bi : Fin 2) (c : Fin 4) (m : Fin 128) :
    (tgtRowsK L).view.emb (ix3 bi c m) = (ix3 (batchOf (jL L) bi) c m : S32x4x128.Idx) := by
  funext (a : Fin 3)
  apply Fin.ext
  show (k0_off2 L) a + 1 * ((ix3 bi c m : S2x4x128.Idx) a).val = ((ix3 (batchOf (jL L) bi) c m : S32x4x128.Idx) a).val
  rw [k0_off2_eq]
  fin_cases a
  · show 2 * (L 1).val + 1 * bi.val = 2 * (L 1).val + bi.val
    omega
  · show 0 + 1 * c.val = c.val
    omega
  · show 0 + 1 * m.val = m.val
    omega

/-- THE TARGET SCRATCH: after the fetch, entry (bi, c, m) is entry (2 s + bi, c, m) of the transposed targets. -/
theorem tgt_entry (f3 : Buf (Elt F) ((V d (cV L) (jV L)).loc cc0_scratch3)) (bi : Fin 2) (c : Fin 4) (m : Fin 128) :
    View.read (Elt F) (tgtS).view (View.write (Elt F) (tgtS).view f3 (tileRun.sl.dma0_1 d L fT) Finset.univ) (ix3 bi c m)
      = fT (ix3 (batchOf (jL L) bi) c m) := by
  rw [View.write_whole_univ]
  simp only [Memref.view_whole, View.read_whole]
  rw [payTgt_apply, tgtRows_emb]

/-- A 16-lane load of the target scratch at (bi, c, 16 ch), at lane j: entry (2 s + bi, c, 16 ch + j) of the targets. -/
theorem tgt_load (f3 : Buf (Elt F) ((V d (cV L) (jV L)).loc cc0_scratch3)) (off : Fin 3 → Nat)
    (inb : ∀ a, off a + S1x1x16.size a ≤ S2x4x128.size a) (bi : Fin 2) (c : Fin 4) (ch : Fin 8)
    (hoff : off = ![bi.val, c.val, 16 * ch.val]) (j : Fin 16) :
    View.readAt (Elt F) (tgtS).view (Rect.unit (s := S2x4x128) off S1x1x16.size inb).toLoadRect
        (View.write (Elt F) (tgtS).view f3 (tileRun.sl.dma0_1 d L fT) Finset.univ) (ix3 (0 : Fin 1) (0 : Fin 1) j)
      = fT (ix3 (batchOf (jL L) bi) c (objOf ch j)) := by
  subst hoff
  rw [View.readAt_apply, ← tgt_entry d L fT f3 bi c (objOf ch j)]
  refine congrArg _ (funext fun (a : Fin 3) => Fin.ext ?_)
  fin_cases a
  · show bi.val + 1 * 0 = bi.val
    omega
  · show c.val + 1 * 0 = c.val
    omega
  · show 16 * ch.val + 1 * j.val = 16 * ch.val + j.val
    omega

/-- A [1, 1, 16] vector cast to [16], at lane j. -/
theorem lane_apply {α : Type} (v : S1x1x16.Idx → α) (j : Fin 16) :
    shapeCast S16 v shapeCasts_S1x1x16_S16 (ix1 j) = v (ix3 (0 : Fin 1) (0 : Fin 1) j) :=
  shapeCast_apply v _ _ _ (by
    rw [Shape.rowMajor_val_three, Shape.rowMajor_val_one]
    show (0 * 1 + 0) * 16 + j.val = j.val
    omega)

/-- A [16] vector cast to [1, 16], at (0, j). -/
theorem row_apply {α : Type} (v : S16.Idx → α) (j : Fin 16) :
    shapeCast S1x16 v shapeCasts_S16_S1x16 (ix2 (0 : Fin 1) j) = v (ix1 j) :=
  shapeCast_apply v _ _ _ (by
    rw [Shape.rowMajor_val_one, Shape.rowMajor_val_two]
    show j.val = 0 * 16 + j.val
    omega)

end Scratch

end Cert.Proof.TileI

end
-- ==== Proof.TileLoadsIdeal.lean ====
/-
  What a subcore's loads of its prediction scratch read. Eight gathers fill the scratch: gather (bi, c) reads, object
  by object, word (bi, c, m) of the index scratch (the packed table's word (2 s + bi, c, m)) and fetches that row of the
  flattened feature map into entry (bi, c, m). Each gather writes one row window and leaves the other seven rows as
  they were, so after the eight writes entry (bi, c, m) is the feature map at the row the table names. A 16-lane load
  at (bi, c, 16 ch), cast to a vector, is lane by lane the scratch's entries (bi, c, 16 ch + j): stated for the
  prediction, the target and the index scratch alike.
-/
import proofs.«219714_g10557029613686_week1_w2_465_59_alg».proof.Proof.TileIdeal
import proofs.«219714_g10557029613686_week1_w2_465_59_alg».proof.Proof.SpecIdeal
import proofs.«219714_g10557029613686_week1_w2_465_59_alg».proof.Proof.TileScratchIdeal

noncomputable section

namespace Cert.Proof.TileI

open Cert.KernelIdeal Cert.KernelIdeal.Gen
open Idealize.ShloMosaic Idealize.ShloMosaic.ValueIdx
open Idealize.ShloMosaic.SparseCore (S V T)
open Cert.Proof.SpecI

variable {F : FTy → Type}

/-! ## A row window of the prediction scratch

The window at offsets (bi, d, 0) of extent [1, 1, 128], read as a vector of 128: its entry m sits at (bi, d, m) of the
scratch. A write through it replaces exactly row (bi, d). -/

section Windows
variable [FloatOps F]

omit [FloatOps F] in
/-- Entry y of a [1, 1, 128] window squeezed to 128 is entry (0, 0, y) of the window. -/
theorem squeeze128_idx (off : Fin 3 → ℕ) (hk : ∀ a, off a + S1x1x128.size a ≤ S2x4x128.size a)
    (hq : (Rect.unit (s := S2x4x128) off S1x1x128.size hk).shape.Squeezes S128) (y : S128.Idx) :
    Shape.reshapeEquiv hq.numel_eq y = (ix3 (0 : Fin 1) (0 : Fin 1) (y 0) : S1x1x128.Idx) :=
  Shape.reshapeEquiv_eq_of_rowMajor _ (by
    rw [Shape.rowMajor_val_three, Shape.rowMajor_val_one]
    show (0 * 1 + 0) * 128 + (y 0).val = (y 0).val
    omega)

end Windows

section Windows2
variable [FloatOps F]
variable (d : Dev nD) (L : grid0.Coords)

/-- Row (off 0, off 1) of the prediction scratch as the vector of its 128 entries. -/
abbrev predW (off : Fin 3 → ℕ) (hk : ∀ a, off a + S1x1x128.size a ≤ S2x4x128.size a) :=
  (((predS).slice (Rect.unit (s := S2x4x128) off S1x1x128.size hk) (fun _ => rfl)).squeeze S128 squeezes_S1x1x128_S128).view

omit [FloatOps F] in
/-- A write through the row window at (off 0, off 1, 0) replaces row (off 0, off 1) and nothing else. -/
theorem write_row (off : Fin 3 → ℕ) (hk : ∀ a, off a + S1x1x128.size a ≤ S2x4x128.size a)
    (hs : ∀ a, (Rect.unit (s := S2x4x128) off S1x1x128.size hk).stride a = 1)
    (hq : (Rect.unit (s := S2x4x128) off S1x1x128.size hk).shape.Squeezes S128)
    (g : Buf (Elt F) ((V d (cV L) (jV L)).loc cc0_scratch1)) (pay : S128.Idx → Elt F .f32) (i : S2x4x128.Idx) :
    View.write (Elt F) ((predS.slice (Rect.unit (s := S2x4x128) off S1x1x128.size hk) hs).squeeze S128 hq).view g pay Finset.univ i
      = if (i 0).val = off 0 ∧ (i 1).val = off 1 then pay (ix1 (i 2)) else g i := by
  have h2 : off 2 = 0 := by have := hk 2; change off 2 + 128 ≤ 128 at this; omega
  have hemb : ∀ y : S128.Idx, ∀ a, (((predS.slice (Rect.unit (s := S2x4x128) off S1x1x128.size hk) hs).squeeze S128 hq).view.emb y a).val
      = off a + (ix3 (0 : Fin 1) (0 : Fin 1) (y 0) : S1x1x128.Idx) a := by
    intro y a
    show off a + 1 * ((Shape.reshapeEquiv hq.numel_eq y) a).val = _
    rw [squeeze128_idx off hk hq y, Nat.one_mul]
  by_cases h : (i 0).val = off 0 ∧ (i 1).val = off 1
  · rw [if_pos h]
    have hi : i = ((predS.slice (Rect.unit (s := S2x4x128) off S1x1x128.size hk) hs).squeeze S128 hq).view.emb (ix1 (i 2)) := by
      funext a; refine Fin.ext ?_
      rw [hemb]
      match a with
      | ⟨0, _⟩ => show (i 0).val = off 0 + 0; omega
      | ⟨1, _⟩ => show (i 1).val = off 1 + 0; omega
      | ⟨2, _⟩ => show (i 2).val = off 2 + (i 2).val; omega
    conv_lhs => rw [hi]
    rw [View.write_emb_of_mem _ _ (Finset.mem_univ _)]
    rfl
  · rw [if_neg h]
    refine View.write_of_not_mem _ _ _ (fun hm => h ?_)
    obtain ⟨y, -, rfl⟩ := Finset.mem_map.mp hm
    constructor
    · rw [hemb]; rfl
    · rw [hemb]; rfl

omit [FloatOps F] in
/-- The same for the named row window, at an index given by its coordinates. -/
theorem write_predW (off : Fin 3 → ℕ) (hk : ∀ a, off a + S1x1x128.size a ≤ S2x4x128.size a)
    (g : Buf (Elt F) ((V d (cV L) (jV L)).loc cc0_scratch1)) (pay : S128.Idx → Elt F .f32) (bi : Fin 2) (c : Fin 4) (m : Fin 128) :
    View.write (Elt F) (predW off hk) g pay Finset.univ (ix3 bi c m)
      = if bi.val = off 0 ∧ c.val = off 1 then pay (ix1 m) else g (ix3 bi c m) :=
  write_row d L off hk (fun _ => rfl) squeezes_S1x1x128_S128 g pay (ix3 bi c m)

omit [FloatOps F] in
theorem write_predW_hit (off : Fin 3 → ℕ) (hk : ∀ a, off a + S1x1x128.size a ≤ S2x4x128.size a)
    (g : Buf (Elt F) ((V d (cV L) (jV L)).loc cc0_scratch1)) (pay : S128.Idx → Elt F .f32) (bi : Fin 2) (c : Fin 4) (m : Fin 128)
    (h : bi.val = off 0 ∧ c.val = off 1) :
    View.write (Elt F) (predW off hk) g pay Finset.univ (ix3 bi c m) = pay (ix1 m) := by
  rw [write_predW, if_pos h]

omit [FloatOps F] in
theorem write_predW_miss (off : Fin 3 → ℕ) (hk : ∀ a, off a + S1x1x128.size a ≤ S2x4x128.size a)
    (g : Buf (Elt F) ((V d (cV L) (jV L)).loc cc0_scratch1)) (pay : S128.Idx → Elt F .f32) (bi : Fin 2) (c : Fin 4) (m : Fin 128)
    (h : ¬(bi.val = off 0 ∧ c.val = off 1)) :
    View.write (Elt F) (predW off hk) g pay Finset.univ (ix3 bi c m) = g (ix3 bi c m) := by
  rw [write_predW, if_neg h]

end Windows2

/-! ## The eight gathers

Gather (bi, c) reads, for each of the 128 objects, the word (bi, c, m) of the index scratch and fetches that row of the
flattened feature map into row (bi, c) of the prediction scratch. -/

section Gathers
variable [FloatOps F]
variable (d : Dev nD) (L : grid0.Coords)
variable (fF : Buf (Elt F) (flatLoc d)) (fP : Buf (Elt F) (packLoc d))

/-- The index scratch once the fetch has landed. -/
abbrev idxAfter (f0 : Buf (Elt F) ((V d (cV L) (jV L)).loc cc0_scratch0)) : Buf (Elt F) ((idxS).view.loc (V d (cV L) (jV L))) :=
  View.write (Elt F) (idxS).view f0 (tileRun.sl.dma0 d L fP) Finset.univ

/-- The payload of the gather through the index row at offsets off = (bi, c, 0). -/
abbrev gath (hidx' : IdxFactW d L fP) (f0 : Buf (Elt F) ((V d (cV L) (jV L)).loc cc0_scratch0))
    (off : Fin 3 → ℕ) (hk : ∀ a, off a + S1x1x128.size a ≤ S2x5x128.size a) : S128.Idx → Elt F .f32 :=
  SparseCore.gatherPayload gathers_S2097152_S128
    (View.read (Elt F) ((flatV).slice (Rect.unit (s := S2097152) ![0] S2097152.size inb_S2097152_S2097152_0) (fun _ => rfl)).view fF)
    (SparseCore.rows
      (View.read (Elt F) (((idxS).slice (Rect.unit (s := S2x5x128) off S1x1x128.size hk) (fun _ => rfl)).squeeze S128 squeezes_S1x1x128_S128).view
        (idxAfter d L fP f0))
      rfl (fun x => hidx' f0 off hk squeezes_S1x1x128_S128 x))

omit [FloatOps F] in
/-- Object m of that gather: the flattened map at the row the word (off 0, off 1, m) of the table names. -/
theorem gath_apply (hidx' : IdxFactW d L fP) (f0 : Buf (Elt F) ((V d (cV L) (jV L)).loc cc0_scratch0))
    (off : Fin 3 → ℕ) (hk : ∀ a, off a + S1x1x128.size a ≤ S2x5x128.size a) (bi : Fin 2) (c : Fin 5)
    (h0 : off 0 = bi.val) (h1 : off 1 = c.val) (m : Fin 128) :
    gath d L fF fP hidx' f0 off hk (ix1 m) = fF (rowOf (fP (ix3 (batchOf (jL L) bi) c m))) := by
  have h2 : off 2 = 0 := by have := hk 2; change off 2 + 128 ≤ 128 at this; omega
  have hw : View.read (Elt F) (((idxS).slice (Rect.unit (s := S2x5x128) off S1x1x128.size hk) (fun _ => rfl)).squeeze S128 squeezes_S1x1x128_S128).view
        (idxAfter d L fP f0) (ix1 m) = fP (ix3 (batchOf (jL L) bi) c m) := by
    rw [← idx_entry d L fP f0 bi c m]
    rw [View.read_apply, View.read_apply]
    refine congrArg _ (congrArg _ (funext fun (a : Fin 3) => Fin.ext ?_))
    show off a + 1 * ((Shape.reshapeEquiv (squeezes_S1x1x128_S128).numel_eq (ix1 m : S128.Idx)) a).val = ((ix3 bi c m : S2x5x128.Idx) a).val
    have e : Shape.reshapeEquiv (squeezes_S1x1x128_S128).numel_eq (ix1 m : S128.Idx) = (ix3 (0 : Fin 1) (0 : Fin 1) m : S1x1x128.Idx) :=
      Shape.reshapeEquiv_eq_of_rowMajor _ (by
        rw [Shape.rowMajor_val_three, Shape.rowMajor_val_one]
        show (0 * 1 + 0) * 128 + m.val = m.val
        omega)
    rw [e]
    match a with
    | ⟨0, _⟩ => show off 0 + 1 * 0 = bi.val; omega
    | ⟨1, _⟩ => show off 1 + 1 * 0 = c.val; omega
    | ⟨2, _⟩ => show off 2 + 1 * m.val = m.val; omega
  have hlt : (fP (ix3 (batchOf (jL L) bi) c m)).toNat < 2097152 := by
    rw [← hw]; exact hidx' f0 off hk squeezes_S1x1x128_S128 (ix1 m)
  show View.read (Elt F) ((flatV).slice (Rect.unit (s := S2097152) ![0] S2097152.size inb_S2097152_S2097152_0) (fun _ => rfl)).view fF _ = _
  rw [View.read_apply]
  refine (cast_eq _ _).trans (congrArg fF (funext fun (a : Fin 1) => Fin.ext ?_))
  obtain rfl : a = 0 := Subsingleton.elim _ _
  show 0 + 1 * (View.read (Elt F) (((idxS).slice (Rect.unit (s := S2x5x128) off S1x1x128.size hk) (fun _ => rfl)).squeeze S128 squeezes_S1x1x128_S128).view
        (idxAfter d L fP f0) (S128.rowMajor.symm (Fin.cast rfl (m : Fin 128)))).toNat = (fP (ix3 (batchOf (jL L) bi) c m)).toNat % 2097152
  have er : S128.rowMajor.symm (Fin.cast rfl (m : Fin 128)) = (ix1 m : S128.Idx) := by
    rw [Equiv.symm_apply_eq]; refine Fin.ext ?_; rw [Shape.rowMajor_val_one]; rfl
  rw [er, hw, Nat.mod_eq_of_lt hlt]; omega

end Gathers

/-! ## The prediction scratch after the eight gathers -/

section Pred
variable [FloatOps F]
variable (d : Dev nD) (L : grid0.Coords)
variable (fF : Buf (Elt F) (flatLoc d)) (fP : Buf (Elt F) (packLoc d))

/-- The prediction scratch once the eight gathers have landed, over whatever it held. -/
abbrev predAfter (hidx' : IdxFactW d L fP) (f0 : Buf (Elt F) ((V d (cV L) (jV L)).loc cc0_scratch0))
    (f1 : Buf (Elt F) ((V d (cV L) (jV L)).loc cc0_scratch1)) : Buf (Elt F) ((V d (cV L) (jV L)).loc cc0_scratch1) :=
  View.write (Elt F) (predW ![1, 3, 0] inb_S2x4x128_S1x1x128_1_3_0)
    (View.write (Elt F) (predW ![1, 2, 0] inb_S2x4x128_S1x1x128_1_2_0)
      (View.write (Elt F) (predW ![1, 1, 0] inb_S2x4x128_S1x1x128_1_1_0)
        (View.write (Elt F) (predW ![1, 0, 0] inb_S2x4x128_S1x1x128_1_0_0)
          (View.write (Elt F) (predW ![0, 3, 0] inb_S2x4x128_S1x1x128_0_3_0)
            (View.write (Elt F) (predW ![0, 2, 0] inb_S2x4x128_S1x1x128_0_2_0)
              (View.write (Elt F) (predW ![0, 1, 0] inb_S2x4x128_S1x1x128_0_1_0)
                (View.write (Elt F) (predW ![0, 0, 0] inb_S2x4x128_S1x1x128_0_0_0) f1
                  (gath d L fF fP hidx' f0 ![0, 0, 0] inb_S2x5x128_S1x1x128_0_0_0) Finset.univ)
                (gath d L fF fP hidx' f0 ![0, 1, 0] inb_S2x5x128_S1x1x128_0_1_0) Finset.univ)
              (gath d L fF fP hidx' f0 ![0, 2, 0] inb_S2x5x128_S1x1x128_0_2_0) Finset.univ)
            (gath d L fF fP hidx' f0 ![0, 3, 0] inb_S2x5x128_S1x1x128_0_3_0) Finset.univ)
          (gath d L fF fP hidx' f0 ![1, 0, 0] inb_S2x5x128_S1x1x128_1_0_0) Finset.univ)
        (gath d L fF fP hidx' f0 ![1, 1, 0] inb_S2x5x128_S1x1x128_1_1_0) Finset.univ)
      (gath d L fF fP hidx' f0 ![1, 2, 0] inb_S2x5x128_S1x1x128_1_2_0) Finset.univ)
    (gath d L fF fP hidx' f0 ![1, 3, 0] inb_S2x5x128_S1x1x128_1_3_0) Finset.univ

omit [FloatOps F] in
/-- THE PREDICTION SCRATCH: entry (bi, c, m) is the flattened map at the row the table's word (2 s + bi, c, m) names. -/
theorem pred_entry (hidx' : IdxFactW d L fP) (f0 : Buf (Elt F) ((V d (cV L) (jV L)).loc cc0_scratch0))
    (f1 : Buf (Elt F) ((V d (cV L) (jV L)).loc cc0_scratch1)) (bi : Fin 2) (c : Fin 4) (m : Fin 128) :
    predAfter d L fF fP hidx' f0 f1 (ix3 bi c m)
      = fF (rowOf (fP (ix3 (batchOf (jL L) bi) (Fin.castLE (by decide) c : Fin 5) m))) := by
  have hit : ∀ (bi : Fin 2) (c : Fin 4) (off : Fin 3 → ℕ) (hk : ∀ a, off a + S1x1x128.size a ≤ S2x5x128.size a),
      off 0 = bi.val → off 1 = c.val →
      gath d L fF fP hidx' f0 off hk (ix1 m) = fF (rowOf (fP (ix3 (batchOf (jL L) bi) (Fin.castLE (by decide) c : Fin 5) m))) :=
    fun bi c off hk h0 h1 => gath_apply d L fF fP hidx' f0 off hk bi (Fin.castLE (by decide) c) h0 h1 m
  unfold predAfter
  match bi, c with
  | ⟨0, hb⟩, ⟨0, hc⟩ =>
    rw [write_predW_miss d L _ _ _ _ _ _ _ (show ¬((0 : ℕ) = ![1, 3, 0] 0 ∧ (0 : ℕ) = ![1, 3, 0] 1) by decide),
      write_predW_miss d L _ _ _ _ _ _ _ (show ¬((0 : ℕ) = ![1, 2, 0] 0 ∧ (0 : ℕ) = ![1, 2, 0] 1) by decide),
      write_predW_miss d L _ _ _ _ _ _ _ (show ¬((0 : ℕ) = ![1, 1, 0] 0 ∧ (0 : ℕ) = ![1, 1, 0] 1) by decide),
      write_predW_miss d L _ _ _ _ _ _ _ (show ¬((0 : ℕ) = ![1, 0, 0] 0 ∧ (0 : ℕ) = ![1, 0, 0] 1) by decide),
      write_predW_miss d L _ _ _ _ _ _ _ (show ¬((0 : ℕ) = ![0, 3, 0] 0 ∧ (0 : ℕ) = ![0, 3, 0] 1) by decide),
      write_predW_miss d L _ _ _ _ _ _ _ (show ¬((0 : ℕ) = ![0, 2, 0] 0 ∧ (0 : ℕ) = ![0, 2, 0] 1) by decide),
      write_predW_miss d L _ _ _ _ _ _ _ (show ¬((0 : ℕ) = ![0, 1, 0] 0 ∧ (0 : ℕ) = ![0, 1, 0] 1) by decide),
      write_predW_hit d L _ _ _ _ _ _ _ (show (0 : ℕ) = ![0, 0, 0] 0 ∧ (0 : ℕ) = ![0, 0, 0] 1 from ⟨rfl, rfl⟩)]
    exact hit ⟨0, hb⟩ ⟨0, hc⟩ _ _ rfl rfl
  | ⟨0, hb⟩, ⟨1, hc⟩ =>
    rw [write_predW_miss d L _ _ _ _ _ _ _ (show ¬((0 : ℕ) = ![1, 3, 0] 0 ∧ (1 : ℕ) = ![1, 3, 0] 1) by decide),
      write_predW_miss d L _ _ _ _ _ _ _ (show ¬((0 : ℕ) = ![1, 2, 0] 0 ∧ (1 : ℕ) = ![1, 2, 0] 1) by decide),
      write_predW_miss d L _ _ _ _ _ _ _ (show ¬((0 : ℕ) = ![1, 1, 0] 0 ∧ (1 : ℕ) = ![1, 1, 0] 1) by decide),
      write_predW_miss d L _ _ _ _ _ _ _ (show ¬((0 : ℕ) = ![1, 0, 0] 0 ∧ (1 : ℕ) = ![1, 0, 0] 1) by decide),
      write_predW_miss d L _ _ _ _ _ _ _ (show ¬((0 : ℕ) = ![0, 3, 0] 0 ∧ (1 : ℕ) = ![0, 3, 0] 1) by decide),
      write_predW_miss d L _ _ _ _ _ _ _ (show ¬((0 : ℕ) = ![0, 2, 0] 0 ∧ (1 : ℕ) = ![0, 2, 0] 1) by decide),
      write_predW_hit d L _ _ _ _ _ _ _ (show (0 : ℕ) = ![0, 1, 0] 0 ∧ (1 : ℕ) = ![0, 1, 0] 1 from ⟨rfl, rfl⟩)]
    exact hit ⟨0, hb⟩ ⟨1, hc⟩ _ _ rfl rfl
  | ⟨0, hb⟩, ⟨2, hc⟩ =>
    rw [write_predW_miss d L _ _ _ _ _ _ _ (show ¬((0 : ℕ) = ![1, 3, 0] 0 ∧ (2 : ℕ) = ![1, 3, 0] 1) by decide),
      write_predW_miss d L _ _ _ _ _ _ _ (show ¬((0 : ℕ) = ![1, 2, 0] 0 ∧ (2 : ℕ) = ![1, 2, 0] 1) by decide),
      write_predW_miss d L _ _ _ _ _ _ _ (show ¬((0 : ℕ) = ![1, 1, 0] 0 ∧ (2 : ℕ) = ![1, 1, 0] 1) by decide),
      write_predW_miss d L _ _ _ _ _ _ _ (show ¬((0 : ℕ) = ![1, 0, 0] 0 ∧ (2 : ℕ) = ![1, 0, 0] 1) by decide),
      write_predW_miss d L _ _ _ _ _ _ _ (show ¬((0 : ℕ) = ![0, 3, 0] 0 ∧ (2 : ℕ) = ![0, 3, 0] 1) by decide),
      write_predW_hit d L _ _ _ _ _ _ _ (show (0 : ℕ) = ![0, 2, 0] 0 ∧ (2 : ℕ) = ![0, 2, 0] 1 from ⟨rfl, rfl⟩)]
    exact hit ⟨0, hb⟩ ⟨2, hc⟩ _ _ rfl rfl
  | ⟨0, hb⟩, ⟨3, hc⟩ =>
    rw [write_predW_miss d L _ _ _ _ _ _ _ (show ¬((0 : ℕ) = ![1, 3, 0] 0 ∧ (3 : ℕ) = ![1, 3, 0] 1) by decide),
      write_predW_miss d L _ _ _ _ _ _ _ (show ¬((0 : ℕ) = ![1, 2, 0] 0 ∧ (3 : ℕ) = ![1, 2, 0] 1) by decide),
      write_predW_miss d L _ _ _ _ _ _ _ (show ¬((0 : ℕ) = ![1, 1, 0] 0 ∧ (3 : ℕ) = ![1, 1, 0] 1) by decide),
      write_predW_miss d L _ _ _ _ _ _ _ (show ¬((0 : ℕ) = ![1, 0, 0] 0 ∧ (3 : ℕ) = ![1, 0, 0] 1) by decide),
      write_predW_hit d L _ _ _ _ _ _ _ (show (0 : ℕ) = ![0, 3, 0] 0 ∧ (3 : ℕ) = ![0, 3, 0] 1 from ⟨rfl, rfl⟩)]
    exact hit ⟨0, hb⟩ ⟨3, hc⟩ _ _ rfl rfl
  | ⟨1, hb⟩, ⟨0, hc⟩ =>
    rw [write_predW_miss d L _ _ _ _ _ _ _ (show ¬((1 : ℕ) = ![1, 3, 0] 0 ∧ (0 : ℕ) = ![1, 3, 0] 1) by decide),
      write_predW_miss d L _ _ _ _ _ _ _ (show ¬((1 : ℕ) = ![1, 2, 0] 0 ∧ (0 : ℕ) = ![1, 2, 0] 1) by decide),
      write_predW_miss d L _ _ _ _ _ _ _ (show ¬((1 : ℕ) = ![1, 1, 0] 0 ∧ (0 : ℕ) = ![1, 1, 0] 1) by decide),
      write_predW_hit d L _ _ _ _ _ _ _ (show (1 : ℕ) = ![1, 0, 0] 0 ∧ (0 : ℕ) = ![1, 0, 0] 1 from ⟨rfl, rfl⟩)]
    exact hit ⟨1, hb⟩ ⟨0, hc⟩ _ _ rfl rfl
  | ⟨1, hb⟩, ⟨1, hc⟩ =>
    rw [write_predW_miss d L _ _ _ _ _ _ _ (show ¬((1 : ℕ) = ![1, 3, 0] 0 ∧ (1 : ℕ) = ![1, 3, 0] 1) by decide),
      write_predW_miss d L _ _ _ _ _ _ _ (show ¬((1 : ℕ) = ![1, 2, 0] 0 ∧ (1 : ℕ) = ![1, 2, 0] 1) by decide),
      write_predW_hit d L _ _ _ _ _ _ _ (show (1 : ℕ) = ![1, 1, 0] 0 ∧ (1 : ℕ) = ![1, 1, 0] 1 from ⟨rfl, rfl⟩)]
    exact hit ⟨1, hb⟩ ⟨1, hc⟩ _ _ rfl rfl
  | ⟨1, hb⟩, ⟨2, hc⟩ =>
    rw [write_predW_miss d L _ _ _ _ _ _ _ (show ¬((1 : ℕ) = ![1, 3, 0] 0 ∧ (2 : ℕ) = ![1, 3, 0] 1) by decide),
      write_predW_hit d L _ _ _ _ _ _ _ (show (1 : ℕ) = ![1, 2, 0] 0 ∧ (2 : ℕ) = ![1, 2, 0] 1 from ⟨rfl, rfl⟩)]
    exact hit ⟨1, hb⟩ ⟨2, hc⟩ _ _ rfl rfl
  | ⟨1, hb⟩, ⟨3, hc⟩ =>
    rw [write_predW_hit d L _ _ _ _ _ _ _ (show (1 : ℕ) = ![1, 3, 0] 0 ∧ (3 : ℕ) = ![1, 3, 0] 1 from ⟨rfl, rfl⟩)]
    exact hit ⟨1, hb⟩ ⟨3, hc⟩ _ _ rfl rfl

end Pred

/-! ## The coordinates of a sixteen-lane load -/

section Bounds

theorem lt_of_inb {n k : ℕ} {x : ℕ} (h : x + k ≤ n) (hk : 0 < k) : x < n := by omega
theorem lane_lt {n x j : ℕ} (h : x + 16 ≤ n) (hj : j < 16) : x + j < n := by omega

variable {s : Shape}

end Bounds

/-! ## Sixteen-lane loads, as vectors

A load at offsets (bi, c, 16 ch) of a scratch array, cast to a 16-lane vector: lane j is the scratch's entry
(bi, c, 16 ch + j). -/

section Loads
variable [FloatOps F]
variable (d : Dev nD) (L : grid0.Coords)
variable (fF : Buf (Elt F) (flatLoc d)) (fP : Buf (Elt F) (packLoc d)) (fT : Buf (Elt F) (tgtLoc d))

omit [FloatOps F] in
/-- A load of the prediction scratch. -/
theorem pred_vec (hidx' : IdxFactW d L fP) (f0 : Buf (Elt F) ((V d (cV L) (jV L)).loc cc0_scratch0))
    (f1 : Buf (Elt F) ((V d (cV L) (jV L)).loc cc0_scratch1))
    (off : Fin 3 → ℕ) (hk : ∀ a, off a + S1x1x16.size a ≤ S2x4x128.size a) :
    shapeCast S16 (View.readAt (Elt F) (predS).view (Rect.unit (s := S2x4x128) off S1x1x16.size hk).toLoadRect
        (predAfter d L fF fP hidx' f0 f1)) shapeCasts_S1x1x16_S16
      = fun j : S16.Idx => fF (rowOf (fP (ix3 (batchOf (jL L) (⟨off 0, lt_of_inb (k := 1) (n := 2) (hk 0) Nat.one_pos⟩ : Fin 2)) (Fin.castLE (by decide) (⟨off 1, lt_of_inb (k := 1) (n := 4) (hk 1) Nat.one_pos⟩ : Fin 4) : Fin 5) (⟨off 2 + (j 0).val, lane_lt (n := 128) (hk 2) (j 0).isLt⟩ : Fin 128)))) := by
  funext j
  obtain ⟨jj, rfl⟩ : ∃ jj : Fin 16, j = ix1 jj := ⟨j 0, eq_ix1 j⟩
  rw [lane_apply, View.readAt_apply, View.read_apply]
  refine (cast_eq _ _).trans (Eq.trans (congrArg _ (funext fun (a : Fin 3) => Fin.ext ?_))
    (pred_entry d L fF fP hidx' f0 f1 ⟨off 0, lt_of_inb (k := 1) (n := 2) (hk 0) Nat.one_pos⟩ ⟨off 1, lt_of_inb (k := 1) (n := 4) (hk 1) Nat.one_pos⟩
      ⟨off 2 + jj.val, lane_lt (n := 128) (hk 2) jj.isLt⟩))
  match a with
  | ⟨0, _⟩ => show off 0 + 1 * 0 = off 0; omega
  | ⟨1, _⟩ => show off 1 + 1 * 0 = off 1; omega
  | ⟨2, _⟩ => show off 2 + 1 * jj.val = off 2 + jj.val; omega

omit [FloatOps F] in
/-- A load of the target scratch. -/
theorem tgt_vec (f3 : Buf (Elt F) ((V d (cV L) (jV L)).loc cc0_scratch3))
    (off : Fin 3 → ℕ) (hk : ∀ a, off a + S1x1x16.size a ≤ S2x4x128.size a) :
    shapeCast S16 (View.readAt (Elt F) (tgtS).view (Rect.unit (s := S2x4x128) off S1x1x16.size hk).toLoadRect
        (View.write (Elt F) (tgtS).view f3 (tileRun.sl.dma0_1 d L fT) Finset.univ)) shapeCasts_S1x1x16_S16
      = fun j : S16.Idx => fT (ix3 (batchOf (jL L) (⟨off 0, lt_of_inb (k := 1) (n := 2) (hk 0) Nat.one_pos⟩ : Fin 2)) (⟨off 1, lt_of_inb (k := 1) (n := 4) (hk 1) Nat.one_pos⟩ : Fin 4) (⟨off 2 + (j 0).val, lane_lt (n := 128) (hk 2) (j 0).isLt⟩ : Fin 128)) := by
  funext j
  obtain ⟨jj, rfl⟩ : ∃ jj : Fin 16, j = ix1 jj := ⟨j 0, eq_ix1 j⟩
  rw [lane_apply, View.readAt_apply]
  refine (Eq.trans (congrArg _ (funext fun (a : Fin 3) => Fin.ext ?_))
    (tgt_entry d L fT f3 ⟨off 0, lt_of_inb (k := 1) (n := 2) (hk 0) Nat.one_pos⟩ ⟨off 1, lt_of_inb (k := 1) (n := 4) (hk 1) Nat.one_pos⟩
      ⟨off 2 + jj.val, lane_lt (n := 128) (hk 2) jj.isLt⟩))
  match a with
  | ⟨0, _⟩ => show off 0 + 1 * 0 = off 0; omega
  | ⟨1, _⟩ => show off 1 + 1 * 0 = off 1; omega
  | ⟨2, _⟩ => show off 2 + 1 * jj.val = off 2 + jj.val; omega

omit [FloatOps F] in
/-- A load of the index scratch. -/
theorem idx_vec (f0 : Buf (Elt F) ((V d (cV L) (jV L)).loc cc0_scratch0))
    (off : Fin 3 → ℕ) (hk : ∀ a, off a + S1x1x16.size a ≤ S2x5x128.size a) :
    shapeCast S16 (View.readAt (Elt F) (idxS).view (Rect.unit (s := S2x5x128) off S1x1x16.size hk).toLoadRect
        (View.write (Elt F) (idxS).view f0 (tileRun.sl.dma0 d L fP) Finset.univ)) shapeCasts_S1x1x16_S16
      = fun j : S16.Idx => fP (ix3 (batchOf (jL L) (⟨off 0, lt_of_inb (k := 1) (n := 2) (hk 0) Nat.one_pos⟩ : Fin 2)) (⟨off 1, lt_of_inb (k := 1) (n := 5) (hk 1) Nat.one_pos⟩ : Fin 5) (⟨off 2 + (j 0).val, lane_lt (n := 128) (hk 2) (j 0).isLt⟩ : Fin 128)) := by
  funext j
  obtain ⟨jj, rfl⟩ : ∃ jj : Fin 16, j = ix1 jj := ⟨j 0, eq_ix1 j⟩
  rw [lane_apply, View.readAt_apply]
  refine (Eq.trans (congrArg _ (funext fun (a : Fin 3) => Fin.ext ?_))
    (idx_entry d L fP f0 ⟨off 0, lt_of_inb (k := 1) (n := 2) (hk 0) Nat.one_pos⟩ ⟨off 1, lt_of_inb (k := 1) (n := 5) (hk 1) Nat.one_pos⟩
      ⟨off 2 + jj.val, lane_lt (n := 128) (hk 2) jj.isLt⟩))
  match a with
  | ⟨0, _⟩ => show off 0 + 1 * 0 = off 0; omega
  | ⟨1, _⟩ => show off 1 + 1 * 0 = off 1; omega
  | ⟨2, _⟩ => show off 2 + 1 * jj.val = off 2 + jj.val; omega

end Loads

end Cert.Proof.TileI

end
-- ==== Proof.TileMaskIdeal.lean ====
/-
  A subcore's sum of masks. The second block the subcore stores adds up, lane by lane and from the zero word, the
  sixteen 16-lane loads of row 4 of its index scratch (the mask of its two batches, eight chunks of sixteen objects
  each) converted to floats, in the order batch bit, chunk. Each load at lane j is the table's mask word of object
  16 ch + j of batch 2 s + bi, so the block at lane j is the sum of masks the specification names.
-/
import proofs.«219714_g10557029613686_week1_w2_465_59_alg».proof.Proof.TileScratchIdeal

noncomputable section

namespace Cert.Proof.TileI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Cert.Proof.SpecI

section Mask

variable (d : Dev nD) (L : grid0.Coords)
variable (fP : Buf (Elt F) (packLoc d))
variable [FloatOps F]

/-- Lane j of the chain of additions the subcore's mask sum is, over any sixteen loaded vectors. -/
theorem macc_chain (l0 l1 l2 l3 l4 l5 l6 l7 l8 l9 l10 l11 l12 l13 l14 l15 : Vec F S1x1x16 .i32) (j : Fin 16) :
    k0_pay21 (k0_pay15 (k0_pay8 l0 l1 l2 l3 l4) l5 l6 l7 l8 l9 l10) (k0_pay16 l11) l12 l13 l14 l15 (ix1 j)
      = FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf ((Scalar.ofBits .f32 0x00000000#32 : F .f32)) (FloatOps.sitofp .f32 (l0 (ix3 (0 : Fin 1) (0 : Fin 1) j)))) (FloatOps.sitofp .f32 (l1 (ix3 (0 : Fin 1) (0 : Fin 1) j)))) (FloatOps.sitofp .f32 (l2 (ix3 (0 : Fin 1) (0 : Fin 1) j)))) (FloatOps.sitofp .f32 (l3 (ix3 (0 : Fin 1) (0 : Fin 1) j)))) (FloatOps.sitofp .f32 (l4 (ix3 (0 : Fin 1) (0 : Fin 1) j)))) (FloatOps.sitofp .f32 (l5 (ix3 (0 : Fin 1) (0 : Fin 1) j)))) (FloatOps.sitofp .f32 (l6 (ix3 (0 : Fin 1) (0 : Fin 1) j)))) (FloatOps.sitofp .f32 (l7 (ix3 (0 : Fin 1) (0 : Fin 1) j)))) (FloatOps.sitofp .f32 (l8 (ix3 (0 : Fin 1) (0 : Fin 1) j)))) (FloatOps.sitofp .f32 (l9 (ix3 (0 : Fin 1) (0 : Fin 1) j)))) (FloatOps.sitofp .f32 (l10 (ix3 (0 : Fin 1) (0 : Fin 1) j)))) (FloatOps.sitofp .f32 (l11 (ix3 (0 : Fin 1) (0 : Fin 1) j)))) (FloatOps.sitofp .f32 (l12 (ix3 (0 : Fin 1) (0 : Fin 1) j)))) (FloatOps.sitofp .f32 (l13 (ix3 (0 : Fin 1) (0 : Fin 1) j)))) (FloatOps.sitofp .f32 (l14 (ix3 (0 : Fin 1) (0 : Fin 1) j)))) (FloatOps.sitofp .f32 (l15 (ix3 (0 : Fin 1) (0 : Fin 1) j))) := by
  rw [← lane_apply l0 j, ← lane_apply l1 j, ← lane_apply l2 j, ← lane_apply l3 j, ← lane_apply l4 j, ← lane_apply l5 j, ← lane_apply l6 j, ← lane_apply l7 j, ← lane_apply l8 j, ← lane_apply l9 j, ← lane_apply l10 j, ← lane_apply l11 j, ← lane_apply l12 j, ← lane_apply l13 j, ← lane_apply l14 j, ← lane_apply l15 j]
  rfl

/-- THE MASK HALF: the second block the subcore stores, at lane j, is its sum of masks. -/
theorem macc_value (f0 : Buf (Elt F) ((V d (cV L) (jV L)).loc cc0_scratch0)) (j : Fin 16) :
    k0_pay2 (tileRun.sl.r_18 d L fP f0) (ix2 (0 : Fin 1) j) = SpecI.maccAt (F := F) fP (jL L) j := by
  unfold k0_pay2
  rw [row_apply]
  refine (macc_chain _ _ _ _ _ _ _ _ _ _ _ _ _ _ _ _ j).trans ?_
  rw [idx_load d L fP f0 ![0, 4, 0] inb_S2x5x128_S1x1x16_0_4_0 (0 : Fin 2) (4 : Fin 5) (0 : Fin 8) rfl j,
    idx_load d L fP f0 ![0, 4, 16] inb_S2x5x128_S1x1x16_0_4_16 (0 : Fin 2) (4 : Fin 5) (1 : Fin 8) rfl j,
    idx_load d L fP f0 ![0, 4, 32] inb_S2x5x128_S1x1x16_0_4_32 (0 : Fin 2) (4 : Fin 5) (2 : Fin 8) rfl j,
    idx_load d L fP f0 ![0, 4, 48] inb_S2x5x128_S1x1x16_0_4_48 (0 : Fin 2) (4 : Fin 5) (3 : Fin 8) rfl j,
    idx_load d L fP f0 ![0, 4, 64] inb_S2x5x128_S1x1x16_0_4_64 (0 : Fin 2) (4 : Fin 5) (4 : Fin 8) rfl j,
    idx_load d L fP f0 ![0, 4, 80] inb_S2x5x128_S1x1x16_0_4_80 (0 : Fin 2) (4 : Fin 5) (5 : Fin 8) rfl j,
    idx_load d L fP f0 ![0, 4, 96] inb_S2x5x128_S1x1x16_0_4_96 (0 : Fin 2) (4 : Fin 5) (6 : Fin 8) rfl j,
    idx_load d L fP f0 ![0, 4, 112] inb_S2x5x128_S1x1x16_0_4_112 (0 : Fin 2) (4 : Fin 5) (7 : Fin 8) rfl j,
    idx_load d L fP f0 ![1, 4, 0] inb_S2x5x128_S1x1x16_1_4_0 (1 : Fin 2) (4 : Fin 5) (0 : Fin 8) rfl j,
    idx_load d L fP f0 ![1, 4, 16] inb_S2x5x128_S1x1x16_1_4_16 (1 : Fin 2) (4 : Fin 5) (1 : Fin 8) rfl j,
    idx_load d L fP f0 ![1, 4, 32] inb_S2x5x128_S1x1x16_1_4_32 (1 : Fin 2) (4 : Fin 5) (2 : Fin 8) rfl j,
    idx_load d L fP f0 ![1, 4, 48] inb_S2x5x128_S1x1x16_1_4_48 (1 : Fin 2) (4 : Fin 5) (3 : Fin 8) rfl j,
    idx_load d L fP f0 ![1, 4, 64] inb_S2x5x128_S1x1x16_1_4_64 (1 : Fin 2) (4 : Fin 5) (4 : Fin 8) rfl j,
    idx_load d L fP f0 ![1, 4, 80] inb_S2x5x128_S1x1x16_1_4_80 (1 : Fin 2) (4 : Fin 5) (5 : Fin 8) rfl j,
    idx_load d L fP f0 ![1, 4, 96] inb_S2x5x128_S1x1x16_1_4_96 (1 : Fin 2) (4 : Fin 5) (6 : Fin 8) rfl j,
    idx_load d L fP f0 ![1, 4, 112] inb_S2x5x128_S1x1x16_1_4_112 (1 : Fin 2) (4 : Fin 5) (7 : Fin 8) rfl j]
  unfold SpecI.maccAt SpecI.maskAt
  rw [show List.finRange 16 = [0, 1, 2, 3, 4, 5, 6, 7, 8, 9, 10, 11, 12, 13, 14, 15] from by decide]
  rfl

end Mask

end Cert.Proof.TileI

end
-- ==== Proof.TileStoreIdeal.lean ====
/-
  What a subcore writes to its row of the result, read back. The subcore stores two [1, 16] blocks into its [2, 16]
  scratch, the sum of masks at row 1 and then the sum of terms at row 0, and copies the scratch to row s of the
  [16, 2, 16] result. Reading the scratch after the two stores gives, at (1, j), lane j of the first block and, at
  (0, j), lane j of the second (the first block does not reach row 0); and entry (r, j) of the subcore's row of the
  result is entry (s, r, j) of the whole. So the row written is the row of partial sums as soon as the block of terms
  is the sum of terms: the block of masks is the sum of masks.
-/
import proofs.«219714_g10557029613686_week1_w2_465_59_alg».proof.Proof.TileMaskIdeal

noncomputable section

namespace Cert.Proof.TileI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Cert.Proof.SpecI

section Store

variable (d : Dev nD) (L : grid0.Coords)
variable (fF : Buf (Elt F) (flatLoc d)) (fP : Buf (Elt F) (packLoc d)) (fT : Buf (Elt F) (tgtLoc d))
variable (q0 q1 q2 : PosShare TreeShare)
variable [FloatOps F]

/-- Where the first stored block lands: row 1. -/
theorem blk1_emb (j : Fin 16) :
    (Rect.unit (s := S2x16) ![1, 0] S1x16.size inb_S2x16_S1x16_1_0).emb (ix2 (0 : Fin 1) j) = (ix2 (1 : Fin 2) j : S2x16.Idx) := by
  funext (a : Fin 2)
  apply Fin.ext
  fin_cases a
  · show 1 + 1 * 0 = 1
    rfl
  · show 0 + 1 * j.val = j.val
    omega

/-- Where the second stored block lands: row 0. -/
theorem blk0_emb (j : Fin 16) :
    (Rect.unit (s := S2x16) ![0, 0] S1x16.size inb_S2x16_S1x16_0_0).emb (ix2 (0 : Fin 1) j) = (ix2 (0 : Fin 2) j : S2x16.Idx) := by
  funext (a : Fin 2)
  apply Fin.ext
  fin_cases a
  · show 0 + 1 * 0 = 0
    rfl
  · show 0 + 1 * j.val = j.val
    omega

/-- The scratch after the two stores, at (1, j): lane j of the first block. -/
theorem store_read1 (f2 : Buf (Elt F) ((V d (cV L) (jV L)).loc cc0_scratch2)) (p1 p0 : S1x16.Idx → Elt F .f32) (j : Fin 16) :
    View.read (Elt F) (partS).view ((partS).view.writes (Elt F) f2
        [⟨Rect.unit ![1, 0] S1x16.size inb_S2x16_S1x16_1_0, p1⟩, ⟨Rect.unit ![0, 0] S1x16.size inb_S2x16_S1x16_0_0, p0⟩]) (ix2 (1 : Fin 2) j)
      = p1 (ix2 (0 : Fin 1) j) := by
  rw [← blk1_emb j]
  exact View.read_writes_cons_emb _ _ _ _ _ _

/-- The scratch after the two stores, at (0, j): lane j of the second block. -/
theorem store_read0 (f2 : Buf (Elt F) ((V d (cV L) (jV L)).loc cc0_scratch2)) (p1 p0 : S1x16.Idx → Elt F .f32) (j : Fin 16) :
    View.read (Elt F) (partS).view ((partS).view.writes (Elt F) f2
        [⟨Rect.unit ![1, 0] S1x16.size inb_S2x16_S1x16_1_0, p1⟩, ⟨Rect.unit ![0, 0] S1x16.size inb_S2x16_S1x16_0_0, p0⟩]) (ix2 (0 : Fin 2) j)
      = p0 (ix2 (0 : Fin 1) j) := by
  rw [View.writes_cons, View.read_slice_write_of_not_mem _ _ _ _ (by
    intro hm
    obtain ⟨x, -, hx⟩ := Finset.mem_map.mp hm
    have h0 := congrArg (fun i : S2x16.Idx => (i 0).val) hx
    change 1 + 1 * (x 0).val = 0 at h0
    omega)]
  rw [← blk0_emb j]
  exact View.read_writes_cons_emb _ _ _ _ _ _

/-- Entry (r, j) of the subcore's row of the result is entry (s, r, j) of the whole result. -/
theorem outRow_emb (x : S2x16.Idx) : (outRowK L).view.emb x = (ix3 (jL L) (x 0) (x 1) : S16x2x16.Idx) := by
  have hx : Shape.reshapeEquiv squeezes_S1x2x16_S2x16.numel_eq x = (ix3 (0 : Fin 1) (x 0) (x 1) : S1x2x16.Idx) := by
    conv_lhs => rw [eq_ix2 x]
    exact reshapeEquiv_ix2_1ab _ (x 0) (x 1)
  funext (a : Fin 3)
  apply Fin.ext
  show (k0_off3 L) a + 1 * ((Shape.reshapeEquiv squeezes_S1x2x16_S2x16.numel_eq x) a).val
    = ((ix3 (jL L) (x 0) (x 1) : S16x2x16.Idx) a).val
  rw [hx, k0_off3_eq]
  fin_cases a
  · show (L 1).val + 1 * 0 = (L 1).val
    omega
  · show 0 + 1 * (x 0).val = (x 0).val
    omega
  · show 0 + 1 * (x 1).val = (x 1).val
    omega

/-- The block the run hands back is the scratch read back after the two stores. -/
theorem tileRun_val (hF : (K (F := F)).Facts) (hidx) (hidx')
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) (f3 : Buf (Elt F) ((V d (cV L) (jV L)).loc cc0_scratch3)) :
    (tileRun d L fF fP fT q0 q1 q2 hF hidx hidx').val f0 f1 f2 f3
      = View.read (Elt F) (partS).view ((partS).view.writes (Elt F) f2 (tileRun.sl.H2'_2 d L fF fP fT hidx' f0 f1 f3)) := rfl

/-- The block of terms being the sum of terms, the block the run hands back is the row of partial sums: at (r, j). -/
theorem tile_value_at (hF : (K (F := F)).Facts) (hidx) (hidx')
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) (f3 : Buf (Elt F) ((V d (cV L) (jV L)).loc cc0_scratch3))
    (hacc : ∀ j : Fin 16,
      k0_pay1 (tileRun.sl.r_91 d L fF fP fT hidx' f0 f1 f3) (tileRun.sl.r_92 d L fF fP fT hidx' f0 f1 f3)
          (tileRun.sl.r_93 d L fF fP fT hidx' f0 f1 f3) (tileRun.sl.r_94 d L fF fP fT hidx' f0 f1 f3) k0_pay108 (ix2 (0 : Fin 1) j)
        = SpecI.accAt (F := F) fF fP fT (jL L) j)
    (r : Fin 2) (j : Fin 16) :
    (tileRun d L fF fP fT q0 q1 q2 hF hidx hidx').val f0 f1 f2 f3 (ix2 r j)
      = SpecI.partsOf (F := F) fF fP fT (ix3 (jL L) r j) := by
  rw [tileRun_val]
  unfold tileRun.sl.H2'_2
  fin_cases r
  · show View.read (Elt F) (partS).view _ (ix2 (0 : Fin 2) j) = SpecI.partsOf (F := F) fF fP fT (ix3 (jL L) (0 : Fin 2) j)
    rw [store_read0, hacc]
    rfl
  · show View.read (Elt F) (partS).view _ (ix2 (1 : Fin 2) j) = SpecI.partsOf (F := F) fF fP fT (ix3 (jL L) (1 : Fin 2) j)
    rw [store_read1, macc_value]
    rfl

/-- THE ROW WRITTEN, from the sum of terms alone: the block the run hands back is the subcore's row of the partial sums
    as soon as the block of terms it stores is the sum of terms. -/
theorem tile_value_of_acc (hF : (K (F := F)).Facts) (hidx) (hidx')
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) (f3 : Buf (Elt F) ((V d (cV L) (jV L)).loc cc0_scratch3))
    (hacc : ∀ j : Fin 16,
      k0_pay1 (tileRun.sl.r_91 d L fF fP fT hidx' f0 f1 f3) (tileRun.sl.r_92 d L fF fP fT hidx' f0 f1 f3)
          (tileRun.sl.r_93 d L fF fP fT hidx' f0 f1 f3) (tileRun.sl.r_94 d L fF fP fT hidx' f0 f1 f3) k0_pay108 (ix2 (0 : Fin 1) j)
        = SpecI.accAt (F := F) fF fP fT (jL L) j)
    (x : S2x16.Idx) :
    (tileRun d L fF fP fT q0 q1 q2 hF hidx hidx').val f0 f1 f2 f3 x
      = SpecI.partsOf (F := F) fF fP fT ((outRowK L).view.emb x) := by
  rw [outRow_emb]
  have h := tile_value_at d L fF fP fT q0 q1 q2 hF hidx hidx' f0 f1 f2 f3 hacc (x 0) (x 1)
  exact (congrArg ((tileRun d L fF fP fT q0 q1 q2 hF hidx hidx').val f0 f1 f2 f3) (eq_ix2 x)).trans h

end Store

end Cert.Proof.TileI

end
-- ==== Proof.TileSumsIdeal.lean ====
/-
  Lane j of the first block a subcore stores is its sum of terms. The body is unrolled: for each of its two batches,
  the four channels and the eight chunks of sixteen objects, in that order, it loads sixteen predictions, sixteen
  targets and (once per batch and chunk) sixteen masks, forms the smooth-L1 term of (prediction - target) * mask and
  adds it to the running sum, which starts at zero. With each load read as the lanes of its array, the unrolled chain is,
  term by term, the left fold that defines the sum. With the block of mask sums, this is the subcore's row of the
  partial sums.
-/
import proofs.«219714_g10557029613686_week1_w2_465_59_alg».proof.Proof.TileLoadsIdeal
import proofs.«219714_g10557029613686_week1_w2_465_59_alg».proof.Proof.TileStoreIdeal

noncomputable section

namespace Cert.Proof.TileI

open Cert.KernelIdeal Cert.KernelIdeal.Gen
open Idealize.ShloMosaic Idealize.ShloMosaic.ValueIdx
open Idealize.ShloMosaic.SparseCore (S V T)
open Cert.Proof.SpecI
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

open Lean Elab Tactic Meta in
/-- Unfold, in the goal, the registers the run of the body recorded and the payload definitions of the program's
    skeleton (the fetched contents and the loaded prediction vectors stay folded), then substitute their local
    definitions. -/
elab "unfold_recorded" : tactic => do
  let g ← getMainGoal
  let t ← instantiateMVars (← g.getType)
  let isLoad : Name → Bool := fun n =>
    let s := n.components.getLast!.toString
    s.startsWith "v" || s.startsWith "dma"
  let pred : Name → Bool := fun n => ((`Cert.Proof.TileI.tileRun.sl).isPrefixOf n && !(isLoad n)) ||
    ((`Cert.KernelIdeal.Gen).isPrefixOf n && (n.components.getLast!.toString.startsWith "k0_pay"))
  let t' ← deltaExpand t pred
  let t' ← Core.betaReduce t'
  let t' ← zetaReduce t'
  let g' ← g.replaceTargetDefEq t'
  replaceMainGoal [g']

/-! ## The lanes of the three kinds of load -/

section Lanes
variable [FloatOps F]
variable (d : Dev nD) (L : grid0.Coords)
variable (fF : Buf (Elt F) (flatLoc d)) (fP : Buf (Elt F) (packLoc d)) (fT : Buf (Elt F) (tgtLoc d))

/-- Lanes base .. base + 15 of row (bi, c) of the predictions: the flattened map at the rows the table names. -/
abbrev predLane (bi : Fin 2) (c : Fin 4) (base : ℕ) (hb : base + 16 ≤ 128) : FVec F S16 .f32 :=
  fun j => fF (rowOf (fP (ix3 (batchOf (jL L) bi) (Fin.castLE (by decide) c : Fin 5) (⟨base + (j 0).val, lane_lt hb (j 0).isLt⟩ : Fin 128))))

/-- The same lanes of the targets. -/
abbrev tgtLane (bi : Fin 2) (c : Fin 4) (base : ℕ) (hb : base + 16 ≤ 128) : FVec F S16 .f32 :=
  fun j => fT (ix3 (batchOf (jL L) bi) c (⟨base + (j 0).val, lane_lt hb (j 0).isLt⟩ : Fin 128))

/-- The same lanes of row r of the packed table. -/
abbrev packLane (bi : Fin 2) (r : Fin 5) (base : ℕ) (hb : base + 16 ≤ 128) : IVec S16 32 :=
  fun j => fP (ix3 (batchOf (jL L) bi) r (⟨base + (j 0).val, lane_lt hb (j 0).isLt⟩ : Fin 128))

end Lanes

section PredLoads
variable [FloatOps F]
variable (d : Dev nD) (L : grid0.Coords)
variable (fF : Buf (Elt F) (flatLoc d)) (fP : Buf (Elt F) (packLoc d))
variable (hidx' : IdxFactW d L fP) (f0 : Buf (Elt F) ((V d (cV L) (jV L)).loc cc0_scratch0)) (f1 : Buf (Elt F) ((V d (cV L) (jV L)).loc cc0_scratch1))

omit [FloatOps F] in
theorem v155_vec : shapeCast S16 (tileRun.sl.v155 d L fF fP hidx' f0 f1) shapeCasts_S1x1x16_S16 = predLane d L fF fP 0 0 0 (by decide) :=
  pred_vec d L fF fP hidx' f0 f1 ![0, 0, 0] inb_S2x4x128_S1x1x16_0_0_0
omit [FloatOps F] in
theorem v175_vec : shapeCast S16 (tileRun.sl.v175 d L fF fP hidx' f0 f1) shapeCasts_S1x1x16_S16 = predLane d L fF fP 0 0 16 (by decide) :=
  pred_vec d L fF fP hidx' f0 f1 ![0, 0, 16] inb_S2x4x128_S1x1x16_0_0_16
omit [FloatOps F] in
theorem v195_vec : shapeCast S16 (tileRun.sl.v195 d L fF fP hidx' f0 f1) shapeCasts_S1x1x16_S16 = predLane d L fF fP 0 0 32 (by decide) :=
  pred_vec d L fF fP hidx' f0 f1 ![0, 0, 32] inb_S2x4x128_S1x1x16_0_0_32
omit [FloatOps F] in
theorem v215_vec : shapeCast S16 (tileRun.sl.v215 d L fF fP hidx' f0 f1) shapeCasts_S1x1x16_S16 = predLane d L fF fP 0 0 48 (by decide) :=
  pred_vec d L fF fP hidx' f0 f1 ![0, 0, 48] inb_S2x4x128_S1x1x16_0_0_48
omit [FloatOps F] in
theorem v235_vec : shapeCast S16 (tileRun.sl.v235 d L fF fP hidx' f0 f1) shapeCasts_S1x1x16_S16 = predLane d L fF fP 0 0 64 (by decide) :=
  pred_vec d L fF fP hidx' f0 f1 ![0, 0, 64] inb_S2x4x128_S1x1x16_0_0_64
omit [FloatOps F] in
theorem v255_vec : shapeCast S16 (tileRun.sl.v255 d L fF fP hidx' f0 f1) shapeCasts_S1x1x16_S16 = predLane d L fF fP 0 0 80 (by decide) :=
  pred_vec d L fF fP hidx' f0 f1 ![0, 0, 80] inb_S2x4x128_S1x1x16_0_0_80
omit [FloatOps F] in
theorem v275_vec : shapeCast S16 (tileRun.sl.v275 d L fF fP hidx' f0 f1) shapeCasts_S1x1x16_S16 = predLane d L fF fP 0 0 96 (by decide) :=
  pred_vec d L fF fP hidx' f0 f1 ![0, 0, 96] inb_S2x4x128_S1x1x16_0_0_96
omit [FloatOps F] in
theorem v295_vec : shapeCast S16 (tileRun.sl.v295 d L fF fP hidx' f0 f1) shapeCasts_S1x1x16_S16 = predLane d L fF fP 0 0 112 (by decide) :=
  pred_vec d L fF fP hidx' f0 f1 ![0, 0, 112] inb_S2x4x128_S1x1x16_0_0_112
omit [FloatOps F] in
theorem v320_vec : shapeCast S16 (tileRun.sl.v320 d L fF fP hidx' f0 f1) shapeCasts_S1x1x16_S16 = predLane d L fF fP 0 1 0 (by decide) :=
  pred_vec d L fF fP hidx' f0 f1 ![0, 1, 0] inb_S2x4x128_S1x1x16_0_1_0
omit [FloatOps F] in
theorem v340_vec : shapeCast S16 (tileRun.sl.v340 d L fF fP hidx' f0 f1) shapeCasts_S1x1x16_S16 = predLane d L fF fP 0 1 16 (by decide) :=
  pred_vec d L fF fP hidx' f0 f1 ![0, 1, 16] inb_S2x4x128_S1x1x16_0_1_16
omit [FloatOps F] in
theorem v360_vec : shapeCast S16 (tileRun.sl.v360 d L fF fP hidx' f0 f1) shapeCasts_S1x1x16_S16 = predLane d L fF fP 0 1 32 (by decide) :=
  pred_vec d L fF fP hidx' f0 f1 ![0, 1, 32] inb_S2x4x128_S1x1x16_0_1_32
omit [FloatOps F] in
theorem v380_vec : shapeCast S16 (tileRun.sl.v380 d L fF fP hidx' f0 f1) shapeCasts_S1x1x16_S16 = predLane d L fF fP 0 1 48 (by decide) :=
  pred_vec d L fF fP hidx' f0 f1 ![0, 1, 48] inb_S2x4x128_S1x1x16_0_1_48
omit [FloatOps F] in
theorem v400_vec : shapeCast S16 (tileRun.sl.v400 d L fF fP hidx' f0 f1) shapeCasts_S1x1x16_S16 = predLane d L fF fP 0 1 64 (by decide) :=
  pred_vec d L fF fP hidx' f0 f1 ![0, 1, 64] inb_S2x4x128_S1x1x16_0_1_64
omit [FloatOps F] in
theorem v420_vec : shapeCast S16 (tileRun.sl.v420 d L fF fP hidx' f0 f1) shapeCasts_S1x1x16_S16 = predLane d L fF fP 0 1 80 (by decide) :=
  pred_vec d L fF fP hidx' f0 f1 ![0, 1, 80] inb_S2x4x128_S1x1x16_0_1_80
omit [FloatOps F] in
theorem v440_vec : shapeCast S16 (tileRun.sl.v440 d L fF fP hidx' f0 f1) shapeCasts_S1x1x16_S16 = predLane d L fF fP 0 1 96 (by decide) :=
  pred_vec d L fF fP hidx' f0 f1 ![0, 1, 96] inb_S2x4x128_S1x1x16_0_1_96
omit [FloatOps F] in
theorem v460_vec : shapeCast S16 (tileRun.sl.v460 d L fF fP hidx' f0 f1) shapeCasts_S1x1x16_S16 = predLane d L fF fP 0 1 112 (by decide) :=
  pred_vec d L fF fP hidx' f0 f1 ![0, 1, 112] inb_S2x4x128_S1x1x16_0_1_112
omit [FloatOps F] in
theorem v485_vec : shapeCast S16 (tileRun.sl.v485 d L fF fP hidx' f0 f1) shapeCasts_S1x1x16_S16 = predLane d L fF fP 0 2 0 (by decide) :=
  pred_vec d L fF fP hidx' f0 f1 ![0, 2, 0] inb_S2x4x128_S1x1x16_0_2_0
omit [FloatOps F] in
theorem v505_vec : shapeCast S16 (tileRun.sl.v505 d L fF fP hidx' f0 f1) shapeCasts_S1x1x16_S16 = predLane d L fF fP 0 2 16 (by decide) :=
  pred_vec d L fF fP hidx' f0 f1 ![0, 2, 16] inb_S2x4x128_S1x1x16_0_2_16
omit [FloatOps F] in
theorem v525_vec : shapeCast S16 (tileRun.sl.v525 d L fF fP hidx' f0 f1) shapeCasts_S1x1x16_S16 = predLane d L fF fP 0 2 32 (by decide) :=
  pred_vec d L fF fP hidx' f0 f1 ![0, 2, 32] inb_S2x4x128_S1x1x16_0_2_32
omit [FloatOps F] in
theorem v545_vec : shapeCast S16 (tileRun.sl.v545 d L fF fP hidx' f0 f1) shapeCasts_S1x1x16_S16 = predLane d L fF fP 0 2 48 (by decide) :=
  pred_vec d L fF fP hidx' f0 f1 ![0, 2, 48] inb_S2x4x128_S1x1x16_0_2_48
omit [FloatOps F] in
theorem v565_vec : shapeCast S16 (tileRun.sl.v565 d L fF fP hidx' f0 f1) shapeCasts_S1x1x16_S16 = predLane d L fF fP 0 2 64 (by decide) :=
  pred_vec d L fF fP hidx' f0 f1 ![0, 2, 64] inb_S2x4x128_S1x1x16_0_2_64
omit [FloatOps F] in
theorem v585_vec : shapeCast S16 (tileRun.sl.v585 d L fF fP hidx' f0 f1) shapeCasts_S1x1x16_S16 = predLane d L fF fP 0 2 80 (by decide) :=
  pred_vec d L fF fP hidx' f0 f1 ![0, 2, 80] inb_S2x4x128_S1x1x16_0_2_80
omit [FloatOps F] in
theorem v605_vec : shapeCast S16 (tileRun.sl.v605 d L fF fP hidx' f0 f1) shapeCasts_S1x1x16_S16 = predLane d L fF fP 0 2 96 (by decide) :=
  pred_vec d L fF fP hidx' f0 f1 ![0, 2, 96] inb_S2x4x128_S1x1x16_0_2_96
omit [FloatOps F] in
theorem v625_vec : shapeCast S16 (tileRun.sl.v625 d L fF fP hidx' f0 f1) shapeCasts_S1x1x16_S16 = predLane d L fF fP 0 2 112 (by decide) :=
  pred_vec d L fF fP hidx' f0 f1 ![0, 2, 112] inb_S2x4x128_S1x1x16_0_2_112
omit [FloatOps F] in
theorem v650_vec : shapeCast S16 (tileRun.sl.v650 d L fF fP hidx' f0 f1) shapeCasts_S1x1x16_S16 = predLane d L fF fP 0 3 0 (by decide) :=
  pred_vec d L fF fP hidx' f0 f1 ![0, 3, 0] inb_S2x4x128_S1x1x16_0_3_0
omit [FloatOps F] in
theorem v670_vec : shapeCast S16 (tileRun.sl.v670 d L fF fP hidx' f0 f1) shapeCasts_S1x1x16_S16 = predLane d L fF fP 0 3 16 (by decide) :=
  pred_vec d L fF fP hidx' f0 f1 ![0, 3, 16] inb_S2x4x128_S1x1x16_0_3_16
omit [FloatOps F] in
theorem v690_vec : shapeCast S16 (tileRun.sl.v690 d L fF fP hidx' f0 f1) shapeCasts_S1x1x16_S16 = predLane d L fF fP 0 3 32 (by decide) :=
  pred_vec d L fF fP hidx' f0 f1 ![0, 3, 32] inb_S2x4x128_S1x1x16_0_3_32
omit [FloatOps F] in
theorem v710_vec : shapeCast S16 (tileRun.sl.v710 d L fF fP hidx' f0 f1) shapeCasts_S1x1x16_S16 = predLane d L fF fP 0 3 48 (by decide) :=
  pred_vec d L fF fP hidx' f0 f1 ![0, 3, 48] inb_S2x4x128_S1x1x16_0_3_48
omit [FloatOps F] in
theorem v730_vec : shapeCast S16 (tileRun.sl.v730 d L fF fP hidx' f0 f1) shapeCasts_S1x1x16_S16 = predLane d L fF fP 0 3 64 (by decide) :=
  pred_vec d L fF fP hidx' f0 f1 ![0, 3, 64] inb_S2x4x128_S1x1x16_0_3_64
omit [FloatOps F] in
theorem v750_vec : shapeCast S16 (tileRun.sl.v750 d L fF fP hidx' f0 f1) shapeCasts_S1x1x16_S16 = predLane d L fF fP 0 3 80 (by decide) :=
  pred_vec d L fF fP hidx' f0 f1 ![0, 3, 80] inb_S2x4x128_S1x1x16_0_3_80
omit [FloatOps F] in
theorem v770_vec : shapeCast S16 (tileRun.sl.v770 d L fF fP hidx' f0 f1) shapeCasts_S1x1x16_S16 = predLane d L fF fP 0 3 96 (by decide) :=
  pred_vec d L fF fP hidx' f0 f1 ![0, 3, 96] inb_S2x4x128_S1x1x16_0_3_96
omit [FloatOps F] in
theorem v790_vec : shapeCast S16 (tileRun.sl.v790 d L fF fP hidx' f0 f1) shapeCasts_S1x1x16_S16 = predLane d L fF fP 0 3 112 (by decide) :=
  pred_vec d L fF fP hidx' f0 f1 ![0, 3, 112] inb_S2x4x128_S1x1x16_0_3_112
omit [FloatOps F] in
theorem v815_vec : shapeCast S16 (tileRun.sl.v815 d L fF fP hidx' f0 f1) shapeCasts_S1x1x16_S16 = predLane d L fF fP 1 0 0 (by decide) :=
  pred_vec d L fF fP hidx' f0 f1 ![1, 0, 0] inb_S2x4x128_S1x1x16_1_0_0
omit [FloatOps F] in
theorem v835_vec : shapeCast S16 (tileRun.sl.v835 d L fF fP hidx' f0 f1) shapeCasts_S1x1x16_S16 = predLane d L fF fP 1 0 16 (by decide) :=
  pred_vec d L fF fP hidx' f0 f1 ![1, 0, 16] inb_S2x4x128_S1x1x16_1_0_16
omit [FloatOps F] in
theorem v855_vec : shapeCast S16 (tileRun.sl.v855 d L fF fP hidx' f0 f1) shapeCasts_S1x1x16_S16 = predLane d L fF fP 1 0 32 (by decide) :=
  pred_vec d L fF fP hidx' f0 f1 ![1, 0, 32] inb_S2x4x128_S1x1x16_1_0_32
omit [FloatOps F] in
theorem v875_vec : shapeCast S16 (tileRun.sl.v875 d L fF fP hidx' f0 f1) shapeCasts_S1x1x16_S16 = predLane d L fF fP 1 0 48 (by decide) :=
  pred_vec d L fF fP hidx' f0 f1 ![1, 0, 48] inb_S2x4x128_S1x1x16_1_0_48
omit [FloatOps F] in
theorem v895_vec : shapeCast S16 (tileRun.sl.v895 d L fF fP hidx' f0 f1) shapeCasts_S1x1x16_S16 = predLane d L fF fP 1 0 64 (by decide) :=
  pred_vec d L fF fP hidx' f0 f1 ![1, 0, 64] inb_S2x4x128_S1x1x16_1_0_64
omit [FloatOps F] in
theorem v915_vec : shapeCast S16 (tileRun.sl.v915 d L fF fP hidx' f0 f1) shapeCasts_S1x1x16_S16 = predLane d L fF fP 1 0 80 (by decide) :=
  pred_vec d L fF fP hidx' f0 f1 ![1, 0, 80] inb_S2x4x128_S1x1x16_1_0_80
omit [FloatOps F] in
theorem v935_vec : shapeCast S16 (tileRun.sl.v935 d L fF fP hidx' f0 f1) shapeCasts_S1x1x16_S16 = predLane d L fF fP 1 0 96 (by decide) :=
  pred_vec d L fF fP hidx' f0 f1 ![1, 0, 96] inb_S2x4x128_S1x1x16_1_0_96
omit [FloatOps F] in
theorem v955_vec : shapeCast S16 (tileRun.sl.v955 d L fF fP hidx' f0 f1) shapeCasts_S1x1x16_S16 = predLane d L fF fP 1 0 112 (by decide) :=
  pred_vec d L fF fP hidx' f0 f1 ![1, 0, 112] inb_S2x4x128_S1x1x16_1_0_112
omit [FloatOps F] in
theorem v980_vec : shapeCast S16 (tileRun.sl.v980 d L fF fP hidx' f0 f1) shapeCasts_S1x1x16_S16 = predLane d L fF fP 1 1 0 (by decide) :=
  pred_vec d L fF fP hidx' f0 f1 ![1, 1, 0] inb_S2x4x128_S1x1x16_1_1_0
omit [FloatOps F] in
theorem v1000_vec : shapeCast S16 (tileRun.sl.v1000 d L fF fP hidx' f0 f1) shapeCasts_S1x1x16_S16 = predLane d L fF fP 1 1 16 (by decide) :=
  pred_vec d L fF fP hidx' f0 f1 ![1, 1, 16] inb_S2x4x128_S1x1x16_1_1_16
omit [FloatOps F] in
theorem v1020_vec : shapeCast S16 (tileRun.sl.v1020 d L fF fP hidx' f0 f1) shapeCasts_S1x1x16_S16 = predLane d L fF fP 1 1 32 (by decide) :=
  pred_vec d L fF fP hidx' f0 f1 ![1, 1, 32] inb_S2x4x128_S1x1x16_1_1_32
omit [FloatOps F] in
theorem v1040_vec : shapeCast S16 (tileRun.sl.v1040 d L fF fP hidx' f0 f1) shapeCasts_S1x1x16_S16 = predLane d L fF fP 1 1 48 (by decide) :=
  pred_vec d L fF fP hidx' f0 f1 ![1, 1, 48] inb_S2x4x128_S1x1x16_1_1_48
omit [FloatOps F] in
theorem v1060_vec : shapeCast S16 (tileRun.sl.v1060 d L fF fP hidx' f0 f1) shapeCasts_S1x1x16_S16 = predLane d L fF fP 1 1 64 (by decide) :=
  pred_vec d L fF fP hidx' f0 f1 ![1, 1, 64] inb_S2x4x128_S1x1x16_1_1_64
omit [FloatOps F] in
theorem v1080_vec : shapeCast S16 (tileRun.sl.v1080 d L fF fP hidx' f0 f1) shapeCasts_S1x1x16_S16 = predLane d L fF fP 1 1 80 (by decide) :=
  pred_vec d L fF fP hidx' f0 f1 ![1, 1, 80] inb_S2x4x128_S1x1x16_1_1_80
omit [FloatOps F] in
theorem v1100_vec : shapeCast S16 (tileRun.sl.v1100 d L fF fP hidx' f0 f1) shapeCasts_S1x1x16_S16 = predLane d L fF fP 1 1 96 (by decide) :=
  pred_vec d L fF fP hidx' f0 f1 ![1, 1, 96] inb_S2x4x128_S1x1x16_1_1_96
omit [FloatOps F] in
theorem v1120_vec : shapeCast S16 (tileRun.sl.v1120 d L fF fP hidx' f0 f1) shapeCasts_S1x1x16_S16 = predLane d L fF fP 1 1 112 (by decide) :=
  pred_vec d L fF fP hidx' f0 f1 ![1, 1, 112] inb_S2x4x128_S1x1x16_1_1_112
omit [FloatOps F] in
theorem v1145_vec : shapeCast S16 (tileRun.sl.v1145 d L fF fP hidx' f0 f1) shapeCasts_S1x1x16_S16 = predLane d L fF fP 1 2 0 (by decide) :=
  pred_vec d L fF fP hidx' f0 f1 ![1, 2, 0] inb_S2x4x128_S1x1x16_1_2_0
omit [FloatOps F] in
theorem v1165_vec : shapeCast S16 (tileRun.sl.v1165 d L fF fP hidx' f0 f1) shapeCasts_S1x1x16_S16 = predLane d L fF fP 1 2 16 (by decide) :=
  pred_vec d L fF fP hidx' f0 f1 ![1, 2, 16] inb_S2x4x128_S1x1x16_1_2_16
omit [FloatOps F] in
theorem v1185_vec : shapeCast S16 (tileRun.sl.v1185 d L fF fP hidx' f0 f1) shapeCasts_S1x1x16_S16 = predLane d L fF fP 1 2 32 (by decide) :=
  pred_vec d L fF fP hidx' f0 f1 ![1, 2, 32] inb_S2x4x128_S1x1x16_1_2_32
omit [FloatOps F] in
theorem v1205_vec : shapeCast S16 (tileRun.sl.v1205 d L fF fP hidx' f0 f1) shapeCasts_S1x1x16_S16 = predLane d L fF fP 1 2 48 (by decide) :=
  pred_vec d L fF fP hidx' f0 f1 ![1, 2, 48] inb_S2x4x128_S1x1x16_1_2_48
omit [FloatOps F] in
theorem v1225_vec : shapeCast S16 (tileRun.sl.v1225 d L fF fP hidx' f0 f1) shapeCasts_S1x1x16_S16 = predLane d L fF fP 1 2 64 (by decide) :=
  pred_vec d L fF fP hidx' f0 f1 ![1, 2, 64] inb_S2x4x128_S1x1x16_1_2_64
omit [FloatOps F] in
theorem v1245_vec : shapeCast S16 (tileRun.sl.v1245 d L fF fP hidx' f0 f1) shapeCasts_S1x1x16_S16 = predLane d L fF fP 1 2 80 (by decide) :=
  pred_vec d L fF fP hidx' f0 f1 ![1, 2, 80] inb_S2x4x128_S1x1x16_1_2_80
omit [FloatOps F] in
theorem v1265_vec : shapeCast S16 (tileRun.sl.v1265 d L fF fP hidx' f0 f1) shapeCasts_S1x1x16_S16 = predLane d L fF fP 1 2 96 (by decide) :=
  pred_vec d L fF fP hidx' f0 f1 ![1, 2, 96] inb_S2x4x128_S1x1x16_1_2_96
omit [FloatOps F] in
theorem v1285_vec : shapeCast S16 (tileRun.sl.v1285 d L fF fP hidx' f0 f1) shapeCasts_S1x1x16_S16 = predLane d L fF fP 1 2 112 (by decide) :=
  pred_vec d L fF fP hidx' f0 f1 ![1, 2, 112] inb_S2x4x128_S1x1x16_1_2_112
omit [FloatOps F] in
theorem v1310_vec : shapeCast S16 (tileRun.sl.v1310 d L fF fP hidx' f0 f1) shapeCasts_S1x1x16_S16 = predLane d L fF fP 1 3 0 (by decide) :=
  pred_vec d L fF fP hidx' f0 f1 ![1, 3, 0] inb_S2x4x128_S1x1x16_1_3_0
omit [FloatOps F] in
theorem v1330_vec : shapeCast S16 (tileRun.sl.v1330 d L fF fP hidx' f0 f1) shapeCasts_S1x1x16_S16 = predLane d L fF fP 1 3 16 (by decide) :=
  pred_vec d L fF fP hidx' f0 f1 ![1, 3, 16] inb_S2x4x128_S1x1x16_1_3_16
omit [FloatOps F] in
theorem v1350_vec : shapeCast S16 (tileRun.sl.v1350 d L fF fP hidx' f0 f1) shapeCasts_S1x1x16_S16 = predLane d L fF fP 1 3 32 (by decide) :=
  pred_vec d L fF fP hidx' f0 f1 ![1, 3, 32] inb_S2x4x128_S1x1x16_1_3_32
omit [FloatOps F] in
theorem v1370_vec : shapeCast S16 (tileRun.sl.v1370 d L fF fP hidx' f0 f1) shapeCasts_S1x1x16_S16 = predLane d L fF fP 1 3 48 (by decide) :=
  pred_vec d L fF fP hidx' f0 f1 ![1, 3, 48] inb_S2x4x128_S1x1x16_1_3_48
omit [FloatOps F] in
theorem v1390_vec : shapeCast S16 (tileRun.sl.v1390 d L fF fP hidx' f0 f1) shapeCasts_S1x1x16_S16 = predLane d L fF fP 1 3 64 (by decide) :=
  pred_vec d L fF fP hidx' f0 f1 ![1, 3, 64] inb_S2x4x128_S1x1x16_1_3_64
omit [FloatOps F] in
theorem v1410_vec : shapeCast S16 (tileRun.sl.v1410 d L fF fP hidx' f0 f1) shapeCasts_S1x1x16_S16 = predLane d L fF fP 1 3 80 (by decide) :=
  pred_vec d L fF fP hidx' f0 f1 ![1, 3, 80] inb_S2x4x128_S1x1x16_1_3_80
omit [FloatOps F] in
theorem v1430_vec : shapeCast S16 (tileRun.sl.v1430 d L fF fP hidx' f0 f1) shapeCasts_S1x1x16_S16 = predLane d L fF fP 1 3 96 (by decide) :=
  pred_vec d L fF fP hidx' f0 f1 ![1, 3, 96] inb_S2x4x128_S1x1x16_1_3_96
omit [FloatOps F] in
theorem v1450_vec : shapeCast S16 (tileRun.sl.v1450 d L fF fP hidx' f0 f1) shapeCasts_S1x1x16_S16 = predLane d L fF fP 1 3 112 (by decide) :=
  pred_vec d L fF fP hidx' f0 f1 ![1, 3, 112] inb_S2x4x128_S1x1x16_1_3_112

end PredLoads

section Acc
variable [FloatOps F]
variable (d : Dev nD) (L : grid0.Coords)
variable (fF : Buf (Elt F) (flatLoc d)) (fP : Buf (Elt F) (packLoc d)) (fT : Buf (Elt F) (tgtLoc d))

set_option maxRecDepth 100000 in
set_option maxHeartbeats 8000000 in
theorem acc_value (hidx' : IdxFactW d L fP)
    (f0 : Buf (Elt F) ((V d (cV L) (jV L)).loc cc0_scratch0)) (f1 : Buf (Elt F) ((V d (cV L) (jV L)).loc cc0_scratch1))
    (f3 : Buf (Elt F) ((V d (cV L) (jV L)).loc cc0_scratch3)) (j : Fin 16) :
    k0_pay1 (tileRun.sl.r_91 d L fF fP fT hidx' f0 f1 f3) (tileRun.sl.r_92 d L fF fP fT hidx' f0 f1 f3)
      (tileRun.sl.r_93 d L fF fP fT hidx' f0 f1 f3) (tileRun.sl.r_94 d L fF fP fT hidx' f0 f1 f3) k0_pay108 (ix2 (0 : Fin 1) j)
      = accAt (F := F) fF fP fT (jL L) j := by
  unfold_recorded
  rw [row_apply]
  simp only [v155_vec d L fF fP hidx' f0 f1, v175_vec d L fF fP hidx' f0 f1, v195_vec d L fF fP hidx' f0 f1, v215_vec d L fF fP hidx' f0 f1, v235_vec d L fF fP hidx' f0 f1, v255_vec d L fF fP hidx' f0 f1, v275_vec d L fF fP hidx' f0 f1, v295_vec d L fF fP hidx' f0 f1, v320_vec d L fF fP hidx' f0 f1, v340_vec d L fF fP hidx' f0 f1, v360_vec d L fF fP hidx' f0 f1, v380_vec d L fF fP hidx' f0 f1, v400_vec d L fF fP hidx' f0 f1, v420_vec d L fF fP hidx' f0 f1, v440_vec d L fF fP hidx' f0 f1, v460_vec d L fF fP hidx' f0 f1, v485_vec d L fF fP hidx' f0 f1, v505_vec d L fF fP hidx' f0 f1, v525_vec d L fF fP hidx' f0 f1, v545_vec d L fF fP hidx' f0 f1, v565_vec d L fF fP hidx' f0 f1, v585_vec d L fF fP hidx' f0 f1, v605_vec d L fF fP hidx' f0 f1, v625_vec d L fF fP hidx' f0 f1, v650_vec d L fF fP hidx' f0 f1, v670_vec d L fF fP hidx' f0 f1, v690_vec d L fF fP hidx' f0 f1, v710_vec d L fF fP hidx' f0 f1, v730_vec d L fF fP hidx' f0 f1, v750_vec d L fF fP hidx' f0 f1, v770_vec d L fF fP hidx' f0 f1, v790_vec d L fF fP hidx' f0 f1, v815_vec d L fF fP hidx' f0 f1, v835_vec d L fF fP hidx' f0 f1, v855_vec d L fF fP hidx' f0 f1, v875_vec d L fF fP hidx' f0 f1, v895_vec d L fF fP hidx' f0 f1, v915_vec d L fF fP hidx' f0 f1, v935_vec d L fF fP hidx' f0 f1, v955_vec d L fF fP hidx' f0 f1, v980_vec d L fF fP hidx' f0 f1, v1000_vec d L fF fP hidx' f0 f1, v1020_vec d L fF fP hidx' f0 f1, v1040_vec d L fF fP hidx' f0 f1, v1060_vec d L fF fP hidx' f0 f1, v1080_vec d L fF fP hidx' f0 f1, v1100_vec d L fF fP hidx' f0 f1, v1120_vec d L fF fP hidx' f0 f1, v1145_vec d L fF fP hidx' f0 f1, v1165_vec d L fF fP hidx' f0 f1, v1185_vec d L fF fP hidx' f0 f1, v1205_vec d L fF fP hidx' f0 f1, v1225_vec d L fF fP hidx' f0 f1, v1245_vec d L fF fP hidx' f0 f1, v1265_vec d L fF fP hidx' f0 f1, v1285_vec d L fF fP hidx' f0 f1, v1310_vec d L fF fP hidx' f0 f1, v1330_vec d L fF fP hidx' f0 f1, v1350_vec d L fF fP hidx' f0 f1, v1370_vec d L fF fP hidx' f0 f1, v1390_vec d L fF fP hidx' f0 f1, v1410_vec d L fF fP hidx' f0 f1, v1430_vec d L fF fP hidx' f0 f1, v1450_vec d L fF fP hidx' f0 f1, tgt_vec d L fT f3, idx_vec d L fP f0]
  rfl

end Acc

section Value
variable [FloatOps F]
variable (d : Dev nD) (L : grid0.Coords)
variable (fF : Buf (Elt F) (flatLoc d)) (fP : Buf (Elt F) (packLoc d)) (fT : Buf (Elt F) (tgtLoc d))
variable (q0 q1 q2 : PosShare TreeShare)

/-- The block the task writes is its row of the partial sums, whatever its scratch held before. -/
theorem tile_value (hP : ∀ j, (fP j).toNat < 2097152) (hF : (K (F := F)).Facts) (hidx : IdxFactL d L fP) (hidx' : IdxFactW d L fP)
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) (f3 : Buf (Elt F) ((V d (cV L) (jV L)).loc cc0_scratch3)) (x : S2x16.Idx) :
    (tileRun d L fF fP fT q0 q1 q2 hF hidx hidx').val f0 f1 f2 f3 x = partsOf (F := F) fF fP fT ((outRowK L).view.emb x) :=
  tile_value_of_acc d L fF fP fT q0 q1 q2 hF hidx hidx' f0 f1 f2 f3 (fun j => acc_value d L fF fP fT hidx' f0 f1 f3 j) x

end Value

end Cert.Proof.TileI

end
-- ==== Proof.TileValueIdeal.lean ====
/-
  What a subcore's task writes to its row of the result is that row of the partial sums: lane j of the first
  half is the sum, over its two batches, the four channels and the eight chunks of sixteen objects, of the smooth-L1
  terms; lane j of the second half the sum of the masks.
-/
import proofs.«219714_g10557029613686_week1_w2_465_59_alg».proof.Proof.TileIdeal
import proofs.«219714_g10557029613686_week1_w2_465_59_alg».proof.Proof.SpecIdeal
import proofs.«219714_g10557029613686_week1_w2_465_59_alg».proof.Proof.TileSumsIdeal

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Proof.SpecI

variable [FloatOps F]

section Tile

variable (d : Dev nD) (L : grid0.Coords)
variable (fF : Buf (Elt F) (flatLoc d)) (fP : Buf (Elt F) (packLoc d)) (fT : Buf (Elt F) (tgtLoc d)) (fO : Buf (Elt F) (outLoc d))
variable (q0 q1 q2 : PosShare TreeShare)

/-- The partial sums as contents of the result array. -/
abbrev partsB : Buf (Elt F) (outLoc d) := partsOf (F := F) fF fP fT

theorem rowWith_eq (g : S2x16.Idx → Elt F .f32) (hg : ∀ x, g x = partsB d fF fP fT ((outRowK L).view.emb x)) :
    ∀ i ∈ outRowSetK L, rowWith d L fO g i = partsB d fF fP fT i := by
  intro i hi
  obtain ⟨x, -, rfl⟩ := Finset.mem_map.mp (show i ∈ (outRowK L).view.set from hi)
  have h := View.read_writes_cons_emb (Val := Elt F) (outRowK L).view fO (Rect.whole S2x16) g [] x
  rw [Rect.emb_whole_apply] at h
  rw [← hg x]
  exact ((View.read_apply _ _).trans (cast_eq _ _)).symm.trans h

/-- One subcore's task: from a read share of each array it reads and its row of the result, it runs to its end and
    hands all of it back, its row holding its two partial sums. -/
theorem tile_body (hP : ∀ j, (fP j).toNat < 2097152) (hF : (K (F := F)).Facts) (O : CellTallies nD τ sig (HIx 1)) (W : Waits sig (HIx 1)) (hO : ∀ g, O g none = 0) :
    iprop(levAts (K (F := F)).L (K (F := F)).lev ∗ emp
        ∗ (flatPts d fF q0 ∗ packPts d fP q1 ∗ tgtPts d fT q2 ∗ outRowPts d L fO)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop((flatPts d fF q0 ∗ packPts d fP q1 ∗ tgtPts d fT q2 ∗ outRowPts d L (partsB d fF fP fT))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hidx := fun g row hk hq => idx_inb d L fP hP g (payPack d L fP) rfl row hk hq
  have hidx' := fun g row hk hq => idx_inb' d L fP hP g (payPack d L fP) rfl row hk hq
  iintro ⟨Hlv, He, Hgo, Hbufs, Hsems, HO⟩
  ihave Hbufs' := (Entails.of_eq (((K (F := F)).scopedBufs_V hF d (cV L) (jV L)).trans (ownBufs_V d L))) $$ Hbufs
  icases Hbufs' with ⟨⟨%f0, H0⟩, ⟨%f1, H1⟩, ⟨%f2, H2⟩, ⟨%f3, H3⟩, Hrest⟩
  iapply (((tileRun d L fF fP fT q0 q1 q2 hF hidx hidx').property fO f0 f1 f2 f3 O W hO).trans (wp_mono frame _ _ fun _ => Entails.of_eq (by
    rw [show (outRowPts d L (rowWith d L fO ((tileRun d L fF fP fT q0 q1 q2 hF hidx hidx').val f0 f1 f2 f3)) : sProp 𝕄) = outRowPts d L (partsB d fF fP fT) from
      pointsTo_congr (rowWith_eq d L fF fP fT fO _ (tile_value d L fF fP fT q0 q1 q2 hP hF hidx hidx' f0 f1 f2 f3))])))
    $$ [Hlv He Hgo H0 H1 H2 H3 Hrest Hsems HO]
  isplitl [Hlv]; · iexact Hlv
  isplitl [He]; · iexact He
  isplitl [Hgo]; · iexact Hgo
  isplitl [H0 H1 H2 H3 Hrest]
  · isplitl [H0]; · iexact H0
    isplitl [H1]; · iexact H1
    isplitl [H2]; · iexact H2
    isplitl [H3]; · iexact H3
    iexact Hrest
  isplitl [Hsems]; · iexact Hsems
  iexact HO

end Tile

end Cert.Proof.TileI

end
-- ==== Proof.LaunchIdeal.lean ====
/-
  The whole program: on the TensorCore the host builds the three arrays the subcores read, starts the one
  SparseCore call and, when it is back, adds up the partial sums. Each of the sixteen subcores gets a read share
  of the three arrays and its own row of the result; the rows come back holding each subcore's two partial sums.
-/
import proofs.«219714_g10557029613686_week1_w2_465_59_alg».proof.Proof.TileValueIdeal
import proofs.«219714_g10557029613686_week1_w2_465_59_alg».proof.Proof.SpecIdeal

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_split held_sdiff_result wp_hlo_within held_sub_split held_congr)
open Cert.Proof.SpecI

variable [FloatOps F]

variable (m : (ℓ : Loc nD τ sig) → Buf (Elt F) ℓ) (ρ : Dev nD → PrngReg)

/-! ## The host's operations, before and after the call -/

abbrev op0 : HloOp τ sig (Elt F) := (StableHlo.reshape main_arg0 main_v0 rfl shapeCasts_S32x4x128x128_S2097152)
abbrev op1 : HloOp τ sig (Elt F) := (StableHlo.nullary main_v1 (iotaInDim S32 32 0))
abbrev op2 : HloOp τ sig (Elt F) := (StableHlo.nullary main_c (constantI S_ 32 65536#32))
abbrev op3 : HloOp τ sig (Elt F) := (StableHlo.unary main_c main_v2 (broadcastInDim S32 ![] bcast_S_S32 : (⟨S_, .i32⟩ : BufTy).Contents (Elt F) → (⟨S32, .i32⟩ : BufTy).Contents (Elt F)))
abbrev op4 : HloOp τ sig (Elt F) := (StableHlo.binary main_v1 main_v2 main_v3 (muli : (⟨S32, .i32⟩ : BufTy).Contents (Elt F) → (⟨S32, .i32⟩ : BufTy).Contents (Elt F) → (⟨S32, .i32⟩ : BufTy).Contents (Elt F)))
abbrev op5 : HloOp τ sig (Elt F) := (StableHlo.unary main_v3 main_v4 (broadcastInDim S32x1x1 ![0] bcast_S32_S32x1x1_0 : (⟨S32, .i32⟩ : BufTy).Contents (Elt F) → (⟨S32x1x1, .i32⟩ : BufTy).Contents (Elt F)))
abbrev op6 : HloOp τ sig (Elt F) := (StableHlo.nullary main_v5 (iotaInDim S4 32 0))
abbrev op7 : HloOp τ sig (Elt F) := (StableHlo.nullary main_c_0 (constantI S_ 32 16384#32))
abbrev op8 : HloOp τ sig (Elt F) := (StableHlo.unary main_c_0 main_v6 (broadcastInDim S4 ![] bcast_S_S4 : (⟨S_, .i32⟩ : BufTy).Contents (Elt F) → (⟨S4, .i32⟩ : BufTy).Contents (Elt F)))
abbrev op9 : HloOp τ sig (Elt F) := (StableHlo.binary main_v5 main_v6 main_v7 (muli : (⟨S4, .i32⟩ : BufTy).Contents (Elt F) → (⟨S4, .i32⟩ : BufTy).Contents (Elt F) → (⟨S4, .i32⟩ : BufTy).Contents (Elt F)))
abbrev op10 : HloOp τ sig (Elt F) := (StableHlo.unary main_v7 main_v8 (broadcastInDim S1x4x1 ![1] bcast_S4_S1x4x1_1 : (⟨S4, .i32⟩ : BufTy).Contents (Elt F) → (⟨S1x4x1, .i32⟩ : BufTy).Contents (Elt F)))
abbrev op11 : HloOp τ sig (Elt F) := (StableHlo.unary main_v4 main_v9 (broadcastInDim S32x4x1 ![0, 1, 2] bcast_S32x1x1_S32x4x1_0_1_2 : (⟨S32x1x1, .i32⟩ : BufTy).Contents (Elt F) → (⟨S32x4x1, .i32⟩ : BufTy).Contents (Elt F)))
abbrev op12 : HloOp τ sig (Elt F) := (StableHlo.unary main_v8 main_v10 (broadcastInDim S32x4x1 ![0, 1, 2] bcast_S1x4x1_S32x4x1_0_1_2 : (⟨S1x4x1, .i32⟩ : BufTy).Contents (Elt F) → (⟨S32x4x1, .i32⟩ : BufTy).Contents (Elt F)))
abbrev op13 : HloOp τ sig (Elt F) := (StableHlo.binary main_v9 main_v10 main_v11 (addi : (⟨S32x4x1, .i32⟩ : BufTy).Contents (Elt F) → (⟨S32x4x1, .i32⟩ : BufTy).Contents (Elt F) → (⟨S32x4x1, .i32⟩ : BufTy).Contents (Elt F)))
abbrev op14 : HloOp τ sig (Elt F) := (StableHlo.unary main_arg2 main_v12 (broadcastInDim S32x1x128 ![0, 2] bcast_S32x128_S32x1x128_0_2 : (⟨S32x128, .i32⟩ : BufTy).Contents (Elt F) → (⟨S32x1x128, .i32⟩ : BufTy).Contents (Elt F)))
abbrev op15 : HloOp τ sig (Elt F) := (StableHlo.unary main_v12 main_v13 (broadcastInDim S32x4x128 ![0, 1, 2] bcast_S32x1x128_S32x4x128_0_1_2 : (⟨S32x1x128, .i32⟩ : BufTy).Contents (Elt F) → (⟨S32x4x128, .i32⟩ : BufTy).Contents (Elt F)))
abbrev op16 : HloOp τ sig (Elt F) := (StableHlo.unary main_v11 main_v14 (broadcastInDim S32x4x128 ![0, 1, 2] bcast_S32x4x1_S32x4x128_0_1_2 : (⟨S32x4x1, .i32⟩ : BufTy).Contents (Elt F) → (⟨S32x4x128, .i32⟩ : BufTy).Contents (Elt F)))
abbrev op17 : HloOp τ sig (Elt F) := (StableHlo.binary main_v13 main_v14 main_v15 (addi : (⟨S32x4x128, .i32⟩ : BufTy).Contents (Elt F) → (⟨S32x4x128, .i32⟩ : BufTy).Contents (Elt F) → (⟨S32x4x128, .i32⟩ : BufTy).Contents (Elt F)))
abbrev op18 : HloOp τ sig (Elt F) := (StableHlo.unary main_arg1 main_v16 (broadcastInDim S32x1x128 ![0, 2] bcast_S32x128_S32x1x128_0_2 : (⟨S32x128, .i32⟩ : BufTy).Contents (Elt F) → (⟨S32x1x128, .i32⟩ : BufTy).Contents (Elt F)))
abbrev op19 : HloOp τ sig (Elt F) := (StableHlo.binary main_v15 main_v16 main_v17 ((fun a b => concatenate S32x5x128 1 [⟨S32x4x128, a⟩, ⟨S32x1x128, b⟩] concatenates_S32x4x128_S32x1x128_S32x5x128_d1) : (⟨S32x4x128, .i32⟩ : BufTy).Contents (Elt F) → (⟨S32x1x128, .i32⟩ : BufTy).Contents (Elt F) → (⟨S32x5x128, .i32⟩ : BufTy).Contents (Elt F)))
abbrev op20 : HloOp τ sig (Elt F) := (StableHlo.unary main_arg3 main_v18 ((transpose S32x4x128 [0, 2, 1] · transposes_S32x128x4_S32x4x128_0_2_1) : (⟨S32x128x4, .f32⟩ : BufTy).Contents (Elt F) → (⟨S32x4x128, .f32⟩ : BufTy).Contents (Elt F)))
abbrev op21 : HloOp τ sig (Elt F) := (StableHlo.unary main_v19 main_v20 ((extractStridedSlice S16x1x16 ![0, 0, 0] · slices_S16x2x16_S16x1x16_0_0_0) : (⟨S16x2x16, .f32⟩ : BufTy).Contents (Elt F) → (⟨S16x1x16, .f32⟩ : BufTy).Contents (Elt F)))
abbrev op22 : HloOp τ sig (Elt F) := (StableHlo.reshape main_v20 main_v21 rfl shapeCasts_S16x1x16_S16x16)
abbrev op23 : HloOp τ sig (Elt F) := (StableHlo.nullary main_cst (constant S_ .f32 0x00000000#32))
abbrev op24 : HloOp τ sig (Elt F) := (StableHlo.binary main_v21 main_cst main_v22 ((fun x v => Host.reduceAdd x v reducesTo_S16x16_S_d0_1 h_S_) : (⟨S16x16, .f32⟩ : BufTy).Contents (Elt F) → (⟨S_, .f32⟩ : BufTy).Contents (Elt F) → (⟨S_, .f32⟩ : BufTy).Contents (Elt F)))
abbrev op25 : HloOp τ sig (Elt F) := (StableHlo.unary main_v19 main_v23 ((extractStridedSlice S16x1x16 ![0, 1, 0] · slices_S16x2x16_S16x1x16_0_1_0) : (⟨S16x2x16, .f32⟩ : BufTy).Contents (Elt F) → (⟨S16x1x16, .f32⟩ : BufTy).Contents (Elt F)))
abbrev op26 : HloOp τ sig (Elt F) := (StableHlo.reshape main_v23 main_v24 rfl shapeCasts_S16x1x16_S16x16)
abbrev op27 : HloOp τ sig (Elt F) := (StableHlo.nullary main_cst_1 (constant S_ .f32 0x00000000#32))
abbrev op28 : HloOp τ sig (Elt F) := (StableHlo.binary main_v24 main_cst_1 main_v25 ((fun x v => Host.reduceAdd x v reducesTo_S16x16_S_d0_1 h_S_) : (⟨S16x16, .f32⟩ : BufTy).Contents (Elt F) → (⟨S_, .f32⟩ : BufTy).Contents (Elt F) → (⟨S_, .f32⟩ : BufTy).Contents (Elt F)))
abbrev op29 : HloOp τ sig (Elt F) := (StableHlo.nullary main_cst_2 (constant S_ .f32 0x38D1B717#32))
abbrev op30 : HloOp τ sig (Elt F) := (StableHlo.binary main_v25 main_cst_2 main_v26 (addf : (⟨S_, .f32⟩ : BufTy).Contents (Elt F) → (⟨S_, .f32⟩ : BufTy).Contents (Elt F) → (⟨S_, .f32⟩ : BufTy).Contents (Elt F)))
abbrev op31 : HloOp τ sig (Elt F) := (StableHlo.binary main_v22 main_v26 main_v27 (Host.divf : (⟨S_, .f32⟩ : BufTy).Contents (Elt F) → (⟨S_, .f32⟩ : BufTy).Contents (Elt F) → (⟨S_, .f32⟩ : BufTy).Contents (Elt F)))

def opsPre : List (HloOp τ sig (Elt F)) := [op0 (F := F), op1 (F := F), op2 (F := F), op3 (F := F), op4 (F := F), op5 (F := F), op6 (F := F), op7 (F := F), op8 (F := F), op9 (F := F), op10 (F := F), op11 (F := F), op12 (F := F), op13 (F := F), op14 (F := F), op15 (F := F), op16 (F := F), op17 (F := F), op18 (F := F), op19 (F := F), op20 (F := F)]
def opsPost : List (HloOp τ sig (Elt F)) := [op21 (F := F), op22 (F := F), op23 (F := F), op24 (F := F), op25 (F := F), op26 (F := F), op27 (F := F), op28 (F := F), op29 (F := F), op30 (F := F), op31 (F := F)]

abbrev rA0 : DevRef τ sig := Proc.devRef .tc (main_arg0 : Ref sig .tc)
abbrev rA1 : DevRef τ sig := Proc.devRef .tc (main_arg1 : Ref sig .tc)
abbrev rA2 : DevRef τ sig := Proc.devRef .tc (main_arg2 : Ref sig .tc)
abbrev rA3 : DevRef τ sig := Proc.devRef .tc (main_arg3 : Ref sig .tc)
abbrev rFlat : DevRef τ sig := Proc.devRef .tc (main_v0 : Ref sig .tc)
abbrev rPack : DevRef τ sig := Proc.devRef .tc (main_v17 : Ref sig .tc)
abbrev rTgt : DevRef τ sig := Proc.devRef .tc (main_v18 : Ref sig .tc)
abbrev rOut : DevRef τ sig := Proc.devRef .tc (main_v19 : Ref sig .tc)
abbrev rRes : DevRef τ sig := Proc.devRef .tc (main_v27 : Ref sig .tc)

/-- The launch contents; what the host has built when it starts the call; the same with the call's result in place;
    and what the host's tail leaves. -/
def V0 (d : Dev nD) : Valuation τ sig (Elt F) := fun b => m (d, b)
def Vpre (d : Dev nD) : Valuation τ sig (Elt F) := StableHlo.after (opsPre (F := F)) (V0 m d)
def Vmid (d : Dev nD) (g : Buf (Elt F) (outLoc d)) : Valuation τ sig (Elt F) := Function.update (Vpre m d) rOut g
def Vfin (d : Dev nD) (g : Buf (Elt F) (outLoc d)) : Valuation τ sig (Elt F) := StableHlo.after (opsPost (F := F)) (Vmid m d g)

abbrev fFlat (d : Dev nD) : Buf (Elt F) (flatLoc d) := Vpre m d rFlat
abbrev fPack (d : Dev nD) : Buf (Elt F) (packLoc d) := Vpre m d rPack
abbrev fTgt (d : Dev nD) : Buf (Elt F) (tgtLoc d) := Vpre m d rTgt
abbrev fOut0 (d : Dev nD) : Buf (Elt F) (outLoc d) := Vpre m d rOut
/-- What the call leaves in its result: every subcore's two partial sums. -/
abbrev fOut (d : Dev nD) : Buf (Elt F) (outLoc d) := partsOf (F := F) (fFlat m d) (fPack m d) (fTgt m d)

/-! ## The rows of the result -/

theorem odiv : 16 ∣ S16x2x16.size 0 := ⟨1, rfl⟩
abbrev orow (i : Fin 16) : Rect S16x2x16 := Rect.part (s := S16x2x16) (a₀ := 0) odiv i
abbrev oRowSet (i : Fin 16) : Finset S16x2x16.Idx := ((outV).view.slice (orow i)).set

omit [FloatOps F] in
theorem orowK_eq (L : grid0.Coords) : Rect.unit (s := S16x2x16) (k0_off3 L) S1x2x16.size (k0_off3_inb L) = orow (jL L) := by
  unfold orow Rect.part Rect.block
  congr 1 <;> funext a
  · rw [k0_off3_eq]
    match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_outRowK (L : grid0.Coords) : outRowSetK L = oRowSet (jL L) := by
  show (((outV).view.slice (Rect.unit (s := S16x2x16) (k0_off3 L) S1x2x16.size (k0_off3_inb L))).reshape S2x16 squeezes_S1x2x16_S2x16.numel_eq).set
    = ((outV).view.slice (orow (jL L))).set
  rw [View.set_reshape]
  exact orowK_eq L ▸ rfl

omit [FloatOps F] in
theorem oRowSet_eq (i : Fin 16) : oRowSet i = (orow i).set := by
  show ((View.whole (main_v19_scv : Ref sig .scVector)).slice (orow i)).set = _
  rw [View.set_slice]; exact Finset.map_refl
omit [FloatOps F] in
theorem orows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint odiv h
omit [FloatOps F] in
theorem orows_cover : (Finset.univ : Finset (Fin 16)).biUnion oRowSet = Finset.univ :=
  (Finset.biUnion_congr rfl fun i _ => oRowSet_eq i).trans (Rect.biUnion_part odiv)

omit [FloatOps F] in
theorem oPts_rows (d : Dev nD) (f : Buf (Elt F) (outLoc d)) :
    (outLoc d ↦{fullShare} f : sProp 𝕄) = bigSep Finset.univ fun i : Fin 16 => outLoc d ↦[oRowSet i]{fullShare} f := by
  rw [← pointsTo_biUnion Finset.univ (ℓ := outLoc d) oRowSet orows_disjoint, orows_cover]; try rfl

/-! ## What the handshakes carry -/

abbrev tk (i : Fin 16) : PosShare TreeShare := Transfers.shareTok fullShare 16 i
abbrev dr : PosShare TreeShare := Transfers.shareDrop fullShare 16

/-- What a subcore is handed, with its row of the result at contents `g`. -/
abbrev tilePts (d : Dev nD) (i : Fin 16) (g : Buf (Elt F) (outLoc d)) : sProp 𝕄 :=
  iprop((flatLoc d ↦{tk i} fFlat m d) ∗ (packLoc d ↦{tk i} fPack m d) ∗ (tgtLoc d ↦{tk i} fTgt m d) ∗ outLoc d ↦[oRowSet i]{fullShare} g)
/-- What the call is handed, with the result at contents `g`. -/
abbrev callPts (d : Dev nD) (g : Buf (Elt F) (outLoc d)) : sProp 𝕄 :=
  iprop((flatLoc d ↦{fullShare} fFlat m d) ∗ (packLoc d ↦{fullShare} fPack m d) ∗ (tgtLoc d ↦{fullShare} fTgt m d) ∗ outLoc d ↦{fullShare} g)

def P : (K (F := F)).Pay (nD := nD) (Val := Elt F) (Name := ℕ) (U := UU) where
  st := fun q d _ => match q with | 0 => callPts m d (fOut0 m d)
  dn := fun q d _ => match q with | 0 => callPts m d (fOut m d)
  go := fun q d _ i => match q with | 0 => tilePts m d (Fin.cast nSub_zero i) (fOut0 m d)
  td := fun q d _ i => match q with | 0 => tilePts m d (Fin.cast nSub_zero i) (fOut m d)
  x := fun _ _ => iprop(emp)

instance P_storable : (P (F := F) m).IsStorable where
  st q d _ := match q with | 0 => (inferInstance : BI.Storable (upEmb : UEmb _ 𝕄) (callPts m d (fOut0 m d)))
  dn q d _ := match q with | 0 => (inferInstance : BI.Storable (upEmb : UEmb _ 𝕄) (callPts m d (fOut m d)))
  go q d _ i := match q with | 0 => (inferInstance : BI.Storable (upEmb : UEmb _ 𝕄) (tilePts m d (Fin.cast nSub_zero i) (fOut0 m d)))
  td q d _ i := match q with | 0 => (inferInstance : BI.Storable (upEmb : UEmb _ 𝕄) (tilePts m d (Fin.cast nSub_zero i) (fOut m d)))

/-- What the proof asks of the launch memory: every word of the packed table the host builds is a row of the
    flattened map. -/
def PreOK : Prop := ∀ (d : Dev nD) (j : S32x5x128.Idx), (fPack m d j).toNat < 2097152

/-! ## The obligation -/

section Obl

variable (d : Dev nD) (L : grid0.Coords)

/-- The task at coordinates `L`, over the arrays the host built, its row of the result named by its number. -/
theorem tile_task (hpre : PreOK m) (hF : (K (F := F)).Facts) (O : CellTallies nD τ sig (HIx 1)) (W : Waits sig (HIx 1)) (hO : ∀ g, O g none = 0) :
    iprop(levAts (K (F := F)).L (K (F := F)).lev ∗ emp
        ∗ tilePts m d (jL L) (fOut0 m d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop(tilePts m d (jL L) (fOut m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h := tile_body d L (fFlat m d) (fPack m d) (fTgt m d) (fOut0 m d) (tk (jL L)) (tk (jL L)) (tk (jL L)) (hpre d) hF O W hO
  unfold outRowPts at h
  rw [set_outRowK] at h
  exact h

end Obl

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task m d (coordsV ⟨_, hci.1⟩ ⟨_, hci.2⟩) hpre hF O W hO).trans (wp_mono frame _ _ fun _ => obl_post)

/-! ## The arrays split among the subcores and joined again -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show callPts m d (fOut0 m d) ⊢ |={Set.univ}=> iprop(
      (bigSep Finset.univ fun i : Fin ((K (F := F)).nSub 0) => tilePts m d (Fin.cast nSub_zero i) (fOut0 m d))
      ∗ ((bigSep Finset.univ fun i : Fin ((K (F := F)).nSub 0) => tilePts m d (Fin.cast nSub_zero i) (fOut m d)) -∗ callPts m d (fOut m d)))
  rw [bigSep_tasks (F := F) (fun i => tilePts m d i (fOut0 m d)), bigSep_tasks (F := F) (fun i => tilePts m d i (fOut m d))]
  unfold tilePts callPts
  rw [bigSep_sep', bigSep_sep', bigSep_sep', bigSep_sep', bigSep_sep', bigSep_sep', oPts_rows, oPts_rows]
  iintro ⟨Hf, Hp, Ht, Ho⟩
  ihave Hf2 := (Transfers.pointsTo_toks (ℓ := flatLoc d) (S := Finset.univ) (f := fFlat m d) fullShare 16).1 $$ Hf
  icases Hf2 with ⟨Hfd, Hft⟩
  ihave Hp2 := (Transfers.pointsTo_toks (ℓ := packLoc d) (S := Finset.univ) (f := fPack m d) fullShare 16).1 $$ Hp
  icases Hp2 with ⟨Hpd, Hpt⟩
  ihave Ht2 := (Transfers.pointsTo_toks (ℓ := tgtLoc d) (S := Finset.univ) (f := fTgt m d) fullShare 16).1 $$ Ht
  icases Ht2 with ⟨Htd, Htt⟩
  imodintro
  isplitl [Hft Hpt Htt Ho]
  · isplitl [Hft]; · iexact Hft
    isplitl [Hpt]; · iexact Hpt
    isplitl [Htt]; · iexact Htt
    iexact Ho
  iintro ⟨Hft, Hpt, Htt, Ho⟩
  isplitl [Hfd Hft]
  · iapply (Transfers.pointsTo_toks (ℓ := flatLoc d) (S := Finset.univ) (f := fFlat m d) fullShare 16).2
    isplitl [Hfd]; · iexact Hfd
    iexact Hft
  isplitl [Hpd Hpt]
  · iapply (Transfers.pointsTo_toks (ℓ := packLoc d) (S := Finset.univ) (f := fPack m d) fullShare 16).2
    isplitl [Hpd]; · iexact Hpd
    iexact Hpt
  isplitl [Htd Htt]
  · iapply (Transfers.pointsTo_toks (ℓ := tgtLoc d) (S := Finset.univ) (f := fTgt m d) fullShare 16).2
    isplitl [Htd]; · iexact Htd
    iexact Htt
  iexact Ho

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- Every array of @main, as the TensorCore holds them: all unscoped. -/
def SA : Finset (DevRef τ sig) :=
  (Finset.univ.filter fun b : Ref sig .tc => ¬ b.isScoped).map ⟨Proc.devRef .tc, Proc.devRef_injective _⟩

/-- The four arrays the call takes. -/
abbrev T4 : Finset (DevRef τ sig) := {rFlat, rPack, rTgt, rOut}
omit [FloatOps F] in
theorem hT4 : T4 ⊆ SA := by decide

omit [FloatOps F] in
theorem unscoped_held (d : Dev nD) : (unscopedBufs d (fun b => m ((SparseCore.T d).loc b)) : sProp 𝕄) = held (T d) SA (V0 m d) := by
  unfold unscopedBufs held SA
  rw [bigSep_map]; rfl

omit [FloatOps F] in
theorem held_T4 (d : Dev nD) (W : Valuation τ sig (Elt F)) :
    (held (T d) T4 W : sProp 𝕄) = iprop((flatLoc d ↦{fullShare} W rFlat) ∗ (packLoc d ↦{fullShare} W rPack) ∗ (tgtLoc d ↦{fullShare} W rTgt) ∗ outLoc d ↦{fullShare} W rOut) := by
  unfold held T4
  rw [SparseCore.bigSep_insert' (by decide), SparseCore.bigSep_insert' (by decide), SparseCore.bigSep_insert' (by decide), bigSep_singleton]

theorem heldMid_eq (d : Dev nD) (g : Buf (Elt F) (outLoc d)) :
    (held (T d) SA (Vmid m d g) : sProp 𝕄) = iprop(callPts m d g ∗ held (T d) (SA \ T4) (Vpre m d)) := by
  have hc : (held (T d) (SA \ T4) (Vmid m d g) : sProp 𝕄) = held (T d) (SA \ T4) (Vpre m d) :=
    held_congr (T d) fun b hb => Function.update_of_ne (fun e => (Finset.mem_sdiff.mp hb).2 (by rw [e]; decide)) _ _
  rw [held_sub_split (T d) hT4 (Vmid m d g), held_T4, hc]
  unfold callPts Vmid
  rw [Function.update_of_ne (show rFlat ≠ rOut by decide), Function.update_of_ne (show rPack ≠ rOut by decide),
    Function.update_of_ne (show rTgt ≠ rOut by decide), Function.update_self]

theorem Vmid_self (d : Dev nD) : Vmid m d (fOut0 m d) = Vpre m d := Function.update_eq_self _ _

theorem st0_eq (d : Dev nD) : (bigSep Finset.univ fun c : Fin ((K (F := F)).nCore 0) => (P m).st 0 d c) = callPts m d (fOut0 m d) :=
  bigSep_univ_of_subsingleton (0 : Fin 1)
theorem dn0_eq (d : Dev nD) : (bigSep Finset.univ fun c : Fin ((K (F := F)).nCore 0) => (P m).dn 0 d c) = callPts m d (fOut m d) :=
  bigSep_univ_of_subsingleton (0 : Fin 1)

/-- What @main leaves: every array at what the host's tail made of it. -/
abbrev FIN (d : Dev nD) : sProp 𝕄 := held (T d) SA (Vfin m d (fOut m d))

set_option maxHeartbeats 4000000 in
set_option maxRecDepth 16384 in
/-- @main on device `d`'s TensorCore: the host's operations, the one call, the host's tail. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op0 (F := F)) (S := SA) (show ({(Proc.devRef .tc (main_arg0 : Ref sig .tc)), (Proc.devRef .tc (main_v0 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op1 (F := F)) (S := SA) (show ({(Proc.devRef .tc (main_v1 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op2 (F := F)) (S := SA) (show ({(Proc.devRef .tc (main_c : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op3 (F := F)) (S := SA) (show ({(Proc.devRef .tc (main_c : Ref sig .tc)), (Proc.devRef .tc (main_v2 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op4 (F := F)) (S := SA) (show ({(Proc.devRef .tc (main_v1 : Ref sig .tc)), (Proc.devRef .tc (main_v2 : Ref sig .tc)), (Proc.devRef .tc (main_v3 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op5 (F := F)) (S := SA) (show ({(Proc.devRef .tc (main_v3 : Ref sig .tc)), (Proc.devRef .tc (main_v4 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op6 (F := F)) (S := SA) (show ({(Proc.devRef .tc (main_v5 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op7 (F := F)) (S := SA) (show ({(Proc.devRef .tc (main_c_0 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op8 (F := F)) (S := SA) (show ({(Proc.devRef .tc (main_c_0 : Ref sig .tc)), (Proc.devRef .tc (main_v6 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op9 (F := F)) (S := SA) (show ({(Proc.devRef .tc (main_v5 : Ref sig .tc)), (Proc.devRef .tc (main_v6 : Ref sig .tc)), (Proc.devRef .tc (main_v7 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op10 (F := F)) (S := SA) (show ({(Proc.devRef .tc (main_v7 : Ref sig .tc)), (Proc.devRef .tc (main_v8 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op11 (F := F)) (S := SA) (show ({(Proc.devRef .tc (main_v4 : Ref sig .tc)), (Proc.devRef .tc (main_v9 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op12 (F := F)) (S := SA) (show ({(Proc.devRef .tc (main_v8 : Ref sig .tc)), (Proc.devRef .tc (main_v10 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op13 (F := F)) (S := SA) (show ({(Proc.devRef .tc (main_v9 : Ref sig .tc)), (Proc.devRef .tc (main_v10 : Ref sig .tc)), (Proc.devRef .tc (main_v11 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op14 (F := F)) (S := SA) (show ({(Proc.devRef .tc (main_arg2 : Ref sig .tc)), (Proc.devRef .tc (main_v12 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op15 (F := F)) (S := SA) (show ({(Proc.devRef .tc (main_v12 : Ref sig .tc)), (Proc.devRef .tc (main_v13 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op16 (F := F)) (S := SA) (show ({(Proc.devRef .tc (main_v11 : Ref sig .tc)), (Proc.devRef .tc (main_v14 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op17 (F := F)) (S := SA) (show ({(Proc.devRef .tc (main_v13 : Ref sig .tc)), (Proc.devRef .tc (main_v14 : Ref sig .tc)), (Proc.devRef .tc (main_v15 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op18 (F := F)) (S := SA) (show ({(Proc.devRef .tc (main_arg1 : Ref sig .tc)), (Proc.devRef .tc (main_v16 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op19 (F := F)) (S := SA) (show ({(Proc.devRef .tc (main_v15 : Ref sig .tc)), (Proc.devRef .tc (main_v16 : Ref sig .tc)), (Proc.devRef .tc (main_v17 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op20 (F := F)) (S := SA) (show ({(Proc.devRef .tc (main_arg3 : Ref sig .tc)), (Proc.devRef .tc (main_v18 : Ref sig .tc))} : Finset (DevRef τ sig)) ⊆ SA by decide)) $$ [Hb Hheld]
  · isplitl [Hb]; · iexact Hb
    iexact Hheld
  iintro ⟨Hb, Hheld⟩
  rw [wp_ret]; imodintro
  ihave Hh := (Entails.of_eq ((show (held (T d) SA _ : sProp 𝕄) = held (T d) SA (Vmid m d (fOut0 m d)) from by rw [Vmid_self]; rfl).trans (heldMid_eq m d (fOut0 m d)))) $$ Hheld
  icases Hh with ⟨Hcall, Hrest⟩
  iapply ((K (F := F)).wp_run (D (F := F)) 𝒱 (EH := EH) (P := P m) κ d 0) $$ [Hst Hcall Hb Hrest]
  isplitr; · iexact Hctx
  isplitl [Hst]; · iexact Hst
  isplitl [Hcall]
  · rw [st0_eq]; iexact Hcall
  iintro ⟨Hst, Hdn⟩
  ihave Hcall := (Entails.of_eq (dn0_eq m d)) $$ Hdn
  ihave Hheld := (Entails.of_eq (heldMid_eq m d (fOut m d)).symm) $$ [Hcall Hrest]
  · isplitl [Hcall]; · iexact Hcall
    iexact Hrest
  iapply (wp_hlo_within 𝒱 (SparseCore.T d) none Set.univ (op := op21 (F := F)) (S := SA) (show ({(Proc.devRef .tc (main_v19 : Ref sig .tc)), (Proc.devRef .tc (main_v20 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op22 (F := F)) (S := SA) (show ({(Proc.devRef .tc (main_v20 : Ref sig .tc)), (Proc.devRef .tc (main_v21 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op23 (F := F)) (S := SA) (show ({(Proc.devRef .tc (main_cst : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op24 (F := F)) (S := SA) (show ({(Proc.devRef .tc (main_v21 : Ref sig .tc)), (Proc.devRef .tc (main_cst : Ref sig .tc)), (Proc.devRef .tc (main_v22 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op25 (F := F)) (S := SA) (show ({(Proc.devRef .tc (main_v19 : Ref sig .tc)), (Proc.devRef .tc (main_v23 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op26 (F := F)) (S := SA) (show ({(Proc.devRef .tc (main_v23 : Ref sig .tc)), (Proc.devRef .tc (main_v24 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op27 (F := F)) (S := SA) (show ({(Proc.devRef .tc (main_cst_1 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op28 (F := F)) (S := SA) (show ({(Proc.devRef .tc (main_v24 : Ref sig .tc)), (Proc.devRef .tc (main_cst_1 : Ref sig .tc)), (Proc.devRef .tc (main_v25 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op29 (F := F)) (S := SA) (show ({(Proc.devRef .tc (main_cst_2 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op30 (F := F)) (S := SA) (show ({(Proc.devRef .tc (main_v25 : Ref sig .tc)), (Proc.devRef .tc (main_cst_2 : Ref sig .tc)), (Proc.devRef .tc (main_v26 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op31 (F := F)) (S := SA) (show ({(Proc.devRef .tc (main_v22 : Ref sig .tc)), (Proc.devRef .tc (main_v26 : Ref sig .tc)), (Proc.devRef .tc (main_v27 : Ref sig .tc))} : Finset (DevRef τ sig)) ⊆ SA by decide)) $$ [Hb Hheld]
  · isplitl [Hb]; · iexact Hb
    iexact Hheld
  iintro ⟨Hb, Hheld⟩
  rw [wp_ret]; imodintro; imodintro
  isplitl [Hst]; · iexact Hst
  iexact Hheld

/-! ## What the final memory says -/

abbrev resLoc (d : Dev nD) : Loc nD τ sig := (SparseCore.T d).loc main_v27
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3

abbrev T5 : Finset (DevRef τ sig) := {rRes, rA0, rA1, rA2, rA3}
omit [FloatOps F] in
theorem hT5 : T5 ⊆ SA := by decide

omit [FloatOps F] in
theorem held_T5 (d : Dev nD) (W : Valuation τ sig (Elt F)) :
    (held (T d) T5 W : sProp 𝕄) = iprop((resLoc d ↦{fullShare} W rRes) ∗ (a0Loc d ↦{fullShare} W rA0) ∗ (a1Loc d ↦{fullShare} W rA1)
      ∗ (a2Loc d ↦{fullShare} W rA2) ∗ a3Loc d ↦{fullShare} W rA3) := by
  unfold held T5
  rw [SparseCore.bigSep_insert' (by decide), SparseCore.bigSep_insert' (by decide), SparseCore.bigSep_insert' (by decide),
    SparseCore.bigSep_insert' (by decide), bigSep_singleton]

def fq (d : Dev nD) (s' : Phys nD τ sig (Elt F)) : Prop :=
  s'.mem.mem (resLoc d) = Vfin m d (fOut m d) rRes ∧ s'.mem.mem (a0Loc d) = Vfin m d (fOut m d) rA0 ∧ s'.mem.mem (a1Loc d) = Vfin m d (fOut m d) rA1
    ∧ s'.mem.mem (a2Loc d) = Vfin m d (fOut m d) rA2 ∧ s'.mem.mem (a3Loc d) = Vfin m d (fOut m d) rA3

set_option maxRecDepth 16384 in
theorem hfin (d : Dev nD) (s' : Phys nD τ sig (Elt F)) : iprop(FIN m d ∗ SI s') ⊢ (⌜fq m d s'⌝ : sProp 𝕄) := by
  unfold FIN
  rw [held_sub_split (T d) hT5 (Vfin m d (fOut m d)), held_T5]
  iintro ⟨⟨⟨Hr, H0, H1, H2, H3⟩, -⟩, HSI⟩
  ihave H := (persistent_entails_right (SI_pointsTo_agree (st := s') (ℓ := resLoc d) (I := Finset.univ) (q := fullShare) (f := Vfin m d (fOut m d) rRes))) $$ [HSI Hr]
  · isplitl [HSI] <;> iassumption
  icases H with ⟨%hr, HSI, -⟩
  ihave H := (persistent_entails_right (SI_pointsTo_agree (st := s') (ℓ := a0Loc d) (I := Finset.univ) (q := fullShare) (f := Vfin m d (fOut m d) rA0))) $$ [HSI H0]
  · isplitl [HSI] <;> iassumption
  icases H with ⟨%h0, HSI, -⟩
  ihave H := (persistent_entails_right (SI_pointsTo_agree (st := s') (ℓ := a1Loc d) (I := Finset.univ) (q := fullShare) (f := Vfin m d (fOut m d) rA1))) $$ [HSI H1]
  · isplitl [HSI] <;> iassumption
  icases H with ⟨%h1, HSI, -⟩
  ihave H := (persistent_entails_right (SI_pointsTo_agree (st := s') (ℓ := a2Loc d) (I := Finset.univ) (q := fullShare) (f := Vfin m d (fOut m d) rA2))) $$ [HSI H2]
  · isplitl [HSI] <;> iassumption
  icases H with ⟨%h2, HSI, -⟩
  ihave H := (SI_pointsTo_agree (st := s') (ℓ := a3Loc d) (I := Finset.univ) (q := fullShare) (f := Vfin m d (fOut m d) rA3)) $$ [HSI H3]
  · isplitl [HSI] <;> iassumption
  icases H with %h3
  ipureintro
  exact ⟨funext fun i => hr i (Finset.mem_univ i), funext fun i => h0 i (Finset.mem_univ i), funext fun i => h1 i (Finset.mem_univ i),
    funext fun i => h2 i (Finset.mem_univ i), funext fun i => h3 i (Finset.mem_univ i)⟩

/-! ## The program's run -/

def QC : PUnit × MemSt nD τ sig (Elt F) → Prop := fun r => ∀ c : Dev nD,
  r.2.mem (resLoc c) = Vfin m c (fOut m c) rRes ∧ r.2.mem (a0Loc c) = Vfin m c (fOut m c) rA0 ∧ r.2.mem (a1Loc c) = Vfin m c (fOut m c) rA1
    ∧ r.2.mem (a2Loc c) = Vfin m c (fOut m c) rA2 ∧ r.2.mem (a3Loc c) = Vfin m c (fOut m c) rA3

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.TileI

end
-- ==== Proof.PreFacts.lean ====
/-
  The precondition read back. `Cert.Pre_input_domain.fn` is the conjunction of four all-reductions, one per input:
  |output| < +inf and |target| < +inf elementwise, 0 ≤ mask ≤ 1 and 0 ≤ ind ≤ 16383 in signed 32-bit compares.
  A conjunction of bits that is 1 has every conjunct 1; an all-reduction to one index that is 1 had a 1 at every
  element. So the claim `fn a0 a1 a2 a3 = 1` gives the four elementwise facts below: the two integer ranges at any
  float instance, and, at the ideal instance, that every output and target entry is a real number.
-/
import proofs.«219714_g10557029613686_week1_w2_465_59_alg».proof.Proof.Gen.Pre_input_domain
import Idealize.ShloMosaic.Lib.ReduceAll
import Idealize.ShloMosaic.Lib.ValueIdx
import Idealize.ShloMosaic.PureOps.Ideal.Laws

noncomputable section

namespace Cert.Proof.PreFacts

open Idealize.ShloMosaic Idealize.ShloMosaic.ValueIdx
open Cert.Pre_input_domain Cert.Pre_input_domain.Gen

/-- The scalar shape has one index. -/
instance : Subsingleton S_.Idx := ⟨fun a b => funext fun d => d.elim0⟩

/-- The four elementwise bits the precondition's conjunction holds. -/
theorem bits {F : FTy → Type} [FloatOps F] (a0 : FVec F S32x4x128x128 .f32) (a1 a2 : IVec S32x128 32)
    (a3 : FVec F S32x128x4 .f32) (h : Cert.Pre_input_domain.fn (F := F) a0 a1 a2 a3 = fun _ => 1#1) :
    (∀ i, FloatOps.cmpf .olt (FloatOps.hostAbsf (a0 i)) (FloatOps.ofBits (F := F) .f32 0x7F800000#32) = 1#1) ∧
    (∀ i, FloatOps.cmpf .olt (FloatOps.hostAbsf (a3 i)) (FloatOps.ofBits (F := F) .f32 0x7F800000#32) = 1#1) ∧
    (∀ j, IntOp.cmpi .sge (a1 j) 0#32 = 1#1 ∧ IntOp.cmpi .sle (a1 j) 1#32 = 1#1) ∧
    (∀ j, IntOp.cmpi .sge (a2 j) 0#32 = 1#1 ∧ IntOp.cmpi .sle (a2 j) 16383#32 = 1#1) := by
  have e := congrFun h ix0
  dsimp only [Cert.Pre_input_domain.fn, Cert.Pre_input_domain.fn_part1] at e
  obtain ⟨e012, e2⟩ := IntOp.andi_eq_one.1 e
  obtain ⟨e03, e1⟩ := IntOp.andi_eq_one.1 e012
  obtain ⟨e0, e3⟩ := IntOp.andi_eq_one.1 e03
  have f0 := Host.reduce_andi_all _ _ _ _ _ e0
  have f3 := Host.reduce_andi_all _ _ _ _ _ e3
  have f1 := Host.reduce_andi_all _ _ _ _ _ e1
  have f2 := Host.reduce_andi_all _ _ _ _ _ e2
  exact ⟨fun i => f0 i, fun i => f3 i, fun j => IntOp.andi_eq_one.1 (f1 j), fun j => IntOp.andi_eq_one.1 (f2 j)⟩

/-- A signed compare against a small literal, read as integers. -/
theorem toInt_zero32 : (0#32 : BitVec 32).toInt = 0 := by decide
theorem toInt_one32 : (1#32 : BitVec 32).toInt = 1 := by decide
theorem toInt_16383 : (16383#32 : BitVec 32).toInt = 16383 := by decide

/-- Every entry of `ind` lies in [0, 16383], read signed. -/
theorem ind_range {F : FTy → Type} [FloatOps F] (a0 : FVec F S32x4x128x128 .f32) (a1 a2 : IVec S32x128 32)
    (a3 : FVec F S32x128x4 .f32) (h : Cert.Pre_input_domain.fn (F := F) a0 a1 a2 a3 = fun _ => 1#1) :
    ∀ j, 0 ≤ (a2 j).toInt ∧ (a2 j).toInt ≤ 16383 := fun j => by
  obtain ⟨h0, h1⟩ := (bits a0 a1 a2 a3 h).2.2.2 j
  have g0 := IntOp.cmpi_sge.1 h0
  have g1 := IntOp.cmpi_sle.1 h1
  rw [toInt_zero32] at g0
  rw [toInt_16383] at g1
  exact ⟨g0, g1⟩

/-- Every entry of `mask` is 0 or 1, read signed. -/
theorem mask_range {F : FTy → Type} [FloatOps F] (a0 : FVec F S32x4x128x128 .f32) (a1 a2 : IVec S32x128 32)
    (a3 : FVec F S32x128x4 .f32) (h : Cert.Pre_input_domain.fn (F := F) a0 a1 a2 a3 = fun _ => 1#1) :
    ∀ j, 0 ≤ (a1 j).toInt ∧ (a1 j).toInt ≤ 1 := fun j => by
  obtain ⟨h0, h1⟩ := (bits a0 a1 a2 a3 h).2.2.1 j
  have g0 := IntOp.cmpi_sge.1 h0
  have g1 := IntOp.cmpi_sle.1 h1
  rw [toInt_zero32] at g0
  rw [toInt_one32] at g1
  exact ⟨g0, g1⟩

/-- The word 0x7F800000 denotes +∞. -/
theorem ofBits_inf : Ideal.ofBits .f32 0x7F800000#32 = (⊤ : EReal) := by
  simp [Ideal.ofBits, Ideal.ieee]

/-- An extended real whose absolute value max(x, -x) is below +∞ is a real number. -/
theorem real_of_abs_lt (x : EReal)
    (hx : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at hx
  rw [ofBits_inf] at hx
  simp only [Ideal.cmp] at hx
  induction x using EReal.rec with
  | bot => simp at hx
  | top => simp at hx
  | coe r => exact ⟨r, rfl⟩

/-- Every output entry is a real number. -/
theorem out_finite (a0 : FVec Ideal S32x4x128x128 .f32) (a1 a2 : IVec S32x128 32) (a3 : FVec Ideal S32x128x4 .f32)
    (h : Cert.Pre_input_domain.fn (F := Ideal) a0 a1 a2 a3 = fun _ => 1#1) : ∀ i, ∃ r : ℝ, a0 i = (r : EReal) :=
  fun i => real_of_abs_lt (a0 i) ((bits a0 a1 a2 a3 h).1 i)

/-- Every target entry is a real number. -/
theorem tgt_finite (a0 : FVec Ideal S32x4x128x128 .f32) (a1 a2 : IVec S32x128 32) (a3 : FVec Ideal S32x128x4 .f32)
    (h : Cert.Pre_input_domain.fn (F := Ideal) a0 a1 a2 a3 = fun _ => 1#1) : ∀ i, ∃ r : ℝ, a3 i = (r : EReal) :=
  fun i => real_of_abs_lt (a3 i) ((bits a0 a1 a2 a3 h).2.1 i)

end Cert.Proof.PreFacts

end
-- ==== Proof.PackRangeIdeal.lean ====
/-
  The packed table read at an index, and the range of its words. Rows 0..3 of batch b hold, for object m and
  channel d, the object's position ind[b, m] plus the offset b * 65536 + d * 16384 of channel d of batch b in the
  flattened feature map, in 32-bit arithmetic; row 4 holds the mask. Under the precondition a position lies in
  [0, 16383] and a mask word in [0, 1], so every word of the table is below 32 * 65536 = 2097152, the number of rows
  of the flattened map: nothing wraps, and the remainder in the row number is the identity.
-/
import proofs.«219714_g10557029613686_week1_w2_465_59_alg».proof.Proof.SpecIdeal
import proofs.«219714_g10557029613686_week1_w2_465_59_alg».proof.Proof.PreFacts
import Idealize.ShloMosaic.Lib.Pipeline.Value

noncomputable section

namespace Cert.Proof.PackRangeI

open Cert.KernelIdeal Cert.KernelIdeal.Gen
open Idealize.ShloMosaic Idealize.ShloMosaic.ValueIdx

/-- The offset word of batch b and channel d: b * 65536 + d * 16384 (an iota times a constant per axis, broadcast
    and added). -/
theorem offs_apply (b : Fin 32) (d : Fin 4) :
    SpecI.offsOf (ix3 b d (0 : Fin 1)) = BitVec.ofNat 32 (b.val * 65536 + d.val * 16384) := by
  show BitVec.ofNat 32 b.val * 65536#32 + BitVec.ofNat 32 d.val * 16384#32 = _
  rw [BitVec.ofNat_add, BitVec.ofNat_mul, BitVec.ofNat_mul]

/-- Rows 0..3 of the packed table: the position plus the channel's offset. -/
theorem pack_apply_idx (a1 a2 : IVec S32x128 32) (b : Fin 32) (d : Fin 4) (m : Fin 128) :
    SpecI.packOf a1 a2 (ix3 b (Fin.castLE (by decide) d : Fin 5) m)
      = a2 (ix2 b m) + BitVec.ofNat 32 (b.val * 65536 + d.val * 16384) := by
  unfold SpecI.packOf
  dsimp only
  rw [concatenate_pair_apply_left (s₁ := S32x4x128) (s₂ := S32x1x128) (1 : Fin 3) _ _ _ (ix3 b (Fin.castLE (by decide) d : Fin 5) m) rfl
    (ix3 b d m : S32x4x128.Idx) (by intro c; fin_cases c <;> rfl)]
  show broadcastInDim S32x4x128 ![0, 1, 2] _ (broadcastInDim S32x1x128 ![0, 2] _ a2) (ix3 b d m)
      + broadcastInDim S32x4x128 ![0, 1, 2] _ SpecI.offsOf (ix3 b d m) = _
  rw [broadcastInDim_apply _ _ (broadcastInDim S32x1x128 ![0, 2] _ a2) (ix3 b d m) (ix3 b (0 : Fin 1) m : S32x1x128.Idx)
        (by intro c; fin_cases c <;> rfl),
      broadcastInDim_apply _ _ a2 (ix3 b (0 : Fin 1) m : S32x1x128.Idx) (ix2 b m : S32x128.Idx) (by intro c; fin_cases c <;> rfl),
      broadcastInDim_apply _ _ SpecI.offsOf (ix3 b d m : S32x4x128.Idx) (ix3 b d (0 : Fin 1) : S32x4x1.Idx) (by intro c; fin_cases c <;> rfl),
      offs_apply]

/-- Row 4 of the packed table: the mask. -/
theorem pack_apply_mask (a1 a2 : IVec S32x128 32) (b : Fin 32) (m : Fin 128) :
    SpecI.packOf a1 a2 (ix3 b (4 : Fin 5) m) = a1 (ix2 b m) := by
  unfold SpecI.packOf
  dsimp only
  rw [concatenate_pair_apply_right (s₁ := S32x4x128) (s₂ := S32x1x128) (1 : Fin 3) _ _ _ (ix3 b (4 : Fin 5) m) rfl rfl
    (ix3 b (0 : Fin 1) m : S32x1x128.Idx) (by intro c hc; fin_cases c <;> first | rfl | exact absurd rfl hc) rfl,
    broadcastInDim_apply _ _ a1 (ix3 b (0 : Fin 1) m : S32x1x128.Idx) (ix2 b m : S32x128.Idx) (by intro c; fin_cases c <;> rfl)]

/-- A word in [0, n] read signed is at most n read unsigned. -/
theorem toNat_le_of_toInt (w : BitVec 32) (n : Nat) (h0 : 0 ≤ w.toInt) (h1 : w.toInt ≤ n) : w.toNat ≤ n := by
  have h32 := w.isLt
  rw [BitVec.toInt_eq_toNat_cond] at h0 h1
  split at h0 <;> omega

/-- Every word of the packed table, at coordinates. -/
theorem pack_lt_at {F : FTy → Type} [FloatOps F] (a0 : FVec F S32x4x128x128 .f32) (a1 a2 : IVec S32x128 32)
    (a3 : FVec F S32x128x4 .f32) (h : Cert.Pre_input_domain.fn (F := F) a0 a1 a2 a3 = fun _ => 1#1)
    (b : Fin 32) (r : Fin 5) (m : Fin 128) : (SpecI.packOf a1 a2 (ix3 b r m)).toNat < 2097152 := by
  obtain ⟨r, hr⟩ := r
  have hb := b.isLt
  by_cases hd : r < 4
  · change (SpecI.packOf a1 a2 (ix3 b (Fin.castLE (by decide) (⟨r, hd⟩ : Fin 4) : Fin 5) m)).toNat < _
    rw [pack_apply_idx]
    obtain ⟨h0, h1⟩ := PreFacts.ind_range a0 a1 a2 a3 h (ix2 b m)
    have hx := toNat_le_of_toInt _ 16383 h0 h1
    have hr' : (⟨r, hd⟩ : Fin 4).val = r := rfl
    rw [BitVec.toNat_add, BitVec.toNat_ofNat]
    omega
  · have e : r = 4 := by omega
    subst e
    change (SpecI.packOf a1 a2 (ix3 b (4 : Fin 5) m)).toNat < _
    rw [pack_apply_mask]
    obtain ⟨h0, h1⟩ := PreFacts.mask_range a0 a1 a2 a3 h (ix2 b m)
    have hx := toNat_le_of_toInt _ 1 h0 h1
    omega

/-- Every word of the packed table is a row number of the flattened map. -/
theorem pack_lt {F : FTy → Type} [FloatOps F] (a0 : FVec F S32x4x128x128 .f32) (a1 a2 : IVec S32x128 32)
    (a3 : FVec F S32x128x4 .f32) (h : Cert.Pre_input_domain.fn (F := F) a0 a1 a2 a3 = fun _ => 1#1) :
    ∀ j : S32x5x128.Idx, (SpecI.packOf a1 a2 j).toNat < 2097152 := fun j => by
  rw [eq_ix3 j]
  exact pack_lt_at a0 a1 a2 a3 h (j 0) (j 1) (j 2)

end Cert.Proof.PackRangeI

end
-- ==== Proof.ValueIdeal.lean ====
/-
  The host's side read as pure functions: the three arrays the call reads are the flattened feature map, the packed
  table and the transposed targets of the arguments; the result is the host's tail of what the call wrote; no
  operation writes an argument. So the program ends with its result at the result function of its arguments.
-/
import proofs.«219714_g10557029613686_week1_w2_465_59_alg».proof.Proof.LaunchIdeal
import proofs.«219714_g10557029613686_week1_w2_465_59_alg».proof.Proof.PackRangeIdeal

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo
open Cert.Proof.SpecI

variable [FloatOps F]

variable (m : (ℓ : Loc nD τ sig) → Buf (Elt F) ℓ)

theorem Vpre_flat (d : Dev nD) : (fFlat m d : FVec F S2097152 .f32) = flatOf (m (a0Loc d)) := by
  unfold fFlat Vpre; dsimp only [opsPre, op0, op1, op2, op3, op4, op5, op6, op7, op8, op9, op10, op11, op12, op13, op14, op15, op16, op17, op18, op19, op20]; after_results; rfl

theorem Vpre_pack (d : Dev nD) : (fPack m d : IVec S32x5x128 32) = packOf (m (a1Loc d)) (m (a2Loc d)) := by
  unfold fPack Vpre; dsimp only [opsPre, op0, op1, op2, op3, op4, op5, op6, op7, op8, op9, op10, op11, op12, op13, op14, op15, op16, op17, op18, op19, op20]; after_results; rfl

theorem Vpre_tgt (d : Dev nD) : (fTgt m d : FVec F S32x4x128 .f32) = tgtOf (m (a3Loc d)) := by
  unfold fTgt Vpre; dsimp only [opsPre, op0, op1, op2, op3, op4, op5, op6, op7, op8, op9, op10, op11, op12, op13, op14, op15, op16, op17, op18, op19, op20]; after_results; rfl

theorem Vfin_res (d : Dev nD) (g : Buf (Elt F) (outLoc d)) : (Vfin m d g rRes : FVec F S_ .f32) = tailOf (g : FVec F S16x2x16 .f32) := by
  unfold Vfin Vmid; dsimp only [opsPost, op21, op22, op23, op24, op25, op26, op27, op28, op29, op30, op31]; after_results
  simp only [Function.update_self]; rfl

theorem Vpre_arg (d : Dev nD) (b : DevRef τ sig) (hb : b = rA0 ∨ b = rA1 ∨ b = rA2 ∨ b = rA3) : Vpre m d b = V0 m d b := by
  unfold Vpre; dsimp only [opsPre, op0, op1, op2, op3, op4, op5, op6, op7, op8, op9, op10, op11, op12, op13, op14, op15, op16, op17, op18, op19, op20]
  rcases hb with rfl | rfl | rfl | rfl <;> (after_results; try rfl)

theorem Vfin_arg (d : Dev nD) (g : Buf (Elt F) (outLoc d)) (b : DevRef τ sig) (hb : b = rA0 ∨ b = rA1 ∨ b = rA2 ∨ b = rA3) : Vfin m d g b = V0 m d b := by
  have hne : b ≠ rOut := by rcases hb with rfl | rfl | rfl | rfl <;> decide
  have h1 : Vfin m d g b = Vmid m d g b := by
    unfold Vfin; dsimp only [opsPost, op21, op22, op23, op24, op25, op26, op27, op28, op29, op30, op31]
    rcases hb with rfl | rfl | rfl | rfl <;> (after_results; try rfl)
  rw [h1]; unfold Vmid; rw [Function.update_of_ne hne]; exact Vpre_arg m d b hb

/-- The result the program ends with is the result function of its arguments. -/
theorem result_of_args (d : Dev nD) :
    (Vfin m d (fOut m d) rRes : FVec F S_ .f32) = resultOf (m (a0Loc d)) (m (a1Loc d)) (m (a2Loc d)) (m (a3Loc d)) := by
  rw [Vfin_res]
  show tailOf (partsOf (fFlat m d) (fPack m d) (fTgt m d)) = _
  rw [Vpre_flat, Vpre_pack, Vpre_tgt]; rfl

/-- Under the precondition every word of the packed table is a row of the flattened map. -/
theorem preOK_of_pre (hpre : ∀ c : Dev nD, Cert.Pre_input_domain.fn (F := F) (m (a0Loc c)) (m (a1Loc c)) (m (a2Loc c)) (m (a3Loc c)) = fun _ => 1#1) : PreOK m := by
  intro d j
  have h := Cert.Proof.PackRangeI.pack_lt (F := F) (m (a0Loc d)) (m (a1Loc d)) (m (a2Loc d)) (m (a3Loc d)) (hpre d) j
  rw [← Vpre_pack] at h; exact h

/-- The program's run with its result named and its arguments unchanged. -/
theorem run_value [∀ e, Nonempty (Elt F e)] (ρ : Dev nD → PrngReg)
    (hpre : ∀ c : Dev nD, Cert.Pre_input_domain.fn (F := F) (m (a0Loc c)) (m (a1Loc c)) (m (a2Loc c)) (m (a3Loc c)) = fun _ => 1#1) :
    θ_run (Cert.KernelIdeal.defs (F := F)) (Cert.KernelIdeal.threads (F := F)) ⟨m, fun _ => 0, ρ⟩ (fun r => ∀ c : Dev nD,
      r.2.mem (resLoc c) = (resultOf (m (a0Loc c)) (m (a1Loc c)) (m (a2Loc c)) (m (a3Loc c)) : FVec F S_ .f32)
      ∧ r.2.mem (a0Loc c) = m (a0Loc c) ∧ r.2.mem (a1Loc c) = m (a1Loc c) ∧ r.2.mem (a2Loc c) = m (a2Loc c) ∧ r.2.mem (a3Loc c) = m (a3Loc c)) :=
  (θ_run (Cert.KernelIdeal.defs (F := F)) _ _).mono (fun r h c =>
    ⟨(h c).1.trans (result_of_args m c), (h c).2.1.trans (Vfin_arg m c _ rA0 (.inl rfl)), (h c).2.2.1.trans (Vfin_arg m c _ rA1 (.inr (.inl rfl))),
      (h c).2.2.2.1.trans (Vfin_arg m c _ rA2 (.inr (.inr (.inl rfl)))), (h c).2.2.2.2.trans (Vfin_arg m c _ rA3 (.inr (.inr (.inr rfl))))⟩)
    (run_main m ρ (preOK_of_pre m hpre))

end Cert.Proof.TileI

end
-- ==== Proof.SetupBits.lean ====
/-
  The sixteen vector subcores of one SparseCore each take two consecutive batches: a subcore copies its two
  rows of the packed index/mask table and of the transposed targets into its own memory, gathers through the
  eight index rows the predictions out of the flattened feature map, accumulates per lane the masked smooth-L1
  terms and the mask itself, and writes the two 16-lane partial sums to its row of the result. This module
  names the program's pieces as the launch theorem reads them and the arrays each subcore holds.
-/
import proofs.«219714_g10557029613686_week1_w2_465_59_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«219714_g10557029613686_week1_w2_465_59_alg».proof.Proof.Gen.Kernel
import proofs.«219714_g10557029613686_week1_w2_465_59_alg».proof.Proof.Gen.Kernel.Skeleton

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev flatLoc (d : Dev nD) : Loc nD τ sig := (SparseCore.T d).loc main_v0
abbrev packLoc (d : Dev nD) : Loc nD τ sig := (SparseCore.T d).loc main_v17
abbrev tgtLoc (d : Dev nD) : Loc nD τ sig := (SparseCore.T d).loc main_v18
abbrev outLoc (d : Dev nD) : Loc nD τ sig := (SparseCore.T d).loc main_v19

abbrev flatV : Memref sig .scVector .hbm S2097152 .f32 := Memref.whole main_v0_scv
abbrev packV : Memref sig .scVector .hbm S32x5x128 .i32 := Memref.whole main_v17_scv
abbrev tgtV : Memref sig .scVector .hbm S32x4x128 .f32 := Memref.whole main_v18_scv
abbrev outV : Memref sig .scVector .hbm S16x2x16 .f32 := Memref.whole main_v19_scv
abbrev idxS : Memref sig .scVector .vmem S2x5x128 .i32 := Memref.whole cc0_scratch0
abbrev predS : Memref sig .scVector .vmem S2x4x128 .f32 := Memref.whole cc0_scratch1
abbrev partS : Memref sig .scVector .vmem S2x16 .f32 := Memref.whole cc0_scratch2
abbrev tgtS : Memref sig .scVector .vmem S2x4x128 .f32 := Memref.whole cc0_scratch3

/-- Row `L 1` of the result, as a subcore addresses it: a [2,16] block. -/
abbrev outRowK (L : grid0.Coords) : Memref sig .scVector .hbm S2x16 .f32 :=
  ((outV).slice (Rect.unit (s := S16x2x16) (k0_off3 L) S1x2x16.size (k0_off3_inb L)) (fun _ => rfl)).squeeze S2x16 squeezes_S1x2x16_S2x16

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

/-- The body as a subcore at coordinates `L` runs it: on the whole arrays and its own scratch. -/
abbrev tileProg [FloatOps F] (L : grid0.Coords) :=
  cc0__tile_body (F := F) L flatV (Memref.isWhole_whole _) packV (Memref.isWhole_whole _) tgtV (Memref.isWhole_whole _) outV (Memref.isWhole_whole _)
    idxS (Memref.isWhole_whole _) predS (Memref.isWhole_whole _) partS (Memref.isWhole_whole _) tgtS (Memref.isWhole_whole _)
    cc0_scratch4 cc0_scratch5 cc0_scratch6 cc0_scratch7 cc0_scratch8 cc0_scratch9 cc0_scratch10 cc0_scratch11 cc0_scratch12 cc0_scratch13 cc0_scoped0

end Cert.Proof.TileB

end
-- ==== Proof.TileBits.lean ====
/-
  One vector subcore's task, run once at symbolic coordinates: what it holds going in (a read share of each of
  the three arrays it reads, its row of the result, its own scratch and semaphores) and what it hands back.
-/
import proofs.«219714_g10557029613686_week1_w2_465_59_alg».proof.Proof.SetupBits

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid0.Coords)

/-- The semaphore cells a vector subcore owns: the ten DMA semaphores of the call and the region's one. -/
abbrev semSet : Finset (SemLoc sig) :=
  {.dma cc0_scratch4.sem, .dma cc0_scratch5.sem, .dma cc0_scratch6.sem, .dma cc0_scratch7.sem, .dma cc0_scratch8.sem, .dma cc0_scratch9.sem,
   .dma cc0_scratch10.sem, .dma cc0_scratch11.sem, .dma cc0_scratch12.sem, .dma cc0_scratch13.sem, .dma cc0_scoped0.sem}

omit [FloatOps F] in
theorem scoped_iff : ∀ sl : SemLoc sig, sl.isScoped .scVector = true ↔ sl ∈ semSet := by decide

abbrev cellOf (d : Dev nD) (c : Fin τ.nSC) (i : Fin τ.nSub) : SemLoc sig ↪ GSem nD τ sig :=
  ⟨fun sl => (V d c i, sl), fun _ _ h => (Prod.ext_iff.mp h).2⟩

omit [FloatOps F] in
theorem ownCells_V (c : Fin τ.nSC) (i : Fin τ.nSub) : ownCells (V d c i) = semSet.map (cellOf d c i) := by
  ext g
  rw [mem_ownCells, Finset.mem_map]
  constructor
  · rintro ⟨h1, h2⟩
    refine ⟨g.2, (scoped_iff g.2).mp ?_, Prod.ext h1.symm rfl⟩
    rw [← h2]; show g.2.isScoped .scVector = g.2.isScoped g.1.2.kind; rw [h1]
  · rintro ⟨sl, hs, rfl⟩
    exact ⟨rfl, (scoped_iff sl).mpr hs⟩

abbrev sc (d : Dev nD) (c : Fin τ.nSC) (i : Fin τ.nSub) (s : DmaSems sig S_) : GSem nD τ sig := (V d c i, .dma s.sem)

omit [FloatOps F] in
theorem ownSems0_V (c : Fin τ.nSC) (i : Fin τ.nSub) :
    (ownSems0 (V d c i) : sProp 𝕄)
      = iprop(semVal (sc d c i cc0_scratch4) 0 ∗ semVal (sc d c i cc0_scratch5) 0 ∗ semVal (sc d c i cc0_scratch6) 0 ∗ semVal (sc d c i cc0_scratch7) 0
          ∗ semVal (sc d c i cc0_scratch8) 0 ∗ semVal (sc d c i cc0_scratch9) 0 ∗ semVal (sc d c i cc0_scratch10) 0 ∗ semVal (sc d c i cc0_scratch11) 0
          ∗ semVal (sc d c i cc0_scratch12) 0 ∗ semVal (sc d c i cc0_scratch13) 0 ∗ semVal (sc d c i cc0_scoped0) 0) := by
  unfold SparseCore.Cfg.ownSems0
  rw [ownCells_V, bigSep_map]
  unfold semSet
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

abbrev pV (L : grid0.Coords) : Proc τ := Proc.scVector (cV L) (jV L)

/-- The subcore's own buffers other than the four scratch buffers the body uses. -/
abbrev restBufs : sProp 𝕄 :=
  bigSep (((((ownRefs (τ := τ) (pV L)).erase ((pV L).devRef cc0_scratch0)).erase ((pV L).devRef cc0_scratch1)).erase ((pV L).devRef cc0_scratch2)).erase
      ((pV L).devRef cc0_scratch3))
    fun b => iprop(∃ f, ((d, b) : Loc nD τ sig) ↦{fullShare} f)

omit [FloatOps F] in
/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (pV L)).erase ((pV L).devRef cc0_scratch0)).erase ((pV L).devRef cc0_scratch1)).erase ((pV L).devRef cc0_scratch2)).erase
              ((pV L).devRef cc0_scratch3))
              fun b => iprop(∃ f, ((d, b) : Loc nD τ sig) ↦{fullShare} f)) := by
  unfold SparseCore.Cfg.ownBufs
  have ne : ∀ {a b : Ref sig .scVector}, a ≠ b → (pV L).devRef a ≠ (pV L).devRef b := fun h e => h (Proc.devRef_injective _ e)
  have own0 : (pV L).devRef cc0_scratch0 ∈ ownRefs (τ := τ) (pV L) := SparseCore.Cfg.mem_ownRefs_of_owner (p := pV L) (b := (pV L).devRef cc0_scratch0) rfl
  have own1 : (pV L).devRef cc0_scratch1 ∈ ownRefs (τ := τ) (pV L) := SparseCore.Cfg.mem_ownRefs_of_owner (p := pV L) (b := (pV L).devRef cc0_scratch1) rfl
  have own2 : (pV L).devRef cc0_scratch2 ∈ ownRefs (τ := τ) (pV L) := SparseCore.Cfg.mem_ownRefs_of_owner (p := pV L) (b := (pV L).devRef cc0_scratch2) rfl
  have own3 : (pV L).devRef cc0_scratch3 ∈ ownRefs (τ := τ) (pV L) := SparseCore.Cfg.mem_ownRefs_of_owner (p := pV L) (b := (pV L).devRef cc0_scratch3) rfl
  refine (SparseCore.bigSep_erase' own0).trans ?_
  rw [SparseCore.bigSep_erase' (Finset.mem_erase.mpr ⟨ne (by decide), own1⟩),
    SparseCore.bigSep_erase' (Finset.mem_erase.mpr ⟨ne (by decide), Finset.mem_erase.mpr ⟨ne (by decide), own2⟩⟩),
    SparseCore.bigSep_erase' (Finset.mem_erase.mpr ⟨ne (by decide), Finset.mem_erase.mpr ⟨ne (by decide), Finset.mem_erase.mpr ⟨ne (by decide), own3⟩⟩⟩)]

variable (fF : Buf (Elt F) (flatLoc d)) (fP : Buf (Elt F) (packLoc d)) (fT : Buf (Elt F) (tgtLoc d)) (fO : Buf (Elt F) (outLoc d))
variable (q0 q1 q2 : PosShare TreeShare)

abbrev flatPts : sProp 𝕄 := flatLoc d ↦{q0} fF
abbrev packPts : sProp 𝕄 := packLoc d ↦{q1} fP
abbrev tgtPts : sProp 𝕄 := tgtLoc d ↦{q2} fT
abbrev outRowSetK (L : grid0.Coords) : Finset S16x2x16.Idx := (outRowK L).view.set
abbrev outRowPts (g : Buf (Elt F) (outLoc d)) : sProp 𝕄 := outLoc d ↦[outRowSetK L]{fullShare} g

omit [FloatOps F] in
/-- A star over the first ten numbers, written out. -/
theorem bigSep_range10 (Φ : ℕ → sProp 𝕄) :
    bigSep (Finset.range 10) Φ = iprop(Φ 0 ∗ Φ 1 ∗ Φ 2 ∗ Φ 3 ∗ Φ 4 ∗ Φ 5 ∗ Φ 6 ∗ Φ 7 ∗ Φ 8 ∗ Φ 9) := by
  rw [show Finset.range 10 = {0, 1, 2, 3, 4, 5, 6, 7, 8, 9} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The subcore's two batches of the packed table, as its fetch addresses them. -/
abbrev packRowsK (L : grid0.Coords) : Memref sig .scVector .hbm S2x5x128 .i32 :=
  (packV).slice (Rect.unit (s := S32x5x128) (k0_off1 L) S2x5x128.size (k0_off1_inb L)) (fun _ => rfl)

/-- What that fetch lands in the index scratch. -/
abbrev payPack : S2x5x128.Idx → Elt F .i32 := ReadAs.same.apply ((packRowsK L).view.read (Elt F) fP)

omit [FloatOps F] in
theorem payPack_apply (x : S2x5x128.Idx) : payPack d L fP x = fP ((packRowsK L).view.emb x) :=
  (View.read_apply _ _).trans (cast_eq _ _)

omit [FloatOps F] in
/-- Every word a gather reads its rows through is a row of the flattened map: each 128-word window of the index
    scratch, once the fetch has landed over whatever the scratch held, holds words of the packed table. -/
theorem idx_inb (hP : ∀ j, (fP j).toNat < 2097152) (g0 : Buf (Elt F) ((idxS).view.loc (V d (cV L) (jV L))))
    (pay : S2x5x128.Idx → Elt F .i32) (hpay : pay = payPack d L fP) (row : Fin 3 → Nat)
    (hk : ∀ a, row a + S1x1x128.size a ≤ S2x5x128.size a) (hq : (Rect.unit (s := S2x5x128) row S1x1x128.size hk).shape.Squeezes S128) :
    ∀ x, (View.read (Elt F) (((idxS).slice (Rect.unit (s := S2x5x128) row S1x1x128.size hk) (fun _ => rfl)).squeeze S128 hq).view
        ((idxS).view.writes (Elt F) g0 [⟨Rect.whole cc0_scratch0.ty.shape, pay⟩]) x).toNat < 2097152 := by
  subst hpay; intro x
  have e : View.read (Elt F) (((idxS).slice (Rect.unit (s := S2x5x128) row S1x1x128.size hk) (fun _ => rfl)).squeeze S128 hq).view
        ((idxS).view.writes (Elt F) g0 [⟨Rect.whole cc0_scratch0.ty.shape, payPack d L fP⟩]) x
      = View.read (Elt F) (idxS).view ((idxS).view.writes (Elt F) g0 [⟨Rect.whole cc0_scratch0.ty.shape, payPack d L fP⟩])
          ((Rect.unit (s := S2x5x128) row S1x1x128.size hk).emb ((Shape.reshapeEquiv hq.numel_eq) x)) := by
    rw [View.read_apply, View.read_apply]; rfl
  rw [e]
  have h := congrFun (View.read_writes_whole (Val := Elt F) (idxS).view g0 (payPack d L fP))
    ((Rect.unit (s := S2x5x128) row S1x1x128.size hk).emb ((Shape.reshapeEquiv hq.numel_eq) x))
  exact lt_of_eq_of_lt (congrArg BitVec.toNat (h.trans (payPack_apply d L fP _))) (hP _)

omit [FloatOps F] in
/-- The same over the scratch written whole in one piece. -/
theorem idx_inb' (hP : ∀ j, (fP j).toNat < 2097152) (g0 : Buf (Elt F) ((idxS).view.loc (V d (cV L) (jV L))))
    (pay : S2x5x128.Idx → Elt F .i32) (hpay : pay = payPack d L fP) (row : Fin 3 → Nat)
    (hk : ∀ a, row a + S1x1x128.size a ≤ S2x5x128.size a) (hq : (Rect.unit (s := S2x5x128) row S1x1x128.size hk).shape.Squeezes S128) :
    ∀ x, (View.read (Elt F) (((idxS).slice (Rect.unit (s := S2x5x128) row S1x1x128.size hk) (fun _ => rfl)).squeeze S128 hq).view
        (View.write (Elt F) (idxS).view g0 pay Finset.univ) x).toNat < 2097152 := by
  subst hpay; intro x
  have e : View.read (Elt F) (((idxS).slice (Rect.unit (s := S2x5x128) row S1x1x128.size hk) (fun _ => rfl)).squeeze S128 hq).view
        (View.write (Elt F) (idxS).view g0 (payPack d L fP) Finset.univ) x
      = View.read (Elt F) (idxS).view (View.write (Elt F) (idxS).view g0 (payPack d L fP) Finset.univ)
          ((Rect.unit (s := S2x5x128) row S1x1x128.size hk).emb ((Shape.reshapeEquiv hq.numel_eq) x)) := by
    rw [View.read_apply, View.read_apply]; rfl
  rw [e, View.write_whole_univ]
  simp only [Memref.view_whole, View.read_whole]
  rw [payPack_apply]
  exact hP _

abbrev IdxFactL : Prop :=
  ∀ (g : Buf (Elt F) ((idxS).view.loc (V d (cV L) (jV L)))) (row : Fin 3 → Nat) (hk : ∀ a, row a + S1x1x128.size a ≤ S2x5x128.size a)
    (hq : (Rect.unit (s := S2x5x128) row S1x1x128.size hk).shape.Squeezes S128),
    ∀ x, (View.read (Elt F) (((idxS).slice (Rect.unit (s := S2x5x128) row S1x1x128.size hk) (fun _ => rfl)).squeeze S128 hq).view
        ((idxS).view.writes (Elt F) g [⟨Rect.whole cc0_scratch0.ty.shape, payPack d L fP⟩]) x).toNat < 2097152
abbrev IdxFactW : Prop :=
  ∀ (g : Buf (Elt F) ((idxS).view.loc (V d (cV L) (jV L)))) (row : Fin 3 → Nat) (hk : ∀ a, row a + S1x1x128.size a ≤ S2x5x128.size a)
    (hq : (Rect.unit (s := S2x5x128) row S1x1x128.size hk).shape.Squeezes S128),
    ∀ x, (View.read (Elt F) (((idxS).slice (Rect.unit (s := S2x5x128) row S1x1x128.size hk) (fun _ => rfl)).squeeze S128 hq).view
        (View.write (Elt F) (idxS).view g (payPack d L fP) Finset.univ) x).toNat < 2097152

/-- The subcore's row of the result with a [2,16] block `g` written over it. -/
abbrev rowWith (g : S2x16.Idx → Elt F .f32) : Buf (Elt F) (outLoc d) :=
  (outRowK L).view.writes (Elt F) fO [⟨Rect.whole S2x16, g⟩]

set_option maxHeartbeats 8000000 in
set_option maxRecDepth 16384 in
/-- What the task writes to its row of the result — the two 16-lane sums, as the run of the body finds them —
    with the proof that the task, from a read share of each array it reads, its row of the result, its own scratch
    and semaphores, runs to its end and hands all of it back, the row written so. -/
noncomputable def tileRun (hF : (K (F := F)).Facts) (hidx : (∀ (g : Buf (Elt F) ((idxS).view.loc (V d (cV L) (jV L)))) (row : Fin 3 → Nat) (hk : ∀ a, row a + S1x1x128.size a ≤ S2x5x128.size a)
      (hq : (Rect.unit (s := S2x5x128) row S1x1x128.size hk).shape.Squeezes S128),
      ∀ x, (View.read (Elt F) (((idxS).slice (Rect.unit (s := S2x5x128) row S1x1x128.size hk) (fun _ => rfl)).squeeze S128 hq).view
          ((idxS).view.writes (Elt F) g [⟨Rect.whole cc0_scratch0.ty.shape, payPack d L fP⟩]) x).toNat < 2097152))
    (hidx' : (∀ (g : Buf (Elt F) ((idxS).view.loc (V d (cV L) (jV L)))) (row : Fin 3 → Nat) (hk : ∀ a, row a + S1x1x128.size a ≤ S2x5x128.size a)
      (hq : (Rect.unit (s := S2x5x128) row S1x1x128.size hk).shape.Squeezes S128),
      ∀ x, (View.read (Elt F) (((idxS).slice (Rect.unit (s := S2x5x128) row S1x1x128.size hk) (fun _ => rfl)).squeeze S128 hq).view
          (View.write (Elt F) (idxS).view g (payPack d L fP) Finset.univ) x).toNat < 2097152)) :
    { g : Buf (Elt F) ((V d (cV L) (jV L)).loc cc0_scratch0) → Buf (Elt F) ((V d (cV L) (jV L)).loc cc0_scratch1)
          → Buf (Elt F) ((V d (cV L) (jV L)).loc cc0_scratch2) → Buf (Elt F) ((V d (cV L) (jV L)).loc cc0_scratch3) → S2x16.Idx → Elt F .f32 //
      ∀ (fO : Buf (Elt F) (outLoc d)) (f0 : Buf (Elt F) ((V d (cV L) (jV L)).loc cc0_scratch0)) (f1 : Buf (Elt F) ((V d (cV L) (jV L)).loc cc0_scratch1))
        (f2 : Buf (Elt F) ((V d (cV L) (jV L)).loc cc0_scratch2)) (f3 : Buf (Elt F) ((V d (cV L) (jV L)).loc cc0_scratch3))
        (O : CellTallies nD τ sig (HIx 1)) (W : Waits sig (HIx 1)) (hO : ∀ g, O g none = 0),
        iprop(levAts (K (F := F)).L (K (F := F)).lev ∗ emp
            ∗ (flatPts d fF q0 ∗ packPts d fP q1 ∗ tgtPts d fT q2 ∗ outRowPts d L fO)
            ∗ (((V d (cV L) (jV L)).loc cc0_scratch0 ↦{fullShare} f0) ∗ ((V d (cV L) (jV L)).loc cc0_scratch1 ↦{fullShare} f1)
              ∗ ((V d (cV L) (jV L)).loc cc0_scratch2 ↦{fullShare} f2) ∗ ((V d (cV L) (jV L)).loc cc0_scratch3 ↦{fullShare} f3) ∗ restBufs d L)
            ∗ scopedSems0 (V d (cV L) (jV L)) ∗ owes (V d (cV L) (jV L)) O W)
          ⊢ wp frame (wpE (defs₀ (F := F)) 𝒱₀ (V d (cV L) (jV L)) none) Set.univ (tileProg (F := F) L)
              fun _ => iprop((flatPts d fF q0 ∗ packPts d fP q1 ∗ tgtPts d fT q2 ∗ outRowPts d L (rowWith d L fO (g f0 f1 f2 f3)))
                ∗ scopedBufs (V d (cV L) (jV L)) ∗ scopedSems0 (V d (cV L) (jV L))
                ∗ ∃ W', ⌜∀ p ∈ W', p ∈ W ∨ p.2 = none⌝ ∗ owes (V d (cV L) (jV L)) O W') } := by
  refine ⟨?_, fun fO f0 f1 f2 f3 O W hO => ?run⟩
  case run =>
    rw [(K (F := F)).scopedBufs_V hF d (cV L) (jV L), SparseCore.Cfg.scopedSems0_V (Val := Elt F) d (cV L) (jV L), ownSems0_V, ownBufs_V]
    iintro ⟨#Hlv, -, ⟨Hf, Hp, Ht, Ho⟩, ⟨H0, H1, H2, H3, Hbufs⟩, ⟨Hs4, Hs5, Hs6, Hs7, Hs8, Hs9, Hs10, Hs11, Hs12, Hs13, Hs14⟩, HO⟩
    ihave Hmw := (show levAts (K (F := F)).L (K (F := F)).lev ⊢ Transfers.MayWaits (V d (cV L) (jV L)) (default : HIx 1) O from
      (K (F := F)).mayWaits_none (thr := V d (cV L) (jV L)) hO) $$ Hlv
    ihave Hf' := (Entails.of_eq (show (flatLoc d ↦{q0} fF : sProp 𝕄) = (flatV).view.loc (V d (cV L) (jV L)) ↦{q0} fF from rfl)) $$ Hf
    ihave Hp' := (Entails.of_eq (show (packLoc d ↦{q1} fP : sProp 𝕄) = (packV).view.loc (V d (cV L) (jV L)) ↦{q1} fP from rfl)) $$ Hp
    ihave Ht' := (Entails.of_eq (show (tgtLoc d ↦{q2} fT : sProp 𝕄) = (tgtV).view.loc (V d (cV L) (jV L)) ↦{q2} fT from rfl)) $$ Ht
    ihave Ho' := (Entails.of_eq (show (outLoc d ↦[outRowSetK L]{fullShare} fO : sProp 𝕄) = (outRowK L).view.loc (V d (cV L) (jV L)) ↦[(outRowK L).view.set]{fullShare} fO from rfl)) $$ Ho
    ihave H0' := (Entails.of_eq (show ((V d (cV L) (jV L)).loc cc0_scratch0 ↦{fullShare} f0 : sProp 𝕄) = (idxS).view.loc (V d (cV L) (jV L)) ↦{fullShare} f0 from rfl)) $$ H0
    ihave H1' := (Entails.of_eq (show ((V d (cV L) (jV L)).loc cc0_scratch1 ↦{fullShare} f1 : sProp 𝕄) = (predS).view.loc (V d (cV L) (jV L)) ↦{fullShare} f1 from rfl)) $$ H1
    ihave H2' := (Entails.of_eq (show ((V d (cV L) (jV L)).loc cc0_scratch2 ↦{fullShare} f2 : sProp 𝕄) = (partS).view.loc (V d (cV L) (jV L)) ↦{fullShare} f2 from rfl)) $$ H2
    ihave H3' := (Entails.of_eq (show ((V d (cV L) (jV L)).loc cc0_scratch3 ↦{fullShare} f3 : sProp 𝕄) = (tgtS).view.loc (V d (cV L) (jV L)) ↦{fullShare} f3 from rfl)) $$ H3
    -- the flattened map is read by eight gathers at once: one read share per semaphore they complete on
    ihave Hft := (Transfers.pointsTo_toks_range (ℓ := (flatV).view.loc (V d (cV L) (jV L))) (S := Finset.univ) (f := fF) q0 10).1 $$ Hf'
    icases Hft with ⟨Hfd, Hft⟩
    ihave Hft' := (Entails.of_eq (bigSep_range10 (F := F) fun i => ((flatV).view.loc (V d (cV L) (jV L)) ↦{Transfers.shareTokN q0 i} fF : sProp 𝕄))) $$ Hft
    icases Hft' with ⟨Hk0, Hk1, Hk2, Hk3, Hk4, Hk5, Hk6, Hk7, Hk8, Hk9⟩
    sl_exec_parts
    sl_step
    -- the ten read shares of the flattened map and what was kept aside are its share again
    ihave Hft := (Entails.of_eq (bigSep_range10 (F := F) fun i => ((flatV).view.loc (V d (cV L) (jV L)) ↦{Transfers.shareTokN q0 i} fF : sProp 𝕄)).symm) $$ [Hk0 Hk1 Hk2 Hk3 Hk4 Hk5 Hk6 Hk7 Hk8 Hk9]
    · isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      isplitl [Hk7]; · iexact Hk7
      isplitl [Hk8]; · iexact Hk8
      iexact Hk9
    ihave Hf'' := (Transfers.pointsTo_toks_range (ℓ := (flatV).view.loc (V d (cV L) (jV L))) (S := Finset.univ) (f := fF) q0 10).2 $$ [Hfd Hft]
    · isplitl [Hfd]; · iexact Hfd
      iexact Hft
    isplitl [Hf'' Hp' Ht' Ho']
    · isplitl [Hf'']; · iexact Hf''
      isplitl [Hp']; · iexact Hp'
      isplitl [Ht']; · iexact Ht'
      iexact Ho'
    isplitl [H0' H1' H2' H3' Hbufs]
    · isplitl [H0']; · iexists _; iexact H0'
      isplitl [H1']; · iexists _; iexact H1'
      isplitl [H2']; · iexists _; iexact H2'
      isplitl [H3']; · iexists _; iexact H3'
      iexact Hbufs
    isplitl [Hs4 Hs5 Hs6 Hs7 Hs8 Hs9 Hs10 Hs11 Hs12 Hs13 Hs14]
    · isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      iexact Hs14
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp

end Tile

end Cert.Proof.TileB

end
-- ==== Proof.SpecBits.lean ====
/-
  The kernel's result as a pure function of its four arguments, in the program's own operations. Before the
  call the host flattens the feature map, builds the packed table (rows 0..3 of batch b: the object's position
  plus the offset b * 65536 + d * 16384 of channel d in the flattened map; row 4: the mask) and transposes the
  targets to [batch, channel, object]. Subcore s owns batches 2s and 2s+1: per lane j it adds up, over both
  batches, the four channels and the eight 16-object chunks, the smooth-L1 term of (prediction - target) * mask
  and, separately, the mask. After the call the host sums the 16 x 16 partial sums of each kind and divides.
-/
import proofs.«219714_g10557029613686_week1_w2_465_59_alg».proof.Kernel
import proofs.«219714_g10557029613686_week1_w2_465_59_alg».proof.Proof.Gen.Kernel
import Idealize.ShloMosaic.Lib.ValueIdx

noncomputable section

namespace Cert.Proof.SpecB

open Cert.Kernel Cert.Kernel.Gen
open Idealize.ShloMosaic Idealize.ShloMosaic.ValueIdx

variable {F : FTy → Type} [FloatOps F]

/-! ## Before the call -/

/-- The feature map flattened: entry (b, d, h, w) at b * 65536 + d * 16384 + h * 128 + w. -/
def flatOf (a0 : FVec F S32x4x128x128 .f32) : FVec F S2097152 .f32 := shapeCast S2097152 a0 shapeCasts_S32x4x128x128_S2097152

/-- The offsets b * 65536 + d * 16384, as [32, 4, 1]. -/
def offsOf : IVec S32x4x1 32 :=
  let v1 : IVec S32 32 := iotaInDim S32 32 0
  let v2 : IVec S32 32 := broadcastInDim S32 ![] bcast_S_S32 (constantI S_ 32 65536#32)
  let v3 : IVec S32 32 := muli v1 v2
  let v4 : IVec S32x1x1 32 := broadcastInDim S32x1x1 ![0] bcast_S32_S32x1x1_0 v3
  let v5 : IVec S4 32 := iotaInDim S4 32 0
  let v6 : IVec S4 32 := broadcastInDim S4 ![] bcast_S_S4 (constantI S_ 32 16384#32)
  let v7 : IVec S4 32 := muli v5 v6
  let v8 : IVec S1x4x1 32 := broadcastInDim S1x4x1 ![1] bcast_S4_S1x4x1_1 v7
  let v9 : IVec S32x4x1 32 := broadcastInDim S32x4x1 ![0, 1, 2] bcast_S32x1x1_S32x4x1_0_1_2 v4
  let v10 : IVec S32x4x1 32 := broadcastInDim S32x4x1 ![0, 1, 2] bcast_S1x4x1_S32x4x1_0_1_2 v8
  addi v9 v10

/-- The packed table [32, 5, 128]: rows 0..3 the flat positions, row 4 the mask. -/
def packOf (a1 a2 : IVec S32x128 32) : IVec S32x5x128 32 :=
  let v12 : IVec S32x1x128 32 := broadcastInDim S32x1x128 ![0, 2] bcast_S32x128_S32x1x128_0_2 a2
  let v13 : IVec S32x4x128 32 := broadcastInDim S32x4x128 ![0, 1, 2] bcast_S32x1x128_S32x4x128_0_1_2 v12
  let v14 : IVec S32x4x128 32 := broadcastInDim S32x4x128 ![0, 1, 2] bcast_S32x4x1_S32x4x128_0_1_2 offsOf
  let v15 : IVec S32x4x128 32 := addi v13 v14
  let v16 : IVec S32x1x128 32 := broadcastInDim S32x1x128 ![0, 2] bcast_S32x128_S32x1x128_0_2 a1
  concatenate S32x5x128 1 [⟨S32x4x128, v15⟩, ⟨S32x1x128, v16⟩] concatenates_S32x4x128_S32x1x128_S32x5x128_d1

/-- The targets as [batch, channel, object]. -/
def tgtOf (a3 : FVec F S32x128x4 .f32) : FVec F S32x4x128 .f32 := transpose S32x4x128 [0, 2, 1] a3 transposes_S32x128x4_S32x4x128_0_2_1

/-! ## One subcore's partial sums -/

/-- A table word as a row number of the flattened map (every word the subcores gather through is below 2097152:
    `pack_rows_lt`'s statement; the remainder only makes this total). -/
def rowOf (w : BitVec 32) : S2097152.Idx := ix1 (⟨w.toNat % 2097152, Nat.mod_lt _ (by decide)⟩ : Fin 2097152)

/-- Object 16 * ch + j of batch 2 * s + bi, as the table's and the targets' last two coordinates need it. -/
def batchOf (s : Fin 16) (bi : Fin 2) : Fin 32 := ⟨2 * s.val + bi.val, by omega⟩
def objOf (ch : Fin 8) (j : Fin 16) : Fin 128 := ⟨16 * ch.val + j.val, by omega⟩

/-- The smooth-L1 term of one difference. -/
def huber (x : F .f32) : F .f32 :=
  Scalar.select (FloatOps.cmpf .olt (FloatOps.absf x) (Scalar.ofBits .f32 0x3F800000#32))
    (FloatOps.mulf (FloatOps.mulf (Scalar.ofBits .f32 0x3F000000#32) x) x)
    (FloatOps.subf (FloatOps.absf x) (Scalar.ofBits .f32 0x3F000000#32))

/-- The mask of object 16 ch + j of batch 2 s + bi, as a float. -/
def maskAt (pack : IVec S32x5x128 32) (s : Fin 16) (bi : Fin 2) (ch : Fin 8) (j : Fin 16) : F .f32 :=
  FloatOps.sitofp .f32 (pack (ix3 (batchOf s bi) (4 : Fin 5) (objOf ch j)))

/-- One term: channel d of that object. -/
def termAt (flat : FVec F S2097152 .f32) (pack : IVec S32x5x128 32) (tgt : FVec F S32x4x128 .f32)
    (s : Fin 16) (bi : Fin 2) (d : Fin 4) (ch : Fin 8) (j : Fin 16) : F .f32 :=
  huber (FloatOps.mulf (FloatOps.subf (flat (rowOf (pack (ix3 (batchOf s bi) (Fin.castLE (by decide) d : Fin 5) (objOf ch j)))))
    (tgt (ix3 (batchOf s bi) d (objOf ch j)))) (maskAt pack s bi ch j))

/-- Lane j of subcore s's sum of terms, added up from zero in the order batch, channel, chunk. -/
def accAt (flat : FVec F S2097152 .f32) (pack : IVec S32x5x128 32) (tgt : FVec F S32x4x128 .f32) (s : Fin 16) (j : Fin 16) : F .f32 :=
  (List.finRange 64).foldl (fun a (k : Fin 64) =>
    FloatOps.addf a (termAt flat pack tgt s ⟨k.val / 32, by omega⟩ ⟨k.val / 8 % 4, by omega⟩ ⟨k.val % 8, by omega⟩ j)) (Scalar.ofBits .f32 0x00000000#32)

/-- Lane j of subcore s's sum of masks, in the order batch, chunk. -/
def maccAt (pack : IVec S32x5x128 32) (s : Fin 16) (j : Fin 16) : F .f32 :=
  (List.finRange 16).foldl (fun a (k : Fin 16) =>
    FloatOps.addf a (maskAt (F := F) pack s ⟨k.val / 8, by omega⟩ ⟨k.val % 8, by omega⟩ j)) (Scalar.ofBits .f32 0x00000000#32)

/-- What the call leaves in its result: row s holds subcore s's two 16-lane sums. -/
def partsOf (flat : FVec F S2097152 .f32) (pack : IVec S32x5x128 32) (tgt : FVec F S32x4x128 .f32) : FVec F S16x2x16 .f32 :=
  fun i => if (i 1).val = 0 then accAt flat pack tgt (i 0) (i 2) else maccAt pack (i 0) (i 2)

/-! ## After the call -/

/-- The host's tail: both kinds of partial sums added up, the quotient of the loss by the count plus 1e-4. -/
def tailOf (parts : FVec F S16x2x16 .f32) : FVec F S_ .f32 :=
  let v20 : FVec F S16x1x16 .f32 := extractStridedSlice S16x1x16 ![0, 0, 0] parts slices_S16x2x16_S16x1x16_0_0_0
  let v21 : FVec F S16x16 .f32 := shapeCast S16x16 v20 shapeCasts_S16x1x16_S16x16
  let v22 : FVec F S_ .f32 := Host.reduceAdd v21 (constant S_ .f32 0x00000000#32) reducesTo_S16x16_S_d0_1 h_S_
  let v23 : FVec F S16x1x16 .f32 := extractStridedSlice S16x1x16 ![0, 1, 0] parts slices_S16x2x16_S16x1x16_0_1_0
  let v24 : FVec F S16x16 .f32 := shapeCast S16x16 v23 shapeCasts_S16x1x16_S16x16
  let v25 : FVec F S_ .f32 := Host.reduceAdd v24 (constant S_ .f32 0x00000000#32) reducesTo_S16x16_S_d0_1 h_S_
  let v26 : FVec F S_ .f32 := addf v25 (constant S_ .f32 0x38D1B717#32)
  Host.divf v22 v26

/-- The kernel's result as a function of its arguments. -/
def resultOf (a0 : FVec F S32x4x128x128 .f32) (a1 a2 : IVec S32x128 32) (a3 : FVec F S32x128x4 .f32) : FVec F S_ .f32 :=
  tailOf (partsOf (flatOf a0) (packOf a1 a2) (tgtOf a3))

end Cert.Proof.SpecB

end
-- ==== Proof.TileScratchBits.lean ====
/-
  What a subcore's two fetches leave in its scratch. The subcore at position s of the grid copies rows 2 s and
  2 s + 1 of the packed table into its index scratch and the same two rows of the transposed targets into its target
  scratch: entry (bi, r, m) of the index scratch is entry (2 s + bi, r, m) of the table, and entry (bi, c, m) of the
  target scratch is entry (2 s + bi, c, m) of the targets, whatever the scratch held before. A 16-lane load at
  (bi, r, 16 ch) reads, at lane j, entry (bi, r, 16 ch + j). Two casts between a 16-lane vector and its [1, 1, 16] and
  [1, 16] forms, read at a lane, close the module.
-/
import proofs.«219714_g10557029613686_week1_w2_465_59_alg».proof.Proof.TileBits
import proofs.«219714_g10557029613686_week1_w2_465_59_alg».proof.Proof.SpecBits
import Idealize.ShloMosaic.Lib.Pipeline.Value
import Idealize.ShloMosaic.Lib.ValueLayout

noncomputable section

namespace Cert.Proof.TileB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Cert.Proof.SpecB

section Scratch

variable (d : Dev nD) (L : grid0.Coords)
variable (fF : Buf (Elt F) (flatLoc d)) (fP : Buf (Elt F) (packLoc d)) (fT : Buf (Elt F) (tgtLoc d))

/-- Where the fetch's slice of the packed table puts entry (bi, r, m): row 2 s + bi of the table. -/
theorem packRows_emb (bi : Fin 2) (r : Fin 5) (m : Fin 128) :
    (packRowsK L).view.emb (ix3 bi r m) = (ix3 (batchOf (jL L) bi) r m : S32x5x128.Idx) := by
  funext (a : Fin 3)
  apply Fin.ext
  show (k0_off1 L) a + 1 * ((ix3 bi r m : S2x5x128.Idx) a).val = ((ix3 (batchOf (jL L) bi) r m : S32x5x128.Idx) a).val
  rw [k0_off1_eq]
  fin_cases a
  · show 2 * (L 1).val + 1 * bi.val = 2 * (L 1).val + bi.val
    omega
  · show 0 + 1 * r.val = r.val
    omega
  · show 0 + 1 * m.val = m.val
    omega

/-- THE INDEX SCRATCH: after the fetch has landed over whatever it held, entry (bi, r, m) is entry (2 s + bi, r, m)
    of the packed table. -/
theorem idx_entry (f0 : Buf (Elt F) ((V d (cV L) (jV L)).loc cc0_scratch0)) (bi : Fin 2) (r : Fin 5) (m : Fin 128) :
    View.read (Elt F) (idxS).view (View.write (Elt F) (idxS).view f0 (tileRun.sl.dma0 d L fP) Finset.univ) (ix3 bi r m)
      = fP (ix3 (batchOf (jL L) bi) r m) := by
  rw [View.write_whole_univ]
  simp only [Memref.view_whole, View.read_whole]
  show payPack d L fP (ix3 bi r m) = _
  rw [payPack_apply, packRows_emb]

/-- A 16-lane load of the index scratch at (bi, r, 16 ch), at lane j: entry (2 s + bi, r, 16 ch + j) of the table. -/
theorem idx_load (f0 : Buf (Elt F) ((V d (cV L) (jV L)).loc cc0_scratch0)) (off : Fin 3 → Nat)
    (inb : ∀ a, off a + S1x1x16.size a ≤ S2x5x128.size a) (bi : Fin 2) (r : Fin 5) (ch : Fin 8)
    (hoff : off = ![bi.val, r.val, 16 * ch.val]) (j : Fin 16) :
    View.readAt (Elt F) (idxS).view (Rect.unit (s := S2x5x128) off S1x1x16.size inb).toLoadRect
        (View.write (Elt F) (idxS).view f0 (tileRun.sl.dma0 d L fP) Finset.univ) (ix3 (0 : Fin 1) (0 : Fin 1) j)
      = fP (ix3 (batchOf (jL L) bi) r (objOf ch j)) := by
  subst hoff
  rw [View.readAt_apply, ← idx_entry d L fP f0 bi r (objOf ch j)]
  refine congrArg _ (funext fun (a : Fin 3) => Fin.ext ?_)
  fin_cases a
  · show bi.val + 1 * 0 = bi.val
    omega
  · show r.val + 1 * 0 = r.val
    omega
  · show 16 * ch.val + 1 * j.val = 16 * ch.val + j.val
    omega

/-- The subcore's two batches of the transposed targets, as its fetch addresses them. -/
abbrev tgtRowsK (L : grid0.Coords) : Memref sig .scVector .hbm S2x4x128 .f32 :=
  (tgtV).slice (Rect.unit (s := S32x4x128) (k0_off2 L) S2x4x128.size (k0_off2_inb L)) (fun _ => rfl)

/-- What that fetch lands in the target scratch, at an index. -/
theorem payTgt_apply (x : S2x4x128.Idx) : tileRun.sl.dma0_1 d L fT x = fT ((tgtRowsK L).view.emb x) :=
  (View.read_apply _ _).trans (cast_eq _ _)

/-- Where the fetch's slice of the targets puts entry (bi, c, m): row 2 s + bi. -/
theorem tgtRows_emb (bi : Fin 2) (c : Fin 4) (m : Fin 128) :
    (tgtRowsK L).view.emb (ix3 bi c m) = (ix3 (batchOf (jL L) bi) c m : S32x4x128.Idx) := by
  funext (a : Fin 3)
  apply Fin.ext
  show (k0_off2 L) a + 1 * ((ix3 bi c m : S2x4x128.Idx) a).val = ((ix3 (batchOf (jL L) bi) c m : S32x4x128.Idx) a).val
  rw [k0_off2_eq]
  fin_cases a
  · show 2 * (L 1).val + 1 * bi.val = 2 * (L 1).val + bi.val
    omega
  · show 0 + 1 * c.val = c.val
    omega
  · show 0 + 1 * m.val = m.val
    omega

/-- THE TARGET SCRATCH: after the fetch, entry (bi, c, m) is entry (2 s + bi, c, m) of the transposed targets. -/
theorem tgt_entry (f3 : Buf (Elt F) ((V d (cV L) (jV L)).loc cc0_scratch3)) (bi : Fin 2) (c : Fin 4) (m : Fin 128) :
    View.read (Elt F) (tgtS).view (View.write (Elt F) (tgtS).view f3 (tileRun.sl.dma0_1 d L fT) Finset.univ) (ix3 bi c m)
      = fT (ix3 (batchOf (jL L) bi) c m) := by
  rw [View.write_whole_univ]
  simp only [Memref.view_whole, View.read_whole]
  rw [payTgt_apply, tgtRows_emb]

/-- A 16-lane load of the target scratch at (bi, c, 16 ch), at lane j: entry (2 s + bi, c, 16 ch + j) of the targets. -/
theorem tgt_load (f3 : Buf (Elt F) ((V d (cV L) (jV L)).loc cc0_scratch3)) (off : Fin 3 → Nat)
    (inb : ∀ a, off a + S1x1x16.size a ≤ S2x4x128.size a) (bi : Fin 2) (c : Fin 4) (ch : Fin 8)
    (hoff : off = ![bi.val, c.val, 16 * ch.val]) (j : Fin 16) :
    View.readAt (Elt F) (tgtS).view (Rect.unit (s := S2x4x128) off S1x1x16.size inb).toLoadRect
        (View.write (Elt F) (tgtS).view f3 (tileRun.sl.dma0_1 d L fT) Finset.univ) (ix3 (0 : Fin 1) (0 : Fin 1) j)
      = fT (ix3 (batchOf (jL L) bi) c (objOf ch j)) := by
  subst hoff
  rw [View.readAt_apply, ← tgt_entry d L fT f3 bi c (objOf ch j)]
  refine congrArg _ (funext fun (a : Fin 3) => Fin.ext ?_)
  fin_cases a
  · show bi.val + 1 * 0 = bi.val
    omega
  · show c.val + 1 * 0 = c.val
    omega
  · show 16 * ch.val + 1 * j.val = 16 * ch.val + j.val
    omega

/-- A [1, 1, 16] vector cast to [16], at lane j. -/
theorem lane_apply {α : Type} (v : S1x1x16.Idx → α) (j : Fin 16) :
    shapeCast S16 v shapeCasts_S1x1x16_S16 (ix1 j) = v (ix3 (0 : Fin 1) (0 : Fin 1) j) :=
  shapeCast_apply v _ _ _ (by
    rw [Shape.rowMajor_val_three, Shape.rowMajor_val_one]
    show (0 * 1 + 0) * 16 + j.val = j.val
    omega)

/-- A [16] vector cast to [1, 16], at (0, j). -/
theorem row_apply {α : Type} (v : S16.Idx → α) (j : Fin 16) :
    shapeCast S1x16 v shapeCasts_S16_S1x16 (ix2 (0 : Fin 1) j) = v (ix1 j) :=
  shapeCast_apply v _ _ _ (by
    rw [Shape.rowMajor_val_one, Shape.rowMajor_val_two]
    show j.val = 0 * 16 + j.val
    omega)

end Scratch

end Cert.Proof.TileB

end
-- ==== Proof.TileLoadsBits.lean ====
/-
  What a subcore's loads of its prediction scratch read. Eight gathers fill the scratch: gather (bi, c) reads, object
  by object, word (bi, c, m) of the index scratch (the packed table's word (2 s + bi, c, m)) and fetches that row of the
  flattened feature map into entry (bi, c, m). Each gather writes one row window and leaves the other seven rows as
  they were, so after the eight writes entry (bi, c, m) is the feature map at the row the table names. A 16-lane load
  at (bi, c, 16 ch), cast to a vector, is lane by lane the scratch's entries (bi, c, 16 ch + j): stated for the
  prediction, the target and the index scratch alike.
-/
import proofs.«219714_g10557029613686_week1_w2_465_59_alg».proof.Proof.TileBits
import proofs.«219714_g10557029613686_week1_w2_465_59_alg».proof.Proof.SpecBits
import proofs.«219714_g10557029613686_week1_w2_465_59_alg».proof.Proof.TileScratchBits

noncomputable section

namespace Cert.Proof.TileB

open Cert.Kernel Cert.Kernel.Gen
open Idealize.ShloMosaic Idealize.ShloMosaic.ValueIdx
open Idealize.ShloMosaic.SparseCore (S V T)
open Cert.Proof.SpecB

variable {F : FTy → Type}

/-! ## A row window of the prediction scratch

The window at offsets (bi, d, 0) of extent [1, 1, 128], read as a vector of 128: its entry m sits at (bi, d, m) of the
scratch. A write through it replaces exactly row (bi, d). -/

section Windows
variable [FloatOps F]

omit [FloatOps F] in
/-- Entry y of a [1, 1, 128] window squeezed to 128 is entry (0, 0, y) of the window. -/
theorem squeeze128_idx (off : Fin 3 → ℕ) (hk : ∀ a, off a + S1x1x128.size a ≤ S2x4x128.size a)
    (hq : (Rect.unit (s := S2x4x128) off S1x1x128.size hk).shape.Squeezes S128) (y : S128.Idx) :
    Shape.reshapeEquiv hq.numel_eq y = (ix3 (0 : Fin 1) (0 : Fin 1) (y 0) : S1x1x128.Idx) :=
  Shape.reshapeEquiv_eq_of_rowMajor _ (by
    rw [Shape.rowMajor_val_three, Shape.rowMajor_val_one]
    show (0 * 1 + 0) * 128 + (y 0).val = (y 0).val
    omega)

end Windows

section Windows2
variable [FloatOps F]
variable (d : Dev nD) (L : grid0.Coords)

/-- Row (off 0, off 1) of the prediction scratch as the vector of its 128 entries. -/
abbrev predW (off : Fin 3 → ℕ) (hk : ∀ a, off a + S1x1x128.size a ≤ S2x4x128.size a) :=
  (((predS).slice (Rect.unit (s := S2x4x128) off S1x1x128.size hk) (fun _ => rfl)).squeeze S128 squeezes_S1x1x128_S128).view

omit [FloatOps F] in
/-- A write through the row window at (off 0, off 1, 0) replaces row (off 0, off 1) and nothing else. -/
theorem write_row (off : Fin 3 → ℕ) (hk : ∀ a, off a + S1x1x128.size a ≤ S2x4x128.size a)
    (hs : ∀ a, (Rect.unit (s := S2x4x128) off S1x1x128.size hk).stride a = 1)
    (hq : (Rect.unit (s := S2x4x128) off S1x1x128.size hk).shape.Squeezes S128)
    (g : Buf (Elt F) ((V d (cV L) (jV L)).loc cc0_scratch1)) (pay : S128.Idx → Elt F .f32) (i : S2x4x128.Idx) :
    View.write (Elt F) ((predS.slice (Rect.unit (s := S2x4x128) off S1x1x128.size hk) hs).squeeze S128 hq).view g pay Finset.univ i
      = if (i 0).val = off 0 ∧ (i 1).val = off 1 then pay (ix1 (i 2)) else g i := by
  have h2 : off 2 = 0 := by have := hk 2; change off 2 + 128 ≤ 128 at this; omega
  have hemb : ∀ y : S128.Idx, ∀ a, (((predS.slice (Rect.unit (s := S2x4x128) off S1x1x128.size hk) hs).squeeze S128 hq).view.emb y a).val
      = off a + (ix3 (0 : Fin 1) (0 : Fin 1) (y 0) : S1x1x128.Idx) a := by
    intro y a
    show off a + 1 * ((Shape.reshapeEquiv hq.numel_eq y) a).val = _
    rw [squeeze128_idx off hk hq y, Nat.one_mul]
  by_cases h : (i 0).val = off 0 ∧ (i 1).val = off 1
  · rw [if_pos h]
    have hi : i = ((predS.slice (Rect.unit (s := S2x4x128) off S1x1x128.size hk) hs).squeeze S128 hq).view.emb (ix1 (i 2)) := by
      funext a; refine Fin.ext ?_
      rw [hemb]
      match a with
      | ⟨0, _⟩ => show (i 0).val = off 0 + 0; omega
      | ⟨1, _⟩ => show (i 1).val = off 1 + 0; omega
      | ⟨2, _⟩ => show (i 2).val = off 2 + (i 2).val; omega
    conv_lhs => rw [hi]
    rw [View.write_emb_of_mem _ _ (Finset.mem_univ _)]
    rfl
  · rw [if_neg h]
    refine View.write_of_not_mem _ _ _ (fun hm => h ?_)
    obtain ⟨y, -, rfl⟩ := Finset.mem_map.mp hm
    constructor
    · rw [hemb]; rfl
    · rw [hemb]; rfl

omit [FloatOps F] in
/-- The same for the named row window, at an index given by its coordinates. -/
theorem write_predW (off : Fin 3 → ℕ) (hk : ∀ a, off a + S1x1x128.size a ≤ S2x4x128.size a)
    (g : Buf (Elt F) ((V d (cV L) (jV L)).loc cc0_scratch1)) (pay : S128.Idx → Elt F .f32) (bi : Fin 2) (c : Fin 4) (m : Fin 128) :
    View.write (Elt F) (predW off hk) g pay Finset.univ (ix3 bi c m)
      = if bi.val = off 0 ∧ c.val = off 1 then pay (ix1 m) else g (ix3 bi c m) :=
  write_row d L off hk (fun _ => rfl) squeezes_S1x1x128_S128 g pay (ix3 bi c m)

omit [FloatOps F] in
theorem write_predW_hit (off : Fin 3 → ℕ) (hk : ∀ a, off a + S1x1x128.size a ≤ S2x4x128.size a)
    (g : Buf (Elt F) ((V d (cV L) (jV L)).loc cc0_scratch1)) (pay : S128.Idx → Elt F .f32) (bi : Fin 2) (c : Fin 4) (m : Fin 128)
    (h : bi.val = off 0 ∧ c.val = off 1) :
    View.write (Elt F) (predW off hk) g pay Finset.univ (ix3 bi c m) = pay (ix1 m) := by
  rw [write_predW, if_pos h]

omit [FloatOps F] in
theorem write_predW_miss (off : Fin 3 → ℕ) (hk : ∀ a, off a + S1x1x128.size a ≤ S2x4x128.size a)
    (g : Buf (Elt F) ((V d (cV L) (jV L)).loc cc0_scratch1)) (pay : S128.Idx → Elt F .f32) (bi : Fin 2) (c : Fin 4) (m : Fin 128)
    (h : ¬(bi.val = off 0 ∧ c.val = off 1)) :
    View.write (Elt F) (predW off hk) g pay Finset.univ (ix3 bi c m) = g (ix3 bi c m) := by
  rw [write_predW, if_neg h]

end Windows2

/-! ## The eight gathers

Gather (bi, c) reads, for each of the 128 objects, the word (bi, c, m) of the index scratch and fetches that row of the
flattened feature map into row (bi, c) of the prediction scratch. -/

section Gathers
variable [FloatOps F]
variable (d : Dev nD) (L : grid0.Coords)
variable (fF : Buf (Elt F) (flatLoc d)) (fP : Buf (Elt F) (packLoc d))

/-- The index scratch once the fetch has landed. -/
abbrev idxAfter (f0 : Buf (Elt F) ((V d (cV L) (jV L)).loc cc0_scratch0)) : Buf (Elt F) ((idxS).view.loc (V d (cV L) (jV L))) :=
  View.write (Elt F) (idxS).view f0 (tileRun.sl.dma0 d L fP) Finset.univ

/-- The payload of the gather through the index row at offsets off = (bi, c, 0). -/
abbrev gath (hidx' : IdxFactW d L fP) (f0 : Buf (Elt F) ((V d (cV L) (jV L)).loc cc0_scratch0))
    (off : Fin 3 → ℕ) (hk : ∀ a, off a + S1x1x128.size a ≤ S2x5x128.size a) : S128.Idx → Elt F .f32 :=
  SparseCore.gatherPayload gathers_S2097152_S128
    (View.read (Elt F) ((flatV).slice (Rect.unit (s := S2097152) ![0] S2097152.size inb_S2097152_S2097152_0) (fun _ => rfl)).view fF)
    (SparseCore.rows
      (View.read (Elt F) (((idxS).slice (Rect.unit (s := S2x5x128) off S1x1x128.size hk) (fun _ => rfl)).squeeze S128 squeezes_S1x1x128_S128).view
        (idxAfter d L fP f0))
      rfl (fun x => hidx' f0 off hk squeezes_S1x1x128_S128 x))

omit [FloatOps F] in
/-- Object m of that gather: the flattened map at the row the word (off 0, off 1, m) of the table names. -/
theorem gath_apply (hidx' : IdxFactW d L fP) (f0 : Buf (Elt F) ((V d (cV L) (jV L)).loc cc0_scratch0))
    (off : Fin 3 → ℕ) (hk : ∀ a, off a + S1x1x128.size a ≤ S2x5x128.size a) (bi : Fin 2) (c : Fin 5)
    (h0 : off 0 = bi.val) (h1 : off 1 = c.val) (m : Fin 128) :
    gath d L fF fP hidx' f0 off hk (ix1 m) = fF (rowOf (fP (ix3 (batchOf (jL L) bi) c m))) := by
  have h2 : off 2 = 0 := by have := hk 2; change off 2 + 128 ≤ 128 at this; omega
  have hw : View.read (Elt F) (((idxS).slice (Rect.unit (s := S2x5x128) off S1x1x128.size hk) (fun _ => rfl)).squeeze S128 squeezes_S1x1x128_S128).view
        (idxAfter d L fP f0) (ix1 m) = fP (ix3 (batchOf (jL L) bi) c m) := by
    rw [← idx_entry d L fP f0 bi c m]
    rw [View.read_apply, View.read_apply]
    refine congrArg _ (congrArg _ (funext fun (a : Fin 3) => Fin.ext ?_))
    show off a + 1 * ((Shape.reshapeEquiv (squeezes_S1x1x128_S128).numel_eq (ix1 m : S128.Idx)) a).val = ((ix3 bi c m : S2x5x128.Idx) a).val
    have e : Shape.reshapeEquiv (squeezes_S1x1x128_S128).numel_eq (ix1 m : S128.Idx) = (ix3 (0 : Fin 1) (0 : Fin 1) m : S1x1x128.Idx) :=
      Shape.reshapeEquiv_eq_of_rowMajor _ (by
        rw [Shape.rowMajor_val_three, Shape.rowMajor_val_one]
        show (0 * 1 + 0) * 128 + m.val = m.val
        omega)
    rw [e]
    match a with
    | ⟨0, _⟩ => show off 0 + 1 * 0 = bi.val; omega
    | ⟨1, _⟩ => show off 1 + 1 * 0 = c.val; omega
    | ⟨2, _⟩ => show off 2 + 1 * m.val = m.val; omega
  have hlt : (fP (ix3 (batchOf (jL L) bi) c m)).toNat < 2097152 := by
    rw [← hw]; exact hidx' f0 off hk squeezes_S1x1x128_S128 (ix1 m)
  show View.read (Elt F) ((flatV).slice (Rect.unit (s := S2097152) ![0] S2097152.size inb_S2097152_S2097152_0) (fun _ => rfl)).view fF _ = _
  rw [View.read_apply]
  refine (cast_eq _ _).trans (congrArg fF (funext fun (a : Fin 1) => Fin.ext ?_))
  obtain rfl : a = 0 := Subsingleton.elim _ _
  show 0 + 1 * (View.read (Elt F) (((idxS).slice (Rect.unit (s := S2x5x128) off S1x1x128.size hk) (fun _ => rfl)).squeeze S128 squeezes_S1x1x128_S128).view
        (idxAfter d L fP f0) (S128.rowMajor.symm (Fin.cast rfl (m : Fin 128)))).toNat = (fP (ix3 (batchOf (jL L) bi) c m)).toNat % 2097152
  have er : S128.rowMajor.symm (Fin.cast rfl (m : Fin 128)) = (ix1 m : S128.Idx) := by
    rw [Equiv.symm_apply_eq]; refine Fin.ext ?_; rw [Shape.rowMajor_val_one]; rfl
  rw [er, hw, Nat.mod_eq_of_lt hlt]; omega

end Gathers

/-! ## The prediction scratch after the eight gathers -/

section Pred
variable [FloatOps F]
variable (d : Dev nD) (L : grid0.Coords)
variable (fF : Buf (Elt F) (flatLoc d)) (fP : Buf (Elt F) (packLoc d))

/-- The prediction scratch once the eight gathers have landed, over whatever it held. -/
abbrev predAfter (hidx' : IdxFactW d L fP) (f0 : Buf (Elt F) ((V d (cV L) (jV L)).loc cc0_scratch0))
    (f1 : Buf (Elt F) ((V d (cV L) (jV L)).loc cc0_scratch1)) : Buf (Elt F) ((V d (cV L) (jV L)).loc cc0_scratch1) :=
  View.write (Elt F) (predW ![1, 3, 0] inb_S2x4x128_S1x1x128_1_3_0)
    (View.write (Elt F) (predW ![1, 2, 0] inb_S2x4x128_S1x1x128_1_2_0)
      (View.write (Elt F) (predW ![1, 1, 0] inb_S2x4x128_S1x1x128_1_1_0)
        (View.write (Elt F) (predW ![1, 0, 0] inb_S2x4x128_S1x1x128_1_0_0)
          (View.write (Elt F) (predW ![0, 3, 0] inb_S2x4x128_S1x1x128_0_3_0)
            (View.write (Elt F) (predW ![0, 2, 0] inb_S2x4x128_S1x1x128_0_2_0)
              (View.write (Elt F) (predW ![0, 1, 0] inb_S2x4x128_S1x1x128_0_1_0)
                (View.write (Elt F) (predW ![0, 0, 0] inb_S2x4x128_S1x1x128_0_0_0) f1
                  (gath d L fF fP hidx' f0 ![0, 0, 0] inb_S2x5x128_S1x1x128_0_0_0) Finset.univ)
                (gath d L fF fP hidx' f0 ![0, 1, 0] inb_S2x5x128_S1x1x128_0_1_0) Finset.univ)
              (gath d L fF fP hidx' f0 ![0, 2, 0] inb_S2x5x128_S1x1x128_0_2_0) Finset.univ)
            (gath d L fF fP hidx' f0 ![0, 3, 0] inb_S2x5x128_S1x1x128_0_3_0) Finset.univ)
          (gath d L fF fP hidx' f0 ![1, 0, 0] inb_S2x5x128_S1x1x128_1_0_0) Finset.univ)
        (gath d L fF fP hidx' f0 ![1, 1, 0] inb_S2x5x128_S1x1x128_1_1_0) Finset.univ)
      (gath d L fF fP hidx' f0 ![1, 2, 0] inb_S2x5x128_S1x1x128_1_2_0) Finset.univ)
    (gath d L fF fP hidx' f0 ![1, 3, 0] inb_S2x5x128_S1x1x128_1_3_0) Finset.univ

omit [FloatOps F] in
/-- THE PREDICTION SCRATCH: entry (bi, c, m) is the flattened map at the row the table's word (2 s + bi, c, m) names. -/
theorem pred_entry (hidx' : IdxFactW d L fP) (f0 : Buf (Elt F) ((V d (cV L) (jV L)).loc cc0_scratch0))
    (f1 : Buf (Elt F) ((V d (cV L) (jV L)).loc cc0_scratch1)) (bi : Fin 2) (c : Fin 4) (m : Fin 128) :
    predAfter d L fF fP hidx' f0 f1 (ix3 bi c m)
      = fF (rowOf (fP (ix3 (batchOf (jL L) bi) (Fin.castLE (by decide) c : Fin 5) m))) := by
  have hit : ∀ (bi : Fin 2) (c : Fin 4) (off : Fin 3 → ℕ) (hk : ∀ a, off a + S1x1x128.size a ≤ S2x5x128.size a),
      off 0 = bi.val → off 1 = c.val →
      gath d L fF fP hidx' f0 off hk (ix1 m) = fF (rowOf (fP (ix3 (batchOf (jL L) bi) (Fin.castLE (by decide) c : Fin 5) m))) :=
    fun bi c off hk h0 h1 => gath_apply d L fF fP hidx' f0 off hk bi (Fin.castLE (by decide) c) h0 h1 m
  unfold predAfter
  match bi, c with
  | ⟨0, hb⟩, ⟨0, hc⟩ =>
    rw [write_predW_miss d L _ _ _ _ _ _ _ (show ¬((0 : ℕ) = ![1, 3, 0] 0 ∧ (0 : ℕ) = ![1, 3, 0] 1) by decide),
      write_predW_miss d L _ _ _ _ _ _ _ (show ¬((0 : ℕ) = ![1, 2, 0] 0 ∧ (0 : ℕ) = ![1, 2, 0] 1) by decide),
      write_predW_miss d L _ _ _ _ _ _ _ (show ¬((0 : ℕ) = ![1, 1, 0] 0 ∧ (0 : ℕ) = ![1, 1, 0] 1) by decide),
      write_predW_miss d L _ _ _ _ _ _ _ (show ¬((0 : ℕ) = ![1, 0, 0] 0 ∧ (0 : ℕ) = ![1, 0, 0] 1) by decide),
      write_predW_miss d L _ _ _ _ _ _ _ (show ¬((0 : ℕ) = ![0, 3, 0] 0 ∧ (0 : ℕ) = ![0, 3, 0] 1) by decide),
      write_predW_miss d L _ _ _ _ _ _ _ (show ¬((0 : ℕ) = ![0, 2, 0] 0 ∧ (0 : ℕ) = ![0, 2, 0] 1) by decide),
      write_predW_miss d L _ _ _ _ _ _ _ (show ¬((0 : ℕ) = ![0, 1, 0] 0 ∧ (0 : ℕ) = ![0, 1, 0] 1) by decide),
      write_predW_hit d L _ _ _ _ _ _ _ (show (0 : ℕ) = ![0, 0, 0] 0 ∧ (0 : ℕ) = ![0, 0, 0] 1 from ⟨rfl, rfl⟩)]
    exact hit ⟨0, hb⟩ ⟨0, hc⟩ _ _ rfl rfl
  | ⟨0, hb⟩, ⟨1, hc⟩ =>
    rw [write_predW_miss d L _ _ _ _ _ _ _ (show ¬((0 : ℕ) = ![1, 3, 0] 0 ∧ (1 : ℕ) = ![1, 3, 0] 1) by decide),
      write_predW_miss d L _ _ _ _ _ _ _ (show ¬((0 : ℕ) = ![1, 2, 0] 0 ∧ (1 : ℕ) = ![1, 2, 0] 1) by decide),
      write_predW_miss d L _ _ _ _ _ _ _ (show ¬((0 : ℕ) = ![1, 1, 0] 0 ∧ (1 : ℕ) = ![1, 1, 0] 1) by decide),
      write_predW_miss d L _ _ _ _ _ _ _ (show ¬((0 : ℕ) = ![1, 0, 0] 0 ∧ (1 : ℕ) = ![1, 0, 0] 1) by decide),
      write_predW_miss d L _ _ _ _ _ _ _ (show ¬((0 : ℕ) = ![0, 3, 0] 0 ∧ (1 : ℕ) = ![0, 3, 0] 1) by decide),
      write_predW_miss d L _ _ _ _ _ _ _ (show ¬((0 : ℕ) = ![0, 2, 0] 0 ∧ (1 : ℕ) = ![0, 2, 0] 1) by decide),
      write_predW_hit d L _ _ _ _ _ _ _ (show (0 : ℕ) = ![0, 1, 0] 0 ∧ (1 : ℕ) = ![0, 1, 0] 1 from ⟨rfl, rfl⟩)]
    exact hit ⟨0, hb⟩ ⟨1, hc⟩ _ _ rfl rfl
  | ⟨0, hb⟩, ⟨2, hc⟩ =>
    rw [write_predW_miss d L _ _ _ _ _ _ _ (show ¬((0 : ℕ) = ![1, 3, 0] 0 ∧ (2 : ℕ) = ![1, 3, 0] 1) by decide),
      write_predW_miss d L _ _ _ _ _ _ _ (show ¬((0 : ℕ) = ![1, 2, 0] 0 ∧ (2 : ℕ) = ![1, 2, 0] 1) by decide),
      write_predW_miss d L _ _ _ _ _ _ _ (show ¬((0 : ℕ) = ![1, 1, 0] 0 ∧ (2 : ℕ) = ![1, 1, 0] 1) by decide),
      write_predW_miss d L _ _ _ _ _ _ _ (show ¬((0 : ℕ) = ![1, 0, 0] 0 ∧ (2 : ℕ) = ![1, 0, 0] 1) by decide),
      write_predW_miss d L _ _ _ _ _ _ _ (show ¬((0 : ℕ) = ![0, 3, 0] 0 ∧ (2 : ℕ) = ![0, 3, 0] 1) by decide),
      write_predW_hit d L _ _ _ _ _ _ _ (show (0 : ℕ) = ![0, 2, 0] 0 ∧ (2 : ℕ) = ![0, 2, 0] 1 from ⟨rfl, rfl⟩)]
    exact hit ⟨0, hb⟩ ⟨2, hc⟩ _ _ rfl rfl
  | ⟨0, hb⟩, ⟨3, hc⟩ =>
    rw [write_predW_miss d L _ _ _ _ _ _ _ (show ¬((0 : ℕ) = ![1, 3, 0] 0 ∧ (3 : ℕ) = ![1, 3, 0] 1) by decide),
      write_predW_miss d L _ _ _ _ _ _ _ (show ¬((0 : ℕ) = ![1, 2, 0] 0 ∧ (3 : ℕ) = ![1, 2, 0] 1) by decide),
      write_predW_miss d L _ _ _ _ _ _ _ (show ¬((0 : ℕ) = ![1, 1, 0] 0 ∧ (3 : ℕ) = ![1, 1, 0] 1) by decide),
      write_predW_miss d L _ _ _ _ _ _ _ (show ¬((0 : ℕ) = ![1, 0, 0] 0 ∧ (3 : ℕ) = ![1, 0, 0] 1) by decide),
      write_predW_hit d L _ _ _ _ _ _ _ (show (0 : ℕ) = ![0, 3, 0] 0 ∧ (3 : ℕ) = ![0, 3, 0] 1 from ⟨rfl, rfl⟩)]
    exact hit ⟨0, hb⟩ ⟨3, hc⟩ _ _ rfl rfl
  | ⟨1, hb⟩, ⟨0, hc⟩ =>
    rw [write_predW_miss d L _ _ _ _ _ _ _ (show ¬((1 : ℕ) = ![1, 3, 0] 0 ∧ (0 : ℕ) = ![1, 3, 0] 1) by decide),
      write_predW_miss d L _ _ _ _ _ _ _ (show ¬((1 : ℕ) = ![1, 2, 0] 0 ∧ (0 : ℕ) = ![1, 2, 0] 1) by decide),
      write_predW_miss d L _ _ _ _ _ _ _ (show ¬((1 : ℕ) = ![1, 1, 0] 0 ∧ (0 : ℕ) = ![1, 1, 0] 1) by decide),
      write_predW_hit d L _ _ _ _ _ _ _ (show (1 : ℕ) = ![1, 0, 0] 0 ∧ (0 : ℕ) = ![1, 0, 0] 1 from ⟨rfl, rfl⟩)]
    exact hit ⟨1, hb⟩ ⟨0, hc⟩ _ _ rfl rfl
  | ⟨1, hb⟩, ⟨1, hc⟩ =>
    rw [write_predW_miss d L _ _ _ _ _ _ _ (show ¬((1 : ℕ) = ![1, 3, 0] 0 ∧ (1 : ℕ) = ![1, 3, 0] 1) by decide),
      write_predW_miss d L _ _ _ _ _ _ _ (show ¬((1 : ℕ) = ![1, 2, 0] 0 ∧ (1 : ℕ) = ![1, 2, 0] 1) by decide),
      write_predW_hit d L _ _ _ _ _ _ _ (show (1 : ℕ) = ![1, 1, 0] 0 ∧ (1 : ℕ) = ![1, 1, 0] 1 from ⟨rfl, rfl⟩)]
    exact hit ⟨1, hb⟩ ⟨1, hc⟩ _ _ rfl rfl
  | ⟨1, hb⟩, ⟨2, hc⟩ =>
    rw [write_predW_miss d L _ _ _ _ _ _ _ (show ¬((1 : ℕ) = ![1, 3, 0] 0 ∧ (2 : ℕ) = ![1, 3, 0] 1) by decide),
      write_predW_hit d L _ _ _ _ _ _ _ (show (1 : ℕ) = ![1, 2, 0] 0 ∧ (2 : ℕ) = ![1, 2, 0] 1 from ⟨rfl, rfl⟩)]
    exact hit ⟨1, hb⟩ ⟨2, hc⟩ _ _ rfl rfl
  | ⟨1, hb⟩, ⟨3, hc⟩ =>
    rw [write_predW_hit d L _ _ _ _ _ _ _ (show (1 : ℕ) = ![1, 3, 0] 0 ∧ (3 : ℕ) = ![1, 3, 0] 1 from ⟨rfl, rfl⟩)]
    exact hit ⟨1, hb⟩ ⟨3, hc⟩ _ _ rfl rfl

end Pred

/-! ## The coordinates of a sixteen-lane load -/

section Bounds

theorem lt_of_inb {n k : ℕ} {x : ℕ} (h : x + k ≤ n) (hk : 0 < k) : x < n := by omega
theorem lane_lt {n x j : ℕ} (h : x + 16 ≤ n) (hj : j < 16) : x + j < n := by omega

variable {s : Shape}

end Bounds

/-! ## Sixteen-lane loads, as vectors

A load at offsets (bi, c, 16 ch) of a scratch array, cast to a 16-lane vector: lane j is the scratch's entry
(bi, c, 16 ch + j). -/

section Loads
variable [FloatOps F]
variable (d : Dev nD) (L : grid0.Coords)
variable (fF : Buf (Elt F) (flatLoc d)) (fP : Buf (Elt F) (packLoc d)) (fT : Buf (Elt F) (tgtLoc d))

omit [FloatOps F] in
/-- A load of the prediction scratch. -/
theorem pred_vec (hidx' : IdxFactW d L fP) (f0 : Buf (Elt F) ((V d (cV L) (jV L)).loc cc0_scratch0))
    (f1 : Buf (Elt F) ((V d (cV L) (jV L)).loc cc0_scratch1))
    (off : Fin 3 → ℕ) (hk : ∀ a, off a + S1x1x16.size a ≤ S2x4x128.size a) :
    shapeCast S16 (View.readAt (Elt F) (predS).view (Rect.unit (s := S2x4x128) off S1x1x16.size hk).toLoadRect
        (predAfter d L fF fP hidx' f0 f1)) shapeCasts_S1x1x16_S16
      = fun j : S16.Idx => fF (rowOf (fP (ix3 (batchOf (jL L) (⟨off 0, lt_of_inb (k := 1) (n := 2) (hk 0) Nat.one_pos⟩ : Fin 2)) (Fin.castLE (by decide) (⟨off 1, lt_of_inb (k := 1) (n := 4) (hk 1) Nat.one_pos⟩ : Fin 4) : Fin 5) (⟨off 2 + (j 0).val, lane_lt (n := 128) (hk 2) (j 0).isLt⟩ : Fin 128)))) := by
  funext j
  obtain ⟨jj, rfl⟩ : ∃ jj : Fin 16, j = ix1 jj := ⟨j 0, eq_ix1 j⟩
  rw [lane_apply, View.readAt_apply, View.read_apply]
  refine (cast_eq _ _).trans (Eq.trans (congrArg _ (funext fun (a : Fin 3) => Fin.ext ?_))
    (pred_entry d L fF fP hidx' f0 f1 ⟨off 0, lt_of_inb (k := 1) (n := 2) (hk 0) Nat.one_pos⟩ ⟨off 1, lt_of_inb (k := 1) (n := 4) (hk 1) Nat.one_pos⟩
      ⟨off 2 + jj.val, lane_lt (n := 128) (hk 2) jj.isLt⟩))
  match a with
  | ⟨0, _⟩ => show off 0 + 1 * 0 = off 0; omega
  | ⟨1, _⟩ => show off 1 + 1 * 0 = off 1; omega
  | ⟨2, _⟩ => show off 2 + 1 * jj.val = off 2 + jj.val; omega

omit [FloatOps F] in
/-- A load of the target scratch. -/
theorem tgt_vec (f3 : Buf (Elt F) ((V d (cV L) (jV L)).loc cc0_scratch3))
    (off : Fin 3 → ℕ) (hk : ∀ a, off a + S1x1x16.size a ≤ S2x4x128.size a) :
    shapeCast S16 (View.readAt (Elt F) (tgtS).view (Rect.unit (s := S2x4x128) off S1x1x16.size hk).toLoadRect
        (View.write (Elt F) (tgtS).view f3 (tileRun.sl.dma0_1 d L fT) Finset.univ)) shapeCasts_S1x1x16_S16
      = fun j : S16.Idx => fT (ix3 (batchOf (jL L) (⟨off 0, lt_of_inb (k := 1) (n := 2) (hk 0) Nat.one_pos⟩ : Fin 2)) (⟨off 1, lt_of_inb (k := 1) (n := 4) (hk 1) Nat.one_pos⟩ : Fin 4) (⟨off 2 + (j 0).val, lane_lt (n := 128) (hk 2) (j 0).isLt⟩ : Fin 128)) := by
  funext j
  obtain ⟨jj, rfl⟩ : ∃ jj : Fin 16, j = ix1 jj := ⟨j 0, eq_ix1 j⟩
  rw [lane_apply, View.readAt_apply]
  refine (Eq.trans (congrArg _ (funext fun (a : Fin 3) => Fin.ext ?_))
    (tgt_entry d L fT f3 ⟨off 0, lt_of_inb (k := 1) (n := 2) (hk 0) Nat.one_pos⟩ ⟨off 1, lt_of_inb (k := 1) (n := 4) (hk 1) Nat.one_pos⟩
      ⟨off 2 + jj.val, lane_lt (n := 128) (hk 2) jj.isLt⟩))
  match a with
  | ⟨0, _⟩ => show off 0 + 1 * 0 = off 0; omega
  | ⟨1, _⟩ => show off 1 + 1 * 0 = off 1; omega
  | ⟨2, _⟩ => show off 2 + 1 * jj.val = off 2 + jj.val; omega

omit [FloatOps F] in
/-- A load of the index scratch. -/
theorem idx_vec (f0 : Buf (Elt F) ((V d (cV L) (jV L)).loc cc0_scratch0))
    (off : Fin 3 → ℕ) (hk : ∀ a, off a + S1x1x16.size a ≤ S2x5x128.size a) :
    shapeCast S16 (View.readAt (Elt F) (idxS).view (Rect.unit (s := S2x5x128) off S1x1x16.size hk).toLoadRect
        (View.write (Elt F) (idxS).view f0 (tileRun.sl.dma0 d L fP) Finset.univ)) shapeCasts_S1x1x16_S16
      = fun j : S16.Idx => fP (ix3 (batchOf (jL L) (⟨off 0, lt_of_inb (k := 1) (n := 2) (hk 0) Nat.one_pos⟩ : Fin 2)) (⟨off 1, lt_of_inb (k := 1) (n := 5) (hk 1) Nat.one_pos⟩ : Fin 5) (⟨off 2 + (j 0).val, lane_lt (n := 128) (hk 2) (j 0).isLt⟩ : Fin 128)) := by
  funext j
  obtain ⟨jj, rfl⟩ : ∃ jj : Fin 16, j = ix1 jj := ⟨j 0, eq_ix1 j⟩
  rw [lane_apply, View.readAt_apply]
  refine (Eq.trans (congrArg _ (funext fun (a : Fin 3) => Fin.ext ?_))
    (idx_entry d L fP f0 ⟨off 0, lt_of_inb (k := 1) (n := 2) (hk 0) Nat.one_pos⟩ ⟨off 1, lt_of_inb (k := 1) (n := 5) (hk 1) Nat.one_pos⟩
      ⟨off 2 + jj.val, lane_lt (n := 128) (hk 2) jj.isLt⟩))
  match a with
  | ⟨0, _⟩ => show off 0 + 1 * 0 = off 0; omega
  | ⟨1, _⟩ => show off 1 + 1 * 0 = off 1; omega
  | ⟨2, _⟩ => show off 2 + 1 * jj.val = off 2 + jj.val; omega

end Loads

end Cert.Proof.TileB

end
-- ==== Proof.TileMaskBits.lean ====
/-
  A subcore's sum of masks. The second block the subcore stores adds up, lane by lane and from the zero word, the
  sixteen 16-lane loads of row 4 of its index scratch (the mask of its two batches, eight chunks of sixteen objects
  each) converted to floats, in the order batch bit, chunk. Each load at lane j is the table's mask word of object
  16 ch + j of batch 2 s + bi, so the block at lane j is the sum of masks the specification names.
-/
import proofs.«219714_g10557029613686_week1_w2_465_59_alg».proof.Proof.TileScratchBits

noncomputable section

namespace Cert.Proof.TileB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Cert.Proof.SpecB

section Mask

variable (d : Dev nD) (L : grid0.Coords)
variable (fP : Buf (Elt F) (packLoc d))
variable [FloatOps F]

/-- Lane j of the chain of additions the subcore's mask sum is, over any sixteen loaded vectors. -/
theorem macc_chain (l0 l1 l2 l3 l4 l5 l6 l7 l8 l9 l10 l11 l12 l13 l14 l15 : Vec F S1x1x16 .i32) (j : Fin 16) :
    k0_pay21 (k0_pay15 (k0_pay8 l0 l1 l2 l3 l4) l5 l6 l7 l8 l9 l10) (k0_pay16 l11) l12 l13 l14 l15 (ix1 j)
      = FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf ((Scalar.ofBits .f32 0x00000000#32 : F .f32)) (FloatOps.sitofp .f32 (l0 (ix3 (0 : Fin 1) (0 : Fin 1) j)))) (FloatOps.sitofp .f32 (l1 (ix3 (0 : Fin 1) (0 : Fin 1) j)))) (FloatOps.sitofp .f32 (l2 (ix3 (0 : Fin 1) (0 : Fin 1) j)))) (FloatOps.sitofp .f32 (l3 (ix3 (0 : Fin 1) (0 : Fin 1) j)))) (FloatOps.sitofp .f32 (l4 (ix3 (0 : Fin 1) (0 : Fin 1) j)))) (FloatOps.sitofp .f32 (l5 (ix3 (0 : Fin 1) (0 : Fin 1) j)))) (FloatOps.sitofp .f32 (l6 (ix3 (0 : Fin 1) (0 : Fin 1) j)))) (FloatOps.sitofp .f32 (l7 (ix3 (0 : Fin 1) (0 : Fin 1) j)))) (FloatOps.sitofp .f32 (l8 (ix3 (0 : Fin 1) (0 : Fin 1) j)))) (FloatOps.sitofp .f32 (l9 (ix3 (0 : Fin 1) (0 : Fin 1) j)))) (FloatOps.sitofp .f32 (l10 (ix3 (0 : Fin 1) (0 : Fin 1) j)))) (FloatOps.sitofp .f32 (l11 (ix3 (0 : Fin 1) (0 : Fin 1) j)))) (FloatOps.sitofp .f32 (l12 (ix3 (0 : Fin 1) (0 : Fin 1) j)))) (FloatOps.sitofp .f32 (l13 (ix3 (0 : Fin 1) (0 : Fin 1) j)))) (FloatOps.sitofp .f32 (l14 (ix3 (0 : Fin 1) (0 : Fin 1) j)))) (FloatOps.sitofp .f32 (l15 (ix3 (0 : Fin 1) (0 : Fin 1) j))) := by
  rw [← lane_apply l0 j, ← lane_apply l1 j, ← lane_apply l2 j, ← lane_apply l3 j, ← lane_apply l4 j, ← lane_apply l5 j, ← lane_apply l6 j, ← lane_apply l7 j, ← lane_apply l8 j, ← lane_apply l9 j, ← lane_apply l10 j, ← lane_apply l11 j, ← lane_apply l12 j, ← lane_apply l13 j, ← lane_apply l14 j, ← lane_apply l15 j]
  rfl

/-- THE MASK HALF: the second block the subcore stores, at lane j, is its sum of masks. -/
theorem macc_value (f0 : Buf (Elt F) ((V d (cV L) (jV L)).loc cc0_scratch0)) (j : Fin 16) :
    k0_pay2 (tileRun.sl.r_18 d L fP f0) (ix2 (0 : Fin 1) j) = SpecB.maccAt (F := F) fP (jL L) j := by
  unfold k0_pay2
  rw [row_apply]
  refine (macc_chain _ _ _ _ _ _ _ _ _ _ _ _ _ _ _ _ j).trans ?_
  rw [idx_load d L fP f0 ![0, 4, 0] inb_S2x5x128_S1x1x16_0_4_0 (0 : Fin 2) (4 : Fin 5) (0 : Fin 8) rfl j,
    idx_load d L fP f0 ![0, 4, 16] inb_S2x5x128_S1x1x16_0_4_16 (0 : Fin 2) (4 : Fin 5) (1 : Fin 8) rfl j,
    idx_load d L fP f0 ![0, 4, 32] inb_S2x5x128_S1x1x16_0_4_32 (0 : Fin 2) (4 : Fin 5) (2 : Fin 8) rfl j,
    idx_load d L fP f0 ![0, 4, 48] inb_S2x5x128_S1x1x16_0_4_48 (0 : Fin 2) (4 : Fin 5) (3 : Fin 8) rfl j,
    idx_load d L fP f0 ![0, 4, 64] inb_S2x5x128_S1x1x16_0_4_64 (0 : Fin 2) (4 : Fin 5) (4 : Fin 8) rfl j,
    idx_load d L fP f0 ![0, 4, 80] inb_S2x5x128_S1x1x16_0_4_80 (0 : Fin 2) (4 : Fin 5) (5 : Fin 8) rfl j,
    idx_load d L fP f0 ![0, 4, 96] inb_S2x5x128_S1x1x16_0_4_96 (0 : Fin 2) (4 : Fin 5) (6 : Fin 8) rfl j,
    idx_load d L fP f0 ![0, 4, 112] inb_S2x5x128_S1x1x16_0_4_112 (0 : Fin 2) (4 : Fin 5) (7 : Fin 8) rfl j,
    idx_load d L fP f0 ![1, 4, 0] inb_S2x5x128_S1x1x16_1_4_0 (1 : Fin 2) (4 : Fin 5) (0 : Fin 8) rfl j,
    idx_load d L fP f0 ![1, 4, 16] inb_S2x5x128_S1x1x16_1_4_16 (1 : Fin 2) (4 : Fin 5) (1 : Fin 8) rfl j,
    idx_load d L fP f0 ![1, 4, 32] inb_S2x5x128_S1x1x16_1_4_32 (1 : Fin 2) (4 : Fin 5) (2 : Fin 8) rfl j,
    idx_load d L fP f0 ![1, 4, 48] inb_S2x5x128_S1x1x16_1_4_48 (1 : Fin 2) (4 : Fin 5) (3 : Fin 8) rfl j,
    idx_load d L fP f0 ![1, 4, 64] inb_S2x5x128_S1x1x16_1_4_64 (1 : Fin 2) (4 : Fin 5) (4 : Fin 8) rfl j,
    idx_load d L fP f0 ![1, 4, 80] inb_S2x5x128_S1x1x16_1_4_80 (1 : Fin 2) (4 : Fin 5) (5 : Fin 8) rfl j,
    idx_load d L fP f0 ![1, 4, 96] inb_S2x5x128_S1x1x16_1_4_96 (1 : Fin 2) (4 : Fin 5) (6 : Fin 8) rfl j,
    idx_load d L fP f0 ![1, 4, 112] inb_S2x5x128_S1x1x16_1_4_112 (1 : Fin 2) (4 : Fin 5) (7 : Fin 8) rfl j]
  unfold SpecB.maccAt SpecB.maskAt
  rw [show List.finRange 16 = [0, 1, 2, 3, 4, 5, 6, 7, 8, 9, 10, 11, 12, 13, 14, 15] from by decide]
  rfl

end Mask

end Cert.Proof.TileB

end
-- ==== Proof.TileStoreBits.lean ====
/-
  What a subcore writes to its row of the result, read back. The subcore stores two [1, 16] blocks into its [2, 16]
  scratch, the sum of masks at row 1 and then the sum of terms at row 0, and copies the scratch to row s of the
  [16, 2, 16] result. Reading the scratch after the two stores gives, at (1, j), lane j of the first block and, at
  (0, j), lane j of the second (the first block does not reach row 0); and entry (r, j) of the subcore's row of the
  result is entry (s, r, j) of the whole. So the row written is the row of partial sums as soon as the block of terms
  is the sum of terms: the block of masks is the sum of masks.
-/
import proofs.«219714_g10557029613686_week1_w2_465_59_alg».proof.Proof.TileMaskBits

noncomputable section

namespace Cert.Proof.TileB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Cert.Proof.SpecB

section Store

variable (d : Dev nD) (L : grid0.Coords)
variable (fF : Buf (Elt F) (flatLoc d)) (fP : Buf (Elt F) (packLoc d)) (fT : Buf (Elt F) (tgtLoc d))
variable (q0 q1 q2 : PosShare TreeShare)
variable [FloatOps F]

/-- Where the first stored block lands: row 1. -/
theorem blk1_emb (j : Fin 16) :
    (Rect.unit (s := S2x16) ![1, 0] S1x16.size inb_S2x16_S1x16_1_0).emb (ix2 (0 : Fin 1) j) = (ix2 (1 : Fin 2) j : S2x16.Idx) := by
  funext (a : Fin 2)
  apply Fin.ext
  fin_cases a
  · show 1 + 1 * 0 = 1
    rfl
  · show 0 + 1 * j.val = j.val
    omega

/-- Where the second stored block lands: row 0. -/
theorem blk0_emb (j : Fin 16) :
    (Rect.unit (s := S2x16) ![0, 0] S1x16.size inb_S2x16_S1x16_0_0).emb (ix2 (0 : Fin 1) j) = (ix2 (0 : Fin 2) j : S2x16.Idx) := by
  funext (a : Fin 2)
  apply Fin.ext
  fin_cases a
  · show 0 + 1 * 0 = 0
    rfl
  · show 0 + 1 * j.val = j.val
    omega

/-- The scratch after the two stores, at (1, j): lane j of the first block. -/
theorem store_read1 (f2 : Buf (Elt F) ((V d (cV L) (jV L)).loc cc0_scratch2)) (p1 p0 : S1x16.Idx → Elt F .f32) (j : Fin 16) :
    View.read (Elt F) (partS).view ((partS).view.writes (Elt F) f2
        [⟨Rect.unit ![1, 0] S1x16.size inb_S2x16_S1x16_1_0, p1⟩, ⟨Rect.unit ![0, 0] S1x16.size inb_S2x16_S1x16_0_0, p0⟩]) (ix2 (1 : Fin 2) j)
      = p1 (ix2 (0 : Fin 1) j) := by
  rw [← blk1_emb j]
  exact View.read_writes_cons_emb _ _ _ _ _ _

/-- The scratch after the two stores, at (0, j): lane j of the second block. -/
theorem store_read0 (f2 : Buf (Elt F) ((V d (cV L) (jV L)).loc cc0_scratch2)) (p1 p0 : S1x16.Idx → Elt F .f32) (j : Fin 16) :
    View.read (Elt F) (partS).view ((partS).view.writes (Elt F) f2
        [⟨Rect.unit ![1, 0] S1x16.size inb_S2x16_S1x16_1_0, p1⟩, ⟨Rect.unit ![0, 0] S1x16.size inb_S2x16_S1x16_0_0, p0⟩]) (ix2 (0 : Fin 2) j)
      = p0 (ix2 (0 : Fin 1) j) := by
  rw [View.writes_cons, View.read_slice_write_of_not_mem _ _ _ _ (by
    intro hm
    obtain ⟨x, -, hx⟩ := Finset.mem_map.mp hm
    have h0 := congrArg (fun i : S2x16.Idx => (i 0).val) hx
    change 1 + 1 * (x 0).val = 0 at h0
    omega)]
  rw [← blk0_emb j]
  exact View.read_writes_cons_emb _ _ _ _ _ _

/-- Entry (r, j) of the subcore's row of the result is entry (s, r, j) of the whole result. -/
theorem outRow_emb (x : S2x16.Idx) : (outRowK L).view.emb x = (ix3 (jL L) (x 0) (x 1) : S16x2x16.Idx) := by
  have hx : Shape.reshapeEquiv squeezes_S1x2x16_S2x16.numel_eq x = (ix3 (0 : Fin 1) (x 0) (x 1) : S1x2x16.Idx) := by
    conv_lhs => rw [eq_ix2 x]
    exact reshapeEquiv_ix2_1ab _ (x 0) (x 1)
  funext (a : Fin 3)
  apply Fin.ext
  show (k0_off3 L) a + 1 * ((Shape.reshapeEquiv squeezes_S1x2x16_S2x16.numel_eq x) a).val
    = ((ix3 (jL L) (x 0) (x 1) : S16x2x16.Idx) a).val
  rw [hx, k0_off3_eq]
  fin_cases a
  · show (L 1).val + 1 * 0 = (L 1).val
    omega
  · show 0 + 1 * (x 0).val = (x 0).val
    omega
  · show 0 + 1 * (x 1).val = (x 1).val
    omega

/-- The block the run hands back is the scratch read back after the two stores. -/
theorem tileRun_val (hF : (K (F := F)).Facts) (hidx) (hidx')
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) (f3 : Buf (Elt F) ((V d (cV L) (jV L)).loc cc0_scratch3)) :
    (tileRun d L fF fP fT q0 q1 q2 hF hidx hidx').val f0 f1 f2 f3
      = View.read (Elt F) (partS).view ((partS).view.writes (Elt F) f2 (tileRun.sl.H2'_2 d L fF fP fT hidx' f0 f1 f3)) := rfl

/-- The block of terms being the sum of terms, the block the run hands back is the row of partial sums: at (r, j). -/
theorem tile_value_at (hF : (K (F := F)).Facts) (hidx) (hidx')
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) (f3 : Buf (Elt F) ((V d (cV L) (jV L)).loc cc0_scratch3))
    (hacc : ∀ j : Fin 16,
      k0_pay1 (tileRun.sl.r_91 d L fF fP fT hidx' f0 f1 f3) (tileRun.sl.r_92 d L fF fP fT hidx' f0 f1 f3)
          (tileRun.sl.r_93 d L fF fP fT hidx' f0 f1 f3) (tileRun.sl.r_94 d L fF fP fT hidx' f0 f1 f3) k0_pay108 (ix2 (0 : Fin 1) j)
        = SpecB.accAt (F := F) fF fP fT (jL L) j)
    (r : Fin 2) (j : Fin 16) :
    (tileRun d L fF fP fT q0 q1 q2 hF hidx hidx').val f0 f1 f2 f3 (ix2 r j)
      = SpecB.partsOf (F := F) fF fP fT (ix3 (jL L) r j) := by
  rw [tileRun_val]
  unfold tileRun.sl.H2'_2
  fin_cases r
  · show View.read (Elt F) (partS).view _ (ix2 (0 : Fin 2) j) = SpecB.partsOf (F := F) fF fP fT (ix3 (jL L) (0 : Fin 2) j)
    rw [store_read0, hacc]
    rfl
  · show View.read (Elt F) (partS).view _ (ix2 (1 : Fin 2) j) = SpecB.partsOf (F := F) fF fP fT (ix3 (jL L) (1 : Fin 2) j)
    rw [store_read1, macc_value]
    rfl

/-- THE ROW WRITTEN, from the sum of terms alone: the block the run hands back is the subcore's row of the partial sums
    as soon as the block of terms it stores is the sum of terms. -/
theorem tile_value_of_acc (hF : (K (F := F)).Facts) (hidx) (hidx')
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) (f3 : Buf (Elt F) ((V d (cV L) (jV L)).loc cc0_scratch3))
    (hacc : ∀ j : Fin 16,
      k0_pay1 (tileRun.sl.r_91 d L fF fP fT hidx' f0 f1 f3) (tileRun.sl.r_92 d L fF fP fT hidx' f0 f1 f3)
          (tileRun.sl.r_93 d L fF fP fT hidx' f0 f1 f3) (tileRun.sl.r_94 d L fF fP fT hidx' f0 f1 f3) k0_pay108 (ix2 (0 : Fin 1) j)
        = SpecB.accAt (F := F) fF fP fT (jL L) j)
    (x : S2x16.Idx) :
    (tileRun d L fF fP fT q0 q1 q2 hF hidx hidx').val f0 f1 f2 f3 x
      = SpecB.partsOf (F := F) fF fP fT ((outRowK L).view.emb x) := by
  rw [outRow_emb]
  have h := tile_value_at d L fF fP fT q0 q1 q2 hF hidx hidx' f0 f1 f2 f3 hacc (x 0) (x 1)
  exact (congrArg ((tileRun d L fF fP fT q0 q1 q2 hF hidx hidx').val f0 f1 f2 f3) (eq_ix2 x)).trans h

end Store

end Cert.Proof.TileB

end
-- ==== Proof.TileSumsBits.lean ====
/-
  Lane j of the first block a subcore stores is its sum of terms. The body is unrolled: for each of its two batches,
  the four channels and the eight chunks of sixteen objects, in that order, it loads sixteen predictions, sixteen
  targets and (once per batch and chunk) sixteen masks, forms the smooth-L1 term of (prediction - target) * mask and
  adds it to the running sum, which starts at zero. With each load read as the lanes of its array, the unrolled chain is,
  term by term, the left fold that defines the sum. With the block of mask sums, this is the subcore's row of the
  partial sums.
-/
import proofs.«219714_g10557029613686_week1_w2_465_59_alg».proof.Proof.TileLoadsBits
import proofs.«219714_g10557029613686_week1_w2_465_59_alg».proof.Proof.TileStoreBits

noncomputable section

namespace Cert.Proof.TileB

open Cert.Kernel Cert.Kernel.Gen
open Idealize.ShloMosaic Idealize.ShloMosaic.ValueIdx
open Idealize.ShloMosaic.SparseCore (S V T)
open Cert.Proof.SpecB
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

open Lean Elab Tactic Meta in
/-- Unfold, in the goal, the registers the run of the body recorded and the payload definitions of the program's
    skeleton (the fetched contents and the loaded prediction vectors stay folded), then substitute their local
    definitions. -/
elab "unfold_recorded" : tactic => do
  let g ← getMainGoal
  let t ← instantiateMVars (← g.getType)
  let isLoad : Name → Bool := fun n =>
    let s := n.components.getLast!.toString
    s.startsWith "v" || s.startsWith "dma"
  let pred : Name → Bool := fun n => ((`Cert.Proof.TileB.tileRun.sl).isPrefixOf n && !(isLoad n)) ||
    ((`Cert.Kernel.Gen).isPrefixOf n && (n.components.getLast!.toString.startsWith "k0_pay"))
  let t' ← deltaExpand t pred
  let t' ← Core.betaReduce t'
  let t' ← zetaReduce t'
  let g' ← g.replaceTargetDefEq t'
  replaceMainGoal [g']

/-! ## The lanes of the three kinds of load -/

section Lanes
variable [FloatOps F]
variable (d : Dev nD) (L : grid0.Coords)
variable (fF : Buf (Elt F) (flatLoc d)) (fP : Buf (Elt F) (packLoc d)) (fT : Buf (Elt F) (tgtLoc d))

/-- Lanes base .. base + 15 of row (bi, c) of the predictions: the flattened map at the rows the table names. -/
abbrev predLane (bi : Fin 2) (c : Fin 4) (base : ℕ) (hb : base + 16 ≤ 128) : FVec F S16 .f32 :=
  fun j => fF (rowOf (fP (ix3 (batchOf (jL L) bi) (Fin.castLE (by decide) c : Fin 5) (⟨base + (j 0).val, lane_lt hb (j 0).isLt⟩ : Fin 128))))

/-- The same lanes of the targets. -/
abbrev tgtLane (bi : Fin 2) (c : Fin 4) (base : ℕ) (hb : base + 16 ≤ 128) : FVec F S16 .f32 :=
  fun j => fT (ix3 (batchOf (jL L) bi) c (⟨base + (j 0).val, lane_lt hb (j 0).isLt⟩ : Fin 128))

/-- The same lanes of row r of the packed table. -/
abbrev packLane (bi : Fin 2) (r : Fin 5) (base : ℕ) (hb : base + 16 ≤ 128) : IVec S16 32 :=
  fun j => fP (ix3 (batchOf (jL L) bi) r (⟨base + (j 0).val, lane_lt hb (j 0).isLt⟩ : Fin 128))

end Lanes

section PredLoads
variable [FloatOps F]
variable (d : Dev nD) (L : grid0.Coords)
variable (fF : Buf (Elt F) (flatLoc d)) (fP : Buf (Elt F) (packLoc d))
variable (hidx' : IdxFactW d L fP) (f0 : Buf (Elt F) ((V d (cV L) (jV L)).loc cc0_scratch0)) (f1 : Buf (Elt F) ((V d (cV L) (jV L)).loc cc0_scratch1))

omit [FloatOps F] in
theorem v155_vec : shapeCast S16 (tileRun.sl.v155 d L fF fP hidx' f0 f1) shapeCasts_S1x1x16_S16 = predLane d L fF fP 0 0 0 (by decide) :=
  pred_vec d L fF fP hidx' f0 f1 ![0, 0, 0] inb_S2x4x128_S1x1x16_0_0_0
omit [FloatOps F] in
theorem v175_vec : shapeCast S16 (tileRun.sl.v175 d L fF fP hidx' f0 f1) shapeCasts_S1x1x16_S16 = predLane d L fF fP 0 0 16 (by decide) :=
  pred_vec d L fF fP hidx' f0 f1 ![0, 0, 16] inb_S2x4x128_S1x1x16_0_0_16
omit [FloatOps F] in
theorem v195_vec : shapeCast S16 (tileRun.sl.v195 d L fF fP hidx' f0 f1) shapeCasts_S1x1x16_S16 = predLane d L fF fP 0 0 32 (by decide) :=
  pred_vec d L fF fP hidx' f0 f1 ![0, 0, 32] inb_S2x4x128_S1x1x16_0_0_32
omit [FloatOps F] in
theorem v215_vec : shapeCast S16 (tileRun.sl.v215 d L fF fP hidx' f0 f1) shapeCasts_S1x1x16_S16 = predLane d L fF fP 0 0 48 (by decide) :=
  pred_vec d L fF fP hidx' f0 f1 ![0, 0, 48] inb_S2x4x128_S1x1x16_0_0_48
omit [FloatOps F] in
theorem v235_vec : shapeCast S16 (tileRun.sl.v235 d L fF fP hidx' f0 f1) shapeCasts_S1x1x16_S16 = predLane d L fF fP 0 0 64 (by decide) :=
  pred_vec d L fF fP hidx' f0 f1 ![0, 0, 64] inb_S2x4x128_S1x1x16_0_0_64
omit [FloatOps F] in
theorem v255_vec : shapeCast S16 (tileRun.sl.v255 d L fF fP hidx' f0 f1) shapeCasts_S1x1x16_S16 = predLane d L fF fP 0 0 80 (by decide) :=
  pred_vec d L fF fP hidx' f0 f1 ![0, 0, 80] inb_S2x4x128_S1x1x16_0_0_80
omit [FloatOps F] in
theorem v275_vec : shapeCast S16 (tileRun.sl.v275 d L fF fP hidx' f0 f1) shapeCasts_S1x1x16_S16 = predLane d L fF fP 0 0 96 (by decide) :=
  pred_vec d L fF fP hidx' f0 f1 ![0, 0, 96] inb_S2x4x128_S1x1x16_0_0_96
omit [FloatOps F] in
theorem v295_vec : shapeCast S16 (tileRun.sl.v295 d L fF fP hidx' f0 f1) shapeCasts_S1x1x16_S16 = predLane d L fF fP 0 0 112 (by decide) :=
  pred_vec d L fF fP hidx' f0 f1 ![0, 0, 112] inb_S2x4x128_S1x1x16_0_0_112
omit [FloatOps F] in
theorem v320_vec : shapeCast S16 (tileRun.sl.v320 d L fF fP hidx' f0 f1) shapeCasts_S1x1x16_S16 = predLane d L fF fP 0 1 0 (by decide) :=
  pred_vec d L fF fP hidx' f0 f1 ![0, 1, 0] inb_S2x4x128_S1x1x16_0_1_0
omit [FloatOps F] in
theorem v340_vec : shapeCast S16 (tileRun.sl.v340 d L fF fP hidx' f0 f1) shapeCasts_S1x1x16_S16 = predLane d L fF fP 0 1 16 (by decide) :=
  pred_vec d L fF fP hidx' f0 f1 ![0, 1, 16] inb_S2x4x128_S1x1x16_0_1_16
omit [FloatOps F] in
theorem v360_vec : shapeCast S16 (tileRun.sl.v360 d L fF fP hidx' f0 f1) shapeCasts_S1x1x16_S16 = predLane d L fF fP 0 1 32 (by decide) :=
  pred_vec d L fF fP hidx' f0 f1 ![0, 1, 32] inb_S2x4x128_S1x1x16_0_1_32
omit [FloatOps F] in
theorem v380_vec : shapeCast S16 (tileRun.sl.v380 d L fF fP hidx' f0 f1) shapeCasts_S1x1x16_S16 = predLane d L fF fP 0 1 48 (by decide) :=
  pred_vec d L fF fP hidx' f0 f1 ![0, 1, 48] inb_S2x4x128_S1x1x16_0_1_48
omit [FloatOps F] in
theorem v400_vec : shapeCast S16 (tileRun.sl.v400 d L fF fP hidx' f0 f1) shapeCasts_S1x1x16_S16 = predLane d L fF fP 0 1 64 (by decide) :=
  pred_vec d L fF fP hidx' f0 f1 ![0, 1, 64] inb_S2x4x128_S1x1x16_0_1_64
omit [FloatOps F] in
theorem v420_vec : shapeCast S16 (tileRun.sl.v420 d L fF fP hidx' f0 f1) shapeCasts_S1x1x16_S16 = predLane d L fF fP 0 1 80 (by decide) :=
  pred_vec d L fF fP hidx' f0 f1 ![0, 1, 80] inb_S2x4x128_S1x1x16_0_1_80
omit [FloatOps F] in
theorem v440_vec : shapeCast S16 (tileRun.sl.v440 d L fF fP hidx' f0 f1) shapeCasts_S1x1x16_S16 = predLane d L fF fP 0 1 96 (by decide) :=
  pred_vec d L fF fP hidx' f0 f1 ![0, 1, 96] inb_S2x4x128_S1x1x16_0_1_96
omit [FloatOps F] in
theorem v460_vec : shapeCast S16 (tileRun.sl.v460 d L fF fP hidx' f0 f1) shapeCasts_S1x1x16_S16 = predLane d L fF fP 0 1 112 (by decide) :=
  pred_vec d L fF fP hidx' f0 f1 ![0, 1, 112] inb_S2x4x128_S1x1x16_0_1_112
omit [FloatOps F] in
theorem v485_vec : shapeCast S16 (tileRun.sl.v485 d L fF fP hidx' f0 f1) shapeCasts_S1x1x16_S16 = predLane d L fF fP 0 2 0 (by decide) :=
  pred_vec d L fF fP hidx' f0 f1 ![0, 2, 0] inb_S2x4x128_S1x1x16_0_2_0
omit [FloatOps F] in
theorem v505_vec : shapeCast S16 (tileRun.sl.v505 d L fF fP hidx' f0 f1) shapeCasts_S1x1x16_S16 = predLane d L fF fP 0 2 16 (by decide) :=
  pred_vec d L fF fP hidx' f0 f1 ![0, 2, 16] inb_S2x4x128_S1x1x16_0_2_16
omit [FloatOps F] in
theorem v525_vec : shapeCast S16 (tileRun.sl.v525 d L fF fP hidx' f0 f1) shapeCasts_S1x1x16_S16 = predLane d L fF fP 0 2 32 (by decide) :=
  pred_vec d L fF fP hidx' f0 f1 ![0, 2, 32] inb_S2x4x128_S1x1x16_0_2_32
omit [FloatOps F] in
theorem v545_vec : shapeCast S16 (tileRun.sl.v545 d L fF fP hidx' f0 f1) shapeCasts_S1x1x16_S16 = predLane d L fF fP 0 2 48 (by decide) :=
  pred_vec d L fF fP hidx' f0 f1 ![0, 2, 48] inb_S2x4x128_S1x1x16_0_2_48
omit [FloatOps F] in
theorem v565_vec : shapeCast S16 (tileRun.sl.v565 d L fF fP hidx' f0 f1) shapeCasts_S1x1x16_S16 = predLane d L fF fP 0 2 64 (by decide) :=
  pred_vec d L fF fP hidx' f0 f1 ![0, 2, 64] inb_S2x4x128_S1x1x16_0_2_64
omit [FloatOps F] in
theorem v585_vec : shapeCast S16 (tileRun.sl.v585 d L fF fP hidx' f0 f1) shapeCasts_S1x1x16_S16 = predLane d L fF fP 0 2 80 (by decide) :=
  pred_vec d L fF fP hidx' f0 f1 ![0, 2, 80] inb_S2x4x128_S1x1x16_0_2_80
omit [FloatOps F] in
theorem v605_vec : shapeCast S16 (tileRun.sl.v605 d L fF fP hidx' f0 f1) shapeCasts_S1x1x16_S16 = predLane d L fF fP 0 2 96 (by decide) :=
  pred_vec d L fF fP hidx' f0 f1 ![0, 2, 96] inb_S2x4x128_S1x1x16_0_2_96
omit [FloatOps F] in
theorem v625_vec : shapeCast S16 (tileRun.sl.v625 d L fF fP hidx' f0 f1) shapeCasts_S1x1x16_S16 = predLane d L fF fP 0 2 112 (by decide) :=
  pred_vec d L fF fP hidx' f0 f1 ![0, 2, 112] inb_S2x4x128_S1x1x16_0_2_112
omit [FloatOps F] in
theorem v650_vec : shapeCast S16 (tileRun.sl.v650 d L fF fP hidx' f0 f1) shapeCasts_S1x1x16_S16 = predLane d L fF fP 0 3 0 (by decide) :=
  pred_vec d L fF fP hidx' f0 f1 ![0, 3, 0] inb_S2x4x128_S1x1x16_0_3_0
omit [FloatOps F] in
theorem v670_vec : shapeCast S16 (tileRun.sl.v670 d L fF fP hidx' f0 f1) shapeCasts_S1x1x16_S16 = predLane d L fF fP 0 3 16 (by decide) :=
  pred_vec d L fF fP hidx' f0 f1 ![0, 3, 16] inb_S2x4x128_S1x1x16_0_3_16
omit [FloatOps F] in
theorem v690_vec : shapeCast S16 (tileRun.sl.v690 d L fF fP hidx' f0 f1) shapeCasts_S1x1x16_S16 = predLane d L fF fP 0 3 32 (by decide) :=
  pred_vec d L fF fP hidx' f0 f1 ![0, 3, 32] inb_S2x4x128_S1x1x16_0_3_32
omit [FloatOps F] in
theorem v710_vec : shapeCast S16 (tileRun.sl.v710 d L fF fP hidx' f0 f1) shapeCasts_S1x1x16_S16 = predLane d L fF fP 0 3 48 (by decide) :=
  pred_vec d L fF fP hidx' f0 f1 ![0, 3, 48] inb_S2x4x128_S1x1x16_0_3_48
omit [FloatOps F] in
theorem v730_vec : shapeCast S16 (tileRun.sl.v730 d L fF fP hidx' f0 f1) shapeCasts_S1x1x16_S16 = predLane d L fF fP 0 3 64 (by decide) :=
  pred_vec d L fF fP hidx' f0 f1 ![0, 3, 64] inb_S2x4x128_S1x1x16_0_3_64
omit [FloatOps F] in
theorem v750_vec : shapeCast S16 (tileRun.sl.v750 d L fF fP hidx' f0 f1) shapeCasts_S1x1x16_S16 = predLane d L fF fP 0 3 80 (by decide) :=
  pred_vec d L fF fP hidx' f0 f1 ![0, 3, 80] inb_S2x4x128_S1x1x16_0_3_80
omit [FloatOps F] in
theorem v770_vec : shapeCast S16 (tileRun.sl.v770 d L fF fP hidx' f0 f1) shapeCasts_S1x1x16_S16 = predLane d L fF fP 0 3 96 (by decide) :=
  pred_vec d L fF fP hidx' f0 f1 ![0, 3, 96] inb_S2x4x128_S1x1x16_0_3_96
omit [FloatOps F] in
theorem v790_vec : shapeCast S16 (tileRun.sl.v790 d L fF fP hidx' f0 f1) shapeCasts_S1x1x16_S16 = predLane d L fF fP 0 3 112 (by decide) :=
  pred_vec d L fF fP hidx' f0 f1 ![0, 3, 112] inb_S2x4x128_S1x1x16_0_3_112
omit [FloatOps F] in
theorem v815_vec : shapeCast S16 (tileRun.sl.v815 d L fF fP hidx' f0 f1) shapeCasts_S1x1x16_S16 = predLane d L fF fP 1 0 0 (by decide) :=
  pred_vec d L fF fP hidx' f0 f1 ![1, 0, 0] inb_S2x4x128_S1x1x16_1_0_0
omit [FloatOps F] in
theorem v835_vec : shapeCast S16 (tileRun.sl.v835 d L fF fP hidx' f0 f1) shapeCasts_S1x1x16_S16 = predLane d L fF fP 1 0 16 (by decide) :=
  pred_vec d L fF fP hidx' f0 f1 ![1, 0, 16] inb_S2x4x128_S1x1x16_1_0_16
omit [FloatOps F] in
theorem v855_vec : shapeCast S16 (tileRun.sl.v855 d L fF fP hidx' f0 f1) shapeCasts_S1x1x16_S16 = predLane d L fF fP 1 0 32 (by decide) :=
  pred_vec d L fF fP hidx' f0 f1 ![1, 0, 32] inb_S2x4x128_S1x1x16_1_0_32
omit [FloatOps F] in
theorem v875_vec : shapeCast S16 (tileRun.sl.v875 d L fF fP hidx' f0 f1) shapeCasts_S1x1x16_S16 = predLane d L fF fP 1 0 48 (by decide) :=
  pred_vec d L fF fP hidx' f0 f1 ![1, 0, 48] inb_S2x4x128_S1x1x16_1_0_48
omit [FloatOps F] in
theorem v895_vec : shapeCast S16 (tileRun.sl.v895 d L fF fP hidx' f0 f1) shapeCasts_S1x1x16_S16 = predLane d L fF fP 1 0 64 (by decide) :=
  pred_vec d L fF fP hidx' f0 f1 ![1, 0, 64] inb_S2x4x128_S1x1x16_1_0_64
omit [FloatOps F] in
theorem v915_vec : shapeCast S16 (tileRun.sl.v915 d L fF fP hidx' f0 f1) shapeCasts_S1x1x16_S16 = predLane d L fF fP 1 0 80 (by decide) :=
  pred_vec d L fF fP hidx' f0 f1 ![1, 0, 80] inb_S2x4x128_S1x1x16_1_0_80
omit [FloatOps F] in
theorem v935_vec : shapeCast S16 (tileRun.sl.v935 d L fF fP hidx' f0 f1) shapeCasts_S1x1x16_S16 = predLane d L fF fP 1 0 96 (by decide) :=
  pred_vec d L fF fP hidx' f0 f1 ![1, 0, 96] inb_S2x4x128_S1x1x16_1_0_96
omit [FloatOps F] in
theorem v955_vec : shapeCast S16 (tileRun.sl.v955 d L fF fP hidx' f0 f1) shapeCasts_S1x1x16_S16 = predLane d L fF fP 1 0 112 (by decide) :=
  pred_vec d L fF fP hidx' f0 f1 ![1, 0, 112] inb_S2x4x128_S1x1x16_1_0_112
omit [FloatOps F] in
theorem v980_vec : shapeCast S16 (tileRun.sl.v980 d L fF fP hidx' f0 f1) shapeCasts_S1x1x16_S16 = predLane d L fF fP 1 1 0 (by decide) :=
  pred_vec d L fF fP hidx' f0 f1 ![1, 1, 0] inb_S2x4x128_S1x1x16_1_1_0
omit [FloatOps F] in
theorem v1000_vec : shapeCast S16 (tileRun.sl.v1000 d L fF fP hidx' f0 f1) shapeCasts_S1x1x16_S16 = predLane d L fF fP 1 1 16 (by decide) :=
  pred_vec d L fF fP hidx' f0 f1 ![1, 1, 16] inb_S2x4x128_S1x1x16_1_1_16
omit [FloatOps F] in
theorem v1020_vec : shapeCast S16 (tileRun.sl.v1020 d L fF fP hidx' f0 f1) shapeCasts_S1x1x16_S16 = predLane d L fF fP 1 1 32 (by decide) :=
  pred_vec d L fF fP hidx' f0 f1 ![1, 1, 32] inb_S2x4x128_S1x1x16_1_1_32
omit [FloatOps F] in
theorem v1040_vec : shapeCast S16 (tileRun.sl.v1040 d L fF fP hidx' f0 f1) shapeCasts_S1x1x16_S16 = predLane d L fF fP 1 1 48 (by decide) :=
  pred_vec d L fF fP hidx' f0 f1 ![1, 1, 48] inb_S2x4x128_S1x1x16_1_1_48
omit [FloatOps F] in
theorem v1060_vec : shapeCast S16 (tileRun.sl.v1060 d L fF fP hidx' f0 f1) shapeCasts_S1x1x16_S16 = predLane d L fF fP 1 1 64 (by decide) :=
  pred_vec d L fF fP hidx' f0 f1 ![1, 1, 64] inb_S2x4x128_S1x1x16_1_1_64
omit [FloatOps F] in
theorem v1080_vec : shapeCast S16 (tileRun.sl.v1080 d L fF fP hidx' f0 f1) shapeCasts_S1x1x16_S16 = predLane d L fF fP 1 1 80 (by decide) :=
  pred_vec d L fF fP hidx' f0 f1 ![1, 1, 80] inb_S2x4x128_S1x1x16_1_1_80
omit [FloatOps F] in
theorem v1100_vec : shapeCast S16 (tileRun.sl.v1100 d L fF fP hidx' f0 f1) shapeCasts_S1x1x16_S16 = predLane d L fF fP 1 1 96 (by decide) :=
  pred_vec d L fF fP hidx' f0 f1 ![1, 1, 96] inb_S2x4x128_S1x1x16_1_1_96
omit [FloatOps F] in
theorem v1120_vec : shapeCast S16 (tileRun.sl.v1120 d L fF fP hidx' f0 f1) shapeCasts_S1x1x16_S16 = predLane d L fF fP 1 1 112 (by decide) :=
  pred_vec d L fF fP hidx' f0 f1 ![1, 1, 112] inb_S2x4x128_S1x1x16_1_1_112
omit [FloatOps F] in
theorem v1145_vec : shapeCast S16 (tileRun.sl.v1145 d L fF fP hidx' f0 f1) shapeCasts_S1x1x16_S16 = predLane d L fF fP 1 2 0 (by decide) :=
  pred_vec d L fF fP hidx' f0 f1 ![1, 2, 0] inb_S2x4x128_S1x1x16_1_2_0
omit [FloatOps F] in
theorem v1165_vec : shapeCast S16 (tileRun.sl.v1165 d L fF fP hidx' f0 f1) shapeCasts_S1x1x16_S16 = predLane d L fF fP 1 2 16 (by decide) :=
  pred_vec d L fF fP hidx' f0 f1 ![1, 2, 16] inb_S2x4x128_S1x1x16_1_2_16
omit [FloatOps F] in
theorem v1185_vec : shapeCast S16 (tileRun.sl.v1185 d L fF fP hidx' f0 f1) shapeCasts_S1x1x16_S16 = predLane d L fF fP 1 2 32 (by decide) :=
  pred_vec d L fF fP hidx' f0 f1 ![1, 2, 32] inb_S2x4x128_S1x1x16_1_2_32
omit [FloatOps F] in
theorem v1205_vec : shapeCast S16 (tileRun.sl.v1205 d L fF fP hidx' f0 f1) shapeCasts_S1x1x16_S16 = predLane d L fF fP 1 2 48 (by decide) :=
  pred_vec d L fF fP hidx' f0 f1 ![1, 2, 48] inb_S2x4x128_S1x1x16_1_2_48
omit [FloatOps F] in
theorem v1225_vec : shapeCast S16 (tileRun.sl.v1225 d L fF fP hidx' f0 f1) shapeCasts_S1x1x16_S16 = predLane d L fF fP 1 2 64 (by decide) :=
  pred_vec d L fF fP hidx' f0 f1 ![1, 2, 64] inb_S2x4x128_S1x1x16_1_2_64
omit [FloatOps F] in
theorem v1245_vec : shapeCast S16 (tileRun.sl.v1245 d L fF fP hidx' f0 f1) shapeCasts_S1x1x16_S16 = predLane d L fF fP 1 2 80 (by decide) :=
  pred_vec d L fF fP hidx' f0 f1 ![1, 2, 80] inb_S2x4x128_S1x1x16_1_2_80
omit [FloatOps F] in
theorem v1265_vec : shapeCast S16 (tileRun.sl.v1265 d L fF fP hidx' f0 f1) shapeCasts_S1x1x16_S16 = predLane d L fF fP 1 2 96 (by decide) :=
  pred_vec d L fF fP hidx' f0 f1 ![1, 2, 96] inb_S2x4x128_S1x1x16_1_2_96
omit [FloatOps F] in
theorem v1285_vec : shapeCast S16 (tileRun.sl.v1285 d L fF fP hidx' f0 f1) shapeCasts_S1x1x16_S16 = predLane d L fF fP 1 2 112 (by decide) :=
  pred_vec d L fF fP hidx' f0 f1 ![1, 2, 112] inb_S2x4x128_S1x1x16_1_2_112
omit [FloatOps F] in
theorem v1310_vec : shapeCast S16 (tileRun.sl.v1310 d L fF fP hidx' f0 f1) shapeCasts_S1x1x16_S16 = predLane d L fF fP 1 3 0 (by decide) :=
  pred_vec d L fF fP hidx' f0 f1 ![1, 3, 0] inb_S2x4x128_S1x1x16_1_3_0
omit [FloatOps F] in
theorem v1330_vec : shapeCast S16 (tileRun.sl.v1330 d L fF fP hidx' f0 f1) shapeCasts_S1x1x16_S16 = predLane d L fF fP 1 3 16 (by decide) :=
  pred_vec d L fF fP hidx' f0 f1 ![1, 3, 16] inb_S2x4x128_S1x1x16_1_3_16
omit [FloatOps F] in
theorem v1350_vec : shapeCast S16 (tileRun.sl.v1350 d L fF fP hidx' f0 f1) shapeCasts_S1x1x16_S16 = predLane d L fF fP 1 3 32 (by decide) :=
  pred_vec d L fF fP hidx' f0 f1 ![1, 3, 32] inb_S2x4x128_S1x1x16_1_3_32
omit [FloatOps F] in
theorem v1370_vec : shapeCast S16 (tileRun.sl.v1370 d L fF fP hidx' f0 f1) shapeCasts_S1x1x16_S16 = predLane d L fF fP 1 3 48 (by decide) :=
  pred_vec d L fF fP hidx' f0 f1 ![1, 3, 48] inb_S2x4x128_S1x1x16_1_3_48
omit [FloatOps F] in
theorem v1390_vec : shapeCast S16 (tileRun.sl.v1390 d L fF fP hidx' f0 f1) shapeCasts_S1x1x16_S16 = predLane d L fF fP 1 3 64 (by decide) :=
  pred_vec d L fF fP hidx' f0 f1 ![1, 3, 64] inb_S2x4x128_S1x1x16_1_3_64
omit [FloatOps F] in
theorem v1410_vec : shapeCast S16 (tileRun.sl.v1410 d L fF fP hidx' f0 f1) shapeCasts_S1x1x16_S16 = predLane d L fF fP 1 3 80 (by decide) :=
  pred_vec d L fF fP hidx' f0 f1 ![1, 3, 80] inb_S2x4x128_S1x1x16_1_3_80
omit [FloatOps F] in
theorem v1430_vec : shapeCast S16 (tileRun.sl.v1430 d L fF fP hidx' f0 f1) shapeCasts_S1x1x16_S16 = predLane d L fF fP 1 3 96 (by decide) :=
  pred_vec d L fF fP hidx' f0 f1 ![1, 3, 96] inb_S2x4x128_S1x1x16_1_3_96
omit [FloatOps F] in
theorem v1450_vec : shapeCast S16 (tileRun.sl.v1450 d L fF fP hidx' f0 f1) shapeCasts_S1x1x16_S16 = predLane d L fF fP 1 3 112 (by decide) :=
  pred_vec d L fF fP hidx' f0 f1 ![1, 3, 112] inb_S2x4x128_S1x1x16_1_3_112

end PredLoads

section Acc
variable [FloatOps F]
variable (d : Dev nD) (L : grid0.Coords)
variable (fF : Buf (Elt F) (flatLoc d)) (fP : Buf (Elt F) (packLoc d)) (fT : Buf (Elt F) (tgtLoc d))

set_option maxRecDepth 100000 in
set_option maxHeartbeats 8000000 in
theorem acc_value (hidx' : IdxFactW d L fP)
    (f0 : Buf (Elt F) ((V d (cV L) (jV L)).loc cc0_scratch0)) (f1 : Buf (Elt F) ((V d (cV L) (jV L)).loc cc0_scratch1))
    (f3 : Buf (Elt F) ((V d (cV L) (jV L)).loc cc0_scratch3)) (j : Fin 16) :
    k0_pay1 (tileRun.sl.r_91 d L fF fP fT hidx' f0 f1 f3) (tileRun.sl.r_92 d L fF fP fT hidx' f0 f1 f3)
      (tileRun.sl.r_93 d L fF fP fT hidx' f0 f1 f3) (tileRun.sl.r_94 d L fF fP fT hidx' f0 f1 f3) k0_pay108 (ix2 (0 : Fin 1) j)
      = accAt (F := F) fF fP fT (jL L) j := by
  unfold_recorded
  rw [row_apply]
  simp only [v155_vec d L fF fP hidx' f0 f1, v175_vec d L fF fP hidx' f0 f1, v195_vec d L fF fP hidx' f0 f1, v215_vec d L fF fP hidx' f0 f1, v235_vec d L fF fP hidx' f0 f1, v255_vec d L fF fP hidx' f0 f1, v275_vec d L fF fP hidx' f0 f1, v295_vec d L fF fP hidx' f0 f1, v320_vec d L fF fP hidx' f0 f1, v340_vec d L fF fP hidx' f0 f1, v360_vec d L fF fP hidx' f0 f1, v380_vec d L fF fP hidx' f0 f1, v400_vec d L fF fP hidx' f0 f1, v420_vec d L fF fP hidx' f0 f1, v440_vec d L fF fP hidx' f0 f1, v460_vec d L fF fP hidx' f0 f1, v485_vec d L fF fP hidx' f0 f1, v505_vec d L fF fP hidx' f0 f1, v525_vec d L fF fP hidx' f0 f1, v545_vec d L fF fP hidx' f0 f1, v565_vec d L fF fP hidx' f0 f1, v585_vec d L fF fP hidx' f0 f1, v605_vec d L fF fP hidx' f0 f1, v625_vec d L fF fP hidx' f0 f1, v650_vec d L fF fP hidx' f0 f1, v670_vec d L fF fP hidx' f0 f1, v690_vec d L fF fP hidx' f0 f1, v710_vec d L fF fP hidx' f0 f1, v730_vec d L fF fP hidx' f0 f1, v750_vec d L fF fP hidx' f0 f1, v770_vec d L fF fP hidx' f0 f1, v790_vec d L fF fP hidx' f0 f1, v815_vec d L fF fP hidx' f0 f1, v835_vec d L fF fP hidx' f0 f1, v855_vec d L fF fP hidx' f0 f1, v875_vec d L fF fP hidx' f0 f1, v895_vec d L fF fP hidx' f0 f1, v915_vec d L fF fP hidx' f0 f1, v935_vec d L fF fP hidx' f0 f1, v955_vec d L fF fP hidx' f0 f1, v980_vec d L fF fP hidx' f0 f1, v1000_vec d L fF fP hidx' f0 f1, v1020_vec d L fF fP hidx' f0 f1, v1040_vec d L fF fP hidx' f0 f1, v1060_vec d L fF fP hidx' f0 f1, v1080_vec d L fF fP hidx' f0 f1, v1100_vec d L fF fP hidx' f0 f1, v1120_vec d L fF fP hidx' f0 f1, v1145_vec d L fF fP hidx' f0 f1, v1165_vec d L fF fP hidx' f0 f1, v1185_vec d L fF fP hidx' f0 f1, v1205_vec d L fF fP hidx' f0 f1, v1225_vec d L fF fP hidx' f0 f1, v1245_vec d L fF fP hidx' f0 f1, v1265_vec d L fF fP hidx' f0 f1, v1285_vec d L fF fP hidx' f0 f1, v1310_vec d L fF fP hidx' f0 f1, v1330_vec d L fF fP hidx' f0 f1, v1350_vec d L fF fP hidx' f0 f1, v1370_vec d L fF fP hidx' f0 f1, v1390_vec d L fF fP hidx' f0 f1, v1410_vec d L fF fP hidx' f0 f1, v1430_vec d L fF fP hidx' f0 f1, v1450_vec d L fF fP hidx' f0 f1, tgt_vec d L fT f3, idx_vec d L fP f0]
  rfl

end Acc

section Value
variable [FloatOps F]
variable (d : Dev nD) (L : grid0.Coords)
variable (fF : Buf (Elt F) (flatLoc d)) (fP : Buf (Elt F) (packLoc d)) (fT : Buf (Elt F) (tgtLoc d))
variable (q0 q1 q2 : PosShare TreeShare)

/-- The block the task writes is its row of the partial sums, whatever its scratch held before. -/
theorem tile_value (hP : ∀ j, (fP j).toNat < 2097152) (hF : (K (F := F)).Facts) (hidx : IdxFactL d L fP) (hidx' : IdxFactW d L fP)
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) (f3 : Buf (Elt F) ((V d (cV L) (jV L)).loc cc0_scratch3)) (x : S2x16.Idx) :
    (tileRun d L fF fP fT q0 q1 q2 hF hidx hidx').val f0 f1 f2 f3 x = partsOf (F := F) fF fP fT ((outRowK L).view.emb x) :=
  tile_value_of_acc d L fF fP fT q0 q1 q2 hF hidx hidx' f0 f1 f2 f3 (fun j => acc_value d L fF fP fT hidx' f0 f1 f3 j) x

end Value

end Cert.Proof.TileB

end
-- ==== Proof.TileValueBits.lean ====
/-
  What a subcore's task writes to its row of the result is that row of the partial sums: lane j of the first
  half is the sum, over its two batches, the four channels and the eight chunks of sixteen objects, of the smooth-L1
  terms; lane j of the second half the sum of the masks.
-/
import proofs.«219714_g10557029613686_week1_w2_465_59_alg».proof.Proof.TileBits
import proofs.«219714_g10557029613686_week1_w2_465_59_alg».proof.Proof.SpecBits
import proofs.«219714_g10557029613686_week1_w2_465_59_alg».proof.Proof.TileSumsBits

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Proof.SpecB

variable [FloatOps F]

section Tile

variable (d : Dev nD) (L : grid0.Coords)
variable (fF : Buf (Elt F) (flatLoc d)) (fP : Buf (Elt F) (packLoc d)) (fT : Buf (Elt F) (tgtLoc d)) (fO : Buf (Elt F) (outLoc d))
variable (q0 q1 q2 : PosShare TreeShare)

/-- The partial sums as contents of the result array. -/
abbrev partsB : Buf (Elt F) (outLoc d) := partsOf (F := F) fF fP fT

theorem rowWith_eq (g : S2x16.Idx → Elt F .f32) (hg : ∀ x, g x = partsB d fF fP fT ((outRowK L).view.emb x)) :
    ∀ i ∈ outRowSetK L, rowWith d L fO g i = partsB d fF fP fT i := by
  intro i hi
  obtain ⟨x, -, rfl⟩ := Finset.mem_map.mp (show i ∈ (outRowK L).view.set from hi)
  have h := View.read_writes_cons_emb (Val := Elt F) (outRowK L).view fO (Rect.whole S2x16) g [] x
  rw [Rect.emb_whole_apply] at h
  rw [← hg x]
  exact ((View.read_apply _ _).trans (cast_eq _ _)).symm.trans h

/-- One subcore's task: from a read share of each array it reads and its row of the result, it runs to its end and
    hands all of it back, its row holding its two partial sums. -/
theorem tile_body (hP : ∀ j, (fP j).toNat < 2097152) (hF : (K (F := F)).Facts) (O : CellTallies nD τ sig (HIx 1)) (W : Waits sig (HIx 1)) (hO : ∀ g, O g none = 0) :
    iprop(levAts (K (F := F)).L (K (F := F)).lev ∗ emp
        ∗ (flatPts d fF q0 ∗ packPts d fP q1 ∗ tgtPts d fT q2 ∗ outRowPts d L fO)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop((flatPts d fF q0 ∗ packPts d fP q1 ∗ tgtPts d fT q2 ∗ outRowPts d L (partsB d fF fP fT))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hidx := fun g row hk hq => idx_inb d L fP hP g (payPack d L fP) rfl row hk hq
  have hidx' := fun g row hk hq => idx_inb' d L fP hP g (payPack d L fP) rfl row hk hq
  iintro ⟨Hlv, He, Hgo, Hbufs, Hsems, HO⟩
  ihave Hbufs' := (Entails.of_eq (((K (F := F)).scopedBufs_V hF d (cV L) (jV L)).trans (ownBufs_V d L))) $$ Hbufs
  icases Hbufs' with ⟨⟨%f0, H0⟩, ⟨%f1, H1⟩, ⟨%f2, H2⟩, ⟨%f3, H3⟩, Hrest⟩
  iapply (((tileRun d L fF fP fT q0 q1 q2 hF hidx hidx').property fO f0 f1 f2 f3 O W hO).trans (wp_mono frame _ _ fun _ => Entails.of_eq (by
    rw [show (outRowPts d L (rowWith d L fO ((tileRun d L fF fP fT q0 q1 q2 hF hidx hidx').val f0 f1 f2 f3)) : sProp 𝕄) = outRowPts d L (partsB d fF fP fT) from
      pointsTo_congr (rowWith_eq d L fF fP fT fO _ (tile_value d L fF fP fT q0 q1 q2 hP hF hidx hidx' f0 f1 f2 f3))])))
    $$ [Hlv He Hgo H0 H1 H2 H3 Hrest Hsems HO]
  isplitl [Hlv]; · iexact Hlv
  isplitl [He]; · iexact He
  isplitl [Hgo]; · iexact Hgo
  isplitl [H0 H1 H2 H3 Hrest]
  · isplitl [H0]; · iexact H0
    isplitl [H1]; · iexact H1
    isplitl [H2]; · iexact H2
    isplitl [H3]; · iexact H3
    iexact Hrest
  isplitl [Hsems]; · iexact Hsems
  iexact HO

end Tile

end Cert.Proof.TileB

end
-- ==== Proof.LaunchBits.lean ====
/-
  The whole program: on the TensorCore the host builds the three arrays the subcores read, starts the one
  SparseCore call and, when it is back, adds up the partial sums. Each of the sixteen subcores gets a read share
  of the three arrays and its own row of the result; the rows come back holding each subcore's two partial sums.
-/
import proofs.«219714_g10557029613686_week1_w2_465_59_alg».proof.Proof.TileValueBits
import proofs.«219714_g10557029613686_week1_w2_465_59_alg».proof.Proof.SpecBits

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_split held_sdiff_result wp_hlo_within held_sub_split held_congr)
open Cert.Proof.SpecB

variable [FloatOps F]

variable (m : (ℓ : Loc nD τ sig) → Buf (Elt F) ℓ) (ρ : Dev nD → PrngReg)

/-! ## The host's operations, before and after the call -/

abbrev op0 : HloOp τ sig (Elt F) := (StableHlo.reshape main_arg0 main_v0 rfl shapeCasts_S32x4x128x128_S2097152)
abbrev op1 : HloOp τ sig (Elt F) := (StableHlo.nullary main_v1 (iotaInDim S32 32 0))
abbrev op2 : HloOp τ sig (Elt F) := (StableHlo.nullary main_c (constantI S_ 32 65536#32))
abbrev op3 : HloOp τ sig (Elt F) := (StableHlo.unary main_c main_v2 (broadcastInDim S32 ![] bcast_S_S32 : (⟨S_, .i32⟩ : BufTy).Contents (Elt F) → (⟨S32, .i32⟩ : BufTy).Contents (Elt F)))
abbrev op4 : HloOp τ sig (Elt F) := (StableHlo.binary main_v1 main_v2 main_v3 (muli : (⟨S32, .i32⟩ : BufTy).Contents (Elt F) → (⟨S32, .i32⟩ : BufTy).Contents (Elt F) → (⟨S32, .i32⟩ : BufTy).Contents (Elt F)))
abbrev op5 : HloOp τ sig (Elt F) := (StableHlo.unary main_v3 main_v4 (broadcastInDim S32x1x1 ![0] bcast_S32_S32x1x1_0 : (⟨S32, .i32⟩ : BufTy).Contents (Elt F) → (⟨S32x1x1, .i32⟩ : BufTy).Contents (Elt F)))
abbrev op6 : HloOp τ sig (Elt F) := (StableHlo.nullary main_v5 (iotaInDim S4 32 0))
abbrev op7 : HloOp τ sig (Elt F) := (StableHlo.nullary main_c_0 (constantI S_ 32 16384#32))
abbrev op8 : HloOp τ sig (Elt F) := (StableHlo.unary main_c_0 main_v6 (broadcastInDim S4 ![] bcast_S_S4 : (⟨S_, .i32⟩ : BufTy).Contents (Elt F) → (⟨S4, .i32⟩ : BufTy).Contents (Elt F)))
abbrev op9 : HloOp τ sig (Elt F) := (StableHlo.binary main_v5 main_v6 main_v7 (muli : (⟨S4, .i32⟩ : BufTy).Contents (Elt F) → (⟨S4, .i32⟩ : BufTy).Contents (Elt F) → (⟨S4, .i32⟩ : BufTy).Contents (Elt F)))
abbrev op10 : HloOp τ sig (Elt F) := (StableHlo.unary main_v7 main_v8 (broadcastInDim S1x4x1 ![1] bcast_S4_S1x4x1_1 : (⟨S4, .i32⟩ : BufTy).Contents (Elt F) → (⟨S1x4x1, .i32⟩ : BufTy).Contents (Elt F)))
abbrev op11 : HloOp τ sig (Elt F) := (StableHlo.unary main_v4 main_v9 (broadcastInDim S32x4x1 ![0, 1, 2] bcast_S32x1x1_S32x4x1_0_1_2 : (⟨S32x1x1, .i32⟩ : BufTy).Contents (Elt F) → (⟨S32x4x1, .i32⟩ : BufTy).Contents (Elt F)))
abbrev op12 : HloOp τ sig (Elt F) := (StableHlo.unary main_v8 main_v10 (broadcastInDim S32x4x1 ![0, 1, 2] bcast_S1x4x1_S32x4x1_0_1_2 : (⟨S1x4x1, .i32⟩ : BufTy).Contents (Elt F) → (⟨S32x4x1, .i32⟩ : BufTy).Contents (Elt F)))
abbrev op13 : HloOp τ sig (Elt F) := (StableHlo.binary main_v9 main_v10 main_v11 (addi : (⟨S32x4x1, .i32⟩ : BufTy).Contents (Elt F) → (⟨S32x4x1, .i32⟩ : BufTy).Contents (Elt F) → (⟨S32x4x1, .i32⟩ : BufTy).Contents (Elt F)))
abbrev op14 : HloOp τ sig (Elt F) := (StableHlo.unary main_arg2 main_v12 (broadcastInDim S32x1x128 ![0, 2] bcast_S32x128_S32x1x128_0_2 : (⟨S32x128, .i32⟩ : BufTy).Contents (Elt F) → (⟨S32x1x128, .i32⟩ : BufTy).Contents (Elt F)))
abbrev op15 : HloOp τ sig (Elt F) := (StableHlo.unary main_v12 main_v13 (broadcastInDim S32x4x128 ![0, 1, 2] bcast_S32x1x128_S32x4x128_0_1_2 : (⟨S32x1x128, .i32⟩ : BufTy).Contents (Elt F) → (⟨S32x4x128, .i32⟩ : BufTy).Contents (Elt F)))
abbrev op16 : HloOp τ sig (Elt F) := (StableHlo.unary main_v11 main_v14 (broadcastInDim S32x4x128 ![0, 1, 2] bcast_S32x4x1_S32x4x128_0_1_2 : (⟨S32x4x1, .i32⟩ : BufTy).Contents (Elt F) → (⟨S32x4x128, .i32⟩ : BufTy).Contents (Elt F)))
abbrev op17 : HloOp τ sig (Elt F) := (StableHlo.binary main_v13 main_v14 main_v15 (addi : (⟨S32x4x128, .i32⟩ : BufTy).Contents (Elt F) → (⟨S32x4x128, .i32⟩ : BufTy).Contents (Elt F) → (⟨S32x4x128, .i32⟩ : BufTy).Contents (Elt F)))
abbrev op18 : HloOp τ sig (Elt F) := (StableHlo.unary main_arg1 main_v16 (broadcastInDim S32x1x128 ![0, 2] bcast_S32x128_S32x1x128_0_2 : (⟨S32x128, .i32⟩ : BufTy).Contents (Elt F) → (⟨S32x1x128, .i32⟩ : BufTy).Contents (Elt F)))
abbrev op19 : HloOp τ sig (Elt F) := (StableHlo.binary main_v15 main_v16 main_v17 ((fun a b => concatenate S32x5x128 1 [⟨S32x4x128, a⟩, ⟨S32x1x128, b⟩] concatenates_S32x4x128_S32x1x128_S32x5x128_d1) : (⟨S32x4x128, .i32⟩ : BufTy).Contents (Elt F) → (⟨S32x1x128, .i32⟩ : BufTy).Contents (Elt F) → (⟨S32x5x128, .i32⟩ : BufTy).Contents (Elt F)))
abbrev op20 : HloOp τ sig (Elt F) := (StableHlo.unary main_arg3 main_v18 ((transpose S32x4x128 [0, 2, 1] · transposes_S32x128x4_S32x4x128_0_2_1) : (⟨S32x128x4, .f32⟩ : BufTy).Contents (Elt F) → (⟨S32x4x128, .f32⟩ : BufTy).Contents (Elt F)))
abbrev op21 : HloOp τ sig (Elt F) := (StableHlo.unary main_v19 main_v20 ((extractStridedSlice S16x1x16 ![0, 0, 0] · slices_S16x2x16_S16x1x16_0_0_0) : (⟨S16x2x16, .f32⟩ : BufTy).Contents (Elt F) → (⟨S16x1x16, .f32⟩ : BufTy).Contents (Elt F)))
abbrev op22 : HloOp τ sig (Elt F) := (StableHlo.reshape main_v20 main_v21 rfl shapeCasts_S16x1x16_S16x16)
abbrev op23 : HloOp τ sig (Elt F) := (StableHlo.nullary main_cst (constant S_ .f32 0x00000000#32))
abbrev op24 : HloOp τ sig (Elt F) := (StableHlo.binary main_v21 main_cst main_v22 ((fun x v => Host.reduceAdd x v reducesTo_S16x16_S_d0_1 h_S_) : (⟨S16x16, .f32⟩ : BufTy).Contents (Elt F) → (⟨S_, .f32⟩ : BufTy).Contents (Elt F) → (⟨S_, .f32⟩ : BufTy).Contents (Elt F)))
abbrev op25 : HloOp τ sig (Elt F) := (StableHlo.unary main_v19 main_v23 ((extractStridedSlice S16x1x16 ![0, 1, 0] · slices_S16x2x16_S16x1x16_0_1_0) : (⟨S16x2x16, .f32⟩ : BufTy).Contents (Elt F) → (⟨S16x1x16, .f32⟩ : BufTy).Contents (Elt F)))
abbrev op26 : HloOp τ sig (Elt F) := (StableHlo.reshape main_v23 main_v24 rfl shapeCasts_S16x1x16_S16x16)
abbrev op27 : HloOp τ sig (Elt F) := (StableHlo.nullary main_cst_1 (constant S_ .f32 0x00000000#32))
abbrev op28 : HloOp τ sig (Elt F) := (StableHlo.binary main_v24 main_cst_1 main_v25 ((fun x v => Host.reduceAdd x v reducesTo_S16x16_S_d0_1 h_S_) : (⟨S16x16, .f32⟩ : BufTy).Contents (Elt F) → (⟨S_, .f32⟩ : BufTy).Contents (Elt F) → (⟨S_, .f32⟩ : BufTy).Contents (Elt F)))
abbrev op29 : HloOp τ sig (Elt F) := (StableHlo.nullary main_cst_2 (constant S_ .f32 0x38D1B717#32))
abbrev op30 : HloOp τ sig (Elt F) := (StableHlo.binary main_v25 main_cst_2 main_v26 (addf : (⟨S_, .f32⟩ : BufTy).Contents (Elt F) → (⟨S_, .f32⟩ : BufTy).Contents (Elt F) → (⟨S_, .f32⟩ : BufTy).Contents (Elt F)))
abbrev op31 : HloOp τ sig (Elt F) := (StableHlo.binary main_v22 main_v26 main_v27 (Host.divf : (⟨S_, .f32⟩ : BufTy).Contents (Elt F) → (⟨S_, .f32⟩ : BufTy).Contents (Elt F) → (⟨S_, .f32⟩ : BufTy).Contents (Elt F)))

def opsPre : List (HloOp τ sig (Elt F)) := [op0 (F := F), op1 (F := F), op2 (F := F), op3 (F := F), op4 (F := F), op5 (F := F), op6 (F := F), op7 (F := F), op8 (F := F), op9 (F := F), op10 (F := F), op11 (F := F), op12 (F := F), op13 (F := F), op14 (F := F), op15 (F := F), op16 (F := F), op17 (F := F), op18 (F := F), op19 (F := F), op20 (F := F)]
def opsPost : List (HloOp τ sig (Elt F)) := [op21 (F := F), op22 (F := F), op23 (F := F), op24 (F := F), op25 (F := F), op26 (F := F), op27 (F := F), op28 (F := F), op29 (F := F), op30 (F := F), op31 (F := F)]

abbrev rA0 : DevRef τ sig := Proc.devRef .tc (main_arg0 : Ref sig .tc)
abbrev rA1 : DevRef τ sig := Proc.devRef .tc (main_arg1 : Ref sig .tc)
abbrev rA2 : DevRef τ sig := Proc.devRef .tc (main_arg2 : Ref sig .tc)
abbrev rA3 : DevRef τ sig := Proc.devRef .tc (main_arg3 : Ref sig .tc)
abbrev rFlat : DevRef τ sig := Proc.devRef .tc (main_v0 : Ref sig .tc)
abbrev rPack : DevRef τ sig := Proc.devRef .tc (main_v17 : Ref sig .tc)
abbrev rTgt : DevRef τ sig := Proc.devRef .tc (main_v18 : Ref sig .tc)
abbrev rOut : DevRef τ sig := Proc.devRef .tc (main_v19 : Ref sig .tc)
abbrev rRes : DevRef τ sig := Proc.devRef .tc (main_v27 : Ref sig .tc)

/-- The launch contents; what the host has built when it starts the call; the same with the call's result in place;
    and what the host's tail leaves. -/
def V0 (d : Dev nD) : Valuation τ sig (Elt F) := fun b => m (d, b)
def Vpre (d : Dev nD) : Valuation τ sig (Elt F) := StableHlo.after (opsPre (F := F)) (V0 m d)
def Vmid (d : Dev nD) (g : Buf (Elt F) (outLoc d)) : Valuation τ sig (Elt F) := Function.update (Vpre m d) rOut g
def Vfin (d : Dev nD) (g : Buf (Elt F) (outLoc d)) : Valuation τ sig (Elt F) := StableHlo.after (opsPost (F := F)) (Vmid m d g)

abbrev fFlat (d : Dev nD) : Buf (Elt F) (flatLoc d) := Vpre m d rFlat
abbrev fPack (d : Dev nD) : Buf (Elt F) (packLoc d) := Vpre m d rPack
abbrev fTgt (d : Dev nD) : Buf (Elt F) (tgtLoc d) := Vpre m d rTgt
abbrev fOut0 (d : Dev nD) : Buf (Elt F) (outLoc d) := Vpre m d rOut
/-- What the call leaves in its result: every subcore's two partial sums. -/
abbrev fOut (d : Dev nD) : Buf (Elt F) (outLoc d) := partsOf (F := F) (fFlat m d) (fPack m d) (fTgt m d)

/-! ## The rows of the result -/

theorem odiv : 16 ∣ S16x2x16.size 0 := ⟨1, rfl⟩
abbrev orow (i : Fin 16) : Rect S16x2x16 := Rect.part (s := S16x2x16) (a₀ := 0) odiv i
abbrev oRowSet (i : Fin 16) : Finset S16x2x16.Idx := ((outV).view.slice (orow i)).set

omit [FloatOps F] in
theorem orowK_eq (L : grid0.Coords) : Rect.unit (s := S16x2x16) (k0_off3 L) S1x2x16.size (k0_off3_inb L) = orow (jL L) := by
  unfold orow Rect.part Rect.block
  congr 1 <;> funext a
  · rw [k0_off3_eq]
    match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_outRowK (L : grid0.Coords) : outRowSetK L = oRowSet (jL L) := by
  show (((outV).view.slice (Rect.unit (s := S16x2x16) (k0_off3 L) S1x2x16.size (k0_off3_inb L))).reshape S2x16 squeezes_S1x2x16_S2x16.numel_eq).set
    = ((outV).view.slice (orow (jL L))).set
  rw [View.set_reshape]
  exact orowK_eq L ▸ rfl

omit [FloatOps F] in
theorem oRowSet_eq (i : Fin 16) : oRowSet i = (orow i).set := by
  show ((View.whole (main_v19_scv : Ref sig .scVector)).slice (orow i)).set = _
  rw [View.set_slice]; exact Finset.map_refl
omit [FloatOps F] in
theorem orows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint odiv h
omit [FloatOps F] in
theorem orows_cover : (Finset.univ : Finset (Fin 16)).biUnion oRowSet = Finset.univ :=
  (Finset.biUnion_congr rfl fun i _ => oRowSet_eq i).trans (Rect.biUnion_part odiv)

omit [FloatOps F] in
theorem oPts_rows (d : Dev nD) (f : Buf (Elt F) (outLoc d)) :
    (outLoc d ↦{fullShare} f : sProp 𝕄) = bigSep Finset.univ fun i : Fin 16 => outLoc d ↦[oRowSet i]{fullShare} f := by
  rw [← pointsTo_biUnion Finset.univ (ℓ := outLoc d) oRowSet orows_disjoint, orows_cover]; try rfl

/-! ## What the handshakes carry -/

abbrev tk (i : Fin 16) : PosShare TreeShare := Transfers.shareTok fullShare 16 i
abbrev dr : PosShare TreeShare := Transfers.shareDrop fullShare 16

/-- What a subcore is handed, with its row of the result at contents `g`. -/
abbrev tilePts (d : Dev nD) (i : Fin 16) (g : Buf (Elt F) (outLoc d)) : sProp 𝕄 :=
  iprop((flatLoc d ↦{tk i} fFlat m d) ∗ (packLoc d ↦{tk i} fPack m d) ∗ (tgtLoc d ↦{tk i} fTgt m d) ∗ outLoc d ↦[oRowSet i]{fullShare} g)
/-- What the call is handed, with the result at contents `g`. -/
abbrev callPts (d : Dev nD) (g : Buf (Elt F) (outLoc d)) : sProp 𝕄 :=
  iprop((flatLoc d ↦{fullShare} fFlat m d) ∗ (packLoc d ↦{fullShare} fPack m d) ∗ (tgtLoc d ↦{fullShare} fTgt m d) ∗ outLoc d ↦{fullShare} g)

def P : (K (F := F)).Pay (nD := nD) (Val := Elt F) (Name := ℕ) (U := UU) where
  st := fun q d _ => match q with | 0 => callPts m d (fOut0 m d)
  dn := fun q d _ => match q with | 0 => callPts m d (fOut m d)
  go := fun q d _ i => match q with | 0 => tilePts m d (Fin.cast nSub_zero i) (fOut0 m d)
  td := fun q d _ i => match q with | 0 => tilePts m d (Fin.cast nSub_zero i) (fOut m d)
  x := fun _ _ => iprop(emp)

instance P_storable : (P (F := F) m).IsStorable where
  st q d _ := match q with | 0 => (inferInstance : BI.Storable (upEmb : UEmb _ 𝕄) (callPts m d (fOut0 m d)))
  dn q d _ := match q with | 0 => (inferInstance : BI.Storable (upEmb : UEmb _ 𝕄) (callPts m d (fOut m d)))
  go q d _ i := match q with | 0 => (inferInstance : BI.Storable (upEmb : UEmb _ 𝕄) (tilePts m d (Fin.cast nSub_zero i) (fOut0 m d)))
  td q d _ i := match q with | 0 => (inferInstance : BI.Storable (upEmb : UEmb _ 𝕄) (tilePts m d (Fin.cast nSub_zero i) (fOut m d)))

/-- What the proof asks of the launch memory: every word of the packed table the host builds is a row of the
    flattened map. -/
def PreOK : Prop := ∀ (d : Dev nD) (j : S32x5x128.Idx), (fPack m d j).toNat < 2097152

/-! ## The obligation -/

section Obl

variable (d : Dev nD) (L : grid0.Coords)

/-- The task at coordinates `L`, over the arrays the host built, its row of the result named by its number. -/
theorem tile_task (hpre : PreOK m) (hF : (K (F := F)).Facts) (O : CellTallies nD τ sig (HIx 1)) (W : Waits sig (HIx 1)) (hO : ∀ g, O g none = 0) :
    iprop(levAts (K (F := F)).L (K (F := F)).lev ∗ emp
        ∗ tilePts m d (jL L) (fOut0 m d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop(tilePts m d (jL L) (fOut m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h := tile_body d L (fFlat m d) (fPack m d) (fTgt m d) (fOut0 m d) (tk (jL L)) (tk (jL L)) (tk (jL L)) (hpre d) hF O W hO
  unfold outRowPts at h
  rw [set_outRowK] at h
  exact h

end Obl

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task m d (coordsV ⟨_, hci.1⟩ ⟨_, hci.2⟩) hpre hF O W hO).trans (wp_mono frame _ _ fun _ => obl_post)

/-! ## The arrays split among the subcores and joined again -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show callPts m d (fOut0 m d) ⊢ |={Set.univ}=> iprop(
      (bigSep Finset.univ fun i : Fin ((K (F := F)).nSub 0) => tilePts m d (Fin.cast nSub_zero i) (fOut0 m d))
      ∗ ((bigSep Finset.univ fun i : Fin ((K (F := F)).nSub 0) => tilePts m d (Fin.cast nSub_zero i) (fOut m d)) -∗ callPts m d (fOut m d)))
  rw [bigSep_tasks (F := F) (fun i => tilePts m d i (fOut0 m d)), bigSep_tasks (F := F) (fun i => tilePts m d i (fOut m d))]
  unfold tilePts callPts
  rw [bigSep_sep', bigSep_sep', bigSep_sep', bigSep_sep', bigSep_sep', bigSep_sep', oPts_rows, oPts_rows]
  iintro ⟨Hf, Hp, Ht, Ho⟩
  ihave Hf2 := (Transfers.pointsTo_toks (ℓ := flatLoc d) (S := Finset.univ) (f := fFlat m d) fullShare 16).1 $$ Hf
  icases Hf2 with ⟨Hfd, Hft⟩
  ihave Hp2 := (Transfers.pointsTo_toks (ℓ := packLoc d) (S := Finset.univ) (f := fPack m d) fullShare 16).1 $$ Hp
  icases Hp2 with ⟨Hpd, Hpt⟩
  ihave Ht2 := (Transfers.pointsTo_toks (ℓ := tgtLoc d) (S := Finset.univ) (f := fTgt m d) fullShare 16).1 $$ Ht
  icases Ht2 with ⟨Htd, Htt⟩
  imodintro
  isplitl [Hft Hpt Htt Ho]
  · isplitl [Hft]; · iexact Hft
    isplitl [Hpt]; · iexact Hpt
    isplitl [Htt]; · iexact Htt
    iexact Ho
  iintro ⟨Hft, Hpt, Htt, Ho⟩
  isplitl [Hfd Hft]
  · iapply (Transfers.pointsTo_toks (ℓ := flatLoc d) (S := Finset.univ) (f := fFlat m d) fullShare 16).2
    isplitl [Hfd]; · iexact Hfd
    iexact Hft
  isplitl [Hpd Hpt]
  · iapply (Transfers.pointsTo_toks (ℓ := packLoc d) (S := Finset.univ) (f := fPack m d) fullShare 16).2
    isplitl [Hpd]; · iexact Hpd
    iexact Hpt
  isplitl [Htd Htt]
  · iapply (Transfers.pointsTo_toks (ℓ := tgtLoc d) (S := Finset.univ) (f := fTgt m d) fullShare 16).2
    isplitl [Htd]; · iexact Htd
    iexact Htt
  iexact Ho

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- Every array of @main, as the TensorCore holds them: all unscoped. -/
def SA : Finset (DevRef τ sig) :=
  (Finset.univ.filter fun b : Ref sig .tc => ¬ b.isScoped).map ⟨Proc.devRef .tc, Proc.devRef_injective _⟩

/-- The four arrays the call takes. -/
abbrev T4 : Finset (DevRef τ sig) := {rFlat, rPack, rTgt, rOut}
omit [FloatOps F] in
theorem hT4 : T4 ⊆ SA := by decide

omit [FloatOps F] in
theorem unscoped_held (d : Dev nD) : (unscopedBufs d (fun b => m ((SparseCore.T d).loc b)) : sProp 𝕄) = held (T d) SA (V0 m d) := by
  unfold unscopedBufs held SA
  rw [bigSep_map]; rfl

omit [FloatOps F] in
theorem held_T4 (d : Dev nD) (W : Valuation τ sig (Elt F)) :
    (held (T d) T4 W : sProp 𝕄) = iprop((flatLoc d ↦{fullShare} W rFlat) ∗ (packLoc d ↦{fullShare} W rPack) ∗ (tgtLoc d ↦{fullShare} W rTgt) ∗ outLoc d ↦{fullShare} W rOut) := by
  unfold held T4
  rw [SparseCore.bigSep_insert' (by decide), SparseCore.bigSep_insert' (by decide), SparseCore.bigSep_insert' (by decide), bigSep_singleton]

theorem heldMid_eq (d : Dev nD) (g : Buf (Elt F) (outLoc d)) :
    (held (T d) SA (Vmid m d g) : sProp 𝕄) = iprop(callPts m d g ∗ held (T d) (SA \ T4) (Vpre m d)) := by
  have hc : (held (T d) (SA \ T4) (Vmid m d g) : sProp 𝕄) = held (T d) (SA \ T4) (Vpre m d) :=
    held_congr (T d) fun b hb => Function.update_of_ne (fun e => (Finset.mem_sdiff.mp hb).2 (by rw [e]; decide)) _ _
  rw [held_sub_split (T d) hT4 (Vmid m d g), held_T4, hc]
  unfold callPts Vmid
  rw [Function.update_of_ne (show rFlat ≠ rOut by decide), Function.update_of_ne (show rPack ≠ rOut by decide),
    Function.update_of_ne (show rTgt ≠ rOut by decide), Function.update_self]

theorem Vmid_self (d : Dev nD) : Vmid m d (fOut0 m d) = Vpre m d := Function.update_eq_self _ _

theorem st0_eq (d : Dev nD) : (bigSep Finset.univ fun c : Fin ((K (F := F)).nCore 0) => (P m).st 0 d c) = callPts m d (fOut0 m d) :=
  bigSep_univ_of_subsingleton (0 : Fin 1)
theorem dn0_eq (d : Dev nD) : (bigSep Finset.univ fun c : Fin ((K (F := F)).nCore 0) => (P m).dn 0 d c) = callPts m d (fOut m d) :=
  bigSep_univ_of_subsingleton (0 : Fin 1)

/-- What @main leaves: every array at what the host's tail made of it. -/
abbrev FIN (d : Dev nD) : sProp 𝕄 := held (T d) SA (Vfin m d (fOut m d))

set_option maxHeartbeats 4000000 in
set_option maxRecDepth 16384 in
/-- @main on device `d`'s TensorCore: the host's operations, the one call, the host's tail. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op0 (F := F)) (S := SA) (show ({(Proc.devRef .tc (main_arg0 : Ref sig .tc)), (Proc.devRef .tc (main_v0 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op1 (F := F)) (S := SA) (show ({(Proc.devRef .tc (main_v1 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op2 (F := F)) (S := SA) (show ({(Proc.devRef .tc (main_c : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op3 (F := F)) (S := SA) (show ({(Proc.devRef .tc (main_c : Ref sig .tc)), (Proc.devRef .tc (main_v2 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op4 (F := F)) (S := SA) (show ({(Proc.devRef .tc (main_v1 : Ref sig .tc)), (Proc.devRef .tc (main_v2 : Ref sig .tc)), (Proc.devRef .tc (main_v3 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op5 (F := F)) (S := SA) (show ({(Proc.devRef .tc (main_v3 : Ref sig .tc)), (Proc.devRef .tc (main_v4 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op6 (F := F)) (S := SA) (show ({(Proc.devRef .tc (main_v5 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op7 (F := F)) (S := SA) (show ({(Proc.devRef .tc (main_c_0 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op8 (F := F)) (S := SA) (show ({(Proc.devRef .tc (main_c_0 : Ref sig .tc)), (Proc.devRef .tc (main_v6 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op9 (F := F)) (S := SA) (show ({(Proc.devRef .tc (main_v5 : Ref sig .tc)), (Proc.devRef .tc (main_v6 : Ref sig .tc)), (Proc.devRef .tc (main_v7 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op10 (F := F)) (S := SA) (show ({(Proc.devRef .tc (main_v7 : Ref sig .tc)), (Proc.devRef .tc (main_v8 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op11 (F := F)) (S := SA) (show ({(Proc.devRef .tc (main_v4 : Ref sig .tc)), (Proc.devRef .tc (main_v9 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op12 (F := F)) (S := SA) (show ({(Proc.devRef .tc (main_v8 : Ref sig .tc)), (Proc.devRef .tc (main_v10 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op13 (F := F)) (S := SA) (show ({(Proc.devRef .tc (main_v9 : Ref sig .tc)), (Proc.devRef .tc (main_v10 : Ref sig .tc)), (Proc.devRef .tc (main_v11 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op14 (F := F)) (S := SA) (show ({(Proc.devRef .tc (main_arg2 : Ref sig .tc)), (Proc.devRef .tc (main_v12 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op15 (F := F)) (S := SA) (show ({(Proc.devRef .tc (main_v12 : Ref sig .tc)), (Proc.devRef .tc (main_v13 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op16 (F := F)) (S := SA) (show ({(Proc.devRef .tc (main_v11 : Ref sig .tc)), (Proc.devRef .tc (main_v14 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op17 (F := F)) (S := SA) (show ({(Proc.devRef .tc (main_v13 : Ref sig .tc)), (Proc.devRef .tc (main_v14 : Ref sig .tc)), (Proc.devRef .tc (main_v15 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op18 (F := F)) (S := SA) (show ({(Proc.devRef .tc (main_arg1 : Ref sig .tc)), (Proc.devRef .tc (main_v16 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op19 (F := F)) (S := SA) (show ({(Proc.devRef .tc (main_v15 : Ref sig .tc)), (Proc.devRef .tc (main_v16 : Ref sig .tc)), (Proc.devRef .tc (main_v17 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op20 (F := F)) (S := SA) (show ({(Proc.devRef .tc (main_arg3 : Ref sig .tc)), (Proc.devRef .tc (main_v18 : Ref sig .tc))} : Finset (DevRef τ sig)) ⊆ SA by decide)) $$ [Hb Hheld]
  · isplitl [Hb]; · iexact Hb
    iexact Hheld
  iintro ⟨Hb, Hheld⟩
  rw [wp_ret]; imodintro
  ihave Hh := (Entails.of_eq ((show (held (T d) SA _ : sProp 𝕄) = held (T d) SA (Vmid m d (fOut0 m d)) from by rw [Vmid_self]; rfl).trans (heldMid_eq m d (fOut0 m d)))) $$ Hheld
  icases Hh with ⟨Hcall, Hrest⟩
  iapply ((K (F := F)).wp_run (D (F := F)) 𝒱 (EH := EH) (P := P m) κ d 0) $$ [Hst Hcall Hb Hrest]
  isplitr; · iexact Hctx
  isplitl [Hst]; · iexact Hst
  isplitl [Hcall]
  · rw [st0_eq]; iexact Hcall
  iintro ⟨Hst, Hdn⟩
  ihave Hcall := (Entails.of_eq (dn0_eq m d)) $$ Hdn
  ihave Hheld := (Entails.of_eq (heldMid_eq m d (fOut m d)).symm) $$ [Hcall Hrest]
  · isplitl [Hcall]; · iexact Hcall
    iexact Hrest
  iapply (wp_hlo_within 𝒱 (SparseCore.T d) none Set.univ (op := op21 (F := F)) (S := SA) (show ({(Proc.devRef .tc (main_v19 : Ref sig .tc)), (Proc.devRef .tc (main_v20 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op22 (F := F)) (S := SA) (show ({(Proc.devRef .tc (main_v20 : Ref sig .tc)), (Proc.devRef .tc (main_v21 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op23 (F := F)) (S := SA) (show ({(Proc.devRef .tc (main_cst : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op24 (F := F)) (S := SA) (show ({(Proc.devRef .tc (main_v21 : Ref sig .tc)), (Proc.devRef .tc (main_cst : Ref sig .tc)), (Proc.devRef .tc (main_v22 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op25 (F := F)) (S := SA) (show ({(Proc.devRef .tc (main_v19 : Ref sig .tc)), (Proc.devRef .tc (main_v23 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op26 (F := F)) (S := SA) (show ({(Proc.devRef .tc (main_v23 : Ref sig .tc)), (Proc.devRef .tc (main_v24 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op27 (F := F)) (S := SA) (show ({(Proc.devRef .tc (main_cst_1 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op28 (F := F)) (S := SA) (show ({(Proc.devRef .tc (main_v24 : Ref sig .tc)), (Proc.devRef .tc (main_cst_1 : Ref sig .tc)), (Proc.devRef .tc (main_v25 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op29 (F := F)) (S := SA) (show ({(Proc.devRef .tc (main_cst_2 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op30 (F := F)) (S := SA) (show ({(Proc.devRef .tc (main_v25 : Ref sig .tc)), (Proc.devRef .tc (main_cst_2 : Ref sig .tc)), (Proc.devRef .tc (main_v26 : Ref sig .tc))} : Finset (DevRef τ sig)) ⊆ SA by decide)) $$ [Hb Hheld]
  · isplitl [Hb]; · iexact Hb
    iexact Hheld
  iintro ⟨Hb, Hheld⟩
  rw [wp_ret]; imodintro
  iapply (wp_hlo_within 𝒱 (SparseCore.T d) none Set.univ (op := op31 (F := F)) (S := SA) (show ({(Proc.devRef .tc (main_v22 : Ref sig .tc)), (Proc.devRef .tc (main_v26 : Ref sig .tc)), (Proc.devRef .tc (main_v27 : Ref sig .tc))} : Finset (DevRef τ sig)) ⊆ SA by decide)) $$ [Hb Hheld]
  · isplitl [Hb]; · iexact Hb
    iexact Hheld
  iintro ⟨Hb, Hheld⟩
  rw [wp_ret]; imodintro; imodintro
  isplitl [Hst]; · iexact Hst
  iexact Hheld

/-! ## What the final memory says -/

abbrev resLoc (d : Dev nD) : Loc nD τ sig := (SparseCore.T d).loc main_v27
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3

abbrev T5 : Finset (DevRef τ sig) := {rRes, rA0, rA1, rA2, rA3}
omit [FloatOps F] in
theorem hT5 : T5 ⊆ SA := by decide

omit [FloatOps F] in
theorem held_T5 (d : Dev nD) (W : Valuation τ sig (Elt F)) :
    (held (T d) T5 W : sProp 𝕄) = iprop((resLoc d ↦{fullShare} W rRes) ∗ (a0Loc d ↦{fullShare} W rA0) ∗ (a1Loc d ↦{fullShare} W rA1)
      ∗ (a2Loc d ↦{fullShare} W rA2) ∗ a3Loc d ↦{fullShare} W rA3) := by
  unfold held T5
  rw [SparseCore.bigSep_insert' (by decide), SparseCore.bigSep_insert' (by decide), SparseCore.bigSep_insert' (by decide),
    SparseCore.bigSep_insert' (by decide), bigSep_singleton]

def fq (d : Dev nD) (s' : Phys nD τ sig (Elt F)) : Prop :=
  s'.mem.mem (resLoc d) = Vfin m d (fOut m d) rRes ∧ s'.mem.mem (a0Loc d) = Vfin m d (fOut m d) rA0 ∧ s'.mem.mem (a1Loc d) = Vfin m d (fOut m d) rA1
    ∧ s'.mem.mem (a2Loc d) = Vfin m d (fOut m d) rA2 ∧ s'.mem.mem (a3Loc d) = Vfin m d (fOut m d) rA3

set_option maxRecDepth 16384 in
theorem hfin (d : Dev nD) (s' : Phys nD τ sig (Elt F)) : iprop(FIN m d ∗ SI s') ⊢ (⌜fq m d s'⌝ : sProp 𝕄) := by
  unfold FIN
  rw [held_sub_split (T d) hT5 (Vfin m d (fOut m d)), held_T5]
  iintro ⟨⟨⟨Hr, H0, H1, H2, H3⟩, -⟩, HSI⟩
  ihave H := (persistent_entails_right (SI_pointsTo_agree (st := s') (ℓ := resLoc d) (I := Finset.univ) (q := fullShare) (f := Vfin m d (fOut m d) rRes))) $$ [HSI Hr]
  · isplitl [HSI] <;> iassumption
  icases H with ⟨%hr, HSI, -⟩
  ihave H := (persistent_entails_right (SI_pointsTo_agree (st := s') (ℓ := a0Loc d) (I := Finset.univ) (q := fullShare) (f := Vfin m d (fOut m d) rA0))) $$ [HSI H0]
  · isplitl [HSI] <;> iassumption
  icases H with ⟨%h0, HSI, -⟩
  ihave H := (persistent_entails_right (SI_pointsTo_agree (st := s') (ℓ := a1Loc d) (I := Finset.univ) (q := fullShare) (f := Vfin m d (fOut m d) rA1))) $$ [HSI H1]
  · isplitl [HSI] <;> iassumption
  icases H with ⟨%h1, HSI, -⟩
  ihave H := (persistent_entails_right (SI_pointsTo_agree (st := s') (ℓ := a2Loc d) (I := Finset.univ) (q := fullShare) (f := Vfin m d (fOut m d) rA2))) $$ [HSI H2]
  · isplitl [HSI] <;> iassumption
  icases H with ⟨%h2, HSI, -⟩
  ihave H := (SI_pointsTo_agree (st := s') (ℓ := a3Loc d) (I := Finset.univ) (q := fullShare) (f := Vfin m d (fOut m d) rA3)) $$ [HSI H3]
  · isplitl [HSI] <;> iassumption
  icases H with %h3
  ipureintro
  exact ⟨funext fun i => hr i (Finset.mem_univ i), funext fun i => h0 i (Finset.mem_univ i), funext fun i => h1 i (Finset.mem_univ i),
    funext fun i => h2 i (Finset.mem_univ i), funext fun i => h3 i (Finset.mem_univ i)⟩

/-! ## The program's run -/

def QC : PUnit × MemSt nD τ sig (Elt F) → Prop := fun r => ∀ c : Dev nD,
  r.2.mem (resLoc c) = Vfin m c (fOut m c) rRes ∧ r.2.mem (a0Loc c) = Vfin m c (fOut m c) rA0 ∧ r.2.mem (a1Loc c) = Vfin m c (fOut m c) rA1
    ∧ r.2.mem (a2Loc c) = Vfin m c (fOut m c) rA2 ∧ r.2.mem (a3Loc c) = Vfin m c (fOut m c) rA3

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.TileB

end
-- ==== Proof.PackRangeBits.lean ====
/-
  The packed table read at an index, and the range of its words. Rows 0..3 of batch b hold, for object m and
  channel d, the object's position ind[b, m] plus the offset b * 65536 + d * 16384 of channel d of batch b in the
  flattened feature map, in 32-bit arithmetic; row 4 holds the mask. Under the precondition a position lies in
  [0, 16383] and a mask word in [0, 1], so every word of the table is below 32 * 65536 = 2097152, the number of rows
  of the flattened map: nothing wraps, and the remainder in the row number is the identity.
-/
import proofs.«219714_g10557029613686_week1_w2_465_59_alg».proof.Proof.SpecBits
import proofs.«219714_g10557029613686_week1_w2_465_59_alg».proof.Proof.PreFacts
import Idealize.ShloMosaic.Lib.Pipeline.Value

noncomputable section

namespace Cert.Proof.PackRangeB

open Cert.Kernel Cert.Kernel.Gen
open Idealize.ShloMosaic Idealize.ShloMosaic.ValueIdx

/-- The offset word of batch b and channel d: b * 65536 + d * 16384 (an iota times a constant per axis, broadcast
    and added). -/
theorem offs_apply (b : Fin 32) (d : Fin 4) :
    SpecB.offsOf (ix3 b d (0 : Fin 1)) = BitVec.ofNat 32 (b.val * 65536 + d.val * 16384) := by
  show BitVec.ofNat 32 b.val * 65536#32 + BitVec.ofNat 32 d.val * 16384#32 = _
  rw [BitVec.ofNat_add, BitVec.ofNat_mul, BitVec.ofNat_mul]

/-- Rows 0..3 of the packed table: the position plus the channel's offset. -/
theorem pack_apply_idx (a1 a2 : IVec S32x128 32) (b : Fin 32) (d : Fin 4) (m : Fin 128) :
    SpecB.packOf a1 a2 (ix3 b (Fin.castLE (by decide) d : Fin 5) m)
      = a2 (ix2 b m) + BitVec.ofNat 32 (b.val * 65536 + d.val * 16384) := by
  unfold SpecB.packOf
  dsimp only
  rw [concatenate_pair_apply_left (s₁ := S32x4x128) (s₂ := S32x1x128) (1 : Fin 3) _ _ _ (ix3 b (Fin.castLE (by decide) d : Fin 5) m) rfl
    (ix3 b d m : S32x4x128.Idx) (by intro c; fin_cases c <;> rfl)]
  show broadcastInDim S32x4x128 ![0, 1, 2] _ (broadcastInDim S32x1x128 ![0, 2] _ a2) (ix3 b d m)
      + broadcastInDim S32x4x128 ![0, 1, 2] _ SpecB.offsOf (ix3 b d m) = _
  rw [broadcastInDim_apply _ _ (broadcastInDim S32x1x128 ![0, 2] _ a2) (ix3 b d m) (ix3 b (0 : Fin 1) m : S32x1x128.Idx)
        (by intro c; fin_cases c <;> rfl),
      broadcastInDim_apply _ _ a2 (ix3 b (0 : Fin 1) m : S32x1x128.Idx) (ix2 b m : S32x128.Idx) (by intro c; fin_cases c <;> rfl),
      broadcastInDim_apply _ _ SpecB.offsOf (ix3 b d m : S32x4x128.Idx) (ix3 b d (0 : Fin 1) : S32x4x1.Idx) (by intro c; fin_cases c <;> rfl),
      offs_apply]

/-- Row 4 of the packed table: the mask. -/
theorem pack_apply_mask (a1 a2 : IVec S32x128 32) (b : Fin 32) (m : Fin 128) :
    SpecB.packOf a1 a2 (ix3 b (4 : Fin 5) m) = a1 (ix2 b m) := by
  unfold SpecB.packOf
  dsimp only
  rw [concatenate_pair_apply_right (s₁ := S32x4x128) (s₂ := S32x1x128) (1 : Fin 3) _ _ _ (ix3 b (4 : Fin 5) m) rfl rfl
    (ix3 b (0 : Fin 1) m : S32x1x128.Idx) (by intro c hc; fin_cases c <;> first | rfl | exact absurd rfl hc) rfl,
    broadcastInDim_apply _ _ a1 (ix3 b (0 : Fin 1) m : S32x1x128.Idx) (ix2 b m : S32x128.Idx) (by intro c; fin_cases c <;> rfl)]

/-- A word in [0, n] read signed is at most n read unsigned. -/
theorem toNat_le_of_toInt (w : BitVec 32) (n : Nat) (h0 : 0 ≤ w.toInt) (h1 : w.toInt ≤ n) : w.toNat ≤ n := by
  have h32 := w.isLt
  rw [BitVec.toInt_eq_toNat_cond] at h0 h1
  split at h0 <;> omega

/-- Every word of the packed table, at coordinates. -/
theorem pack_lt_at {F : FTy → Type} [FloatOps F] (a0 : FVec F S32x4x128x128 .f32) (a1 a2 : IVec S32x128 32)
    (a3 : FVec F S32x128x4 .f32) (h : Cert.Pre_input_domain.fn (F := F) a0 a1 a2 a3 = fun _ => 1#1)
    (b : Fin 32) (r : Fin 5) (m : Fin 128) : (SpecB.packOf a1 a2 (ix3 b r m)).toNat < 2097152 := by
  obtain ⟨r, hr⟩ := r
  have hb := b.isLt
  by_cases hd : r < 4
  · change (SpecB.packOf a1 a2 (ix3 b (Fin.castLE (by decide) (⟨r, hd⟩ : Fin 4) : Fin 5) m)).toNat < _
    rw [pack_apply_idx]
    obtain ⟨h0, h1⟩ := PreFacts.ind_range a0 a1 a2 a3 h (ix2 b m)
    have hx := toNat_le_of_toInt _ 16383 h0 h1
    have hr' : (⟨r, hd⟩ : Fin 4).val = r := rfl
    rw [BitVec.toNat_add, BitVec.toNat_ofNat]
    omega
  · have e : r = 4 := by omega
    subst e
    change (SpecB.packOf a1 a2 (ix3 b (4 : Fin 5) m)).toNat < _
    rw [pack_apply_mask]
    obtain ⟨h0, h1⟩ := PreFacts.mask_range a0 a1 a2 a3 h (ix2 b m)
    have hx := toNat_le_of_toInt _ 1 h0 h1
    omega

/-- Every word of the packed table is a row number of the flattened map. -/
theorem pack_lt {F : FTy → Type} [FloatOps F] (a0 : FVec F S32x4x128x128 .f32) (a1 a2 : IVec S32x128 32)
    (a3 : FVec F S32x128x4 .f32) (h : Cert.Pre_input_domain.fn (F := F) a0 a1 a2 a3 = fun _ => 1#1) :
    ∀ j : S32x5x128.Idx, (SpecB.packOf a1 a2 j).toNat < 2097152 := fun j => by
  rw [eq_ix3 j]
  exact pack_lt_at a0 a1 a2 a3 h (j 0) (j 1) (j 2)

end Cert.Proof.PackRangeB

end
-- ==== Proof.ValueBits.lean ====
/-
  The host's side read as pure functions: the three arrays the call reads are the flattened feature map, the packed
  table and the transposed targets of the arguments; the result is the host's tail of what the call wrote; no
  operation writes an argument. So the program ends with its result at the result function of its arguments.
-/
import proofs.«219714_g10557029613686_week1_w2_465_59_alg».proof.Proof.LaunchBits
import proofs.«219714_g10557029613686_week1_w2_465_59_alg».proof.Proof.PackRangeBits

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo
open Cert.Proof.SpecB

variable [FloatOps F]

variable (m : (ℓ : Loc nD τ sig) → Buf (Elt F) ℓ)

theorem Vpre_flat (d : Dev nD) : (fFlat m d : FVec F S2097152 .f32) = flatOf (m (a0Loc d)) := by
  unfold fFlat Vpre; dsimp only [opsPre, op0, op1, op2, op3, op4, op5, op6, op7, op8, op9, op10, op11, op12, op13, op14, op15, op16, op17, op18, op19, op20]; after_results; rfl

theorem Vpre_pack (d : Dev nD) : (fPack m d : IVec S32x5x128 32) = packOf (m (a1Loc d)) (m (a2Loc d)) := by
  unfold fPack Vpre; dsimp only [opsPre, op0, op1, op2, op3, op4, op5, op6, op7, op8, op9, op10, op11, op12, op13, op14, op15, op16, op17, op18, op19, op20]; after_results; rfl

theorem Vpre_tgt (d : Dev nD) : (fTgt m d : FVec F S32x4x128 .f32) = tgtOf (m (a3Loc d)) := by
  unfold fTgt Vpre; dsimp only [opsPre, op0, op1, op2, op3, op4, op5, op6, op7, op8, op9, op10, op11, op12, op13, op14, op15, op16, op17, op18, op19, op20]; after_results; rfl

theorem Vfin_res (d : Dev nD) (g : Buf (Elt F) (outLoc d)) : (Vfin m d g rRes : FVec F S_ .f32) = tailOf (g : FVec F S16x2x16 .f32) := by
  unfold Vfin Vmid; dsimp only [opsPost, op21, op22, op23, op24, op25, op26, op27, op28, op29, op30, op31]; after_results
  simp only [Function.update_self]; rfl

theorem Vpre_arg (d : Dev nD) (b : DevRef τ sig) (hb : b = rA0 ∨ b = rA1 ∨ b = rA2 ∨ b = rA3) : Vpre m d b = V0 m d b := by
  unfold Vpre; dsimp only [opsPre, op0, op1, op2, op3, op4, op5, op6, op7, op8, op9, op10, op11, op12, op13, op14, op15, op16, op17, op18, op19, op20]
  rcases hb with rfl | rfl | rfl | rfl <;> (after_results; try rfl)

theorem Vfin_arg (d : Dev nD) (g : Buf (Elt F) (outLoc d)) (b : DevRef τ sig) (hb : b = rA0 ∨ b = rA1 ∨ b = rA2 ∨ b = rA3) : Vfin m d g b = V0 m d b := by
  have hne : b ≠ rOut := by rcases hb with rfl | rfl | rfl | rfl <;> decide
  have h1 : Vfin m d g b = Vmid m d g b := by
    unfold Vfin; dsimp only [opsPost, op21, op22, op23, op24, op25, op26, op27, op28, op29, op30, op31]
    rcases hb with rfl | rfl | rfl | rfl <;> (after_results; try rfl)
  rw [h1]; unfold Vmid; rw [Function.update_of_ne hne]; exact Vpre_arg m d b hb

/-- The result the program ends with is the result function of its arguments. -/
theorem result_of_args (d : Dev nD) :
    (Vfin m d (fOut m d) rRes : FVec F S_ .f32) = resultOf (m (a0Loc d)) (m (a1Loc d)) (m (a2Loc d)) (m (a3Loc d)) := by
  rw [Vfin_res]
  show tailOf (partsOf (fFlat m d) (fPack m d) (fTgt m d)) = _
  rw [Vpre_flat, Vpre_pack, Vpre_tgt]; rfl

/-- Under the precondition every word of the packed table is a row of the flattened map. -/
theorem preOK_of_pre (hpre : ∀ c : Dev nD, Cert.Pre_input_domain.fn (F := F) (m (a0Loc c)) (m (a1Loc c)) (m (a2Loc c)) (m (a3Loc c)) = fun _ => 1#1) : PreOK m := by
  intro d j
  have h := Cert.Proof.PackRangeB.pack_lt (F := F) (m (a0Loc d)) (m (a1Loc d)) (m (a2Loc d)) (m (a3Loc d)) (hpre d) j
  rw [← Vpre_pack] at h; exact h

/-- The program's run with its result named and its arguments unchanged. -/
theorem run_value [∀ e, Nonempty (Elt F e)] (ρ : Dev nD → PrngReg)
    (hpre : ∀ c : Dev nD, Cert.Pre_input_domain.fn (F := F) (m (a0Loc c)) (m (a1Loc c)) (m (a2Loc c)) (m (a3Loc c)) = fun _ => 1#1) :
    θ_run (Cert.Kernel.defs (F := F)) (Cert.Kernel.threads (F := F)) ⟨m, fun _ => 0, ρ⟩ (fun r => ∀ c : Dev nD,
      r.2.mem (resLoc c) = (resultOf (m (a0Loc c)) (m (a1Loc c)) (m (a2Loc c)) (m (a3Loc c)) : FVec F S_ .f32)
      ∧ r.2.mem (a0Loc c) = m (a0Loc c) ∧ r.2.mem (a1Loc c) = m (a1Loc c) ∧ r.2.mem (a2Loc c) = m (a2Loc c) ∧ r.2.mem (a3Loc c) = m (a3Loc c)) :=
  (θ_run (Cert.Kernel.defs (F := F)) _ _).mono (fun r h c =>
    ⟨(h c).1.trans (result_of_args m c), (h c).2.1.trans (Vfin_arg m c _ rA0 (.inl rfl)), (h c).2.2.1.trans (Vfin_arg m c _ rA1 (.inr (.inl rfl))),
      (h c).2.2.2.1.trans (Vfin_arg m c _ rA2 (.inr (.inr (.inl rfl)))), (h c).2.2.2.2.trans (Vfin_arg m c _ rA3 (.inr (.inr (.inr rfl))))⟩)
    (run_main m ρ (preOK_of_pre m hpre))

end Cert.Proof.TileB

end
-- ==== Proof.LossForm.lean ====
/-
  The masked smooth-L1 loss in closed form over the extended reals: object m of batch b sits at position
  ind[b, m] = 128 h + w of the 128 x 128 map; its prediction in channel d is output[b, d, h, w]; the loss is the sum
  over all objects and channels of the smooth-L1 term of (prediction - target) * mask, divided by the number of
  masked objects plus 1e-4.
-/
import proofs.«219714_g10557029613686_week1_w2_465_59_alg».proof.Proof.SpecIdeal
import Idealize.ShloMosaic.PureOps.Ideal

noncomputable section

namespace Cert.Proof.LossForm

open Idealize.ShloMosaic Idealize.ShloMosaic.ValueIdx

abbrev SOut : Shape := ⟨4, ![32, 4, 128, 128]⟩
abbrev SInd : Shape := ⟨2, ![32, 128]⟩
abbrev STgt : Shape := ⟨3, ![32, 128, 4]⟩

/-- The mask of object m of batch b, the integer as a real. -/
def maskR (a1 : SInd.Idx → BitVec 32) (b : Fin 32) (m : Fin 128) : EReal := (((a1 (ix2 b m)).toInt : ℝ) : EReal)

/-- Row and column of a position 128 h + w. -/
def hOf (w : BitVec 32) : Fin 128 := ⟨w.toNat / 128 % 128, Nat.mod_lt _ (by decide)⟩
def wOf (w : BitVec 32) : Fin 128 := ⟨w.toNat % 128, Nat.mod_lt _ (by decide)⟩

/-- The prediction for object m of batch b in channel d. -/
def predR (a0 : SOut.Idx → EReal) (a2 : SInd.Idx → BitVec 32) (b : Fin 32) (m : Fin 128) (d : Fin 4) : EReal :=
  a0 (ix4 b d (hOf (a2 (ix2 b m))) (wOf (a2 (ix2 b m))))

/-- The smooth-L1 term on the extended reals (the program's own operations at the ideal instance). -/
def huberR (x : EReal) : EReal := Cert.Proof.SpecI.huber (F := Ideal) (x : Ideal .f32)

/-- The sum of all terms. -/
def totalOf (a0 : SOut.Idx → EReal) (a1 a2 : SInd.Idx → BitVec 32) (a3 : STgt.Idx → EReal) : EReal :=
  ∑ b : Fin 32, ∑ m : Fin 128, ∑ d : Fin 4, huberR ((predR a0 a2 b m d - a3 (ix3 b m d)) * maskR a1 b m)

/-- The number of masked objects. -/
def countOf (a1 : SInd.Idx → BitVec 32) : EReal := ∑ b : Fin 32, ∑ m : Fin 128, maskR a1 b m

/-- The loss. -/
def lossOf (a0 : SOut.Idx → EReal) (a1 a2 : SInd.Idx → BitVec 32) (a3 : STgt.Idx → EReal) : EReal :=
  Ideal.div (totalOf a0 a1 a2 a3) (countOf a1 + Ideal.ofBits .f32 0x38D1B717#32)

end Cert.Proof.LossForm

end
-- ==== Proof.RefLoss.lean ====
/-
  The reference's result is the closed-form loss. Index by index the reference forms the smooth-L1 term of
  prediction * mask - target * mask, where the prediction is the feature map transposed to [batch, row, column, channel],
  flattened to [batch, position, channel] and gathered at the object's position; with every entry of the feature
  map and of the targets a real number this is the term of (prediction - target) * mask. The host's sums from the
  zero word are the triple sum over [32, 128, 4] and the double sum over [32, 128].
-/
import proofs.«219714_g10557029613686_week1_w2_465_59_alg».proof.Defs
import proofs.«219714_g10557029613686_week1_w2_465_59_alg».proof.Proof.LossForm
import proofs.«219714_g10557029613686_week1_w2_465_59_alg».proof.Proof.Gen.ReferenceIdeal.Run
import proofs.«219714_g10557029613686_week1_w2_465_59_alg».proof.Proof.Gen.ReferenceIdeal.Read
import proofs.«219714_g10557029613686_week1_w2_465_59_alg».proof.Proof.Gen.Pre_input_domain
import proofs.«219714_g10557029613686_week1_w2_465_59_alg».proof.Proof.PreFacts
import Idealize.ShloMosaic.Lib.ValueIdx

noncomputable section

namespace Cert.Proof.RefLoss

open Idealize.ShloMosaic Idealize.ShloMosaic.ValueIdx Idealize.ShloMosaic.TcCoe Idealize.SL.Sem
open Cert.ReferenceIdeal Cert.ReferenceIdeal.Gen

/-- The reference runs and leaves its arguments unchanged: its run with the result dropped. -/
theorem frame_ri : Cert.frame_ReferenceIdeal (hReferenceIdeal := Cert.ReferenceIdeal.Gen.facts) (hPre_input_domain := Cert.Pre_input_domain.Gen.facts) :=
  fun m ρ _ => (θ_run Cert.ReferenceIdeal.defs _ _).mono (fun _ h c => (h c).2) (Cert.ReferenceIdeal.Value.run (F := Ideal) m ρ)

/-! ## The gather read at an index

The operand is [batch, position, channel], the start indices [batch, object, 1]; axis 0 is a batching axis of both,
the position axis is collapsed and named by the start index, the channel axis is the one offset axis. Result element
(b, m, d) is the operand at batch b, at the start index of (b, m) read signed and clamped into [0, 16383], channel d. -/

local notation "G" => gather_S32x16384x4_S32x128x1_S32x128x4_2_1_0_0_1_2_114

theorem gather_apply {α : Type} (x : S32x16384x4.Idx → α) (idx : IVec S32x128x1 32) (b : Fin 32) (m : Fin 128) (d : Fin 4) :
    Host.gather G x idx (ix3 b m d)
      = x (ix3 b (⟨min (idx (ix3 b m (0 : Fin 1))).toInt.toNat 16383, by omega⟩ : Fin 16384) d) := by
  unfold Host.gather
  congr 1
  funext a
  refine Fin.ext ?_
  match a with
  | ⟨0, _⟩ =>
    show GatherDims.start G (ix3 b m d) idx 0 + GatherDims.batchCoord G (ix3 b m d) 0 + GatherDims.offCoord G (ix3 b m d) 0 = b.val
    rw [GatherDims.start_batching _ _ _ _ (by decide), GatherDims.offCoord_eq_zero _ _ _ (by decide)]
    simp only [Nat.zero_add, Nat.add_zero]
    unfold GatherDims.batchCoord
    rw [dif_pos (by decide)]
    rfl
  | ⟨1, _⟩ =>
    show GatherDims.start G (ix3 b m d) idx 1 + GatherDims.batchCoord G (ix3 b m d) 1 + GatherDims.offCoord G (ix3 b m d) 1
      = min (idx (ix3 b m (0 : Fin 1))).toInt.toNat 16383
    rw [GatherDims.batchCoord_eq_zero _ _ _ (by decide), GatherDims.offCoord_eq_zero _ _ _ (by decide)]
    simp only [Nat.add_zero]
    unfold GatherDims.start
    rw [dif_pos (by decide)]
    have hsi : GatherDims.siIdx G (ix3 b m d) ⟨List.idxOf (1 : Fin 3) (GatherDims.startIndexMap G), by decide⟩ = ix3 b m (0 : Fin 1) := by
      funext c; refine Fin.ext ?_
      match c with
      | ⟨0, _⟩ => rfl
      | ⟨1, _⟩ => rfl
      | ⟨2, _⟩ => rfl
    rw [hsi]
    rfl
  | ⟨2, _⟩ =>
    show GatherDims.start G (ix3 b m d) idx 2 + GatherDims.batchCoord G (ix3 b m d) 2 + GatherDims.offCoord G (ix3 b m d) 2 = d.val
    rw [GatherDims.batchCoord_eq_zero _ _ _ (by decide)]
    unfold GatherDims.start
    rw [dif_neg (by decide)]
    simp only [Nat.zero_add, Nat.add_zero]
    unfold GatherDims.offCoord
    rw [dif_pos (by decide)]
    rfl

/-! ## The position words

With every position in [0, 16383] the wrap-around of a negative index is not taken, the in-range test is true and
the clamp is the identity: the gather reads the feature map at the position itself. -/

section Position
variable {F : FTy → Type} [FloatOps F]

/-- A word in [0, 16383] read signed and clamped is the word read unsigned. -/
theorem clamp_eq (w : BitVec 32) (h0 : 0 ≤ w.toInt) (h1 : w.toInt ≤ 16383) : min w.toInt.toNat 16383 = w.toNat := by
  have hc := BitVec.toInt_eq_toNat_cond w
  have hl := w.isLt
  split at hc <;> omega

/-- The start index of object m of batch b: the position itself, a nonnegative position not being wrapped. -/
theorem pos_eq (x2 : (⟨S32x128, .i32⟩ : BufTy).Contents (Elt F)) (b : Fin 32) (m : Fin 128)
    (h0 : 0 ≤ (x2 (ix2 b m)).toInt) :
    Read.val_main_call0_v4 (F := F) x2 (ix3 b m (0 : Fin 1)) = x2 (ix2 b m) := by
  have e2 : Read.val_main_v2 (F := F) x2 (ix3 b m (0 : Fin 1)) = x2 (ix2 b m) := by
    rw [Read.val_main_v2_apply]
    congr 1; funext a; refine Fin.ext ?_
    match a with
    | ⟨0, _⟩ => rfl
    | ⟨1, _⟩ => rfl
  rw [Read.val_main_call0_v4_apply, Read.val_main_call0_v1_apply, e2, Read.val_main_call0_v0_apply,
    Read.val_main_call0_c_apply]
  have hz : IntOp.cmpi .slt (x2 (ix2 b m)) 0#32 = 0#1 := eq_zero_of_ne_one (fun h => by
    have h' := IntOp.cmpi_slt.mp h
    have z : (0#32 : BitVec 32).toInt = 0 := by decide
    omega)
  rw [hz, select_zero]

theorem foldl_andi_one {ι : Type} (l : List ι) : l.foldl (fun r _ => IntOp.andi r 1#1) 1#1 = 1#1 := by
  induction l with
  | nil => rfl
  | cons a l ih =>
    have e : IntOp.andi 1#1 1#1 = 1#1 := by decide
    rw [List.foldl_cons, e]; exact ih

/-- Every start index passes the in-range test. -/
theorem inrange_all (x2 : (⟨S32x128, .i32⟩ : BufTy).Contents (Elt F))
    (hr : ∀ j, 0 ≤ (x2 j).toInt ∧ (x2 j).toInt ≤ 16383) :
    Read.val_main_call0_v10 (F := F) x2 = fun _ => 1#1 := by
  funext k
  obtain ⟨b, m, z, rfl⟩ : ∃ (b : Fin 32) (m : Fin 128) (z : Fin 1), k = ix3 b m z := ⟨k 0, k 1, k 2, eq_ix3 k⟩
  obtain rfl : z = 0 := Subsingleton.elim _ _
  rw [Read.val_main_call0_v10_apply, Read.val_main_call0_v6_apply, Read.val_main_call0_v9_apply,
    pos_eq x2 b m (hr _).1, Read.val_main_call0_v5_apply, Read.val_main_call0_c_2_apply,
    Read.val_main_call0_v8_apply, Read.val_main_call0_v7_apply, Read.val_main_call0_c_1_apply]
  have z0 : (0#32 : BitVec 32).toInt = 0 := by decide
  have z1 : (16383#32 : BitVec 32).toInt = 16383 := by decide
  exact IntOp.andi_eq_one.mpr ⟨IntOp.cmpi_sge.mpr (by rw [z0]; exact (hr _).1), IntOp.cmpi_sle.mpr (by rw [z1]; exact (hr _).2)⟩

/-- The in-range test reduced over the trailing axis of extent one is true at every object. -/
theorem inrange_eq (x2 : (⟨S32x128, .i32⟩ : BufTy).Contents (Elt F))
    (hr : ∀ j, 0 ≤ (x2 j).toInt ∧ (x2 j).toInt ≤ 16383) (j : S32x128.Idx) :
    Read.val_main_call0_v11 (F := F) x2 j = 1#1 := by
  unfold Read.val_main_call0_v11
  rw [inrange_all x2 hr, Host.reduce_eq_foldl]
  exact foldl_andi_one _

/-- The prediction: the gathered, selected value is the feature map at row position / 128, column position % 128. -/
theorem pred_eq (x0 : (⟨S32x4x128x128, .f32⟩ : BufTy).Contents (Elt F)) (x2 : (⟨S32x128, .i32⟩ : BufTy).Contents (Elt F))
    (hr : ∀ j, 0 ≤ (x2 j).toInt ∧ (x2 j).toInt ≤ 16383) (b : Fin 32) (m : Fin 128) (d : Fin 4) :
    Read.val_main_v3 (F := F) x0 x2 (ix3 b m d)
      = x0 (ix4 b d (Cert.Proof.LossForm.hOf (x2 (ix2 b m))) (Cert.Proof.LossForm.wOf (x2 (ix2 b m)))) := by
  rw [Read.val_main_v3_apply, Read.val_main_call0_v13_apply, inrange_eq x2 hr, select_one]
  unfold Read.val_main_call0_v12
  rw [gather_apply, Read.val_main_v1_apply, Read.val_main_v0_apply]
  congr 1; funext a; refine Fin.ext ?_
  have hp : min (Read.val_main_call0_v4 (F := F) x2 (ix3 b m (0 : Fin 1))).toInt.toNat 16383 = (x2 (ix2 b m)).toNat := by
    rw [pos_eq x2 b m (hr _).1]; exact clamp_eq _ (hr _).1 (hr _).2
  have hb := b.isLt
  have hd := d.isLt
  have hw : (x2 (ix2 b m)).toNat ≤ 16383 := by rw [← hp]; exact Nat.min_le_right _ _
  match a with
  | ⟨0, _⟩ =>
    show ((b.val * 16384 + min (Read.val_main_call0_v4 (F := F) x2 (ix3 b m (0 : Fin 1))).toInt.toNat 16383) * 4 + d.val) / 65536 = b.val
    rw [hp]; omega
  | ⟨1, _⟩ =>
    show ((b.val * 16384 + min (Read.val_main_call0_v4 (F := F) x2 (ix3 b m (0 : Fin 1))).toInt.toNat 16383) * 4 + d.val) % 4 = d.val
    rw [hp]; omega
  | ⟨2, _⟩ =>
    show ((b.val * 16384 + min (Read.val_main_call0_v4 (F := F) x2 (ix3 b m (0 : Fin 1))).toInt.toNat 16383) * 4 + d.val) / 512 % 128
      = (x2 (ix2 b m)).toNat / 128 % 128
    rw [hp]; omega
  | ⟨3, _⟩ =>
    show ((b.val * 16384 + min (Read.val_main_call0_v4 (F := F) x2 (ix3 b m (0 : Fin 1))).toInt.toNat 16383) * 4 + d.val) / 4 % 128
      = (x2 (ix2 b m)).toNat % 128
    rw [hp]; omega

end Position

/-! ## One term

At (b, m, d) the reference's difference is prediction * mask - target * mask, the mask the integer as a real; the
term is the smooth-L1 function of it. -/

section Term
open Cert.Proof.LossForm

/-- The mask broadcast along the channels, as a float. -/
theorem mask8_eq (x1 : (⟨S32x128, .i32⟩ : BufTy).Contents (Elt Ideal)) (b : Fin 32) (m : Fin 128) (d : Fin 4) :
    Read.val_main_v8 (F := Ideal) x1 (ix3 b m d) = maskR x1 b m := by
  rw [Read.val_main_v8_apply, Read.val_main_v7_apply, Read.val_main_v6_apply]
  have e : Read.idx_main_v6 (Read.idx_main_v8 (ix3 b m d)) = ix2 b m := by
    funext a; refine Fin.ext ?_
    match a with
    | ⟨0, _⟩ => rfl
    | ⟨1, _⟩ => rfl
  rw [e]; rfl

theorem mask10_eq (x1 : (⟨S32x128, .i32⟩ : BufTy).Contents (Elt Ideal)) (b : Fin 32) (m : Fin 128) (d : Fin 4) :
    Read.val_main_v10 (F := Ideal) x1 (ix3 b m d) = maskR x1 b m := by
  rw [Read.val_main_v10_apply, Read.val_main_v7_apply, Read.val_main_v6_apply]
  have e : Read.idx_main_v6 (Read.idx_main_v10 (ix3 b m d)) = ix2 b m := by
    funext a; refine Fin.ext ?_
    match a with
    | ⟨0, _⟩ => rfl
    | ⟨1, _⟩ => rfl
  rw [e]; rfl

/-- The reference's difference at (b, m, d). -/
theorem diff_eq (x0 : (⟨S32x4x128x128, .f32⟩ : BufTy).Contents (Elt Ideal)) (x1 x2 : (⟨S32x128, .i32⟩ : BufTy).Contents (Elt Ideal))
    (x3 : (⟨S32x128x4, .f32⟩ : BufTy).Contents (Elt Ideal))
    (hr : ∀ j, 0 ≤ (x2 j).toInt ∧ (x2 j).toInt ≤ 16383) (b : Fin 32) (m : Fin 128) (d : Fin 4) :
    Read.val_main_v12 (F := Ideal) x0 x1 x2 x3 (ix3 b m d)
      = predR x0 x2 b m d * maskR x1 b m - x3 (ix3 b m d) * maskR x1 b m := by
  rw [Read.val_main_v12_apply, Read.val_main_v9_apply, Read.val_main_v11_apply, pred_eq x0 x2 hr, mask8_eq, mask10_eq]
  rfl

/-- The reference's term at (b, m, d): the smooth-L1 function of the difference. -/
theorem term_eq (x0 : (⟨S32x4x128x128, .f32⟩ : BufTy).Contents (Elt Ideal)) (x1 x2 : (⟨S32x128, .i32⟩ : BufTy).Contents (Elt Ideal))
    (x3 : (⟨S32x128x4, .f32⟩ : BufTy).Contents (Elt Ideal))
    (hr : ∀ j, 0 ≤ (x2 j).toInt ∧ (x2 j).toInt ≤ 16383) (b : Fin 32) (m : Fin 128) (d : Fin 4) :
    Read.val_main_v21 (F := Ideal) x0 x1 x2 x3 (ix3 b m d)
      = huberR (predR x0 x2 b m d * maskR x1 b m - x3 (ix3 b m d) * maskR x1 b m) := by
  rw [Read.val_main_v21_apply, Read.val_main_v15_apply, Read.val_main_v18_apply, Read.val_main_v17_apply,
    Read.val_main_v20_apply, Read.val_main_v13_apply, Read.val_main_v14_apply, Read.val_main_v16_apply,
    Read.val_main_v19_apply, Read.val_main_cst_0_apply, Read.val_main_cst_1_apply, Read.val_main_cst_2_apply,
    diff_eq x0 x1 x2 x3 hr]
  rfl

/-- With the prediction and the target real numbers and the mask an integer, prediction * mask - target * mask is
    (prediction - target) * mask. -/
theorem sub_mul_real (p t k : ℝ) : (p : EReal) * (k : EReal) - (t : EReal) * (k : EReal) = ((p : EReal) - (t : EReal)) * (k : EReal) := by
  rw [← EReal.coe_mul, ← EReal.coe_mul, ← EReal.coe_sub, ← EReal.coe_sub, ← EReal.coe_mul, sub_mul]

end Term

/-! ## The sums and the quotient

The host's sum of all terms from the zero word is the triple sum over batch, object and channel; its sum of the masks
is the double sum over batch and object. -/

section Sums
open Cert.Proof.LossForm

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum of all terms is the closed form's, the inputs being real numbers. -/
theorem total_eq (x0 : (⟨S32x4x128x128, .f32⟩ : BufTy).Contents (Elt Ideal)) (x1 x2 : (⟨S32x128, .i32⟩ : BufTy).Contents (Elt Ideal))
    (x3 : (⟨S32x128x4, .f32⟩ : BufTy).Contents (Elt Ideal))
    (hr : ∀ j, 0 ≤ (x2 j).toInt ∧ (x2 j).toInt ≤ 16383)
    (h0 : ∀ i, ∃ r : ℝ, x0 i = (r : EReal)) (h3 : ∀ i, ∃ r : ℝ, x3 i = (r : EReal)) (i : S_.Idx) :
    Read.val_main_v22 (F := Ideal) x0 x1 x2 x3 i = totalOf x0 x1 x2 x3 := by
  rw [Read.val_main_v22_apply, Read.val_main_cst_3_apply, Ideal.ofBits_def, Ideal.ofBits_zero_f32, zero_add, sum_idx3]
  unfold totalOf
  refine Finset.sum_congr rfl fun b _ => Finset.sum_congr rfl fun m _ => Finset.sum_congr rfl fun d _ => ?_
  rw [term_eq x0 x1 x2 x3 hr b m d]
  obtain ⟨p, hp⟩ := h0 (ix4 b d (hOf (x2 (ix2 b m))) (wOf (x2 (ix2 b m))))
  obtain ⟨t, ht⟩ := h3 (ix3 b m d)
  have hp' : predR x0 x2 b m d = (p : EReal) := hp
  rw [hp', ht]
  unfold maskR
  rw [sub_mul_real]

/-- The sum of the masks is the closed form's count. -/
theorem count_eq (x1 : (⟨S32x128, .i32⟩ : BufTy).Contents (Elt Ideal)) (i : S_.Idx) :
    Read.val_main_v5 (F := Ideal) x1 i = countOf x1 := by
  rw [Read.val_main_v5_apply, Read.val_main_cst_apply, Ideal.ofBits_def, Ideal.ofBits_zero_f32, zero_add, sum_idx2]
  rfl

/-- The reference's result is the loss. -/
theorem value_eq (x0 : (⟨S32x4x128x128, .f32⟩ : BufTy).Contents (Elt Ideal)) (x1 x2 : (⟨S32x128, .i32⟩ : BufTy).Contents (Elt Ideal))
    (x3 : (⟨S32x128x4, .f32⟩ : BufTy).Contents (Elt Ideal))
    (hr : ∀ j, 0 ≤ (x2 j).toInt ∧ (x2 j).toInt ≤ 16383)
    (h0 : ∀ i, ∃ r : ℝ, x0 i = (r : EReal)) (h3 : ∀ i, ∃ r : ℝ, x3 i = (r : EReal)) :
    Read.val_main_v24 (F := Ideal) x0 x1 x2 x3 = fun _ => lossOf x0 x1 x2 x3 := by
  funext i
  rw [Read.val_main_v24_apply, Read.val_main_v23_apply, total_eq x0 x1 x2 x3 hr h0 h3, count_eq, Read.val_main_cst_4_apply]
  rfl

end Sums

/-! ## The run

Every weakly fair execution of the reference ends with its result at the loss of its arguments, the arguments
unchanged: the generated run, its composed term read as above, the position range and the finiteness of the feature
map and the targets taken from the precondition. -/

theorem ref_run (m' : (ℓ : Loc Cert.ReferenceIdeal.nD Cert.ReferenceIdeal.τ Cert.ReferenceIdeal.sig) → Buf (Elt Ideal) ℓ)
    (g' : Dev Cert.ReferenceIdeal.nD → PrngReg)
    (hpre : Cert.Pre_ReferenceIdeal (hPre_input_domain := Cert.Pre_input_domain.Gen.facts) m') :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = (fun _ => Cert.Proof.LossForm.lossOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono (fun _ h c =>
      ⟨(h c).1.trans ((Read.val_main_v24_eq m' c).trans (value_eq _ _ _ _
          (Cert.Proof.PreFacts.ind_range _ _ _ _ (hpre c)) (Cert.Proof.PreFacts.out_finite _ _ _ _ (hpre c))
          (Cert.Proof.PreFacts.tgt_finite _ _ _ _ (hpre c)))), (h c).2⟩)
    (Cert.ReferenceIdeal.Value.run (F := Ideal) m' g')

end Cert.Proof.RefLoss

end
-- ==== Proof.TermValue.lean ====
/-
  One term and one mask of the kernel's sums, at the program's inputs. The flattened feature map at row
  b * 65536 + d * 16384 + 128 h + w is output[b, d, h, w] (row-major positions agree); the table word of channel d of
  object m of batch b is ind[b, m] + b * 65536 + d * 16384, and under the precondition ind[b, m] lies in [0, 16383], so
  the sum does not wrap, the remainder by 2097152 is the identity, and the row is the one of
  (b, d, ind / 128, ind % 128); the transposed targets at (b, d, m) are target[b, m, d]; the table's row 4 is the mask.
  So the term of (subcore, batch bit, channel, chunk, lane) is the loss's term of (batch, object, channel).
-/
import proofs.«219714_g10557029613686_week1_w2_465_59_alg».proof.Proof.PackRangeIdeal
import proofs.«219714_g10557029613686_week1_w2_465_59_alg».proof.Proof.LossForm
import Idealize.ShloMosaic.Lib.ValueLayout

noncomputable section

namespace Cert.Proof.TermValue

open Cert.KernelIdeal Cert.KernelIdeal.Gen
open Idealize.ShloMosaic Idealize.ShloMosaic.ValueIdx
open Cert.Proof

/-- The flattened map at the row of (b, d, h, w). -/
theorem flat_apply {α : Type} (a0 : S32x4x128x128.Idx → α) (b : Fin 32) (d : Fin 4) (h w : Fin 128) (r : Fin 2097152)
    (hr : r.val = b.val * 65536 + d.val * 16384 + h.val * 128 + w.val) :
    shapeCast S2097152 a0 shapeCasts_S32x4x128x128_S2097152 (ix1 r) = a0 (ix4 b d h w) :=
  shapeCast_apply a0 _ _ _ (by
    rw [Shape.rowMajor_val_four, Shape.rowMajor_val_one]
    show ((b.val * 4 + d.val) * 128 + h.val) * 128 + w.val = r.val
    omega)

/-- The loss's term of batch b, object m, channel d. -/
def term (a0 : FVec Ideal S32x4x128x128 .f32) (a1 a2 : IVec S32x128 32) (a3 : FVec Ideal S32x128x4 .f32)
    (b : Fin 32) (m : Fin 128) (d : Fin 4) : EReal :=
  LossForm.huberR ((LossForm.predR a0 a2 b m d - a3 (ix3 b m d)) * LossForm.maskR a1 b m)

/-- The kernel's mask of (subcore, batch bit, chunk, lane) is the loss's mask of (batch, object). -/
theorem maskAt_eq (a1 a2 : IVec S32x128 32) (s : Fin 16) (bi : Fin 2) (ch : Fin 8) (j : Fin 16) :
    SpecI.maskAt (F := Ideal) (SpecI.packOf a1 a2) s bi ch j = LossForm.maskR a1 (SpecI.batchOf s bi) (SpecI.objOf ch j) := by
  unfold SpecI.maskAt
  rw [PackRangeI.pack_apply_mask]
  rfl

/-- The kernel's term of (subcore, batch bit, channel, chunk, lane) is the loss's term of (batch, object, channel). -/
theorem termAt_eq (a0 : FVec Ideal S32x4x128x128 .f32) (a1 a2 : IVec S32x128 32) (a3 : FVec Ideal S32x128x4 .f32)
    (h : Cert.Pre_input_domain.fn (F := Ideal) a0 a1 a2 a3 = fun _ => 1#1)
    (s : Fin 16) (bi : Fin 2) (d : Fin 4) (ch : Fin 8) (j : Fin 16) :
    SpecI.termAt (F := Ideal) (SpecI.flatOf a0) (SpecI.packOf a1 a2) (SpecI.tgtOf a3) s bi d ch j
      = term a0 a1 a2 a3 (SpecI.batchOf s bi) (SpecI.objOf ch j) d := by
  unfold SpecI.termAt
  rw [maskAt_eq, PackRangeI.pack_apply_idx]
  generalize SpecI.batchOf s bi = b
  generalize SpecI.objOf ch j = m
  obtain ⟨h0, h1⟩ := PreFacts.ind_range a0 a1 a2 a3 h (ix2 b m)
  have hx := PackRangeI.toNat_le_of_toInt _ 16383 h0 h1
  have hb := b.isLt
  have hd := d.isLt
  have e1 : SpecI.flatOf a0 (SpecI.rowOf (a2 (ix2 b m) + BitVec.ofNat 32 (b.val * 65536 + d.val * 16384)))
      = a0 (ix4 b d (LossForm.hOf (a2 (ix2 b m))) (LossForm.wOf (a2 (ix2 b m)))) := by
    unfold SpecI.flatOf SpecI.rowOf
    refine flat_apply a0 b d _ _ _ ?_
    show (a2 (ix2 b m) + BitVec.ofNat 32 (b.val * 65536 + d.val * 16384)).toNat % 2097152
      = b.val * 65536 + d.val * 16384 + (a2 (ix2 b m)).toNat / 128 % 128 * 128 + (a2 (ix2 b m)).toNat % 128
    rw [BitVec.toNat_add, BitVec.toNat_ofNat]
    omega
  have e2 : SpecI.tgtOf a3 (ix3 b d m) = a3 (ix3 b m d) := by
    unfold SpecI.tgtOf
    exact transpose_ix3_021_apply a3 _ b d m
  rw [e1, e2]
  rfl

end Cert.Proof.TermValue

end
-- ==== Proof.SumRegroup.lean ====
/-
  Two facts about finite sums in a commutative monoid, free of any float.
  (1) Adding up f over List.finRange n from the left, starting at 0, is the sum of f over Fin n.
  (2) The kernel's order of summation is a relabelling of the loss's: subcore s, lane j and step k of 64 name batch
  2 s + k / 32, object 16 (k % 8) + j and channel k / 8 % 4, and this is a bijection from 16 x 16 x 64 onto
  32 x 128 x 4 (it is injective, by arithmetic, between sets of the same size); likewise subcore, lane and step k of 16
  name batch 2 s + k / 8 and object 16 (k % 8) + j, a bijection from 16 x 16 x 16 onto 32 x 128.
-/
import proofs.«219714_g10557029613686_week1_w2_465_59_alg».proof.Proof.SpecIdeal
import Mathlib.Algebra.BigOperators.Fin
import Mathlib.Data.Fintype.BigOperators

noncomputable section

namespace Cert.Proof.SumRegroup

open Cert.Proof
open scoped BigOperators

variable {M : Type} [AddCommMonoid M]

/-- A left fold of + over a list is the starting value plus the list's sum. -/
theorem foldl_add_eq {ι : Type} (f : ι → M) : ∀ (l : List ι) (z : M), l.foldl (fun a k => a + f k) z = z + (l.map f).sum
  | [], z => by simp
  | a :: l, z => by rw [List.foldl_cons, foldl_add_eq f l, List.map_cons, List.sum_cons, add_assoc]

/-- Adding up f over 0, 1, .., n - 1 from zero is the sum over Fin n. -/
theorem foldl_finRange (n : Nat) (f : Fin n → M) : (List.finRange n).foldl (fun a k => a + f k) 0 = ∑ k, f k := by
  rw [foldl_add_eq, zero_add, ← List.ofFn_eq_map, List.sum_ofFn]

/-- Subcore, lane, step of 64 ↦ batch, object, channel. -/
def split64 (p : Fin 16 × Fin 16 × Fin 64) : Fin 32 × Fin 128 × Fin 4 :=
  (SpecI.batchOf p.1 ⟨p.2.2.val / 32, by omega⟩, SpecI.objOf ⟨p.2.2.val % 8, by omega⟩ p.2.1, ⟨p.2.2.val / 8 % 4, by omega⟩)

theorem split64_bijective : Function.Bijective split64 := by
  rw [Fintype.bijective_iff_injective_and_card]
  refine ⟨?_, by simp only [Fintype.card_prod, Fintype.card_fin]⟩
  rintro ⟨s, j, k⟩ ⟨s', j', k'⟩ h
  simp only [split64, SpecI.batchOf, SpecI.objOf, Prod.mk.injEq, Fin.mk.injEq] at h
  obtain ⟨h1, h2, h3⟩ := h
  have e1 : s = s' := Fin.ext (by omega)
  have e2 : j = j' := Fin.ext (by omega)
  have e3 : k = k' := Fin.ext (by omega)
  rw [e1, e2, e3]

/-- The kernel's triple sum of terms is the loss's. -/
theorem regroup64 (t : Fin 32 → Fin 128 → Fin 4 → M) :
    ∑ s : Fin 16, ∑ j : Fin 16, ∑ k : Fin 64,
        t (SpecI.batchOf s ⟨k.val / 32, by omega⟩) (SpecI.objOf ⟨k.val % 8, by omega⟩ j) ⟨k.val / 8 % 4, by omega⟩
      = ∑ b : Fin 32, ∑ m : Fin 128, ∑ d : Fin 4, t b m d := by
  calc ∑ s : Fin 16, ∑ j : Fin 16, ∑ k : Fin 64,
        t (SpecI.batchOf s ⟨k.val / 32, by omega⟩) (SpecI.objOf ⟨k.val % 8, by omega⟩ j) ⟨k.val / 8 % 4, by omega⟩
      = ∑ p : Fin 16 × Fin 16 × Fin 64, t (split64 p).1 (split64 p).2.1 (split64 p).2.2 := by
        simp only [Fintype.sum_prod_type]; rfl
    _ = ∑ q : Fin 32 × Fin 128 × Fin 4, t q.1 q.2.1 q.2.2 :=
        Fintype.sum_bijective split64 split64_bijective _ _ (fun _ => rfl)
    _ = ∑ b : Fin 32, ∑ m : Fin 128, ∑ d : Fin 4, t b m d := by simp only [Fintype.sum_prod_type]

/-- Subcore, lane, step of 16 ↦ batch, object. -/
def split16 (p : Fin 16 × Fin 16 × Fin 16) : Fin 32 × Fin 128 :=
  (SpecI.batchOf p.1 ⟨p.2.2.val / 8, by omega⟩, SpecI.objOf ⟨p.2.2.val % 8, by omega⟩ p.2.1)

theorem split16_bijective : Function.Bijective split16 := by
  rw [Fintype.bijective_iff_injective_and_card]
  refine ⟨?_, by simp only [Fintype.card_prod, Fintype.card_fin]⟩
  rintro ⟨s, j, k⟩ ⟨s', j', k'⟩ h
  simp only [split16, SpecI.batchOf, SpecI.objOf, Prod.mk.injEq, Fin.mk.injEq] at h
  obtain ⟨h1, h2⟩ := h
  have e1 : s = s' := Fin.ext (by omega)
  have e2 : j = j' := Fin.ext (by omega)
  have e3 : k = k' := Fin.ext (by omega)
  rw [e1, e2, e3]

/-- The kernel's triple sum of masks is the count's. -/
theorem regroup16 (u : Fin 32 → Fin 128 → M) :
    ∑ s : Fin 16, ∑ j : Fin 16, ∑ k : Fin 16,
        u (SpecI.batchOf s ⟨k.val / 8, by omega⟩) (SpecI.objOf ⟨k.val % 8, by omega⟩ j)
      = ∑ b : Fin 32, ∑ m : Fin 128, u b m := by
  calc ∑ s : Fin 16, ∑ j : Fin 16, ∑ k : Fin 16,
        u (SpecI.batchOf s ⟨k.val / 8, by omega⟩) (SpecI.objOf ⟨k.val % 8, by omega⟩ j)
      = ∑ p : Fin 16 × Fin 16 × Fin 16, u (split16 p).1 (split16 p).2 := by
        simp only [Fintype.sum_prod_type]; rfl
    _ = ∑ q : Fin 32 × Fin 128, u q.1 q.2 := Fintype.sum_bijective split16 split16_bijective _ _ (fun _ => rfl)
    _ = ∑ b : Fin 32, ∑ m : Fin 128, u b m := by simp only [Fintype.sum_prod_type]

end Cert.Proof.SumRegroup

end
-- ==== Proof.KernelLoss.lean ====
/-
  The kernel's result is the masked smooth-L1 loss. Each subcore's lane sum is a left fold of + from the zero word,
  that is a finite sum; the host adds up the 16 x 16 partial sums of each kind, a double sum; every term is the loss's
  term of the batch, object and channel its subcore, lane and step name, and every mask the loss's mask; and the
  kernel's order of summation is a relabelling of the loss's. So the numerator is the sum of all terms, the
  denominator the number of masked objects plus the constant, and the quotient the loss.
-/
import proofs.«219714_g10557029613686_week1_w2_465_59_alg».proof.Proof.TermValue
import proofs.«219714_g10557029613686_week1_w2_465_59_alg».proof.Proof.SumRegroup
import Idealize.ShloMosaic.Lib.IdealHost
import Idealize.ShloMosaic.PureOps.Ideal.Laws

noncomputable section

namespace Cert.Proof.KernelLoss

open Cert.KernelIdeal Cert.KernelIdeal.Gen
open Idealize.ShloMosaic Idealize.ShloMosaic.ValueIdx
open Cert.Proof
open scoped BigOperators

/-- A subcore's lane sum of terms is the sum over its 64 steps. -/
theorem accAt_eq (flat : FVec Ideal S2097152 .f32) (pack : IVec S32x5x128 32) (tgt : FVec Ideal S32x4x128 .f32) (s j : Fin 16) :
    SpecI.accAt (F := Ideal) flat pack tgt s j
      = ∑ k : Fin 64, SpecI.termAt (F := Ideal) flat pack tgt s ⟨k.val / 32, by omega⟩ ⟨k.val / 8 % 4, by omega⟩ ⟨k.val % 8, by omega⟩ j := by
  refine Eq.trans ?_ (SumRegroup.foldl_finRange (M := EReal) 64 _)
  unfold SpecI.accAt
  show List.foldl _ (Ideal.ofBits .f32 0x00000000#32) _ = List.foldl _ 0 _
  rw [Ideal.ofBits_zero_f32]
  rfl

/-- A subcore's lane sum of masks is the sum over its 16 steps. -/
theorem maccAt_eq (pack : IVec S32x5x128 32) (s j : Fin 16) :
    SpecI.maccAt (F := Ideal) pack s j
      = ∑ k : Fin 16, SpecI.maskAt (F := Ideal) pack s ⟨k.val / 8, by omega⟩ ⟨k.val % 8, by omega⟩ j := by
  refine Eq.trans ?_ (SumRegroup.foldl_finRange (M := EReal) 16 _)
  unfold SpecI.maccAt
  show List.foldl _ (Ideal.ofBits .f32 0x00000000#32) _ = List.foldl _ 0 _
  rw [Ideal.ofBits_zero_f32]
  rfl

/-- The slice of the first kind of partial sums, flattened to [16, 16], at (s, j). -/
theorem slice0_apply (parts : FVec Ideal S16x2x16 .f32) (s j : Fin 16) :
    shapeCast S16x16 (extractStridedSlice S16x1x16 ![0, 0, 0] parts slices_S16x2x16_S16x1x16_0_0_0) shapeCasts_S16x1x16_S16x16 (ix2 s j)
      = parts (ix3 s (0 : Fin 2) j) := by
  rw [shapeCast_apply _ _ (ix2 s j) (ix3 s (0 : Fin 1) j : S16x1x16.Idx) (by
        rw [Shape.rowMajor_val_three, Shape.rowMajor_val_two]
        show (s.val * 1 + 0) * 16 + j.val = s.val * 16 + j.val
        omega),
      extractStridedSlice_apply _ _ _ (ix3 s (0 : Fin 1) j : S16x1x16.Idx) (ix3 s (0 : Fin 2) j : S16x2x16.Idx)
        (by intro a; fin_cases a <;> simp)]

/-- The slice of the second kind, at (s, j). -/
theorem slice1_apply (parts : FVec Ideal S16x2x16 .f32) (s j : Fin 16) :
    shapeCast S16x16 (extractStridedSlice S16x1x16 ![0, 1, 0] parts slices_S16x2x16_S16x1x16_0_1_0) shapeCasts_S16x1x16_S16x16 (ix2 s j)
      = parts (ix3 s (1 : Fin 2) j) := by
  rw [shapeCast_apply _ _ (ix2 s j) (ix3 s (0 : Fin 1) j : S16x1x16.Idx) (by
        rw [Shape.rowMajor_val_three, Shape.rowMajor_val_two]
        show (s.val * 1 + 0) * 16 + j.val = s.val * 16 + j.val
        omega),
      extractStridedSlice_apply _ _ _ (ix3 s (0 : Fin 1) j : S16x1x16.Idx) (ix3 s (1 : Fin 2) j : S16x2x16.Idx)
        (by intro a; fin_cases a <;> simp)]

/-- The host's sum of a [16, 16] array from the zero word is the double sum over subcores and lanes. -/
theorem reduce_eq (x : FVec Ideal S16x16 .f32) (i : S_.Idx) :
    Host.reduceAdd x (constant S_ .f32 0x00000000#32) reducesTo_S16x16_S_d0_1 h_S_ i = ∑ s : Fin 16, ∑ j : Fin 16, x (ix2 s j) := by
  rw [hostReduceAdd_apply, Ideal.hostReduceAdd_total _ (fun b => b.elim0), sum_idx2]
  show Ideal.ofBits .f32 0x00000000#32 + _ = _
  rw [Ideal.ofBits_zero_f32, zero_add]

/-- Row 0 of a subcore's pair of results is its sum of terms, row 1 its sum of masks. -/
theorem parts0 (flat : FVec Ideal S2097152 .f32) (pack : IVec S32x5x128 32) (tgt : FVec Ideal S32x4x128 .f32) (s j : Fin 16) :
    SpecI.partsOf (F := Ideal) flat pack tgt (ix3 s (0 : Fin 2) j) = SpecI.accAt (F := Ideal) flat pack tgt s j := rfl
theorem parts1 (flat : FVec Ideal S2097152 .f32) (pack : IVec S32x5x128 32) (tgt : FVec Ideal S32x4x128 .f32) (s j : Fin 16) :
    SpecI.partsOf (F := Ideal) flat pack tgt (ix3 s (1 : Fin 2) j) = SpecI.maccAt (F := Ideal) pack s j := rfl

/-- The kernel's result is the loss. -/
theorem result_eq (a0 : FVec Ideal S32x4x128x128 .f32) (a1 a2 : IVec S32x128 32) (a3 : FVec Ideal S32x128x4 .f32)
    (h : Cert.Pre_input_domain.fn (F := Ideal) a0 a1 a2 a3 = fun _ => 1#1) :
    Cert.Proof.SpecI.resultOf (F := Ideal) a0 a1 a2 a3 = fun _ => Cert.Proof.LossForm.lossOf a0 a1 a2 a3 := by
  funext i
  unfold SpecI.resultOf SpecI.tailOf
  dsimp only
  rw [hostDivf_apply]
  unfold LossForm.lossOf
  congr 1
  · rw [reduce_eq]
    simp only [slice0_apply, parts0, accAt_eq, TermValue.termAt_eq a0 a1 a2 a3 h]
    exact SumRegroup.regroup64 (TermValue.term a0 a1 a2 a3)
  · show Host.reduceAdd _ _ _ _ i + Ideal.ofBits .f32 0x38D1B717#32 = _
    rw [reduce_eq]
    simp only [slice1_apply, parts1, maccAt_eq, TermValue.maskAt_eq]
    rw [SumRegroup.regroup16 (LossForm.maskR a1)]
    rfl

end Cert.Proof.KernelLoss

end
-- ==== Proof.lean ====
/-
  Masked smooth-L1 regression loss over gathered predictions: the kernel gathers, on sixteen vector subcores, the
  predictions at the objects' positions out of the flattened feature map, accumulates per lane the smooth-L1 terms of
  (prediction - target) * mask and the mask, and the host adds the partial sums and divides; the reference gathers
  along the position axis of the transposed map, forms prediction * mask - target * mask, and sums once. Both
  programs run to their end with their arguments unchanged, and on finite inputs with positions in range both end
  at the same extended real: the sum of the terms over the count plus 1e-4 (the two differences agree by
  distributivity over finite reals; the sums by regrouping batches, channels and objects).
-/
import proofs.«219714_g10557029613686_week1_w2_465_59_alg».proof.Defs
import proofs.«219714_g10557029613686_week1_w2_465_59_alg».proof.Proof.Gen.Kernel
import proofs.«219714_g10557029613686_week1_w2_465_59_alg».proof.Proof.Gen.KernelIdeal
import proofs.«219714_g10557029613686_week1_w2_465_59_alg».proof.Proof.Gen.ReferenceIdeal
import proofs.«219714_g10557029613686_week1_w2_465_59_alg».proof.Proof.Gen.Pre_input_domain
import proofs.«219714_g10557029613686_week1_w2_465_59_alg».proof.Proof.ValueIdeal
import proofs.«219714_g10557029613686_week1_w2_465_59_alg».proof.Proof.ValueBits
import proofs.«219714_g10557029613686_week1_w2_465_59_alg».proof.Proof.RefLoss
import proofs.«219714_g10557029613686_week1_w2_465_59_alg».proof.Proof.KernelLoss
import Idealize.ShloMosaic.Adequacy
import Idealize.ShloMosaic.Init

noncomputable section

namespace Cert.Proof

open Idealize.ShloMosaic Idealize.SL.Sem

/-- The word-level kernel runs to its end, its arguments unchanged. -/
theorem frame_k : Cert.frame_Kernel (hKernel := Cert.Kernel.Gen.facts) (hPre_input_domain := Cert.Pre_input_domain.Gen.facts) :=
  fun m ρ hpre => (θ_run (Cert.Kernel.defs (F := Bits)) _ _).mono (fun _ h c => (h c).2) (Cert.Proof.TileB.run_value (F := Bits) m ρ hpre)

/-- The idealized kernel runs to its end, its arguments unchanged. -/
theorem frame_ki : Cert.frame_KernelIdeal (hKernelIdeal := Cert.KernelIdeal.Gen.facts) (hPre_input_domain := Cert.Pre_input_domain.Gen.facts) :=
  fun m ρ hpre => (θ_run (Cert.KernelIdeal.defs (F := Ideal)) _ _).mono (fun _ h c => (h c).2) (Cert.Proof.TileI.run_value (F := Ideal) m ρ hpre)

/-- From memories agreeing on the arguments both idealized programs end at the loss of those arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  have hpre' : Cert.Pre_ReferenceIdeal m' := fun c => by
    rw [(hagree c).1, (hagree c).2.1, (hagree c).2.2.1, (hagree c).2.2.2]; exact hpre c
  refine ⟨fun c => (fun _ => Cert.Proof.LossForm.lossOf (m (Cert.Proof.TileI.a0Loc c)) (m (Cert.Proof.TileI.a1Loc c)) (m (Cert.Proof.TileI.a2Loc c))
    (m (Cert.Proof.TileI.a3Loc c))), ?_, ?_⟩
  · exact (θ_run (Cert.KernelIdeal.defs (F := Ideal)) _ _).mono
      (fun _ h c => ⟨(h c).1.trans (Cert.Proof.KernelLoss.result_eq _ _ _ _ (hpre c)), (h c).2⟩) (Cert.Proof.TileI.run_value (F := Ideal) m g hpre)
  · exact (θ_run Cert.ReferenceIdeal.defs _ _).mono
      (fun _ h c => ⟨by rw [(h c).1, (hagree c).1, (hagree c).2.1, (hagree c).2.2.1, (hagree c).2.2.2]; rfl, (h c).2⟩)
      (Cert.Proof.RefLoss.ref_run m' g' hpre')

theorem claim : Cert.Claim :=
  ⟨Cert.Kernel.Gen.facts, Cert.KernelIdeal.Gen.facts, Cert.ReferenceIdeal.Gen.facts, Cert.Pre_input_domain.Gen.facts,
    frame_k, frame_ki, Cert.Proof.RefLoss.frame_ri, trivial, algebraic⟩

end Cert.Proof

end
